-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v362)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v362) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v395) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S32000x512 : Shape := ⟨2, ![32000, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S4x128 : Shape := ⟨2, ![4, 128]⟩
abbrev S256x640 : Shape := ⟨2, ![256, 640]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x512 : Shape := ⟨2, ![2, 512]⟩
abbrev S4x512 : Shape := ⟨2, ![4, 512]⟩
abbrev S32000 : Shape := ⟨1, ![32000]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S4x128 : S_.BroadcastsInDim S4x128 (![] : Fin 0 → Fin S4x128.rank)
  reducesTo_S4x128_S_d0_1 : S4x128.ReducesTo [0, 1] S_
  bcast_S_S256x640 : S_.BroadcastsInDim S256x640 (![] : Fin 0 → Fin S256x640.rank)
  reducesTo_S256x640_S_d0_1 : S256x640.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x512 : S_.BroadcastsInDim S2x512 (![] : Fin 0 → Fin S2x512.rank)
  reducesTo_S2x512_S_d0_1 : S2x512.ReducesTo [0, 1] S_
  bcast_S_S4x512 : S_.BroadcastsInDim S4x512 (![] : Fin 0 → Fin S4x512.rank)
  reducesTo_S4x512_S_d0_1 : S4x512.ReducesTo [0, 1] S_
  bcast_S_S32000 : S_.BroadcastsInDim S32000 (![] : Fin 0 → Fin S32000.rank)
  reducesTo_S32000_S_d0 : S32000.ReducesTo [0] S_

variable [Facts]

def fn_part6 {F : FTy → Type} [FloatOps F] (main_arg22 : FVec F S32000 .f32) (main_v98 : IVec S_ 1) (main_v101 : IVec S32000x512 1) (main_c_39 : IVec S_ 1) : IVec S_ 1 :=
  let main_v102 : IVec S_ 1 := (fun x v => Host.reduce IntOp.andi x v reducesTo_S32000x512_S_d0_1 h_S_) main_v101 main_c_39
  let main_v103 : IVec S_ 1 := andi main_v98 main_v102
  let main_v104 : FVec F S32000 .f32 := Host.absf main_arg22
  let main_cst_40 : FVec F S_ .f32 := constant S_ .f32 0x7F800000#32
  let main_v105 : FVec F S32000 .f32 := broadcastInDim S32000 ![] bcast_S_S32000 main_cst_40
  let main_v106 : IVec S32000 1 := cmpf .olt main_v104 main_v105
  let main_c_41 : IVec S_ 1 := constantI S_ 1 1#1
  let main_v107 : IVec S_ 1 := (fun x v => Host.reduce IntOp.andi x v reducesTo_S32000_S_d0 h_S_) main_v106 main_c_41
  let main_v108 : IVec S_ 1 := andi main_v103 main_v107
  main_v108

def fn_part5 {F : FTy → Type} [FloatOps F] (main_arg19 : FVec F S2x512 .f32) (main_arg20 : FVec F S4x512 .f32) (main_arg21 : FVec F S32000x512 .f32) (main_arg22 : FVec F S32000 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S2x512 .f32 := Host.absf main_arg19
  let main_cst_34 : FVec F S_ .f32 := constant S_ .f32 0x7F800000#32
  let main_v90 : FVec F S2x512 .f32 := broadcastInDim S2x512 ![] bcast_S_S2x512 main_cst_34
  let main_v91 : IVec S2x512 1 := cmpf .olt main_v89 main_v90
  let main_c_35 : IVec S_ 1 := constantI S_ 1 1#1
  let main_v92 : IVec S_ 1 := (fun x v => Host.reduce IntOp.andi x v reducesTo_S2x512_S_d0_1 h_S_) main_v91 main_c_35
  let main_v93 : IVec S_ 1 := andi main_v88 main_v92
  let main_v94 : FVec F S4x512 .f32 := Host.absf main_arg20
  let main_cst_36 : FVec F S_ .f32 := constant S_ .f32 0x7F800000#32
  let main_v95 : FVec F S4x512 .f32 := broadcastInDim S4x512 ![] bcast_S_S4x512 main_cst_36
  let main_v96 : IVec S4x512 1 := cmpf .olt main_v94 main_v95
  let main_c_37 : IVec S_ 1 := constantI S_ 1 1#1
  let main_v97 : IVec S_ 1 := (fun x v => Host.reduce IntOp.andi x v reducesTo_S4x512_S_d0_1 h_S_) main_v96 main_c_37
  let main_v98 : IVec S_ 1 := andi main_v93 main_v97
  let main_v99 : FVec F S32000x512 .f32 := Host.absf main_arg21
  let main_cst_38 : FVec F S_ .f32 := constant S_ .f32 0x7F800000#32
  let main_v100 : FVec F S32000x512 .f32 := broadcastInDim S32000x512 ![] bcast_S_S32000x512 main_cst_38
  let main_v101 : IVec S32000x512 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128 .f32) (main_arg16 : FVec F S128 .f32) (main_arg17 : FVec F S1x128 .f32) (main_arg18 : FVec F S1 .f32) (main_arg19 : FVec F S2x512 .f32) (main_arg20 : FVec F S4x512 .f32) (main_arg21 : FVec F S32000x512 .f32) (main_arg22 : FVec F S32000 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1x128 .f32 := Host.absf main_arg17
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S256 .f32) (main_arg13 : FVec F S128x256 .f32) (main_arg14 : FVec F S128 .f32) (main_arg15 : FVec F S128 .f32) (main_arg16 : FVec F S128 .f32) (main_arg17 : FVec F S1x128 .f32) (main_arg18 : FVec F S1 .f32) (main_arg19 : FVec F S2x512 .f32) (main_arg20 : FVec F S4x512 .f32) (main_arg21 : FVec F S32000x512 .f32) (main_arg22 : FVec F S32000 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S4x128 .f32) (main_arg9 : FVec F S256x640 .f32) (main_arg10 : FVec F S256 .f32) (main_arg11 : FVec F S256 .f32) (main_arg12 : FVec F S256 .f32) (main_arg13 : FVec F S128x256 .f32) (main_arg14 : FVec F S128 .f32) (main_arg15 : FVec F S128 .f32) (main_arg16 : FVec F S128 .f32) (main_arg17 : FVec F S1x128 .f32) (main_arg18 : FVec F S1 .f32) (main_arg19 : FVec F S2x512 .f32) (main_arg20 : FVec F S4x512 .f32) (main_arg21 : FVec F S32000x512 .f32) (main_arg22 : FVec F S32000 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S256x640 .f32 := Host.absf main_arg9
  let main_cst_14 : FVec F S_ .f32 := constant S_ .f32 0x7F800000#32
  let main_v40 : FVec F S256x640 .f32 := broadcastInDim S256x640 ![] bcast_S_S256x640 main_cst_14
  let main_v41 : IVec S256x640 1 := cmpf .olt main_v39 main_v40
  let main_c_15 : IVec S_ 1 := constantI S_ 1 1#1
  let main_v42 : IVec S_ 1 := (fun x v => Host.reduce IntOp.andi x v reducesTo_S256x640_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S1024 .f32) (main_arg6 : FVec F S512 .f32) (main_arg7 : FVec F S512 .f32) (main_arg8 : FVec F S4x128 .f32) (main_arg9 : FVec F S256x640 .f32) (main_arg10 : FVec F S256 .f32) (main_arg11 : FVec F S256 .f32) (main_arg12 : FVec F S256 .f32) (main_arg13 : FVec F S128x256 .f32) (main_arg14 : FVec F S128 .f32) (main_arg15 : FVec F S128 .f32) (main_arg16 : FVec F S128 .f32) (main_arg17 : FVec F S1x128 .f32) (main_arg18 : FVec F S1 .f32) (main_arg19 : FVec F S2x512 .f32) (main_arg20 : FVec F S4x512 .f32) (main_arg21 : FVec F S32000x512 .f32) (main_arg22 : FVec F S32000 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : IVec S4096 32) (main_arg1 : FVec F S32000x512 .f32) (main_arg2 : FVec F S512x512 .f32) (main_arg3 : FVec F S512 .f32) (main_arg4 : FVec F S1024x512 .f32) (main_arg5 : FVec F S1024 .f32) (main_arg6 : FVec F S512 .f32) (main_arg7 : FVec F S512 .f32) (main_arg8 : FVec F S4x128 .f32) (main_arg9 : FVec F S256x640 .f32) (main_arg10 : FVec F S256 .f32) (main_arg11 : FVec F S256 .f32) (main_arg12 : FVec F S256 .f32) (main_arg13 : FVec F S128x256 .f32) (main_arg14 : FVec F S128 .f32) (main_arg15 : FVec F S128 .f32) (main_arg16 : FVec F S128 .f32) (main_arg17 : FVec F S1x128 .f32) (main_arg18 : FVec F S1 .f32) (main_arg19 : FVec F S2x512 .f32) (main_arg20 : FVec F S4x512 .f32) (main_arg21 : FVec F S32000x512 .f32) (main_arg22 : FVec F S32000 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096 : Shape := ⟨1, ![4096]⟩
abbrev S32000x512 : Shape := ⟨2, ![32000, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S4x128 : Shape := ⟨2, ![4, 128]⟩
abbrev S256x640 : Shape := ⟨2, ![256, 640]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x512 : Shape := ⟨2, ![2, 512]⟩
abbrev S4x512 : Shape := ⟨2, ![4, 512]⟩
abbrev S32000 : Shape := ⟨1, ![32000]⟩
abbrev S_ : Shape := ⟨0, ![]⟩
abbrev S4096x1 : Shape := ⟨2, ![4096, 1]⟩
abbrev S4096x512 : Shape := ⟨2, ![4096, 512]⟩
abbrev S1x512 : Shape := ⟨2, ![1, 512]⟩
abbrev S4096x128 : Shape := ⟨2, ![4096, 128]⟩
abbrev S4096x640 : Shape := ⟨2, ![4096, 640]⟩
abbrev S640x256 : Shape := ⟨2, ![640, 256]⟩
abbrev S4096x256 : Shape := ⟨2, ![4096, 256]⟩
abbrev S1x256 : Shape := ⟨2, ![1, 256]⟩
abbrev S256x128 : Shape := ⟨2, ![256, 128]⟩
abbrev S128x1 : Shape := ⟨2, ![128, 1]⟩
abbrev S1x1 : Shape := ⟨2, ![1, 1]⟩
abbrev S1x32000 : Shape := ⟨2, ![1, 32000]⟩
abbrev S4096x32000 : Shape := ⟨2, ![4096, 32000]⟩
abbrev S3200x512 : Shape := ⟨2, ![3200, 512]⟩
abbrev S1x3200 : Shape := ⟨2, ![1, 3200]⟩
abbrev S1024x3200 : Shape := ⟨2, ![1024, 3200]⟩

abbrev nBuf : Space → Nat
  | .hbm => 683
  | .vmem => 8
  | .smem => 0
  | _ => 0

abbrev hbmTy0_0 (i : Nat) : BufTy := match i % 128 with
  | 0 => ⟨S4096, .i32⟩
  | 1 => ⟨S32000x512, .f32⟩
  | 2 => ⟨S512x512, .f32⟩
  | 3 => ⟨S512, .f32⟩
  | 4 => ⟨S1024x512, .f32⟩
  | 5 => ⟨S1024, .f32⟩
  | 6 => ⟨S512, .f32⟩
  | 7 => ⟨S512, .f32⟩
  | 8 => ⟨S4x128, .f32⟩
  | 9 => ⟨S256x640, .f32⟩
  | 10 => ⟨S256, .f32⟩
  | 11 => ⟨S256, .f32⟩
  | 12 => ⟨S256, .f32⟩
  | 13 => ⟨S128x256, .f32⟩
  | 14 => ⟨S128, .f32⟩
  | 15 => ⟨S128, .f32⟩
  | 16 => ⟨S128, .f32⟩
  | 17 => ⟨S1x128, .f32⟩
  | 18 => ⟨S1, .f32⟩
  | 19 => ⟨S2x512, .f32⟩
  | 20 => ⟨S4x512, .f32⟩
  | 21 => ⟨S32000x512, .f32⟩
  | 22 => ⟨S32000, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x512, .f32⟩
  | 32 => ⟨S512x512, .f32⟩
  | 33 => ⟨S4096x512, .f32⟩
  | 34 => ⟨S1x512, .f32⟩
  | 35 => ⟨S4096x512, .f32⟩
  | 36 => ⟨S4096x512, .f32⟩
  | 37 => ⟨S512x512, .f32⟩
  | 38 => ⟨S512x512, .f32⟩
  | 39 => ⟨S512x512, .f32⟩
  | 40 => ⟨S512, .f32⟩
  | 41 => ⟨S512, .f32⟩
  | 42 => ⟨S512, .f32⟩
  | 43 => ⟨S1x512, .f32⟩
  | 44 => ⟨S512, .f32⟩
  | 45 => ⟨S1x512, .f32⟩
  | 46 => ⟨S512, .f32⟩
  | 47 => ⟨S512, .f32⟩
  | 48 => ⟨S_, .f32⟩
  | 49 => ⟨S512, .f32⟩
  | 50 => ⟨S512, .f32⟩
  | 51 => ⟨S512, .f32⟩
  | 52 => ⟨S_, .f32⟩
  | 53 => ⟨S4096x512, .f32⟩
  | 54 => ⟨S4096x512, .f32⟩
  | 55 => ⟨S1x512, .f32⟩
  | 56 => ⟨S512, .f32⟩
  | 57 => ⟨S_, .f32⟩
  | 58 => ⟨S512, .f32⟩
  | 59 => ⟨S512, .f32⟩
  | 60 => ⟨S1x512, .f32⟩
  | 61 => ⟨S4096x512, .f32⟩
  | 62 => ⟨S4096x512, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .i32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x512, .f32⟩
  | 77 => ⟨S4096x512, .f32⟩
  | 78 => ⟨S4096x512, .f32⟩
  | 79 => ⟨S_, .f32⟩
  | 80 => ⟨S_, .f32⟩
  | 81 => ⟨S_, .f32⟩
  | 82 => ⟨S_, .f32⟩
  | 83 => ⟨S4096, .f32⟩
  | 84 => ⟨S4096x1, .f32⟩
  | 85 => ⟨S4096x1, .f32⟩
  | 86 => ⟨S4096x1, .f32⟩
  | 87 => ⟨S_, .f32⟩
  | 88 => ⟨S_, .i1⟩
  | 89 => ⟨S_, .f32⟩
  | 90 => ⟨S_, .f32⟩
  | 91 => ⟨S4096x1, .f32⟩
  | 92 => ⟨S4096x1, .f32⟩
  | 93 => ⟨S4096x512, .f32⟩
  | 94 => ⟨S4096x512, .f32⟩
  | 95 => ⟨S_, .f32⟩
  | 96 => ⟨S4096x1, .f32⟩
  | 97 => ⟨S4096x1, .f32⟩
  | 98 => ⟨S4096x1, .f32⟩
  | 99 => ⟨S4096x512, .f32⟩
  | 100 => ⟨S4096x512, .f32⟩
  | 101 => ⟨S1x512, .f32⟩
  | 102 => ⟨S4096x512, .f32⟩
  | 103 => ⟨S4096x512, .f32⟩
  | 104 => ⟨S1x512, .f32⟩
  | 105 => ⟨S4096x512, .f32⟩
  | 106 => ⟨S4096x512, .f32⟩
  | 107 => ⟨S1x128, .f32⟩
  | 108 => ⟨S128, .f32⟩
  | 109 => ⟨S4096x128, .f32⟩
  | 110 => ⟨S4096x640, .f32⟩
  | 111 => ⟨S640x256, .f32⟩
  | 112 => ⟨S4096x256, .f32⟩
  | 113 => ⟨S1x256, .f32⟩
  | 114 => ⟨S4096x256, .f32⟩
  | 115 => ⟨S4096x256, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S_, .i32⟩
  | 123 => ⟨S_, .f32⟩
  | 124 => ⟨S4096, .f32⟩
  | 125 => ⟨S4096x1, .f32⟩
  | 126 => ⟨S_, .f32⟩
  | 127 => ⟨S4096x1, .f32⟩
  | _ => ⟨S4096, .i32⟩

abbrev hbmTy0_1 (i : Nat) : BufTy := match i % 128 with
  | 0 => ⟨S4096x1, .f32⟩
  | 1 => ⟨S4096x256, .f32⟩
  | 2 => ⟨S4096x256, .f32⟩
  | 3 => ⟨S4096x256, .f32⟩
  | 4 => ⟨S_, .f32⟩
  | 5 => ⟨S_, .f32⟩
  | 6 => ⟨S_, .f32⟩
  | 7 => ⟨S_, .f32⟩
  | 8 => ⟨S4096, .f32⟩
  | 9 => ⟨S4096x1, .f32⟩
  | 10 => ⟨S4096x1, .f32⟩
  | 11 => ⟨S4096x1, .f32⟩
  | 12 => ⟨S_, .f32⟩
  | 13 => ⟨S_, .i1⟩
  | 14 => ⟨S_, .f32⟩
  | 15 => ⟨S_, .f32⟩
  | 16 => ⟨S4096x1, .f32⟩
  | 17 => ⟨S4096x1, .f32⟩
  | 18 => ⟨S4096x256, .f32⟩
  | 19 => ⟨S4096x256, .f32⟩
  | 20 => ⟨S_, .f32⟩
  | 21 => ⟨S4096x1, .f32⟩
  | 22 => ⟨S4096x1, .f32⟩
  | 23 => ⟨S4096x1, .f32⟩
  | 24 => ⟨S4096x256, .f32⟩
  | 25 => ⟨S4096x256, .f32⟩
  | 26 => ⟨S1x256, .f32⟩
  | 27 => ⟨S4096x256, .f32⟩
  | 28 => ⟨S4096x256, .f32⟩
  | 29 => ⟨S1x256, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S256x128, .f32⟩
  | 36 => ⟨S4096x128, .f32⟩
  | 37 => ⟨S1x128, .f32⟩
  | 38 => ⟨S4096x128, .f32⟩
  | 39 => ⟨S4096x128, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .i32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x128, .f32⟩
  | 54 => ⟨S4096x128, .f32⟩
  | 55 => ⟨S4096x128, .f32⟩
  | 56 => ⟨S_, .f32⟩
  | 57 => ⟨S_, .f32⟩
  | 58 => ⟨S_, .f32⟩
  | 59 => ⟨S_, .f32⟩
  | 60 => ⟨S4096, .f32⟩
  | 61 => ⟨S4096x1, .f32⟩
  | 62 => ⟨S4096x1, .f32⟩
  | 63 => ⟨S4096x1, .f32⟩
  | 64 => ⟨S_, .f32⟩
  | 65 => ⟨S_, .i1⟩
  | 66 => ⟨S_, .f32⟩
  | 67 => ⟨S_, .f32⟩
  | 68 => ⟨S4096x1, .f32⟩
  | 69 => ⟨S4096x1, .f32⟩
  | 70 => ⟨S4096x128, .f32⟩
  | 71 => ⟨S4096x128, .f32⟩
  | 72 => ⟨S_, .f32⟩
  | 73 => ⟨S4096x1, .f32⟩
  | 74 => ⟨S4096x1, .f32⟩
  | 75 => ⟨S4096x1, .f32⟩
  | 76 => ⟨S4096x128, .f32⟩
  | 77 => ⟨S4096x128, .f32⟩
  | 78 => ⟨S1x128, .f32⟩
  | 79 => ⟨S4096x128, .f32⟩
  | 80 => ⟨S4096x128, .f32⟩
  | 81 => ⟨S1x128, .f32⟩
  | 82 => ⟨S4096x128, .f32⟩
  | 83 => ⟨S4096x128, .f32⟩
  | 84 => ⟨S_, .f32⟩
  | 85 => ⟨S4096x128, .f32⟩
  | 86 => ⟨S4096x128, .f32⟩
  | 87 => ⟨S128x1, .f32⟩
  | 88 => ⟨S4096x1, .f32⟩
  | 89 => ⟨S1x1, .f32⟩
  | 90 => ⟨S4096x1, .f32⟩
  | 91 => ⟨S4096x1, .f32⟩
  | 92 => ⟨S4096, .f32⟩
  | 93 => ⟨S4096, .f32⟩
  | 94 => ⟨S4096, .f32⟩
  | 95 => ⟨S_, .f32⟩
  | 96 => ⟨S4096, .f32⟩
  | 97 => ⟨S4096, .f32⟩
  | 98 => ⟨S_, .f32⟩
  | 99 => ⟨S4096, .f32⟩
  | 100 => ⟨S4096, .f32⟩
  | 101 => ⟨S_, .f32⟩
  | 102 => ⟨S_, .f32⟩
  | 103 => ⟨S_, .f32⟩
  | 104 => ⟨S4096, .f32⟩
  | 105 => ⟨S4096, .f32⟩
  | 106 => ⟨S_, .f32⟩
  | 107 => ⟨S4096, .f32⟩
  | 108 => ⟨S4096, .f32⟩
  | 109 => ⟨S_, .f32⟩
  | 110 => ⟨S_, .f32⟩
  | 111 => ⟨S_, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S512x512, .f32⟩
  | 119 => ⟨S4096x512, .f32⟩
  | 120 => ⟨S_, .f32⟩
  | 121 => ⟨S512, .f32⟩
  | 122 => ⟨S512, .f32⟩
  | 123 => ⟨S1x512, .f32⟩
  | 124 => ⟨S4096x512, .f32⟩
  | 125 => ⟨S4096x512, .f32⟩
  | 126 => ⟨S_, .f32⟩
  | 127 => ⟨S_, .f32⟩
  | _ => ⟨S4096, .i32⟩

abbrev hbmTy0_2 (i : Nat) : BufTy := match i % 128 with
  | 0 => ⟨S_, .f32⟩
  | 1 => ⟨S4096x512, .f32⟩
  | 2 => ⟨S4096x512, .f32⟩
  | 3 => ⟨S4096x512, .f32⟩
  | 4 => ⟨S_, .f32⟩
  | 5 => ⟨S_, .f32⟩
  | 6 => ⟨S_, .f32⟩
  | 7 => ⟨S4096x512, .f32⟩
  | 8 => ⟨S4096x512, .f32⟩
  | 9 => ⟨S1x512, .f32⟩
  | 10 => ⟨S512, .f32⟩
  | 11 => ⟨S_, .f32⟩
  | 12 => ⟨S512, .f32⟩
  | 13 => ⟨S512, .f32⟩
  | 14 => ⟨S1x512, .f32⟩
  | 15 => ⟨S4096x512, .f32⟩
  | 16 => ⟨S4096x512, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .i32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x512, .f32⟩
  | 31 => ⟨S4096x512, .f32⟩
  | 32 => ⟨S4096x512, .f32⟩
  | 33 => ⟨S_, .f32⟩
  | 34 => ⟨S_, .f32⟩
  | 35 => ⟨S_, .f32⟩
  | 36 => ⟨S_, .f32⟩
  | 37 => ⟨S4096, .f32⟩
  | 38 => ⟨S4096x1, .f32⟩
  | 39 => ⟨S4096x1, .f32⟩
  | 40 => ⟨S4096x1, .f32⟩
  | 41 => ⟨S_, .f32⟩
  | 42 => ⟨S_, .i1⟩
  | 43 => ⟨S_, .f32⟩
  | 44 => ⟨S_, .f32⟩
  | 45 => ⟨S4096x1, .f32⟩
  | 46 => ⟨S4096x1, .f32⟩
  | 47 => ⟨S4096x512, .f32⟩
  | 48 => ⟨S4096x512, .f32⟩
  | 49 => ⟨S_, .f32⟩
  | 50 => ⟨S4096x1, .f32⟩
  | 51 => ⟨S4096x1, .f32⟩
  | 52 => ⟨S4096x1, .f32⟩
  | 53 => ⟨S4096x512, .f32⟩
  | 54 => ⟨S4096x512, .f32⟩
  | 55 => ⟨S1x512, .f32⟩
  | 56 => ⟨S4096x512, .f32⟩
  | 57 => ⟨S4096x512, .f32⟩
  | 58 => ⟨S1x512, .f32⟩
  | 59 => ⟨S4096x512, .f32⟩
  | 60 => ⟨S4096x512, .f32⟩
  | 61 => ⟨S1x128, .f32⟩
  | 62 => ⟨S128, .f32⟩
  | 63 => ⟨S4096x128, .f32⟩
  | 64 => ⟨S4096x640, .f32⟩
  | 65 => ⟨S640x256, .f32⟩
  | 66 => ⟨S4096x256, .f32⟩
  | 67 => ⟨S1x256, .f32⟩
  | 68 => ⟨S4096x256, .f32⟩
  | 69 => ⟨S4096x256, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .i32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x256, .f32⟩
  | 84 => ⟨S4096x256, .f32⟩
  | 85 => ⟨S4096x256, .f32⟩
  | 86 => ⟨S_, .f32⟩
  | 87 => ⟨S_, .f32⟩
  | 88 => ⟨S_, .f32⟩
  | 89 => ⟨S_, .f32⟩
  | 90 => ⟨S4096, .f32⟩
  | 91 => ⟨S4096x1, .f32⟩
  | 92 => ⟨S4096x1, .f32⟩
  | 93 => ⟨S4096x1, .f32⟩
  | 94 => ⟨S_, .f32⟩
  | 95 => ⟨S_, .i1⟩
  | 96 => ⟨S_, .f32⟩
  | 97 => ⟨S_, .f32⟩
  | 98 => ⟨S4096x1, .f32⟩
  | 99 => ⟨S4096x1, .f32⟩
  | 100 => ⟨S4096x256, .f32⟩
  | 101 => ⟨S4096x256, .f32⟩
  | 102 => ⟨S_, .f32⟩
  | 103 => ⟨S4096x1, .f32⟩
  | 104 => ⟨S4096x1, .f32⟩
  | 105 => ⟨S4096x1, .f32⟩
  | 106 => ⟨S4096x256, .f32⟩
  | 107 => ⟨S4096x256, .f32⟩
  | 108 => ⟨S1x256, .f32⟩
  | 109 => ⟨S4096x256, .f32⟩
  | 110 => ⟨S4096x256, .f32⟩
  | 111 => ⟨S1x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S256x128, .f32⟩
  | 118 => ⟨S4096x128, .f32⟩
  | 119 => ⟨S1x128, .f32⟩
  | 120 => ⟨S4096x128, .f32⟩
  | 121 => ⟨S4096x128, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096, .i32⟩

abbrev hbmTy0_3 (i : Nat) : BufTy := match i % 128 with
  | 0 => ⟨S_, .i32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S4096x128, .f32⟩
  | 8 => ⟨S4096x128, .f32⟩
  | 9 => ⟨S4096x128, .f32⟩
  | 10 => ⟨S_, .f32⟩
  | 11 => ⟨S_, .f32⟩
  | 12 => ⟨S_, .f32⟩
  | 13 => ⟨S_, .f32⟩
  | 14 => ⟨S4096, .f32⟩
  | 15 => ⟨S4096x1, .f32⟩
  | 16 => ⟨S4096x1, .f32⟩
  | 17 => ⟨S4096x1, .f32⟩
  | 18 => ⟨S_, .f32⟩
  | 19 => ⟨S_, .i1⟩
  | 20 => ⟨S_, .f32⟩
  | 21 => ⟨S_, .f32⟩
  | 22 => ⟨S4096x1, .f32⟩
  | 23 => ⟨S4096x1, .f32⟩
  | 24 => ⟨S4096x128, .f32⟩
  | 25 => ⟨S4096x128, .f32⟩
  | 26 => ⟨S_, .f32⟩
  | 27 => ⟨S4096x1, .f32⟩
  | 28 => ⟨S4096x1, .f32⟩
  | 29 => ⟨S4096x1, .f32⟩
  | 30 => ⟨S4096x128, .f32⟩
  | 31 => ⟨S4096x128, .f32⟩
  | 32 => ⟨S1x128, .f32⟩
  | 33 => ⟨S4096x128, .f32⟩
  | 34 => ⟨S4096x128, .f32⟩
  | 35 => ⟨S1x128, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S128x1, .f32⟩
  | 42 => ⟨S4096x1, .f32⟩
  | 43 => ⟨S1x1, .f32⟩
  | 44 => ⟨S4096x1, .f32⟩
  | 45 => ⟨S4096x1, .f32⟩
  | 46 => ⟨S4096, .f32⟩
  | 47 => ⟨S4096, .f32⟩
  | 48 => ⟨S4096, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S_, .f32⟩
  | 56 => ⟨S_, .f32⟩
  | 57 => ⟨S_, .f32⟩
  | 58 => ⟨S4096, .f32⟩
  | 59 => ⟨S4096, .f32⟩
  | 60 => ⟨S_, .f32⟩
  | 61 => ⟨S4096, .f32⟩
  | 62 => ⟨S4096, .f32⟩
  | 63 => ⟨S_, .f32⟩
  | 64 => ⟨S_, .f32⟩
  | 65 => ⟨S_, .f32⟩
  | 66 => ⟨S_, .f32⟩
  | 67 => ⟨S_, .f32⟩
  | 68 => ⟨S_, .i1⟩
  | 69 => ⟨S_, .f32⟩
  | 70 => ⟨S_, .f32⟩
  | 71 => ⟨S512x512, .f32⟩
  | 72 => ⟨S4096x512, .f32⟩
  | 73 => ⟨S512, .f32⟩
  | 74 => ⟨S512, .f32⟩
  | 75 => ⟨S1x512, .f32⟩
  | 76 => ⟨S4096x512, .f32⟩
  | 77 => ⟨S4096x512, .f32⟩
  | 78 => ⟨S_, .f32⟩
  | 79 => ⟨S_, .f32⟩
  | 80 => ⟨S4096x512, .f32⟩
  | 81 => ⟨S4096x512, .f32⟩
  | 82 => ⟨S4096x512, .f32⟩
  | 83 => ⟨S_, .f32⟩
  | 84 => ⟨S_, .f32⟩
  | 85 => ⟨S4096x512, .f32⟩
  | 86 => ⟨S4096x512, .f32⟩
  | 87 => ⟨S1x512, .f32⟩
  | 88 => ⟨S512, .f32⟩
  | 89 => ⟨S_, .f32⟩
  | 90 => ⟨S512, .f32⟩
  | 91 => ⟨S512, .f32⟩
  | 92 => ⟨S1x512, .f32⟩
  | 93 => ⟨S4096x512, .f32⟩
  | 94 => ⟨S4096x512, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .i32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S4096x512, .f32⟩
  | 109 => ⟨S4096x512, .f32⟩
  | 110 => ⟨S4096x512, .f32⟩
  | 111 => ⟨S_, .f32⟩
  | 112 => ⟨S_, .f32⟩
  | 113 => ⟨S_, .f32⟩
  | 114 => ⟨S_, .f32⟩
  | 115 => ⟨S4096, .f32⟩
  | 116 => ⟨S4096x1, .f32⟩
  | 117 => ⟨S4096x1, .f32⟩
  | 118 => ⟨S4096x1, .f32⟩
  | 119 => ⟨S_, .f32⟩
  | 120 => ⟨S_, .i1⟩
  | 121 => ⟨S_, .f32⟩
  | 122 => ⟨S_, .f32⟩
  | 123 => ⟨S4096x1, .f32⟩
  | 124 => ⟨S4096x1, .f32⟩
  | 125 => ⟨S4096x512, .f32⟩
  | 126 => ⟨S4096x512, .f32⟩
  | 127 => ⟨S_, .f32⟩
  | _ => ⟨S4096, .i32⟩

abbrev hbmTy0_4 (i : Nat) : BufTy := match i % 128 with
  | 0 => ⟨S4096x1, .f32⟩
  | 1 => ⟨S4096x1, .f32⟩
  | 2 => ⟨S4096x1, .f32⟩
  | 3 => ⟨S4096x512, .f32⟩
  | 4 => ⟨S4096x512, .f32⟩
  | 5 => ⟨S1x512, .f32⟩
  | 6 => ⟨S4096x512, .f32⟩
  | 7 => ⟨S4096x512, .f32⟩
  | 8 => ⟨S1x512, .f32⟩
  | 9 => ⟨S4096x512, .f32⟩
  | 10 => ⟨S4096x512, .f32⟩
  | 11 => ⟨S1x128, .f32⟩
  | 12 => ⟨S128, .f32⟩
  | 13 => ⟨S4096x128, .f32⟩
  | 14 => ⟨S4096x640, .f32⟩
  | 15 => ⟨S640x256, .f32⟩
  | 16 => ⟨S4096x256, .f32⟩
  | 17 => ⟨S1x256, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .i32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x256, .f32⟩
  | 34 => ⟨S4096x256, .f32⟩
  | 35 => ⟨S4096x256, .f32⟩
  | 36 => ⟨S_, .f32⟩
  | 37 => ⟨S_, .f32⟩
  | 38 => ⟨S_, .f32⟩
  | 39 => ⟨S_, .f32⟩
  | 40 => ⟨S4096, .f32⟩
  | 41 => ⟨S4096x1, .f32⟩
  | 42 => ⟨S4096x1, .f32⟩
  | 43 => ⟨S4096x1, .f32⟩
  | 44 => ⟨S_, .f32⟩
  | 45 => ⟨S_, .i1⟩
  | 46 => ⟨S_, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S_, .f32⟩
  | 53 => ⟨S4096x1, .f32⟩
  | 54 => ⟨S4096x1, .f32⟩
  | 55 => ⟨S4096x1, .f32⟩
  | 56 => ⟨S4096x256, .f32⟩
  | 57 => ⟨S4096x256, .f32⟩
  | 58 => ⟨S1x256, .f32⟩
  | 59 => ⟨S4096x256, .f32⟩
  | 60 => ⟨S4096x256, .f32⟩
  | 61 => ⟨S1x256, .f32⟩
  | 62 => ⟨S4096x256, .f32⟩
  | 63 => ⟨S4096x256, .f32⟩
  | 64 => ⟨S_, .f32⟩
  | 65 => ⟨S4096x256, .f32⟩
  | 66 => ⟨S4096x256, .f32⟩
  | 67 => ⟨S256x128, .f32⟩
  | 68 => ⟨S4096x128, .f32⟩
  | 69 => ⟨S1x128, .f32⟩
  | 70 => ⟨S4096x128, .f32⟩
  | 71 => ⟨S4096x128, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S_, .i32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S4096x128, .f32⟩
  | 86 => ⟨S4096x128, .f32⟩
  | 87 => ⟨S4096x128, .f32⟩
  | 88 => ⟨S_, .f32⟩
  | 89 => ⟨S_, .f32⟩
  | 90 => ⟨S_, .f32⟩
  | 91 => ⟨S_, .f32⟩
  | 92 => ⟨S4096, .f32⟩
  | 93 => ⟨S4096x1, .f32⟩
  | 94 => ⟨S4096x1, .f32⟩
  | 95 => ⟨S4096x1, .f32⟩
  | 96 => ⟨S_, .f32⟩
  | 97 => ⟨S_, .i1⟩
  | 98 => ⟨S_, .f32⟩
  | 99 => ⟨S_, .f32⟩
  | 100 => ⟨S4096x1, .f32⟩
  | 101 => ⟨S4096x1, .f32⟩
  | 102 => ⟨S4096x128, .f32⟩
  | 103 => ⟨S4096x128, .f32⟩
  | 104 => ⟨S_, .f32⟩
  | 105 => ⟨S4096x1, .f32⟩
  | 106 => ⟨S4096x1, .f32⟩
  | 107 => ⟨S4096x1, .f32⟩
  | 108 => ⟨S4096x128, .f32⟩
  | 109 => ⟨S4096x128, .f32⟩
  | 110 => ⟨S1x128, .f32⟩
  | 111 => ⟨S4096x128, .f32⟩
  | 112 => ⟨S4096x128, .f32⟩
  | 113 => ⟨S1x128, .f32⟩
  | 114 => ⟨S4096x128, .f32⟩
  | 115 => ⟨S4096x128, .f32⟩
  | 116 => ⟨S_, .f32⟩
  | 117 => ⟨S4096x128, .f32⟩
  | 118 => ⟨S4096x128, .f32⟩
  | 119 => ⟨S128x1, .f32⟩
  | 120 => ⟨S4096x1, .f32⟩
  | 121 => ⟨S1x1, .f32⟩
  | 122 => ⟨S4096x1, .f32⟩
  | 123 => ⟨S4096x1, .f32⟩
  | 124 => ⟨S4096, .f32⟩
  | 125 => ⟨S4096, .f32⟩
  | 126 => ⟨S4096, .f32⟩
  | 127 => ⟨S_, .f32⟩
  | _ => ⟨S4096, .i32⟩

abbrev hbmTy0_5 (i : Nat) : BufTy := match i % 128 with
  | 0 => ⟨S4096, .f32⟩
  | 1 => ⟨S4096, .f32⟩
  | 2 => ⟨S_, .f32⟩
  | 3 => ⟨S4096, .f32⟩
  | 4 => ⟨S4096, .f32⟩
  | 5 => ⟨S_, .f32⟩
  | 6 => ⟨S_, .f32⟩
  | 7 => ⟨S_, .f32⟩
  | 8 => ⟨S4096, .f32⟩
  | 9 => ⟨S4096, .f32⟩
  | 10 => ⟨S_, .f32⟩
  | 11 => ⟨S4096, .f32⟩
  | 12 => ⟨S4096, .f32⟩
  | 13 => ⟨S_, .f32⟩
  | 14 => ⟨S_, .f32⟩
  | 15 => ⟨S_, .f32⟩
  | 16 => ⟨S_, .f32⟩
  | 17 => ⟨S_, .f32⟩
  | 18 => ⟨S_, .i1⟩
  | 19 => ⟨S_, .f32⟩
  | 20 => ⟨S_, .f32⟩
  | 21 => ⟨S512x512, .f32⟩
  | 22 => ⟨S4096x512, .f32⟩
  | 23 => ⟨S512, .f32⟩
  | 24 => ⟨S512, .f32⟩
  | 25 => ⟨S1x512, .f32⟩
  | 26 => ⟨S4096x512, .f32⟩
  | 27 => ⟨S4096x512, .f32⟩
  | 28 => ⟨S_, .f32⟩
  | 29 => ⟨S_, .f32⟩
  | 30 => ⟨S4096x512, .f32⟩
  | 31 => ⟨S4096x512, .f32⟩
  | 32 => ⟨S4096x512, .f32⟩
  | 33 => ⟨S_, .f32⟩
  | 34 => ⟨S_, .f32⟩
  | 35 => ⟨S_, .f32⟩
  | 36 => ⟨S_, .f32⟩
  | 37 => ⟨S4096x512, .f32⟩
  | 38 => ⟨S4096x512, .f32⟩
  | 39 => ⟨S4096x512, .bf16⟩
  | 40 => ⟨S32000x512, .bf16⟩
  | 41 => ⟨S1x32000, .f32⟩
  | 42 => ⟨S4096x32000, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096, .i32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S3200x512, .bf16⟩
  | .local _ .vmem, ⟨3, _⟩ => ⟨S3200x512, .bf16⟩
  | .local _ .vmem, ⟨4, _⟩ => ⟨S1x3200, .f32⟩
  | .local _ .vmem, ⟨5, _⟩ => ⟨S1x3200, .f32⟩
  | .local _ .vmem, ⟨6, _⟩ => ⟨S1024x3200, .f32⟩
  | .local _ .vmem, ⟨7, _⟩ => ⟨S1024x3200, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_v38 : Ref sig .tc := ⟨.hbm, 68, rfl⟩
abbrev main_c_5 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_v12 : Ref sig .tc := ⟨.hbm, 86, rfl⟩
abbrev main_call0_cst_3 : Ref sig .tc := ⟨.hbm, 87, rfl⟩
abbrev main_call0_v13 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_6 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_7 : Ref sig .tc := ⟨.hbm, 116, rfl⟩
abbrev main_v62 : Ref sig .tc := ⟨.hbm, 117, rfl⟩
abbrev main_v63 : Ref sig .tc := ⟨.hbm, 118, rfl⟩
abbrev main_cst_8 : Ref sig .tc := ⟨.hbm, 119, rfl⟩
abbrev main_v64 : Ref sig .tc := ⟨.hbm, 120, rfl⟩
abbrev main_v65 : Ref sig .tc := ⟨.hbm, 121, rfl⟩
abbrev main_c_9 : Ref sig .tc := ⟨.hbm, 122, rfl⟩
abbrev main_call1_cst : Ref sig .tc := ⟨.hbm, 123, rfl⟩
abbrev main_call1_v0 : Ref sig .tc := ⟨.hbm, 124, rfl⟩
abbrev main_call1_v1 : Ref sig .tc := ⟨.hbm, 125, rfl⟩
abbrev main_call1_cst_0 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_cst_1 : Ref sig .tc := ⟨.hbm, 133, rfl⟩
abbrev main_call1_v8 : Ref sig .tc := ⟨.hbm, 134, rfl⟩
abbrev main_call1_cst_2 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_v12 : Ref sig .tc := ⟨.hbm, 139, rfl⟩
abbrev main_call1_cst_3 : Ref sig .tc := ⟨.hbm, 140, rfl⟩
abbrev main_call1_v13 : Ref sig .tc := ⟨.hbm, 141, rfl⟩
abbrev main_call1_cst_4 : Ref sig .tc := ⟨.hbm, 142, rfl⟩
abbrev main_call1_call0_v0 : Ref sig .tc := ⟨.hbm, 143, rfl⟩
abbrev main_call1_call0_v1 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_cst_10 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_call2_cst : Ref sig .tc := ⟨.hbm, 160, rfl⟩
abbrev main_call2_v0 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_11 : Ref sig .tc := ⟨.hbm, 168, rfl⟩
abbrev main_v86 : Ref sig .tc := ⟨.hbm, 169, rfl⟩
abbrev main_v87 : Ref sig .tc := ⟨.hbm, 170, rfl⟩
abbrev main_cst_12 : Ref sig .tc := ⟨.hbm, 171, rfl⟩
abbrev main_v88 : Ref sig .tc := ⟨.hbm, 172, rfl⟩
abbrev main_v89 : Ref sig .tc := ⟨.hbm, 173, rfl⟩
abbrev main_c_13 : Ref sig .tc := ⟨.hbm, 174, rfl⟩
abbrev main_call3_cst : Ref sig .tc := ⟨.hbm, 175, rfl⟩
abbrev main_call3_v0 : Ref sig .tc := ⟨.hbm, 176, rfl⟩
abbrev main_call3_v1 : Ref sig .tc := ⟨.hbm, 177, rfl⟩
abbrev main_call3_cst_0 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_v6 : Ref sig .tc := ⟨.hbm, 183, rfl⟩
abbrev main_call3_v7 : Ref sig .tc := ⟨.hbm, 184, rfl⟩
abbrev main_call3_cst_1 : Ref sig .tc := ⟨.hbm, 185, rfl⟩
abbrev main_call3_v8 : Ref sig .tc := ⟨.hbm, 186, rfl⟩
abbrev main_call3_cst_2 : Ref sig .tc := ⟨.hbm, 187, rfl⟩
abbrev main_call3_v9 : Ref sig .tc := ⟨.hbm, 188, rfl⟩
abbrev main_call3_v10 : Ref sig .tc := ⟨.hbm, 189, rfl⟩
abbrev main_call3_v11 : Ref sig .tc := ⟨.hbm, 190, rfl⟩
abbrev main_call3_v12 : Ref sig .tc := ⟨.hbm, 191, rfl⟩
abbrev main_call3_cst_3 : Ref sig .tc := ⟨.hbm, 192, rfl⟩
abbrev main_call3_v13 : Ref sig .tc := ⟨.hbm, 193, rfl⟩
abbrev main_call3_cst_4 : Ref sig .tc := ⟨.hbm, 194, rfl⟩
abbrev main_call3_call0_v0 : Ref sig .tc := ⟨.hbm, 195, rfl⟩
abbrev main_call3_call0_v1 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_cst_14 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_call4_cst : Ref sig .tc := ⟨.hbm, 212, rfl⟩
abbrev main_call4_v0 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_cst_15 : Ref sig .tc := ⟨.hbm, 223, rfl⟩
abbrev main_v113 : Ref sig .tc := ⟨.hbm, 224, rfl⟩
abbrev main_v114 : Ref sig .tc := ⟨.hbm, 225, rfl⟩
abbrev main_cst_16 : Ref sig .tc := ⟨.hbm, 226, rfl⟩
abbrev main_v115 : Ref sig .tc := ⟨.hbm, 227, rfl⟩
abbrev main_v116 : Ref sig .tc := ⟨.hbm, 228, rfl⟩
abbrev main_cst_17 : Ref sig .tc := ⟨.hbm, 229, rfl⟩
abbrev main_cst_18 : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_v117 : Ref sig .tc := ⟨.hbm, 236, rfl⟩
abbrev main_cst_19 : Ref sig .tc := ⟨.hbm, 237, rfl⟩
abbrev main_v118 : Ref sig .tc := ⟨.hbm, 238, rfl⟩
abbrev main_cst_20 : Ref sig .tc := ⟨.hbm, 239, rfl⟩
abbrev main_v119 : Ref sig .tc := ⟨.hbm, 240, rfl⟩
abbrev main_cst_21 : Ref sig .tc := ⟨.hbm, 241, rfl⟩
abbrev main_v120 : Ref sig .tc := ⟨.hbm, 242, rfl⟩
abbrev main_v121 : Ref sig .tc := ⟨.hbm, 243, rfl⟩
abbrev main_cst_22 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_cst_23 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_cst_24 : Ref sig .tc := ⟨.hbm, 254, rfl⟩
abbrev main_cst_25 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_cst_26 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_cst_27 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_cst_28 : Ref sig .tc := ⟨.hbm, 273, rfl⟩
abbrev main_v145 : Ref sig .tc := ⟨.hbm, 274, rfl⟩
abbrev main_v146 : Ref sig .tc := ⟨.hbm, 275, rfl⟩
abbrev main_cst_29 : Ref sig .tc := ⟨.hbm, 276, rfl⟩
abbrev main_v147 : Ref sig .tc := ⟨.hbm, 277, rfl⟩
abbrev main_v148 : Ref sig .tc := ⟨.hbm, 278, rfl⟩
abbrev main_c_30 : Ref sig .tc := ⟨.hbm, 279, rfl⟩
abbrev main_call6_cst : Ref sig .tc := ⟨.hbm, 280, rfl⟩
abbrev main_call6_v0 : Ref sig .tc := ⟨.hbm, 281, rfl⟩
abbrev main_call6_v1 : Ref sig .tc := ⟨.hbm, 282, rfl⟩
abbrev main_call6_cst_0 : Ref sig .tc := ⟨.hbm, 283, rfl⟩
abbrev main_call6_v2 : Ref sig .tc := ⟨.hbm, 284, rfl⟩
abbrev main_call6_v3 : Ref sig .tc := ⟨.hbm, 285, rfl⟩
abbrev main_call6_v4 : Ref sig .tc := ⟨.hbm, 286, rfl⟩
abbrev main_call6_v5 : Ref sig .tc := ⟨.hbm, 287, rfl⟩
abbrev main_call6_v6 : Ref sig .tc := ⟨.hbm, 288, rfl⟩
abbrev main_call6_v7 : Ref sig .tc := ⟨.hbm, 289, rfl⟩
abbrev main_call6_cst_1 : Ref sig .tc := ⟨.hbm, 290, rfl⟩
abbrev main_call6_v8 : Ref sig .tc := ⟨.hbm, 291, rfl⟩
abbrev main_call6_cst_2 : Ref sig .tc := ⟨.hbm, 292, rfl⟩
abbrev main_call6_v9 : Ref sig .tc := ⟨.hbm, 293, rfl⟩
abbrev main_call6_v10 : Ref sig .tc := ⟨.hbm, 294, rfl⟩
abbrev main_call6_v11 : Ref sig .tc := ⟨.hbm, 295, rfl⟩
abbrev main_call6_v12 : Ref sig .tc := ⟨.hbm, 296, rfl⟩
abbrev main_call6_cst_3 : Ref sig .tc := ⟨.hbm, 297, rfl⟩
abbrev main_call6_v13 : Ref sig .tc := ⟨.hbm, 298, rfl⟩
abbrev main_call6_cst_4 : Ref sig .tc := ⟨.hbm, 299, rfl⟩
abbrev main_call6_call0_v0 : Ref sig .tc := ⟨.hbm, 300, rfl⟩
abbrev main_call6_call0_v1 : Ref sig .tc := ⟨.hbm, 301, rfl⟩
abbrev main_v149 : Ref sig .tc := ⟨.hbm, 302, rfl⟩
abbrev main_v150 : Ref sig .tc := ⟨.hbm, 303, rfl⟩
abbrev main_v151 : Ref sig .tc := ⟨.hbm, 304, rfl⟩
abbrev main_cst_31 : Ref sig .tc := ⟨.hbm, 305, rfl⟩
abbrev main_v152 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩
abbrev main_v158 : Ref sig .tc := ⟨.hbm, 312, rfl⟩
abbrev main_v159 : Ref sig .tc := ⟨.hbm, 313, rfl⟩
abbrev main_v160 : Ref sig .tc := ⟨.hbm, 314, rfl⟩
abbrev main_v161 : Ref sig .tc := ⟨.hbm, 315, rfl⟩
abbrev main_v162 : Ref sig .tc := ⟨.hbm, 316, rfl⟩
abbrev main_v163 : Ref sig .tc := ⟨.hbm, 317, rfl⟩
abbrev main_v164 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_v168 : Ref sig .tc := ⟨.hbm, 322, rfl⟩
abbrev main_v169 : Ref sig .tc := ⟨.hbm, 323, rfl⟩
abbrev main_v170 : Ref sig .tc := ⟨.hbm, 324, rfl⟩
abbrev main_v171 : Ref sig .tc := ⟨.hbm, 325, rfl⟩
abbrev main_cst_32 : Ref sig .tc := ⟨.hbm, 326, rfl⟩
abbrev main_v172 : Ref sig .tc := ⟨.hbm, 327, rfl⟩
abbrev main_v173 : Ref sig .tc := ⟨.hbm, 328, rfl⟩
abbrev main_cst_33 : Ref sig .tc := ⟨.hbm, 329, rfl⟩
abbrev main_v174 : Ref sig .tc := ⟨.hbm, 330, rfl⟩
abbrev main_v175 : Ref sig .tc := ⟨.hbm, 331, rfl⟩
abbrev main_c_34 : Ref sig .tc := ⟨.hbm, 332, rfl⟩
abbrev main_call7_cst : Ref sig .tc := ⟨.hbm, 333, rfl⟩
abbrev main_call7_v0 : Ref sig .tc := ⟨.hbm, 334, rfl⟩
abbrev main_call7_v1 : Ref sig .tc := ⟨.hbm, 335, rfl⟩
abbrev main_call7_cst_0 : Ref sig .tc := ⟨.hbm, 336, rfl⟩
abbrev main_call7_v2 : Ref sig .tc := ⟨.hbm, 337, rfl⟩
abbrev main_call7_v3 : Ref sig .tc := ⟨.hbm, 338, rfl⟩
abbrev main_call7_v4 : Ref sig .tc := ⟨.hbm, 339, rfl⟩
abbrev main_call7_v5 : Ref sig .tc := ⟨.hbm, 340, rfl⟩
abbrev main_call7_v6 : Ref sig .tc := ⟨.hbm, 341, rfl⟩
abbrev main_call7_v7 : Ref sig .tc := ⟨.hbm, 342, rfl⟩
abbrev main_call7_cst_1 : Ref sig .tc := ⟨.hbm, 343, rfl⟩
abbrev main_call7_v8 : Ref sig .tc := ⟨.hbm, 344, rfl⟩
abbrev main_call7_cst_2 : Ref sig .tc := ⟨.hbm, 345, rfl⟩
abbrev main_call7_v9 : Ref sig .tc := ⟨.hbm, 346, rfl⟩
abbrev main_call7_v10 : Ref sig .tc := ⟨.hbm, 347, rfl⟩
abbrev main_call7_v11 : Ref sig .tc := ⟨.hbm, 348, rfl⟩
abbrev main_call7_v12 : Ref sig .tc := ⟨.hbm, 349, rfl⟩
abbrev main_call7_cst_3 : Ref sig .tc := ⟨.hbm, 350, rfl⟩
abbrev main_call7_v13 : Ref sig .tc := ⟨.hbm, 351, rfl⟩
abbrev main_call7_cst_4 : Ref sig .tc := ⟨.hbm, 352, rfl⟩
abbrev main_call7_call0_v0 : Ref sig .tc := ⟨.hbm, 353, rfl⟩
abbrev main_call7_call0_v1 : Ref sig .tc := ⟨.hbm, 354, rfl⟩
abbrev main_v176 : Ref sig .tc := ⟨.hbm, 355, rfl⟩
abbrev main_v177 : Ref sig .tc := ⟨.hbm, 356, rfl⟩
abbrev main_v178 : Ref sig .tc := ⟨.hbm, 357, rfl⟩
abbrev main_cst_35 : Ref sig .tc := ⟨.hbm, 358, rfl⟩
abbrev main_v179 : Ref sig .tc := ⟨.hbm, 359, rfl⟩
abbrev main_v180 : Ref sig .tc := ⟨.hbm, 360, rfl⟩
abbrev main_v181 : Ref sig .tc := ⟨.hbm, 361, rfl⟩
abbrev main_v182 : Ref sig .tc := ⟨.hbm, 362, rfl⟩
abbrev main_v183 : Ref sig .tc := ⟨.hbm, 363, rfl⟩
abbrev main_v184 : Ref sig .tc := ⟨.hbm, 364, rfl⟩
abbrev main_v185 : Ref sig .tc := ⟨.hbm, 365, rfl⟩
abbrev main_v186 : Ref sig .tc := ⟨.hbm, 366, rfl⟩
abbrev main_v187 : Ref sig .tc := ⟨.hbm, 367, rfl⟩
abbrev main_v188 : Ref sig .tc := ⟨.hbm, 368, rfl⟩
abbrev main_v189 : Ref sig .tc := ⟨.hbm, 369, rfl⟩
abbrev main_call8_cst : Ref sig .tc := ⟨.hbm, 370, rfl⟩
abbrev main_call8_v0 : Ref sig .tc := ⟨.hbm, 371, rfl⟩
abbrev main_v190 : Ref sig .tc := ⟨.hbm, 372, rfl⟩
abbrev main_v191 : Ref sig .tc := ⟨.hbm, 373, rfl⟩
abbrev main_v192 : Ref sig .tc := ⟨.hbm, 374, rfl⟩
abbrev main_v193 : Ref sig .tc := ⟨.hbm, 375, rfl⟩
abbrev main_v194 : Ref sig .tc := ⟨.hbm, 376, rfl⟩
abbrev main_v195 : Ref sig .tc := ⟨.hbm, 377, rfl⟩
abbrev main_cst_36 : Ref sig .tc := ⟨.hbm, 378, rfl⟩
abbrev main_v196 : Ref sig .tc := ⟨.hbm, 379, rfl⟩
abbrev main_v197 : Ref sig .tc := ⟨.hbm, 380, rfl⟩
abbrev main_cst_37 : Ref sig .tc := ⟨.hbm, 381, rfl⟩
abbrev main_v198 : Ref sig .tc := ⟨.hbm, 382, rfl⟩
abbrev main_v199 : Ref sig .tc := ⟨.hbm, 383, rfl⟩
abbrev main_c_38 : Ref sig .tc := ⟨.hbm, 384, rfl⟩
abbrev main_call9_cst : Ref sig .tc := ⟨.hbm, 385, rfl⟩
abbrev main_call9_v0 : Ref sig .tc := ⟨.hbm, 386, rfl⟩
abbrev main_call9_v1 : Ref sig .tc := ⟨.hbm, 387, rfl⟩
abbrev main_call9_cst_0 : Ref sig .tc := ⟨.hbm, 388, rfl⟩
abbrev main_call9_v2 : Ref sig .tc := ⟨.hbm, 389, rfl⟩
abbrev main_call9_v3 : Ref sig .tc := ⟨.hbm, 390, rfl⟩
abbrev main_call9_v4 : Ref sig .tc := ⟨.hbm, 391, rfl⟩
abbrev main_call9_v5 : Ref sig .tc := ⟨.hbm, 392, rfl⟩
abbrev main_call9_v6 : Ref sig .tc := ⟨.hbm, 393, rfl⟩
abbrev main_call9_v7 : Ref sig .tc := ⟨.hbm, 394, rfl⟩
abbrev main_call9_cst_1 : Ref sig .tc := ⟨.hbm, 395, rfl⟩
abbrev main_call9_v8 : Ref sig .tc := ⟨.hbm, 396, rfl⟩
abbrev main_call9_cst_2 : Ref sig .tc := ⟨.hbm, 397, rfl⟩
abbrev main_call9_v9 : Ref sig .tc := ⟨.hbm, 398, rfl⟩
abbrev main_call9_v10 : Ref sig .tc := ⟨.hbm, 399, rfl⟩
abbrev main_call9_v11 : Ref sig .tc := ⟨.hbm, 400, rfl⟩
abbrev main_call9_v12 : Ref sig .tc := ⟨.hbm, 401, rfl⟩
abbrev main_call9_cst_3 : Ref sig .tc := ⟨.hbm, 402, rfl⟩
abbrev main_call9_v13 : Ref sig .tc := ⟨.hbm, 403, rfl⟩
abbrev main_call9_cst_4 : Ref sig .tc := ⟨.hbm, 404, rfl⟩
abbrev main_call9_call0_v0 : Ref sig .tc := ⟨.hbm, 405, rfl⟩
abbrev main_call9_call0_v1 : Ref sig .tc := ⟨.hbm, 406, rfl⟩
abbrev main_v200 : Ref sig .tc := ⟨.hbm, 407, rfl⟩
abbrev main_v201 : Ref sig .tc := ⟨.hbm, 408, rfl⟩
abbrev main_v202 : Ref sig .tc := ⟨.hbm, 409, rfl⟩
abbrev main_cst_39 : Ref sig .tc := ⟨.hbm, 410, rfl⟩
abbrev main_v203 : Ref sig .tc := ⟨.hbm, 411, rfl⟩
abbrev main_v204 : Ref sig .tc := ⟨.hbm, 412, rfl⟩
abbrev main_v205 : Ref sig .tc := ⟨.hbm, 413, rfl⟩
abbrev main_v206 : Ref sig .tc := ⟨.hbm, 414, rfl⟩
abbrev main_v207 : Ref sig .tc := ⟨.hbm, 415, rfl⟩
abbrev main_v208 : Ref sig .tc := ⟨.hbm, 416, rfl⟩
abbrev main_v209 : Ref sig .tc := ⟨.hbm, 417, rfl⟩
abbrev main_v210 : Ref sig .tc := ⟨.hbm, 418, rfl⟩
abbrev main_v211 : Ref sig .tc := ⟨.hbm, 419, rfl⟩
abbrev main_v212 : Ref sig .tc := ⟨.hbm, 420, rfl⟩
abbrev main_v213 : Ref sig .tc := ⟨.hbm, 421, rfl⟩
abbrev main_call10_cst : Ref sig .tc := ⟨.hbm, 422, rfl⟩
abbrev main_call10_v0 : Ref sig .tc := ⟨.hbm, 423, rfl⟩
abbrev main_v214 : Ref sig .tc := ⟨.hbm, 424, rfl⟩
abbrev main_v215 : Ref sig .tc := ⟨.hbm, 425, rfl⟩
abbrev main_v216 : Ref sig .tc := ⟨.hbm, 426, rfl⟩
abbrev main_v217 : Ref sig .tc := ⟨.hbm, 427, rfl⟩
abbrev main_v218 : Ref sig .tc := ⟨.hbm, 428, rfl⟩
abbrev main_v219 : Ref sig .tc := ⟨.hbm, 429, rfl⟩
abbrev main_v220 : Ref sig .tc := ⟨.hbm, 430, rfl⟩
abbrev main_v221 : Ref sig .tc := ⟨.hbm, 431, rfl⟩
abbrev main_v222 : Ref sig .tc := ⟨.hbm, 432, rfl⟩
abbrev main_cst_40 : Ref sig .tc := ⟨.hbm, 433, rfl⟩
abbrev main_v223 : Ref sig .tc := ⟨.hbm, 434, rfl⟩
abbrev main_v224 : Ref sig .tc := ⟨.hbm, 435, rfl⟩
abbrev main_cst_41 : Ref sig .tc := ⟨.hbm, 436, rfl⟩
abbrev main_v225 : Ref sig .tc := ⟨.hbm, 437, rfl⟩
abbrev main_v226 : Ref sig .tc := ⟨.hbm, 438, rfl⟩
abbrev main_cst_42 : Ref sig .tc := ⟨.hbm, 439, rfl⟩
abbrev main_cst_43 : Ref sig .tc := ⟨.hbm, 440, rfl⟩
abbrev main_call11_v0 : Ref sig .tc := ⟨.hbm, 441, rfl⟩
abbrev main_call11_v1 : Ref sig .tc := ⟨.hbm, 442, rfl⟩
abbrev main_call11_v2 : Ref sig .tc := ⟨.hbm, 443, rfl⟩
abbrev main_call11_v3 : Ref sig .tc := ⟨.hbm, 444, rfl⟩
abbrev main_call11_v4 : Ref sig .tc := ⟨.hbm, 445, rfl⟩
abbrev main_v227 : Ref sig .tc := ⟨.hbm, 446, rfl⟩
abbrev main_cst_44 : Ref sig .tc := ⟨.hbm, 447, rfl⟩
abbrev main_v228 : Ref sig .tc := ⟨.hbm, 448, rfl⟩
abbrev main_cst_45 : Ref sig .tc := ⟨.hbm, 449, rfl⟩
abbrev main_v229 : Ref sig .tc := ⟨.hbm, 450, rfl⟩
abbrev main_cst_46 : Ref sig .tc := ⟨.hbm, 451, rfl⟩
abbrev main_v230 : Ref sig .tc := ⟨.hbm, 452, rfl⟩
abbrev main_v231 : Ref sig .tc := ⟨.hbm, 453, rfl⟩
abbrev main_v232 : Ref sig .tc := ⟨.hbm, 454, rfl⟩
abbrev main_v233 : Ref sig .tc := ⟨.hbm, 455, rfl⟩
abbrev main_v234 : Ref sig .tc := ⟨.hbm, 456, rfl⟩
abbrev main_v235 : Ref sig .tc := ⟨.hbm, 457, rfl⟩
abbrev main_v236 : Ref sig .tc := ⟨.hbm, 458, rfl⟩
abbrev main_v237 : Ref sig .tc := ⟨.hbm, 459, rfl⟩
abbrev main_v238 : Ref sig .tc := ⟨.hbm, 460, rfl⟩
abbrev main_v239 : Ref sig .tc := ⟨.hbm, 461, rfl⟩
abbrev main_cst_47 : Ref sig .tc := ⟨.hbm, 462, rfl⟩
abbrev main_v240 : Ref sig .tc := ⟨.hbm, 463, rfl⟩
abbrev main_v241 : Ref sig .tc := ⟨.hbm, 464, rfl⟩
abbrev main_v242 : Ref sig .tc := ⟨.hbm, 465, rfl⟩
abbrev main_v243 : Ref sig .tc := ⟨.hbm, 466, rfl⟩
abbrev main_v244 : Ref sig .tc := ⟨.hbm, 467, rfl⟩
abbrev main_v245 : Ref sig .tc := ⟨.hbm, 468, rfl⟩
abbrev main_v246 : Ref sig .tc := ⟨.hbm, 469, rfl⟩
abbrev main_v247 : Ref sig .tc := ⟨.hbm, 470, rfl⟩
abbrev main_v248 : Ref sig .tc := ⟨.hbm, 471, rfl⟩
abbrev main_v249 : Ref sig .tc := ⟨.hbm, 472, rfl⟩
abbrev main_cst_48 : Ref sig .tc := ⟨.hbm, 473, rfl⟩
abbrev main_v250 : Ref sig .tc := ⟨.hbm, 474, rfl⟩
abbrev main_v251 : Ref sig .tc := ⟨.hbm, 475, rfl⟩
abbrev main_v252 : Ref sig .tc := ⟨.hbm, 476, rfl⟩
abbrev main_v253 : Ref sig .tc := ⟨.hbm, 477, rfl⟩
abbrev main_v254 : Ref sig .tc := ⟨.hbm, 478, rfl⟩
abbrev main_cst_49 : Ref sig .tc := ⟨.hbm, 479, rfl⟩
abbrev main_v255 : Ref sig .tc := ⟨.hbm, 480, rfl⟩
abbrev main_v256 : Ref sig .tc := ⟨.hbm, 481, rfl⟩
abbrev main_cst_50 : Ref sig .tc := ⟨.hbm, 482, rfl⟩
abbrev main_v257 : Ref sig .tc := ⟨.hbm, 483, rfl⟩
abbrev main_v258 : Ref sig .tc := ⟨.hbm, 484, rfl⟩
abbrev main_c_51 : Ref sig .tc := ⟨.hbm, 485, rfl⟩
abbrev main_call12_cst : Ref sig .tc := ⟨.hbm, 486, rfl⟩
abbrev main_call12_v0 : Ref sig .tc := ⟨.hbm, 487, rfl⟩
abbrev main_call12_v1 : Ref sig .tc := ⟨.hbm, 488, rfl⟩
abbrev main_call12_cst_0 : Ref sig .tc := ⟨.hbm, 489, rfl⟩
abbrev main_call12_v2 : Ref sig .tc := ⟨.hbm, 490, rfl⟩
abbrev main_call12_v3 : Ref sig .tc := ⟨.hbm, 491, rfl⟩
abbrev main_call12_v4 : Ref sig .tc := ⟨.hbm, 492, rfl⟩
abbrev main_call12_v5 : Ref sig .tc := ⟨.hbm, 493, rfl⟩
abbrev main_call12_v6 : Ref sig .tc := ⟨.hbm, 494, rfl⟩
abbrev main_call12_v7 : Ref sig .tc := ⟨.hbm, 495, rfl⟩
abbrev main_call12_cst_1 : Ref sig .tc := ⟨.hbm, 496, rfl⟩
abbrev main_call12_v8 : Ref sig .tc := ⟨.hbm, 497, rfl⟩
abbrev main_call12_cst_2 : Ref sig .tc := ⟨.hbm, 498, rfl⟩
abbrev main_call12_v9 : Ref sig .tc := ⟨.hbm, 499, rfl⟩
abbrev main_call12_v10 : Ref sig .tc := ⟨.hbm, 500, rfl⟩
abbrev main_call12_v11 : Ref sig .tc := ⟨.hbm, 501, rfl⟩
abbrev main_call12_v12 : Ref sig .tc := ⟨.hbm, 502, rfl⟩
abbrev main_call12_cst_3 : Ref sig .tc := ⟨.hbm, 503, rfl⟩
abbrev main_call12_v13 : Ref sig .tc := ⟨.hbm, 504, rfl⟩
abbrev main_call12_cst_4 : Ref sig .tc := ⟨.hbm, 505, rfl⟩
abbrev main_call12_call0_v0 : Ref sig .tc := ⟨.hbm, 506, rfl⟩
abbrev main_call12_call0_v1 : Ref sig .tc := ⟨.hbm, 507, rfl⟩
abbrev main_v259 : Ref sig .tc := ⟨.hbm, 508, rfl⟩
abbrev main_v260 : Ref sig .tc := ⟨.hbm, 509, rfl⟩
abbrev main_v261 : Ref sig .tc := ⟨.hbm, 510, rfl⟩
abbrev main_cst_52 : Ref sig .tc := ⟨.hbm, 511, rfl⟩
abbrev main_v262 : Ref sig .tc := ⟨.hbm, 512, rfl⟩
abbrev main_v263 : Ref sig .tc := ⟨.hbm, 513, rfl⟩
abbrev main_v264 : Ref sig .tc := ⟨.hbm, 514, rfl⟩
abbrev main_v265 : Ref sig .tc := ⟨.hbm, 515, rfl⟩
abbrev main_v266 : Ref sig .tc := ⟨.hbm, 516, rfl⟩
abbrev main_v267 : Ref sig .tc := ⟨.hbm, 517, rfl⟩
abbrev main_v268 : Ref sig .tc := ⟨.hbm, 518, rfl⟩
abbrev main_v269 : Ref sig .tc := ⟨.hbm, 519, rfl⟩
abbrev main_v270 : Ref sig .tc := ⟨.hbm, 520, rfl⟩
abbrev main_v271 : Ref sig .tc := ⟨.hbm, 521, rfl⟩
abbrev main_v272 : Ref sig .tc := ⟨.hbm, 522, rfl⟩
abbrev main_v273 : Ref sig .tc := ⟨.hbm, 523, rfl⟩
abbrev main_v274 : Ref sig .tc := ⟨.hbm, 524, rfl⟩
abbrev main_v275 : Ref sig .tc := ⟨.hbm, 525, rfl⟩
abbrev main_v276 : Ref sig .tc := ⟨.hbm, 526, rfl⟩
abbrev main_v277 : Ref sig .tc := ⟨.hbm, 527, rfl⟩
abbrev main_v278 : Ref sig .tc := ⟨.hbm, 528, rfl⟩
abbrev main_v279 : Ref sig .tc := ⟨.hbm, 529, rfl⟩
abbrev main_v280 : Ref sig .tc := ⟨.hbm, 530, rfl⟩
abbrev main_v281 : Ref sig .tc := ⟨.hbm, 531, rfl⟩
abbrev main_cst_53 : Ref sig .tc := ⟨.hbm, 532, rfl⟩
abbrev main_v282 : Ref sig .tc := ⟨.hbm, 533, rfl⟩
abbrev main_v283 : Ref sig .tc := ⟨.hbm, 534, rfl⟩
abbrev main_cst_54 : Ref sig .tc := ⟨.hbm, 535, rfl⟩
abbrev main_v284 : Ref sig .tc := ⟨.hbm, 536, rfl⟩
abbrev main_v285 : Ref sig .tc := ⟨.hbm, 537, rfl⟩
abbrev main_c_55 : Ref sig .tc := ⟨.hbm, 538, rfl⟩
abbrev main_call13_cst : Ref sig .tc := ⟨.hbm, 539, rfl⟩
abbrev main_call13_v0 : Ref sig .tc := ⟨.hbm, 540, rfl⟩
abbrev main_call13_v1 : Ref sig .tc := ⟨.hbm, 541, rfl⟩
abbrev main_call13_cst_0 : Ref sig .tc := ⟨.hbm, 542, rfl⟩
abbrev main_call13_v2 : Ref sig .tc := ⟨.hbm, 543, rfl⟩
abbrev main_call13_v3 : Ref sig .tc := ⟨.hbm, 544, rfl⟩
abbrev main_call13_v4 : Ref sig .tc := ⟨.hbm, 545, rfl⟩
abbrev main_call13_v5 : Ref sig .tc := ⟨.hbm, 546, rfl⟩
abbrev main_call13_v6 : Ref sig .tc := ⟨.hbm, 547, rfl⟩
abbrev main_call13_v7 : Ref sig .tc := ⟨.hbm, 548, rfl⟩
abbrev main_call13_cst_1 : Ref sig .tc := ⟨.hbm, 549, rfl⟩
abbrev main_call13_v8 : Ref sig .tc := ⟨.hbm, 550, rfl⟩
abbrev main_call13_cst_2 : Ref sig .tc := ⟨.hbm, 551, rfl⟩
abbrev main_call13_v9 : Ref sig .tc := ⟨.hbm, 552, rfl⟩
abbrev main_call13_v10 : Ref sig .tc := ⟨.hbm, 553, rfl⟩
abbrev main_call13_v11 : Ref sig .tc := ⟨.hbm, 554, rfl⟩
abbrev main_call13_v12 : Ref sig .tc := ⟨.hbm, 555, rfl⟩
abbrev main_call13_cst_3 : Ref sig .tc := ⟨.hbm, 556, rfl⟩
abbrev main_call13_v13 : Ref sig .tc := ⟨.hbm, 557, rfl⟩
abbrev main_call13_cst_4 : Ref sig .tc := ⟨.hbm, 558, rfl⟩
abbrev main_call13_call0_v0 : Ref sig .tc := ⟨.hbm, 559, rfl⟩
abbrev main_call13_call0_v1 : Ref sig .tc := ⟨.hbm, 560, rfl⟩
abbrev main_v286 : Ref sig .tc := ⟨.hbm, 561, rfl⟩
abbrev main_v287 : Ref sig .tc := ⟨.hbm, 562, rfl⟩
abbrev main_v288 : Ref sig .tc := ⟨.hbm, 563, rfl⟩
abbrev main_cst_56 : Ref sig .tc := ⟨.hbm, 564, rfl⟩
abbrev main_v289 : Ref sig .tc := ⟨.hbm, 565, rfl⟩
abbrev main_v290 : Ref sig .tc := ⟨.hbm, 566, rfl⟩
abbrev main_v291 : Ref sig .tc := ⟨.hbm, 567, rfl⟩
abbrev main_v292 : Ref sig .tc := ⟨.hbm, 568, rfl⟩
abbrev main_v293 : Ref sig .tc := ⟨.hbm, 569, rfl⟩
abbrev main_v294 : Ref sig .tc := ⟨.hbm, 570, rfl⟩
abbrev main_v295 : Ref sig .tc := ⟨.hbm, 571, rfl⟩
abbrev main_v296 : Ref sig .tc := ⟨.hbm, 572, rfl⟩
abbrev main_v297 : Ref sig .tc := ⟨.hbm, 573, rfl⟩
abbrev main_v298 : Ref sig .tc := ⟨.hbm, 574, rfl⟩
abbrev main_v299 : Ref sig .tc := ⟨.hbm, 575, rfl⟩
abbrev main_call14_cst : Ref sig .tc := ⟨.hbm, 576, rfl⟩
abbrev main_call14_v0 : Ref sig .tc := ⟨.hbm, 577, rfl⟩
abbrev main_v300 : Ref sig .tc := ⟨.hbm, 578, rfl⟩
abbrev main_v301 : Ref sig .tc := ⟨.hbm, 579, rfl⟩
abbrev main_v302 : Ref sig .tc := ⟨.hbm, 580, rfl⟩
abbrev main_v303 : Ref sig .tc := ⟨.hbm, 581, rfl⟩
abbrev main_v304 : Ref sig .tc := ⟨.hbm, 582, rfl⟩
abbrev main_v305 : Ref sig .tc := ⟨.hbm, 583, rfl⟩
abbrev main_cst_57 : Ref sig .tc := ⟨.hbm, 584, rfl⟩
abbrev main_v306 : Ref sig .tc := ⟨.hbm, 585, rfl⟩
abbrev main_v307 : Ref sig .tc := ⟨.hbm, 586, rfl⟩
abbrev main_cst_58 : Ref sig .tc := ⟨.hbm, 587, rfl⟩
abbrev main_v308 : Ref sig .tc := ⟨.hbm, 588, rfl⟩
abbrev main_v309 : Ref sig .tc := ⟨.hbm, 589, rfl⟩
abbrev main_c_59 : Ref sig .tc := ⟨.hbm, 590, rfl⟩
abbrev main_call15_cst : Ref sig .tc := ⟨.hbm, 591, rfl⟩
abbrev main_call15_v0 : Ref sig .tc := ⟨.hbm, 592, rfl⟩
abbrev main_call15_v1 : Ref sig .tc := ⟨.hbm, 593, rfl⟩
abbrev main_call15_cst_0 : Ref sig .tc := ⟨.hbm, 594, rfl⟩
abbrev main_call15_v2 : Ref sig .tc := ⟨.hbm, 595, rfl⟩
abbrev main_call15_v3 : Ref sig .tc := ⟨.hbm, 596, rfl⟩
abbrev main_call15_v4 : Ref sig .tc := ⟨.hbm, 597, rfl⟩
abbrev main_call15_v5 : Ref sig .tc := ⟨.hbm, 598, rfl⟩
abbrev main_call15_v6 : Ref sig .tc := ⟨.hbm, 599, rfl⟩
abbrev main_call15_v7 : Ref sig .tc := ⟨.hbm, 600, rfl⟩
abbrev main_call15_cst_1 : Ref sig .tc := ⟨.hbm, 601, rfl⟩
abbrev main_call15_v8 : Ref sig .tc := ⟨.hbm, 602, rfl⟩
abbrev main_call15_cst_2 : Ref sig .tc := ⟨.hbm, 603, rfl⟩
abbrev main_call15_v9 : Ref sig .tc := ⟨.hbm, 604, rfl⟩
abbrev main_call15_v10 : Ref sig .tc := ⟨.hbm, 605, rfl⟩
abbrev main_call15_v11 : Ref sig .tc := ⟨.hbm, 606, rfl⟩
abbrev main_call15_v12 : Ref sig .tc := ⟨.hbm, 607, rfl⟩
abbrev main_call15_cst_3 : Ref sig .tc := ⟨.hbm, 608, rfl⟩
abbrev main_call15_v13 : Ref sig .tc := ⟨.hbm, 609, rfl⟩
abbrev main_call15_cst_4 : Ref sig .tc := ⟨.hbm, 610, rfl⟩
abbrev main_call15_call0_v0 : Ref sig .tc := ⟨.hbm, 611, rfl⟩
abbrev main_call15_call0_v1 : Ref sig .tc := ⟨.hbm, 612, rfl⟩
abbrev main_v310 : Ref sig .tc := ⟨.hbm, 613, rfl⟩
abbrev main_v311 : Ref sig .tc := ⟨.hbm, 614, rfl⟩
abbrev main_v312 : Ref sig .tc := ⟨.hbm, 615, rfl⟩
abbrev main_cst_60 : Ref sig .tc := ⟨.hbm, 616, rfl⟩
abbrev main_v313 : Ref sig .tc := ⟨.hbm, 617, rfl⟩
abbrev main_v314 : Ref sig .tc := ⟨.hbm, 618, rfl⟩
abbrev main_v315 : Ref sig .tc := ⟨.hbm, 619, rfl⟩
abbrev main_v316 : Ref sig .tc := ⟨.hbm, 620, rfl⟩
abbrev main_v317 : Ref sig .tc := ⟨.hbm, 621, rfl⟩
abbrev main_v318 : Ref sig .tc := ⟨.hbm, 622, rfl⟩
abbrev main_v319 : Ref sig .tc := ⟨.hbm, 623, rfl⟩
abbrev main_v320 : Ref sig .tc := ⟨.hbm, 624, rfl⟩
abbrev main_v321 : Ref sig .tc := ⟨.hbm, 625, rfl⟩
abbrev main_v322 : Ref sig .tc := ⟨.hbm, 626, rfl⟩
abbrev main_v323 : Ref sig .tc := ⟨.hbm, 627, rfl⟩
abbrev main_call16_cst : Ref sig .tc := ⟨.hbm, 628, rfl⟩
abbrev main_call16_v0 : Ref sig .tc := ⟨.hbm, 629, rfl⟩
abbrev main_v324 : Ref sig .tc := ⟨.hbm, 630, rfl⟩
abbrev main_v325 : Ref sig .tc := ⟨.hbm, 631, rfl⟩
abbrev main_v326 : Ref sig .tc := ⟨.hbm, 632, rfl⟩
abbrev main_v327 : Ref sig .tc := ⟨.hbm, 633, rfl⟩
abbrev main_v328 : Ref sig .tc := ⟨.hbm, 634, rfl⟩
abbrev main_v329 : Ref sig .tc := ⟨.hbm, 635, rfl⟩
abbrev main_v330 : Ref sig .tc := ⟨.hbm, 636, rfl⟩
abbrev main_v331 : Ref sig .tc := ⟨.hbm, 637, rfl⟩
abbrev main_v332 : Ref sig .tc := ⟨.hbm, 638, rfl⟩
abbrev main_cst_61 : Ref sig .tc := ⟨.hbm, 639, rfl⟩
abbrev main_v333 : Ref sig .tc := ⟨.hbm, 640, rfl⟩
abbrev main_v334 : Ref sig .tc := ⟨.hbm, 641, rfl⟩
abbrev main_cst_62 : Ref sig .tc := ⟨.hbm, 642, rfl⟩
abbrev main_v335 : Ref sig .tc := ⟨.hbm, 643, rfl⟩
abbrev main_v336 : Ref sig .tc := ⟨.hbm, 644, rfl⟩
abbrev main_cst_63 : Ref sig .tc := ⟨.hbm, 645, rfl⟩
abbrev main_cst_64 : Ref sig .tc := ⟨.hbm, 646, rfl⟩
abbrev main_call17_v0 : Ref sig .tc := ⟨.hbm, 647, rfl⟩
abbrev main_call17_v1 : Ref sig .tc := ⟨.hbm, 648, rfl⟩
abbrev main_call17_v2 : Ref sig .tc := ⟨.hbm, 649, rfl⟩
abbrev main_call17_v3 : Ref sig .tc := ⟨.hbm, 650, rfl⟩
abbrev main_call17_v4 : Ref sig .tc := ⟨.hbm, 651, rfl⟩
abbrev main_v337 : Ref sig .tc := ⟨.hbm, 652, rfl⟩
abbrev main_cst_65 : Ref sig .tc := ⟨.hbm, 653, rfl⟩
abbrev main_v338 : Ref sig .tc := ⟨.hbm, 654, rfl⟩
abbrev main_cst_66 : Ref sig .tc := ⟨.hbm, 655, rfl⟩
abbrev main_v339 : Ref sig .tc := ⟨.hbm, 656, rfl⟩
abbrev main_cst_67 : Ref sig .tc := ⟨.hbm, 657, rfl⟩
abbrev main_v340 : Ref sig .tc := ⟨.hbm, 658, rfl⟩
abbrev main_v341 : Ref sig .tc := ⟨.hbm, 659, rfl⟩
abbrev main_v342 : Ref sig .tc := ⟨.hbm, 660, rfl⟩
abbrev main_v343 : Ref sig .tc := ⟨.hbm, 661, rfl⟩
abbrev main_v344 : Ref sig .tc := ⟨.hbm, 662, rfl⟩
abbrev main_v345 : Ref sig .tc := ⟨.hbm, 663, rfl⟩
abbrev main_v346 : Ref sig .tc := ⟨.hbm, 664, rfl⟩
abbrev main_v347 : Ref sig .tc := ⟨.hbm, 665, rfl⟩
abbrev main_v348 : Ref sig .tc := ⟨.hbm, 666, rfl⟩
abbrev main_v349 : Ref sig .tc := ⟨.hbm, 667, rfl⟩
abbrev main_cst_68 : Ref sig .tc := ⟨.hbm, 668, rfl⟩
abbrev main_v350 : Ref sig .tc := ⟨.hbm, 669, rfl⟩
abbrev main_v351 : Ref sig .tc := ⟨.hbm, 670, rfl⟩
abbrev main_v352 : Ref sig .tc := ⟨.hbm, 671, rfl⟩
abbrev main_v353 : Ref sig .tc := ⟨.hbm, 672, rfl⟩
abbrev main_v354 : Ref sig .tc := ⟨.hbm, 673, rfl⟩
abbrev main_v355 : Ref sig .tc := ⟨.hbm, 674, rfl⟩
abbrev main_cst_69 : Ref sig .tc := ⟨.hbm, 675, rfl⟩
abbrev main_v356 : Ref sig .tc := ⟨.hbm, 676, rfl⟩
abbrev main_v357 : Ref sig .tc := ⟨.hbm, 677, rfl⟩
abbrev main_v358 : Ref sig .tc := ⟨.hbm, 678, rfl⟩
abbrev main_v359 : Ref sig .tc := ⟨.hbm, 679, rfl⟩
abbrev main_v360 : Ref sig .tc := ⟨.hbm, 680, rfl⟩
abbrev main_v361 : Ref sig .tc := ⟨.hbm, 681, rfl⟩
abbrev main_v362 : Ref sig .tc := ⟨.hbm, 682, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S1024x512_S512x512_0_0 : S1024x512.Slices ![0, 0] S512x512
  slices_S1024x512_S512x512_512_0 : S1024x512.Slices ![512, 0] S512x512
  slices_S1024_S512_0 : S1024.Slices ![0] S512
  slices_S1024_S512_512 : S1024.Slices ![512] S512
  slices_S2x512_S1x512_0_0 : S2x512.Slices ![0, 0] S1x512
  shapeCasts_S1x512_S512 : S1x512.ShapeCasts S512
  slices_S2x512_S1x512_1_0 : S2x512.Slices ![1, 0] S1x512
  bcast_S_S512 : S_.BroadcastsInDim S512 (![] : Fin 0 → Fin S512.rank)
  bcast_S_S4096x512 : S_.BroadcastsInDim S4096x512 (![] : Fin 0 → Fin S4096x512.rank)
  slices_S4x512_S1x512_0_0 : S4x512.Slices ![0, 0] S1x512
  reducesTo_S4096x512_S4096_d1 : S4096x512.ReducesTo [1] S4096
  h_S_ : 0 < S_.numel
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  slices_S4x128_S1x128_0_0 : S4x128.Slices ![0, 0] S1x128
  shapeCasts_S1x128_S128 : S1x128.ShapeCasts S128
  bcast_S128_S4096x128_1 : S128.BroadcastsInDim S4096x128 (![1] : Fin 1 → Fin S4096x128.rank)
  concatenates_S4096x512_S4096x128_S4096x640_d1 : Shape.Concatenates [S4096x512, S4096x128] S4096x640 1
  transposes_S256x640_S640x256_1_0 : S256x640.Transposes [1, 0] S640x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  bcast_S4096x1_S4096x128_0_1 : S4096x1.BroadcastsInDim S4096x128 (![0, 1] : Fin 2 → Fin S4096x128.rank)
  bcast_S_S4096x128 : S_.BroadcastsInDim S4096x128 (![] : Fin 0 → Fin S4096x128.rank)
  transposes_S1x128_S128x1_1_0 : S1x128.Transposes [1, 0] S128x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  reducesTo_S4096_S_d0 : S4096.ReducesTo [0] S_
  slices_S4x512_S1x512_1_0 : S4x512.Slices ![1, 0] S1x512
  slices_S4x128_S1x128_1_0 : S4x128.Slices ![1, 0] S1x128
  slices_S4x512_S1x512_2_0 : S4x512.Slices ![2, 0] S1x512
  slices_S4x128_S1x128_2_0 : S4x128.Slices ![2, 0] S1x128
  bitsLt_bf16_f32 : FTy.bits .bf16 < FTy.bits .f32
  shapeCasts_S32000_S1x32000 : S32000.ShapeCasts S1x32000
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S1024x3200 : S1x3200.Broadcasts S1024x3200
  inb_S1024x3200_S1024x3200_0_0 : ∀ a, (![0, 0] : Fin 2 → Nat) a + S1024x3200.size a ≤ S1024x3200.size a
  h_S1024x3200 : 0 < S1024x3200.numel
  gather_S32000x512_S4096x1_S4096x512_1_0_n_n_0_1_1512_wf : GatherDims.WF S32000x512 S4096x1 S4096x512 [1] [0] [] [0] [] 1 ![1, 512]
  dot_S4096x512_S512x512_S4096x512_1_0_0_1_n_n_wf : DotDims.WF S4096x512 S512x512 S4096x512 [1] [0] [0] [1] [] []
  dot_S4096x640_S640x256_S4096x256_1_0_0_1_n_n_wf : DotDims.WF S4096x640 S640x256 S4096x256 [1] [0] [0] [1] [] []
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []
  dot_S1024x512_S3200x512_S1024x3200_1_1_0_0_n_n_wf : DotDims.WF S1024x512 S3200x512 S1024x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x512.size a ≤ S32000x512.size a
  hwx0_1 : ∀ i : grid0.Coords, EltTy.bits .bf16 = 32 ∨ (Rect.block (s := S32000x512) S3200x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x32000.size a
  hwx0_2 : ∀ i : grid0.Coords, EltTy.bits .f32 = 32 ∨ (Rect.block (s := S1x32000) S1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3200.size a ≤ S4096x32000.size a
  hwx0_3 : ∀ i : grid0.Coords, EltTy.bits .f32 = 32 ∨ (Rect.block (s := S4096x32000) S1024x3200.size (cc0_transform_3 i) (hinb0_3 i)).WholeWords (EltTy.packing .f32)

variable [Facts₀]

def gather_S32000x512_S4096x1_S4096x512_1_0_n_n_0_1_1512 : GatherDims S32000x512 S4096x1 S4096x512 where
  offsetDims := [1]
  collapsedSliceDims := [0]
  operandBatchingDims := []
  startIndicesBatchingDims := []
  startIndexMap := [0]
  indexVectorDim := 1
  sliceSizes := ![1, 512]
  wf := gather_S32000x512_S4096x1_S4096x512_1_0_n_n_0_1_1512_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x640_S640x256_S4096x256_1_0_0_1_n_n : DotDims S4096x640 S640x256 S4096x256 where
  lhsContracting := [1]
  rhsContracting := [0]
  lhsNonContracting := [0]
  rhsNonContracting := [1]
  lhsBatch := []
  rhsBatch := []
  wf := dot_S4096x640_S640x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S1024x512_S3200x512_S1024x3200_1_1_0_0_n_n : DotDims S1024x512 S3200x512 S1024x3200 where
  lhsContracting := [1]
  rhsContracting := [1]
  lhsNonContracting := [0]
  rhsNonContracting := [0]
  lhsBatch := []
  rhsBatch := []
  wf := dot_S1024x512_S3200x512_S1024x3200_1_1_0_0_n_n_wf

abbrev win0_0 : Pipeline.Window sig grid0 :=
  Pipeline.Window.ofSpec (Memref.whole main_v359) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v360) S3200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v361) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v362) S1024x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096 : Shape := ⟨1, ![4096]⟩
abbrev S32000x512 : Shape := ⟨2, ![32000, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S4x128 : Shape := ⟨2, ![4, 128]⟩
abbrev S256x640 : Shape := ⟨2, ![256, 640]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S2x512 : Shape := ⟨2, ![2, 512]⟩
abbrev S4x512 : Shape := ⟨2, ![4, 512]⟩
abbrev S32000 : Shape := ⟨1, ![32000]⟩
abbrev S_ : Shape := ⟨0, ![]⟩
abbrev S4096x1 : Shape := ⟨2, ![4096, 1]⟩
abbrev S4096x512 : Shape := ⟨2, ![4096, 512]⟩
abbrev S1x512 : Shape := ⟨2, ![1, 512]⟩
abbrev S1x4096x512 : Shape := ⟨3, ![1, 4096, 512]⟩
abbrev S4096x128 : Shape := ⟨2, ![4096, 128]⟩
abbrev S4096x640 : Shape := ⟨2, ![4096, 640]⟩
abbrev S640x256 : Shape := ⟨2, ![640, 256]⟩
abbrev S4096x256 : Shape := ⟨2, ![4096, 256]⟩
abbrev S1x256 : Shape := ⟨2, ![1, 256]⟩
abbrev S256x128 : Shape := ⟨2, ![256, 128]⟩
abbrev S128x1 : Shape := ⟨2, ![128, 1]⟩
abbrev S1x1 : Shape := ⟨2, ![1, 1]⟩
abbrev S1x4096x1024 : Shape := ⟨3, ![1, 4096, 1024]⟩
abbrev S1x1x1024 : Shape := ⟨3, ![1, 1, 1024]⟩
abbrev S1x1x512 : Shape := ⟨3, ![1, 1, 512]⟩
abbrev S2x4096x512 : Shape := ⟨3, ![2, 4096, 512]⟩
abbrev S2x4096x1024 : Shape := ⟨3, ![2, 4096, 1024]⟩
abbrev S4x4096x512 : Shape := ⟨3, ![4, 4096, 512]⟩
abbrev S4x4096x1024 : Shape := ⟨3, ![4, 4096, 1024]⟩
abbrev S8x4096x512 : Shape := ⟨3, ![8, 4096, 512]⟩
abbrev S512x32000 : Shape := ⟨2, ![512, 32000]⟩
abbrev S4096x32000 : Shape := ⟨2, ![4096, 32000]⟩
abbrev S1x32000 : Shape := ⟨2, ![1, 32000]⟩

abbrev nBuf : Space → Nat
  | .hbm => 727
  | .vmem => 0
  | .smem => 0
  | _ => 0

abbrev hbmTy0_0 (i : Nat) : BufTy := match i % 128 with
  | 0 => ⟨S4096, .i32⟩
  | 1 => ⟨S32000x512, .f32⟩
  | 2 => ⟨S512x512, .f32⟩
  | 3 => ⟨S512, .f32⟩
  | 4 => ⟨S1024x512, .f32⟩
  | 5 => ⟨S1024, .f32⟩
  | 6 => ⟨S512, .f32⟩
  | 7 => ⟨S512, .f32⟩
  | 8 => ⟨S4x128, .f32⟩
  | 9 => ⟨S256x640, .f32⟩
  | 10 => ⟨S256, .f32⟩
  | 11 => ⟨S256, .f32⟩
  | 12 => ⟨S256, .f32⟩
  | 13 => ⟨S128x256, .f32⟩
  | 14 => ⟨S128, .f32⟩
  | 15 => ⟨S128, .f32⟩
  | 16 => ⟨S128, .f32⟩
  | 17 => ⟨S1x128, .f32⟩
  | 18 => ⟨S1, .f32⟩
  | 19 => ⟨S2x512, .f32⟩
  | 20 => ⟨S4x512, .f32⟩
  | 21 => ⟨S32000x512, .f32⟩
  | 22 => ⟨S32000, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x512, .f32⟩
  | 32 => ⟨S512x512, .f32⟩
  | 33 => ⟨S4096x512, .f32⟩
  | 34 => ⟨S1x512, .f32⟩
  | 35 => ⟨S4096x512, .f32⟩
  | 36 => ⟨S4096x512, .f32⟩
  | 37 => ⟨S1x4096x512, .f32⟩
  | 38 => ⟨S_, .f32⟩
  | 39 => ⟨S4096x512, .f32⟩
  | 40 => ⟨S_, .f32⟩
  | 41 => ⟨S4096x512, .f32⟩
  | 42 => ⟨S4096x512, .f32⟩
  | 43 => ⟨S1x512, .f32⟩
  | 44 => ⟨S512, .f32⟩
  | 45 => ⟨S_, .f32⟩
  | 46 => ⟨S512, .f32⟩
  | 47 => ⟨S512, .f32⟩
  | 48 => ⟨S1x512, .f32⟩
  | 49 => ⟨S4096x512, .f32⟩
  | 50 => ⟨S4096x512, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .i32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x512, .f32⟩
  | 65 => ⟨S4096x512, .f32⟩
  | 66 => ⟨S4096x512, .f32⟩
  | 67 => ⟨S_, .f32⟩
  | 68 => ⟨S_, .f32⟩
  | 69 => ⟨S_, .f32⟩
  | 70 => ⟨S_, .f32⟩
  | 71 => ⟨S4096, .f32⟩
  | 72 => ⟨S4096x1, .f32⟩
  | 73 => ⟨S4096x1, .f32⟩
  | 74 => ⟨S4096x1, .f32⟩
  | 75 => ⟨S_, .f32⟩
  | 76 => ⟨S_, .i1⟩
  | 77 => ⟨S_, .f32⟩
  | 78 => ⟨S_, .f32⟩
  | 79 => ⟨S4096x1, .f32⟩
  | 80 => ⟨S4096x1, .f32⟩
  | 81 => ⟨S4096x512, .f32⟩
  | 82 => ⟨S4096x512, .f32⟩
  | 83 => ⟨S_, .f32⟩
  | 84 => ⟨S4096x1, .f32⟩
  | 85 => ⟨S4096x1, .f32⟩
  | 86 => ⟨S4096x1, .f32⟩
  | 87 => ⟨S4096x512, .f32⟩
  | 88 => ⟨S4096x512, .f32⟩
  | 89 => ⟨S1x512, .f32⟩
  | 90 => ⟨S4096x512, .f32⟩
  | 91 => ⟨S4096x512, .f32⟩
  | 92 => ⟨S1x512, .f32⟩
  | 93 => ⟨S4096x512, .f32⟩
  | 94 => ⟨S4096x512, .f32⟩
  | 95 => ⟨S1x128, .f32⟩
  | 96 => ⟨S128, .f32⟩
  | 97 => ⟨S4096x128, .f32⟩
  | 98 => ⟨S4096x640, .f32⟩
  | 99 => ⟨S640x256, .f32⟩
  | 100 => ⟨S4096x256, .f32⟩
  | 101 => ⟨S1x256, .f32⟩
  | 102 => ⟨S4096x256, .f32⟩
  | 103 => ⟨S4096x256, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .i32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S4096x256, .f32⟩
  | 118 => ⟨S4096x256, .f32⟩
  | 119 => ⟨S4096x256, .f32⟩
  | 120 => ⟨S_, .f32⟩
  | 121 => ⟨S_, .f32⟩
  | 122 => ⟨S_, .f32⟩
  | 123 => ⟨S_, .f32⟩
  | 124 => ⟨S4096, .f32⟩
  | 125 => ⟨S4096x1, .f32⟩
  | 126 => ⟨S4096x1, .f32⟩
  | 127 => ⟨S4096x1, .f32⟩
  | _ => ⟨S4096, .i32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S4096x1, .f32⟩
  | 5 => ⟨S4096x1, .f32⟩
  | 6 => ⟨S4096x256, .f32⟩
  | 7 => ⟨S4096x256, .f32⟩
  | 8 => ⟨S_, .f32⟩
  | 9 => ⟨S4096x1, .f32⟩
  | 10 => ⟨S4096x1, .f32⟩
  | 11 => ⟨S4096x1, .f32⟩
  | 12 => ⟨S4096x256, .f32⟩
  | 13 => ⟨S4096x256, .f32⟩
  | 14 => ⟨S1x256, .f32⟩
  | 15 => ⟨S4096x256, .f32⟩
  | 16 => ⟨S4096x256, .f32⟩
  | 17 => ⟨S1x256, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S256x128, .f32⟩
  | 24 => ⟨S4096x128, .f32⟩
  | 25 => ⟨S1x128, .f32⟩
  | 26 => ⟨S4096x128, .f32⟩
  | 27 => ⟨S4096x128, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S_, .i32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x128, .f32⟩
  | 42 => ⟨S4096x128, .f32⟩
  | 43 => ⟨S4096x128, .f32⟩
  | 44 => ⟨S_, .f32⟩
  | 45 => ⟨S_, .f32⟩
  | 46 => ⟨S_, .f32⟩
  | 47 => ⟨S_, .f32⟩
  | 48 => ⟨S4096, .f32⟩
  | 49 => ⟨S4096x1, .f32⟩
  | 50 => ⟨S4096x1, .f32⟩
  | 51 => ⟨S4096x1, .f32⟩
  | 52 => ⟨S_, .f32⟩
  | 53 => ⟨S_, .i1⟩
  | 54 => ⟨S_, .f32⟩
  | 55 => ⟨S_, .f32⟩
  | 56 => ⟨S4096x1, .f32⟩
  | 57 => ⟨S4096x1, .f32⟩
  | 58 => ⟨S4096x128, .f32⟩
  | 59 => ⟨S4096x128, .f32⟩
  | 60 => ⟨S_, .f32⟩
  | 61 => ⟨S4096x1, .f32⟩
  | 62 => ⟨S4096x1, .f32⟩
  | 63 => ⟨S4096x1, .f32⟩
  | 64 => ⟨S4096x128, .f32⟩
  | 65 => ⟨S4096x128, .f32⟩
  | 66 => ⟨S1x128, .f32⟩
  | 67 => ⟨S4096x128, .f32⟩
  | 68 => ⟨S4096x128, .f32⟩
  | 69 => ⟨S1x128, .f32⟩
  | 70 => ⟨S4096x128, .f32⟩
  | 71 => ⟨S4096x128, .f32⟩
  | 72 => ⟨S_, .f32⟩
  | 73 => ⟨S4096x128, .f32⟩
  | 74 => ⟨S4096x128, .f32⟩
  | 75 => ⟨S128x1, .f32⟩
  | 76 => ⟨S4096x1, .f32⟩
  | 77 => ⟨S1x1, .f32⟩
  | 78 => ⟨S4096x1, .f32⟩
  | 79 => ⟨S4096x1, .f32⟩
  | 80 => ⟨S4096, .f32⟩
  | 81 => ⟨S4096, .f32⟩
  | 82 => ⟨S4096, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .f32⟩
  | 89 => ⟨S_, .f32⟩
  | 90 => ⟨S_, .f32⟩
  | 91 => ⟨S_, .f32⟩
  | 92 => ⟨S4096, .f32⟩
  | 93 => ⟨S4096, .f32⟩
  | 94 => ⟨S_, .f32⟩
  | 95 => ⟨S4096, .f32⟩
  | 96 => ⟨S4096, .f32⟩
  | 97 => ⟨S_, .f32⟩
  | 98 => ⟨S_, .f32⟩
  | 99 => ⟨S_, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S1x4096x1024, .f32⟩
  | 107 => ⟨S1x1x1024, .f32⟩
  | 108 => ⟨S1x4096x1024, .f32⟩
  | 109 => ⟨S1x4096x1024, .f32⟩
  | 110 => ⟨S1x4096x512, .f32⟩
  | 111 => ⟨S1x512, .f32⟩
  | 112 => ⟨S512, .f32⟩
  | 113 => ⟨S_, .f32⟩
  | 114 => ⟨S512, .f32⟩
  | 115 => ⟨S512, .f32⟩
  | 116 => ⟨S1x1x512, .f32⟩
  | 117 => ⟨S1x4096x512, .f32⟩
  | 118 => ⟨S1x4096x512, .f32⟩
  | 119 => ⟨S1x4096x512, .f32⟩
  | 120 => ⟨S1x512, .f32⟩
  | 121 => ⟨S512, .f32⟩
  | 122 => ⟨S_, .f32⟩
  | 123 => ⟨S512, .f32⟩
  | 124 => ⟨S512, .f32⟩
  | 125 => ⟨S1x1x512, .f32⟩
  | 126 => ⟨S1x4096x512, .f32⟩
  | 127 => ⟨S1x4096x512, .f32⟩
  | _ => ⟨S4096, .i32⟩

abbrev hbmTy0_2 (i : Nat) : BufTy := match i % 128 with
  | 0 => ⟨S2x4096x512, .f32⟩
  | 1 => ⟨S_, .f32⟩
  | 2 => ⟨S4096x512, .f32⟩
  | 3 => ⟨S4096x512, .f32⟩
  | 4 => ⟨S4096x512, .f32⟩
  | 5 => ⟨S4096x512, .f32⟩
  | 6 => ⟨S_, .f32⟩
  | 7 => ⟨S_, .f32⟩
  | 8 => ⟨S_, .f32⟩
  | 9 => ⟨S_, .f32⟩
  | 10 => ⟨S_, .f32⟩
  | 11 => ⟨S4096x512, .f32⟩
  | 12 => ⟨S_, .f32⟩
  | 13 => ⟨S4096x512, .f32⟩
  | 14 => ⟨S4096x512, .f32⟩
  | 15 => ⟨S1x512, .f32⟩
  | 16 => ⟨S512, .f32⟩
  | 17 => ⟨S_, .f32⟩
  | 18 => ⟨S512, .f32⟩
  | 19 => ⟨S512, .f32⟩
  | 20 => ⟨S1x512, .f32⟩
  | 21 => ⟨S4096x512, .f32⟩
  | 22 => ⟨S4096x512, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .i32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x512, .f32⟩
  | 37 => ⟨S4096x512, .f32⟩
  | 38 => ⟨S4096x512, .f32⟩
  | 39 => ⟨S_, .f32⟩
  | 40 => ⟨S_, .f32⟩
  | 41 => ⟨S_, .f32⟩
  | 42 => ⟨S_, .f32⟩
  | 43 => ⟨S4096, .f32⟩
  | 44 => ⟨S4096x1, .f32⟩
  | 45 => ⟨S4096x1, .f32⟩
  | 46 => ⟨S4096x1, .f32⟩
  | 47 => ⟨S_, .f32⟩
  | 48 => ⟨S_, .i1⟩
  | 49 => ⟨S_, .f32⟩
  | 50 => ⟨S_, .f32⟩
  | 51 => ⟨S4096x1, .f32⟩
  | 52 => ⟨S4096x1, .f32⟩
  | 53 => ⟨S4096x512, .f32⟩
  | 54 => ⟨S4096x512, .f32⟩
  | 55 => ⟨S_, .f32⟩
  | 56 => ⟨S4096x1, .f32⟩
  | 57 => ⟨S4096x1, .f32⟩
  | 58 => ⟨S4096x1, .f32⟩
  | 59 => ⟨S4096x512, .f32⟩
  | 60 => ⟨S4096x512, .f32⟩
  | 61 => ⟨S1x512, .f32⟩
  | 62 => ⟨S4096x512, .f32⟩
  | 63 => ⟨S4096x512, .f32⟩
  | 64 => ⟨S1x512, .f32⟩
  | 65 => ⟨S4096x512, .f32⟩
  | 66 => ⟨S4096x512, .f32⟩
  | 67 => ⟨S1x128, .f32⟩
  | 68 => ⟨S128, .f32⟩
  | 69 => ⟨S4096x128, .f32⟩
  | 70 => ⟨S4096x640, .f32⟩
  | 71 => ⟨S640x256, .f32⟩
  | 72 => ⟨S4096x256, .f32⟩
  | 73 => ⟨S1x256, .f32⟩
  | 74 => ⟨S4096x256, .f32⟩
  | 75 => ⟨S4096x256, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .i32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x256, .f32⟩
  | 90 => ⟨S4096x256, .f32⟩
  | 91 => ⟨S4096x256, .f32⟩
  | 92 => ⟨S_, .f32⟩
  | 93 => ⟨S_, .f32⟩
  | 94 => ⟨S_, .f32⟩
  | 95 => ⟨S_, .f32⟩
  | 96 => ⟨S4096, .f32⟩
  | 97 => ⟨S4096x1, .f32⟩
  | 98 => ⟨S4096x1, .f32⟩
  | 99 => ⟨S4096x1, .f32⟩
  | 100 => ⟨S_, .f32⟩
  | 101 => ⟨S_, .i1⟩
  | 102 => ⟨S_, .f32⟩
  | 103 => ⟨S_, .f32⟩
  | 104 => ⟨S4096x1, .f32⟩
  | 105 => ⟨S4096x1, .f32⟩
  | 106 => ⟨S4096x256, .f32⟩
  | 107 => ⟨S4096x256, .f32⟩
  | 108 => ⟨S_, .f32⟩
  | 109 => ⟨S4096x1, .f32⟩
  | 110 => ⟨S4096x1, .f32⟩
  | 111 => ⟨S4096x1, .f32⟩
  | 112 => ⟨S4096x256, .f32⟩
  | 113 => ⟨S4096x256, .f32⟩
  | 114 => ⟨S1x256, .f32⟩
  | 115 => ⟨S4096x256, .f32⟩
  | 116 => ⟨S4096x256, .f32⟩
  | 117 => ⟨S1x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S256x128, .f32⟩
  | 124 => ⟨S4096x128, .f32⟩
  | 125 => ⟨S1x128, .f32⟩
  | 126 => ⟨S4096x128, .f32⟩
  | 127 => ⟨S4096x128, .f32⟩
  | _ => ⟨S4096, .i32⟩

abbrev hbmTy0_3 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .i32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x128, .f32⟩
  | 14 => ⟨S4096x128, .f32⟩
  | 15 => ⟨S4096x128, .f32⟩
  | 16 => ⟨S_, .f32⟩
  | 17 => ⟨S_, .f32⟩
  | 18 => ⟨S_, .f32⟩
  | 19 => ⟨S_, .f32⟩
  | 20 => ⟨S4096, .f32⟩
  | 21 => ⟨S4096x1, .f32⟩
  | 22 => ⟨S4096x1, .f32⟩
  | 23 => ⟨S4096x1, .f32⟩
  | 24 => ⟨S_, .f32⟩
  | 25 => ⟨S_, .i1⟩
  | 26 => ⟨S_, .f32⟩
  | 27 => ⟨S_, .f32⟩
  | 28 => ⟨S4096x1, .f32⟩
  | 29 => ⟨S4096x1, .f32⟩
  | 30 => ⟨S4096x128, .f32⟩
  | 31 => ⟨S4096x128, .f32⟩
  | 32 => ⟨S_, .f32⟩
  | 33 => ⟨S4096x1, .f32⟩
  | 34 => ⟨S4096x1, .f32⟩
  | 35 => ⟨S4096x1, .f32⟩
  | 36 => ⟨S4096x128, .f32⟩
  | 37 => ⟨S4096x128, .f32⟩
  | 38 => ⟨S1x128, .f32⟩
  | 39 => ⟨S4096x128, .f32⟩
  | 40 => ⟨S4096x128, .f32⟩
  | 41 => ⟨S1x128, .f32⟩
  | 42 => ⟨S4096x128, .f32⟩
  | 43 => ⟨S4096x128, .f32⟩
  | 44 => ⟨S_, .f32⟩
  | 45 => ⟨S4096x128, .f32⟩
  | 46 => ⟨S4096x128, .f32⟩
  | 47 => ⟨S128x1, .f32⟩
  | 48 => ⟨S4096x1, .f32⟩
  | 49 => ⟨S1x1, .f32⟩
  | 50 => ⟨S4096x1, .f32⟩
  | 51 => ⟨S4096x1, .f32⟩
  | 52 => ⟨S4096, .f32⟩
  | 53 => ⟨S4096, .f32⟩
  | 54 => ⟨S4096, .f32⟩
  | 55 => ⟨S_, .f32⟩
  | 56 => ⟨S4096, .f32⟩
  | 57 => ⟨S4096, .f32⟩
  | 58 => ⟨S_, .f32⟩
  | 59 => ⟨S4096, .f32⟩
  | 60 => ⟨S4096, .f32⟩
  | 61 => ⟨S_, .f32⟩
  | 62 => ⟨S_, .f32⟩
  | 63 => ⟨S_, .f32⟩
  | 64 => ⟨S4096, .f32⟩
  | 65 => ⟨S4096, .f32⟩
  | 66 => ⟨S_, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S_, .f32⟩
  | 74 => ⟨S_, .i1⟩
  | 75 => ⟨S_, .f32⟩
  | 76 => ⟨S_, .f32⟩
  | 77 => ⟨S2x4096x1024, .f32⟩
  | 78 => ⟨S1x1x1024, .f32⟩
  | 79 => ⟨S2x4096x1024, .f32⟩
  | 80 => ⟨S2x4096x1024, .f32⟩
  | 81 => ⟨S2x4096x512, .f32⟩
  | 82 => ⟨S1x512, .f32⟩
  | 83 => ⟨S512, .f32⟩
  | 84 => ⟨S_, .f32⟩
  | 85 => ⟨S512, .f32⟩
  | 86 => ⟨S512, .f32⟩
  | 87 => ⟨S1x1x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S_, .f32⟩
  | 94 => ⟨S512, .f32⟩
  | 95 => ⟨S512, .f32⟩
  | 96 => ⟨S1x1x512, .f32⟩
  | 97 => ⟨S2x4096x512, .f32⟩
  | 98 => ⟨S2x4096x512, .f32⟩
  | 99 => ⟨S4x4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S_, .f32⟩
  | 107 => ⟨S_, .f32⟩
  | 108 => ⟨S_, .f32⟩
  | 109 => ⟨S4096x512, .f32⟩
  | 110 => ⟨S_, .f32⟩
  | 111 => ⟨S4096x512, .f32⟩
  | 112 => ⟨S4096x512, .f32⟩
  | 113 => ⟨S1x512, .f32⟩
  | 114 => ⟨S512, .f32⟩
  | 115 => ⟨S_, .f32⟩
  | 116 => ⟨S512, .f32⟩
  | 117 => ⟨S512, .f32⟩
  | 118 => ⟨S1x512, .f32⟩
  | 119 => ⟨S4096x512, .f32⟩
  | 120 => ⟨S4096x512, .f32⟩
  | 121 => ⟨S_, .f32⟩
  | 122 => ⟨S4096, .f32⟩
  | 123 => ⟨S4096x1, .f32⟩
  | 124 => ⟨S_, .f32⟩
  | 125 => ⟨S4096x1, .f32⟩
  | 126 => ⟨S4096x1, .f32⟩
  | 127 => ⟨S_, .i32⟩
  | _ => ⟨S4096, .i32⟩

abbrev hbmTy0_4 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x512, .f32⟩
  | 7 => ⟨S4096x512, .f32⟩
  | 8 => ⟨S4096x512, .f32⟩
  | 9 => ⟨S_, .f32⟩
  | 10 => ⟨S_, .f32⟩
  | 11 => ⟨S_, .f32⟩
  | 12 => ⟨S_, .f32⟩
  | 13 => ⟨S4096, .f32⟩
  | 14 => ⟨S4096x1, .f32⟩
  | 15 => ⟨S4096x1, .f32⟩
  | 16 => ⟨S4096x1, .f32⟩
  | 17 => ⟨S_, .f32⟩
  | 18 => ⟨S_, .i1⟩
  | 19 => ⟨S_, .f32⟩
  | 20 => ⟨S_, .f32⟩
  | 21 => ⟨S4096x1, .f32⟩
  | 22 => ⟨S4096x1, .f32⟩
  | 23 => ⟨S4096x512, .f32⟩
  | 24 => ⟨S4096x512, .f32⟩
  | 25 => ⟨S_, .f32⟩
  | 26 => ⟨S4096x1, .f32⟩
  | 27 => ⟨S4096x1, .f32⟩
  | 28 => ⟨S4096x1, .f32⟩
  | 29 => ⟨S4096x512, .f32⟩
  | 30 => ⟨S4096x512, .f32⟩
  | 31 => ⟨S1x512, .f32⟩
  | 32 => ⟨S4096x512, .f32⟩
  | 33 => ⟨S4096x512, .f32⟩
  | 34 => ⟨S1x512, .f32⟩
  | 35 => ⟨S4096x512, .f32⟩
  | 36 => ⟨S4096x512, .f32⟩
  | 37 => ⟨S1x128, .f32⟩
  | 38 => ⟨S128, .f32⟩
  | 39 => ⟨S4096x128, .f32⟩
  | 40 => ⟨S4096x640, .f32⟩
  | 41 => ⟨S640x256, .f32⟩
  | 42 => ⟨S4096x256, .f32⟩
  | 43 => ⟨S1x256, .f32⟩
  | 44 => ⟨S4096x256, .f32⟩
  | 45 => ⟨S4096x256, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .i32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S4096x256, .f32⟩
  | 60 => ⟨S4096x256, .f32⟩
  | 61 => ⟨S4096x256, .f32⟩
  | 62 => ⟨S_, .f32⟩
  | 63 => ⟨S_, .f32⟩
  | 64 => ⟨S_, .f32⟩
  | 65 => ⟨S_, .f32⟩
  | 66 => ⟨S4096, .f32⟩
  | 67 => ⟨S4096x1, .f32⟩
  | 68 => ⟨S4096x1, .f32⟩
  | 69 => ⟨S4096x1, .f32⟩
  | 70 => ⟨S_, .f32⟩
  | 71 => ⟨S_, .i1⟩
  | 72 => ⟨S_, .f32⟩
  | 73 => ⟨S_, .f32⟩
  | 74 => ⟨S4096x1, .f32⟩
  | 75 => ⟨S4096x1, .f32⟩
  | 76 => ⟨S4096x256, .f32⟩
  | 77 => ⟨S4096x256, .f32⟩
  | 78 => ⟨S_, .f32⟩
  | 79 => ⟨S4096x1, .f32⟩
  | 80 => ⟨S4096x1, .f32⟩
  | 81 => ⟨S4096x1, .f32⟩
  | 82 => ⟨S4096x256, .f32⟩
  | 83 => ⟨S4096x256, .f32⟩
  | 84 => ⟨S1x256, .f32⟩
  | 85 => ⟨S4096x256, .f32⟩
  | 86 => ⟨S4096x256, .f32⟩
  | 87 => ⟨S1x256, .f32⟩
  | 88 => ⟨S4096x256, .f32⟩
  | 89 => ⟨S4096x256, .f32⟩
  | 90 => ⟨S_, .f32⟩
  | 91 => ⟨S4096x256, .f32⟩
  | 92 => ⟨S4096x256, .f32⟩
  | 93 => ⟨S256x128, .f32⟩
  | 94 => ⟨S4096x128, .f32⟩
  | 95 => ⟨S1x128, .f32⟩
  | 96 => ⟨S4096x128, .f32⟩
  | 97 => ⟨S4096x128, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S_, .i32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S4096x128, .f32⟩
  | 112 => ⟨S4096x128, .f32⟩
  | 113 => ⟨S4096x128, .f32⟩
  | 114 => ⟨S_, .f32⟩
  | 115 => ⟨S_, .f32⟩
  | 116 => ⟨S_, .f32⟩
  | 117 => ⟨S_, .f32⟩
  | 118 => ⟨S4096, .f32⟩
  | 119 => ⟨S4096x1, .f32⟩
  | 120 => ⟨S4096x1, .f32⟩
  | 121 => ⟨S4096x1, .f32⟩
  | 122 => ⟨S_, .f32⟩
  | 123 => ⟨S_, .i1⟩
  | 124 => ⟨S_, .f32⟩
  | 125 => ⟨S_, .f32⟩
  | 126 => ⟨S4096x1, .f32⟩
  | 127 => ⟨S4096x1, .f32⟩
  | _ => ⟨S4096, .i32⟩

abbrev hbmTy0_5 (i : Nat) : BufTy := match i % 128 with
  | 0 => ⟨S4096x128, .f32⟩
  | 1 => ⟨S4096x128, .f32⟩
  | 2 => ⟨S_, .f32⟩
  | 3 => ⟨S4096x1, .f32⟩
  | 4 => ⟨S4096x1, .f32⟩
  | 5 => ⟨S4096x1, .f32⟩
  | 6 => ⟨S4096x128, .f32⟩
  | 7 => ⟨S4096x128, .f32⟩
  | 8 => ⟨S1x128, .f32⟩
  | 9 => ⟨S4096x128, .f32⟩
  | 10 => ⟨S4096x128, .f32⟩
  | 11 => ⟨S1x128, .f32⟩
  | 12 => ⟨S4096x128, .f32⟩
  | 13 => ⟨S4096x128, .f32⟩
  | 14 => ⟨S_, .f32⟩
  | 15 => ⟨S4096x128, .f32⟩
  | 16 => ⟨S4096x128, .f32⟩
  | 17 => ⟨S128x1, .f32⟩
  | 18 => ⟨S4096x1, .f32⟩
  | 19 => ⟨S1x1, .f32⟩
  | 20 => ⟨S4096x1, .f32⟩
  | 21 => ⟨S4096x1, .f32⟩
  | 22 => ⟨S4096, .f32⟩
  | 23 => ⟨S4096, .f32⟩
  | 24 => ⟨S4096, .f32⟩
  | 25 => ⟨S_, .f32⟩
  | 26 => ⟨S4096, .f32⟩
  | 27 => ⟨S4096, .f32⟩
  | 28 => ⟨S_, .f32⟩
  | 29 => ⟨S4096, .f32⟩
  | 30 => ⟨S4096, .f32⟩
  | 31 => ⟨S_, .f32⟩
  | 32 => ⟨S_, .f32⟩
  | 33 => ⟨S_, .f32⟩
  | 34 => ⟨S4096, .f32⟩
  | 35 => ⟨S4096, .f32⟩
  | 36 => ⟨S_, .f32⟩
  | 37 => ⟨S4096, .f32⟩
  | 38 => ⟨S4096, .f32⟩
  | 39 => ⟨S_, .f32⟩
  | 40 => ⟨S_, .f32⟩
  | 41 => ⟨S_, .f32⟩
  | 42 => ⟨S_, .f32⟩
  | 43 => ⟨S_, .f32⟩
  | 44 => ⟨S_, .i1⟩
  | 45 => ⟨S_, .f32⟩
  | 46 => ⟨S_, .f32⟩
  | 47 => ⟨S4x4096x1024, .f32⟩
  | 48 => ⟨S1x1x1024, .f32⟩
  | 49 => ⟨S4x4096x1024, .f32⟩
  | 50 => ⟨S4x4096x1024, .f32⟩
  | 51 => ⟨S4x4096x512, .f32⟩
  | 52 => ⟨S1x512, .f32⟩
  | 53 => ⟨S512, .f32⟩
  | 54 => ⟨S_, .f32⟩
  | 55 => ⟨S512, .f32⟩
  | 56 => ⟨S512, .f32⟩
  | 57 => ⟨S1x1x512, .f32⟩
  | 58 => ⟨S4x4096x512, .f32⟩
  | 59 => ⟨S4x4096x512, .f32⟩
  | 60 => ⟨S4x4096x512, .f32⟩
  | 61 => ⟨S1x512, .f32⟩
  | 62 => ⟨S512, .f32⟩
  | 63 => ⟨S_, .f32⟩
  | 64 => ⟨S512, .f32⟩
  | 65 => ⟨S512, .f32⟩
  | 66 => ⟨S1x1x512, .f32⟩
  | 67 => ⟨S4x4096x512, .f32⟩
  | 68 => ⟨S4x4096x512, .f32⟩
  | 69 => ⟨S8x4096x512, .f32⟩
  | 70 => ⟨S_, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S_, .f32⟩
  | 77 => ⟨S_, .f32⟩
  | 78 => ⟨S_, .f32⟩
  | 79 => ⟨S_, .f32⟩
  | 80 => ⟨S4096x512, .f32⟩
  | 81 => ⟨S4096x512, .f32⟩
  | 82 => ⟨S512x32000, .f32⟩
  | 83 => ⟨S4096x32000, .f32⟩
  | 84 => ⟨S1x32000, .f32⟩
  | 85 => ⟨S4096x32000, .f32⟩
  | 86 => ⟨S4096x32000, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_cst_4 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_call0_cst_3 : Ref sig .tc := ⟨.hbm, 75, rfl⟩
abbrev main_call0_v13 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_6 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_7 : Ref sig .tc := ⟨.hbm, 104, rfl⟩
abbrev main_v50 : Ref sig .tc := ⟨.hbm, 105, rfl⟩
abbrev main_v51 : Ref sig .tc := ⟨.hbm, 106, rfl⟩
abbrev main_cst_8 : Ref sig .tc := ⟨.hbm, 107, rfl⟩
abbrev main_v52 : Ref sig .tc := ⟨.hbm, 108, rfl⟩
abbrev main_v53 : Ref sig .tc := ⟨.hbm, 109, rfl⟩
abbrev main_c_9 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_v12 : Ref sig .tc := ⟨.hbm, 127, rfl⟩
abbrev main_call1_cst_3 : Ref sig .tc := ⟨.hbm, 128, rfl⟩
abbrev main_call1_v13 : Ref sig .tc := ⟨.hbm, 129, rfl⟩
abbrev main_call1_cst_4 : Ref sig .tc := ⟨.hbm, 130, rfl⟩
abbrev main_call1_call0_v0 : Ref sig .tc := ⟨.hbm, 131, rfl⟩
abbrev main_call1_call0_v1 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_cst_10 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_call2_cst : Ref sig .tc := ⟨.hbm, 148, rfl⟩
abbrev main_call2_v0 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_cst_11 : Ref sig .tc := ⟨.hbm, 156, rfl⟩
abbrev main_v74 : Ref sig .tc := ⟨.hbm, 157, rfl⟩
abbrev main_v75 : Ref sig .tc := ⟨.hbm, 158, rfl⟩
abbrev main_cst_12 : Ref sig .tc := ⟨.hbm, 159, rfl⟩
abbrev main_v76 : Ref sig .tc := ⟨.hbm, 160, rfl⟩
abbrev main_v77 : Ref sig .tc := ⟨.hbm, 161, rfl⟩
abbrev main_c_13 : Ref sig .tc := ⟨.hbm, 162, rfl⟩
abbrev main_call3_cst : Ref sig .tc := ⟨.hbm, 163, rfl⟩
abbrev main_call3_v0 : Ref sig .tc := ⟨.hbm, 164, rfl⟩
abbrev main_call3_v1 : Ref sig .tc := ⟨.hbm, 165, rfl⟩
abbrev main_call3_cst_0 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_v6 : Ref sig .tc := ⟨.hbm, 171, rfl⟩
abbrev main_call3_v7 : Ref sig .tc := ⟨.hbm, 172, rfl⟩
abbrev main_call3_cst_1 : Ref sig .tc := ⟨.hbm, 173, rfl⟩
abbrev main_call3_v8 : Ref sig .tc := ⟨.hbm, 174, rfl⟩
abbrev main_call3_cst_2 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_call3_v12 : Ref sig .tc := ⟨.hbm, 179, rfl⟩
abbrev main_call3_cst_3 : Ref sig .tc := ⟨.hbm, 180, rfl⟩
abbrev main_call3_v13 : Ref sig .tc := ⟨.hbm, 181, rfl⟩
abbrev main_call3_cst_4 : Ref sig .tc := ⟨.hbm, 182, rfl⟩
abbrev main_call3_call0_v0 : Ref sig .tc := ⟨.hbm, 183, rfl⟩
abbrev main_call3_call0_v1 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_cst_14 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_call4_cst : Ref sig .tc := ⟨.hbm, 200, rfl⟩
abbrev main_call4_v0 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_15 : Ref sig .tc := ⟨.hbm, 211, rfl⟩
abbrev main_v101 : Ref sig .tc := ⟨.hbm, 212, rfl⟩
abbrev main_v102 : Ref sig .tc := ⟨.hbm, 213, rfl⟩
abbrev main_cst_16 : Ref sig .tc := ⟨.hbm, 214, rfl⟩
abbrev main_v103 : Ref sig .tc := ⟨.hbm, 215, rfl⟩
abbrev main_v104 : Ref sig .tc := ⟨.hbm, 216, rfl⟩
abbrev main_cst_17 : Ref sig .tc := ⟨.hbm, 217, rfl⟩
abbrev main_cst_18 : Ref sig .tc := ⟨.hbm, 218, rfl⟩
abbrev main_call5_v0 : Ref sig .tc := ⟨.hbm, 219, rfl⟩
abbrev main_call5_v1 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_v105 : Ref sig .tc := ⟨.hbm, 224, rfl⟩
abbrev main_cst_19 : Ref sig .tc := ⟨.hbm, 225, rfl⟩
abbrev main_v106 : Ref sig .tc := ⟨.hbm, 226, rfl⟩
abbrev main_cst_20 : Ref sig .tc := ⟨.hbm, 227, rfl⟩
abbrev main_v107 : Ref sig .tc := ⟨.hbm, 228, rfl⟩
abbrev main_cst_21 : Ref sig .tc := ⟨.hbm, 229, rfl⟩
abbrev main_v108 : Ref sig .tc := ⟨.hbm, 230, rfl⟩
abbrev main_v109 : Ref sig .tc := ⟨.hbm, 231, rfl⟩
abbrev main_cst_22 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_cst_23 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_cst_24 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_cst_25 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_cst_26 : Ref sig .tc := ⟨.hbm, 262, rfl⟩
abbrev main_v136 : Ref sig .tc := ⟨.hbm, 263, rfl⟩
abbrev main_cst_27 : Ref sig .tc := ⟨.hbm, 264, rfl⟩
abbrev main_v137 : Ref sig .tc := ⟨.hbm, 265, rfl⟩
abbrev main_cst_28 : Ref sig .tc := ⟨.hbm, 266, rfl⟩
abbrev main_v138 : Ref sig .tc := ⟨.hbm, 267, rfl⟩
abbrev main_cst_29 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_v142 : Ref sig .tc := ⟨.hbm, 272, rfl⟩
abbrev main_cst_30 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_v147 : Ref sig .tc := ⟨.hbm, 278, rfl⟩
abbrev main_cst_31 : Ref sig .tc := ⟨.hbm, 279, rfl⟩
abbrev main_v148 : Ref sig .tc := ⟨.hbm, 280, rfl⟩
abbrev main_v149 : Ref sig .tc := ⟨.hbm, 281, rfl⟩
abbrev main_cst_32 : Ref sig .tc := ⟨.hbm, 282, rfl⟩
abbrev main_v150 : Ref sig .tc := ⟨.hbm, 283, rfl⟩
abbrev main_v151 : Ref sig .tc := ⟨.hbm, 284, rfl⟩
abbrev main_c_33 : Ref sig .tc := ⟨.hbm, 285, rfl⟩
abbrev main_call6_cst : Ref sig .tc := ⟨.hbm, 286, rfl⟩
abbrev main_call6_v0 : Ref sig .tc := ⟨.hbm, 287, rfl⟩
abbrev main_call6_v1 : Ref sig .tc := ⟨.hbm, 288, rfl⟩
abbrev main_call6_cst_0 : Ref sig .tc := ⟨.hbm, 289, rfl⟩
abbrev main_call6_v2 : Ref sig .tc := ⟨.hbm, 290, rfl⟩
abbrev main_call6_v3 : Ref sig .tc := ⟨.hbm, 291, rfl⟩
abbrev main_call6_v4 : Ref sig .tc := ⟨.hbm, 292, rfl⟩
abbrev main_call6_v5 : Ref sig .tc := ⟨.hbm, 293, rfl⟩
abbrev main_call6_v6 : Ref sig .tc := ⟨.hbm, 294, rfl⟩
abbrev main_call6_v7 : Ref sig .tc := ⟨.hbm, 295, rfl⟩
abbrev main_call6_cst_1 : Ref sig .tc := ⟨.hbm, 296, rfl⟩
abbrev main_call6_v8 : Ref sig .tc := ⟨.hbm, 297, rfl⟩
abbrev main_call6_cst_2 : Ref sig .tc := ⟨.hbm, 298, rfl⟩
abbrev main_call6_v9 : Ref sig .tc := ⟨.hbm, 299, rfl⟩
abbrev main_call6_v10 : Ref sig .tc := ⟨.hbm, 300, rfl⟩
abbrev main_call6_v11 : Ref sig .tc := ⟨.hbm, 301, rfl⟩
abbrev main_call6_v12 : Ref sig .tc := ⟨.hbm, 302, rfl⟩
abbrev main_call6_cst_3 : Ref sig .tc := ⟨.hbm, 303, rfl⟩
abbrev main_call6_v13 : Ref sig .tc := ⟨.hbm, 304, rfl⟩
abbrev main_call6_cst_4 : Ref sig .tc := ⟨.hbm, 305, rfl⟩
abbrev main_call6_call0_v0 : Ref sig .tc := ⟨.hbm, 306, rfl⟩
abbrev main_call6_call0_v1 : Ref sig .tc := ⟨.hbm, 307, rfl⟩
abbrev main_v152 : Ref sig .tc := ⟨.hbm, 308, rfl⟩
abbrev main_v153 : Ref sig .tc := ⟨.hbm, 309, rfl⟩
abbrev main_v154 : Ref sig .tc := ⟨.hbm, 310, rfl⟩
abbrev main_cst_34 : Ref sig .tc := ⟨.hbm, 311, rfl⟩
abbrev main_v155 : Ref sig .tc := ⟨.hbm, 312, rfl⟩
abbrev main_v156 : Ref sig .tc := ⟨.hbm, 313, rfl⟩
abbrev main_v157 : Ref sig .tc := ⟨.hbm, 314, rfl⟩
abbrev main_v158 : Ref sig .tc := ⟨.hbm, 315, rfl⟩
abbrev main_v159 : Ref sig .tc := ⟨.hbm, 316, rfl⟩
abbrev main_v160 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_v164 : Ref sig .tc := ⟨.hbm, 321, rfl⟩
abbrev main_v165 : Ref sig .tc := ⟨.hbm, 322, rfl⟩
abbrev main_v166 : Ref sig .tc := ⟨.hbm, 323, rfl⟩
abbrev main_v167 : Ref sig .tc := ⟨.hbm, 324, rfl⟩
abbrev main_v168 : Ref sig .tc := ⟨.hbm, 325, rfl⟩
abbrev main_v169 : Ref sig .tc := ⟨.hbm, 326, rfl⟩
abbrev main_v170 : Ref sig .tc := ⟨.hbm, 327, rfl⟩
abbrev main_v171 : Ref sig .tc := ⟨.hbm, 328, rfl⟩
abbrev main_v172 : Ref sig .tc := ⟨.hbm, 329, rfl⟩
abbrev main_v173 : Ref sig .tc := ⟨.hbm, 330, rfl⟩
abbrev main_v174 : Ref sig .tc := ⟨.hbm, 331, rfl⟩
abbrev main_cst_35 : Ref sig .tc := ⟨.hbm, 332, rfl⟩
abbrev main_v175 : Ref sig .tc := ⟨.hbm, 333, rfl⟩
abbrev main_v176 : Ref sig .tc := ⟨.hbm, 334, rfl⟩
abbrev main_cst_36 : Ref sig .tc := ⟨.hbm, 335, rfl⟩
abbrev main_v177 : Ref sig .tc := ⟨.hbm, 336, rfl⟩
abbrev main_v178 : Ref sig .tc := ⟨.hbm, 337, rfl⟩
abbrev main_c_37 : Ref sig .tc := ⟨.hbm, 338, rfl⟩
abbrev main_call7_cst : Ref sig .tc := ⟨.hbm, 339, rfl⟩
abbrev main_call7_v0 : Ref sig .tc := ⟨.hbm, 340, rfl⟩
abbrev main_call7_v1 : Ref sig .tc := ⟨.hbm, 341, rfl⟩
abbrev main_call7_cst_0 : Ref sig .tc := ⟨.hbm, 342, rfl⟩
abbrev main_call7_v2 : Ref sig .tc := ⟨.hbm, 343, rfl⟩
abbrev main_call7_v3 : Ref sig .tc := ⟨.hbm, 344, rfl⟩
abbrev main_call7_v4 : Ref sig .tc := ⟨.hbm, 345, rfl⟩
abbrev main_call7_v5 : Ref sig .tc := ⟨.hbm, 346, rfl⟩
abbrev main_call7_v6 : Ref sig .tc := ⟨.hbm, 347, rfl⟩
abbrev main_call7_v7 : Ref sig .tc := ⟨.hbm, 348, rfl⟩
abbrev main_call7_cst_1 : Ref sig .tc := ⟨.hbm, 349, rfl⟩
abbrev main_call7_v8 : Ref sig .tc := ⟨.hbm, 350, rfl⟩
abbrev main_call7_cst_2 : Ref sig .tc := ⟨.hbm, 351, rfl⟩
abbrev main_call7_v9 : Ref sig .tc := ⟨.hbm, 352, rfl⟩
abbrev main_call7_v10 : Ref sig .tc := ⟨.hbm, 353, rfl⟩
abbrev main_call7_v11 : Ref sig .tc := ⟨.hbm, 354, rfl⟩
abbrev main_call7_v12 : Ref sig .tc := ⟨.hbm, 355, rfl⟩
abbrev main_call7_cst_3 : Ref sig .tc := ⟨.hbm, 356, rfl⟩
abbrev main_call7_v13 : Ref sig .tc := ⟨.hbm, 357, rfl⟩
abbrev main_call7_cst_4 : Ref sig .tc := ⟨.hbm, 358, rfl⟩
abbrev main_call7_call0_v0 : Ref sig .tc := ⟨.hbm, 359, rfl⟩
abbrev main_call7_call0_v1 : Ref sig .tc := ⟨.hbm, 360, rfl⟩
abbrev main_v179 : Ref sig .tc := ⟨.hbm, 361, rfl⟩
abbrev main_v180 : Ref sig .tc := ⟨.hbm, 362, rfl⟩
abbrev main_v181 : Ref sig .tc := ⟨.hbm, 363, rfl⟩
abbrev main_cst_38 : Ref sig .tc := ⟨.hbm, 364, rfl⟩
abbrev main_v182 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_v186 : Ref sig .tc := ⟨.hbm, 369, rfl⟩
abbrev main_v187 : Ref sig .tc := ⟨.hbm, 370, rfl⟩
abbrev main_v188 : Ref sig .tc := ⟨.hbm, 371, rfl⟩
abbrev main_v189 : Ref sig .tc := ⟨.hbm, 372, rfl⟩
abbrev main_v190 : Ref sig .tc := ⟨.hbm, 373, rfl⟩
abbrev main_v191 : Ref sig .tc := ⟨.hbm, 374, rfl⟩
abbrev main_v192 : Ref sig .tc := ⟨.hbm, 375, rfl⟩
abbrev main_call8_cst : Ref sig .tc := ⟨.hbm, 376, rfl⟩
abbrev main_call8_v0 : Ref sig .tc := ⟨.hbm, 377, rfl⟩
abbrev main_v193 : Ref sig .tc := ⟨.hbm, 378, rfl⟩
abbrev main_v194 : Ref sig .tc := ⟨.hbm, 379, rfl⟩
abbrev main_v195 : Ref sig .tc := ⟨.hbm, 380, rfl⟩
abbrev main_v196 : Ref sig .tc := ⟨.hbm, 381, rfl⟩
abbrev main_v197 : Ref sig .tc := ⟨.hbm, 382, rfl⟩
abbrev main_v198 : Ref sig .tc := ⟨.hbm, 383, rfl⟩
abbrev main_cst_39 : Ref sig .tc := ⟨.hbm, 384, rfl⟩
abbrev main_v199 : Ref sig .tc := ⟨.hbm, 385, rfl⟩
abbrev main_v200 : Ref sig .tc := ⟨.hbm, 386, rfl⟩
abbrev main_cst_40 : Ref sig .tc := ⟨.hbm, 387, rfl⟩
abbrev main_v201 : Ref sig .tc := ⟨.hbm, 388, rfl⟩
abbrev main_v202 : Ref sig .tc := ⟨.hbm, 389, rfl⟩
abbrev main_c_41 : Ref sig .tc := ⟨.hbm, 390, rfl⟩
abbrev main_call9_cst : Ref sig .tc := ⟨.hbm, 391, rfl⟩
abbrev main_call9_v0 : Ref sig .tc := ⟨.hbm, 392, rfl⟩
abbrev main_call9_v1 : Ref sig .tc := ⟨.hbm, 393, rfl⟩
abbrev main_call9_cst_0 : Ref sig .tc := ⟨.hbm, 394, rfl⟩
abbrev main_call9_v2 : Ref sig .tc := ⟨.hbm, 395, rfl⟩
abbrev main_call9_v3 : Ref sig .tc := ⟨.hbm, 396, rfl⟩
abbrev main_call9_v4 : Ref sig .tc := ⟨.hbm, 397, rfl⟩
abbrev main_call9_v5 : Ref sig .tc := ⟨.hbm, 398, rfl⟩
abbrev main_call9_v6 : Ref sig .tc := ⟨.hbm, 399, rfl⟩
abbrev main_call9_v7 : Ref sig .tc := ⟨.hbm, 400, rfl⟩
abbrev main_call9_cst_1 : Ref sig .tc := ⟨.hbm, 401, rfl⟩
abbrev main_call9_v8 : Ref sig .tc := ⟨.hbm, 402, rfl⟩
abbrev main_call9_cst_2 : Ref sig .tc := ⟨.hbm, 403, rfl⟩
abbrev main_call9_v9 : Ref sig .tc := ⟨.hbm, 404, rfl⟩
abbrev main_call9_v10 : Ref sig .tc := ⟨.hbm, 405, rfl⟩
abbrev main_call9_v11 : Ref sig .tc := ⟨.hbm, 406, rfl⟩
abbrev main_call9_v12 : Ref sig .tc := ⟨.hbm, 407, rfl⟩
abbrev main_call9_cst_3 : Ref sig .tc := ⟨.hbm, 408, rfl⟩
abbrev main_call9_v13 : Ref sig .tc := ⟨.hbm, 409, rfl⟩
abbrev main_call9_cst_4 : Ref sig .tc := ⟨.hbm, 410, rfl⟩
abbrev main_call9_call0_v0 : Ref sig .tc := ⟨.hbm, 411, rfl⟩
abbrev main_call9_call0_v1 : Ref sig .tc := ⟨.hbm, 412, rfl⟩
abbrev main_v203 : Ref sig .tc := ⟨.hbm, 413, rfl⟩
abbrev main_v204 : Ref sig .tc := ⟨.hbm, 414, rfl⟩
abbrev main_v205 : Ref sig .tc := ⟨.hbm, 415, rfl⟩
abbrev main_cst_42 : Ref sig .tc := ⟨.hbm, 416, rfl⟩
abbrev main_v206 : Ref sig .tc := ⟨.hbm, 417, rfl⟩
abbrev main_v207 : Ref sig .tc := ⟨.hbm, 418, rfl⟩
abbrev main_v208 : Ref sig .tc := ⟨.hbm, 419, rfl⟩
abbrev main_v209 : Ref sig .tc := ⟨.hbm, 420, rfl⟩
abbrev main_v210 : Ref sig .tc := ⟨.hbm, 421, rfl⟩
abbrev main_v211 : Ref sig .tc := ⟨.hbm, 422, rfl⟩
abbrev main_v212 : Ref sig .tc := ⟨.hbm, 423, rfl⟩
abbrev main_v213 : Ref sig .tc := ⟨.hbm, 424, rfl⟩
abbrev main_v214 : Ref sig .tc := ⟨.hbm, 425, rfl⟩
abbrev main_v215 : Ref sig .tc := ⟨.hbm, 426, rfl⟩
abbrev main_v216 : Ref sig .tc := ⟨.hbm, 427, rfl⟩
abbrev main_call10_cst : Ref sig .tc := ⟨.hbm, 428, rfl⟩
abbrev main_call10_v0 : Ref sig .tc := ⟨.hbm, 429, rfl⟩
abbrev main_v217 : Ref sig .tc := ⟨.hbm, 430, rfl⟩
abbrev main_v218 : Ref sig .tc := ⟨.hbm, 431, rfl⟩
abbrev main_v219 : Ref sig .tc := ⟨.hbm, 432, rfl⟩
abbrev main_v220 : Ref sig .tc := ⟨.hbm, 433, rfl⟩
abbrev main_v221 : Ref sig .tc := ⟨.hbm, 434, rfl⟩
abbrev main_v222 : Ref sig .tc := ⟨.hbm, 435, rfl⟩
abbrev main_v223 : Ref sig .tc := ⟨.hbm, 436, rfl⟩
abbrev main_v224 : Ref sig .tc := ⟨.hbm, 437, rfl⟩
abbrev main_v225 : Ref sig .tc := ⟨.hbm, 438, rfl⟩
abbrev main_cst_43 : Ref sig .tc := ⟨.hbm, 439, rfl⟩
abbrev main_v226 : Ref sig .tc := ⟨.hbm, 440, rfl⟩
abbrev main_v227 : Ref sig .tc := ⟨.hbm, 441, rfl⟩
abbrev main_cst_44 : Ref sig .tc := ⟨.hbm, 442, rfl⟩
abbrev main_v228 : Ref sig .tc := ⟨.hbm, 443, rfl⟩
abbrev main_v229 : Ref sig .tc := ⟨.hbm, 444, rfl⟩
abbrev main_cst_45 : Ref sig .tc := ⟨.hbm, 445, rfl⟩
abbrev main_cst_46 : Ref sig .tc := ⟨.hbm, 446, rfl⟩
abbrev main_call11_v0 : Ref sig .tc := ⟨.hbm, 447, rfl⟩
abbrev main_call11_v1 : Ref sig .tc := ⟨.hbm, 448, rfl⟩
abbrev main_call11_v2 : Ref sig .tc := ⟨.hbm, 449, rfl⟩
abbrev main_call11_v3 : Ref sig .tc := ⟨.hbm, 450, rfl⟩
abbrev main_call11_v4 : Ref sig .tc := ⟨.hbm, 451, rfl⟩
abbrev main_v230 : Ref sig .tc := ⟨.hbm, 452, rfl⟩
abbrev main_cst_47 : Ref sig .tc := ⟨.hbm, 453, rfl⟩
abbrev main_v231 : Ref sig .tc := ⟨.hbm, 454, rfl⟩
abbrev main_cst_48 : Ref sig .tc := ⟨.hbm, 455, rfl⟩
abbrev main_v232 : Ref sig .tc := ⟨.hbm, 456, rfl⟩
abbrev main_cst_49 : Ref sig .tc := ⟨.hbm, 457, rfl⟩
abbrev main_v233 : Ref sig .tc := ⟨.hbm, 458, rfl⟩
abbrev main_v234 : Ref sig .tc := ⟨.hbm, 459, rfl⟩
abbrev main_v235 : Ref sig .tc := ⟨.hbm, 460, rfl⟩
abbrev main_v236 : Ref sig .tc := ⟨.hbm, 461, rfl⟩
abbrev main_v237 : Ref sig .tc := ⟨.hbm, 462, rfl⟩
abbrev main_v238 : Ref sig .tc := ⟨.hbm, 463, rfl⟩
abbrev main_v239 : Ref sig .tc := ⟨.hbm, 464, rfl⟩
abbrev main_v240 : Ref sig .tc := ⟨.hbm, 465, rfl⟩
abbrev main_v241 : Ref sig .tc := ⟨.hbm, 466, rfl⟩
abbrev main_v242 : Ref sig .tc := ⟨.hbm, 467, rfl⟩
abbrev main_cst_50 : Ref sig .tc := ⟨.hbm, 468, rfl⟩
abbrev main_v243 : Ref sig .tc := ⟨.hbm, 469, rfl⟩
abbrev main_v244 : Ref sig .tc := ⟨.hbm, 470, rfl⟩
abbrev main_v245 : Ref sig .tc := ⟨.hbm, 471, rfl⟩
abbrev main_v246 : Ref sig .tc := ⟨.hbm, 472, rfl⟩
abbrev main_v247 : Ref sig .tc := ⟨.hbm, 473, rfl⟩
abbrev main_v248 : Ref sig .tc := ⟨.hbm, 474, rfl⟩
abbrev main_v249 : Ref sig .tc := ⟨.hbm, 475, rfl⟩
abbrev main_v250 : Ref sig .tc := ⟨.hbm, 476, rfl⟩
abbrev main_cst_51 : Ref sig .tc := ⟨.hbm, 477, rfl⟩
abbrev main_v251 : Ref sig .tc := ⟨.hbm, 478, rfl⟩
abbrev main_v252 : Ref sig .tc := ⟨.hbm, 479, rfl⟩
abbrev main_v253 : Ref sig .tc := ⟨.hbm, 480, rfl⟩
abbrev main_v254 : Ref sig .tc := ⟨.hbm, 481, rfl⟩
abbrev main_v255 : Ref sig .tc := ⟨.hbm, 482, rfl⟩
abbrev main_v256 : Ref sig .tc := ⟨.hbm, 483, rfl⟩
abbrev main_cst_52 : Ref sig .tc := ⟨.hbm, 484, rfl⟩
abbrev main_v257 : Ref sig .tc := ⟨.hbm, 485, rfl⟩
abbrev main_v258 : Ref sig .tc := ⟨.hbm, 486, rfl⟩
abbrev main_v259 : Ref sig .tc := ⟨.hbm, 487, rfl⟩
abbrev main_v260 : Ref sig .tc := ⟨.hbm, 488, rfl⟩
abbrev main_cst_53 : Ref sig .tc := ⟨.hbm, 489, rfl⟩
abbrev main_v261 : Ref sig .tc := ⟨.hbm, 490, rfl⟩
abbrev main_v262 : Ref sig .tc := ⟨.hbm, 491, rfl⟩
abbrev main_cst_54 : Ref sig .tc := ⟨.hbm, 492, rfl⟩
abbrev main_v263 : Ref sig .tc := ⟨.hbm, 493, rfl⟩
abbrev main_cst_55 : Ref sig .tc := ⟨.hbm, 494, rfl⟩
abbrev main_v264 : Ref sig .tc := ⟨.hbm, 495, rfl⟩
abbrev main_v265 : Ref sig .tc := ⟨.hbm, 496, rfl⟩
abbrev main_v266 : Ref sig .tc := ⟨.hbm, 497, rfl⟩
abbrev main_v267 : Ref sig .tc := ⟨.hbm, 498, rfl⟩
abbrev main_cst_56 : Ref sig .tc := ⟨.hbm, 499, rfl⟩
abbrev main_v268 : Ref sig .tc := ⟨.hbm, 500, rfl⟩
abbrev main_v269 : Ref sig .tc := ⟨.hbm, 501, rfl⟩
abbrev main_v270 : Ref sig .tc := ⟨.hbm, 502, rfl⟩
abbrev main_v271 : Ref sig .tc := ⟨.hbm, 503, rfl⟩
abbrev main_v272 : Ref sig .tc := ⟨.hbm, 504, rfl⟩
abbrev main_cst_57 : Ref sig .tc := ⟨.hbm, 505, rfl⟩
abbrev main_v273 : Ref sig .tc := ⟨.hbm, 506, rfl⟩
abbrev main_v274 : Ref sig .tc := ⟨.hbm, 507, rfl⟩
abbrev main_cst_58 : Ref sig .tc := ⟨.hbm, 508, rfl⟩
abbrev main_v275 : Ref sig .tc := ⟨.hbm, 509, rfl⟩
abbrev main_v276 : Ref sig .tc := ⟨.hbm, 510, rfl⟩
abbrev main_c_59 : Ref sig .tc := ⟨.hbm, 511, rfl⟩
abbrev main_call12_cst : Ref sig .tc := ⟨.hbm, 512, rfl⟩
abbrev main_call12_v0 : Ref sig .tc := ⟨.hbm, 513, rfl⟩
abbrev main_call12_v1 : Ref sig .tc := ⟨.hbm, 514, rfl⟩
abbrev main_call12_cst_0 : Ref sig .tc := ⟨.hbm, 515, rfl⟩
abbrev main_call12_v2 : Ref sig .tc := ⟨.hbm, 516, rfl⟩
abbrev main_call12_v3 : Ref sig .tc := ⟨.hbm, 517, rfl⟩
abbrev main_call12_v4 : Ref sig .tc := ⟨.hbm, 518, rfl⟩
abbrev main_call12_v5 : Ref sig .tc := ⟨.hbm, 519, rfl⟩
abbrev main_call12_v6 : Ref sig .tc := ⟨.hbm, 520, rfl⟩
abbrev main_call12_v7 : Ref sig .tc := ⟨.hbm, 521, rfl⟩
abbrev main_call12_cst_1 : Ref sig .tc := ⟨.hbm, 522, rfl⟩
abbrev main_call12_v8 : Ref sig .tc := ⟨.hbm, 523, rfl⟩
abbrev main_call12_cst_2 : Ref sig .tc := ⟨.hbm, 524, rfl⟩
abbrev main_call12_v9 : Ref sig .tc := ⟨.hbm, 525, rfl⟩
abbrev main_call12_v10 : Ref sig .tc := ⟨.hbm, 526, rfl⟩
abbrev main_call12_v11 : Ref sig .tc := ⟨.hbm, 527, rfl⟩
abbrev main_call12_v12 : Ref sig .tc := ⟨.hbm, 528, rfl⟩
abbrev main_call12_cst_3 : Ref sig .tc := ⟨.hbm, 529, rfl⟩
abbrev main_call12_v13 : Ref sig .tc := ⟨.hbm, 530, rfl⟩
abbrev main_call12_cst_4 : Ref sig .tc := ⟨.hbm, 531, rfl⟩
abbrev main_call12_call0_v0 : Ref sig .tc := ⟨.hbm, 532, rfl⟩
abbrev main_call12_call0_v1 : Ref sig .tc := ⟨.hbm, 533, rfl⟩
abbrev main_v277 : Ref sig .tc := ⟨.hbm, 534, rfl⟩
abbrev main_v278 : Ref sig .tc := ⟨.hbm, 535, rfl⟩
abbrev main_v279 : Ref sig .tc := ⟨.hbm, 536, rfl⟩
abbrev main_cst_60 : Ref sig .tc := ⟨.hbm, 537, rfl⟩
abbrev main_v280 : Ref sig .tc := ⟨.hbm, 538, rfl⟩
abbrev main_v281 : Ref sig .tc := ⟨.hbm, 539, rfl⟩
abbrev main_v282 : Ref sig .tc := ⟨.hbm, 540, rfl⟩
abbrev main_v283 : Ref sig .tc := ⟨.hbm, 541, rfl⟩
abbrev main_v284 : Ref sig .tc := ⟨.hbm, 542, rfl⟩
abbrev main_v285 : Ref sig .tc := ⟨.hbm, 543, rfl⟩
abbrev main_v286 : Ref sig .tc := ⟨.hbm, 544, rfl⟩
abbrev main_v287 : Ref sig .tc := ⟨.hbm, 545, rfl⟩
abbrev main_v288 : Ref sig .tc := ⟨.hbm, 546, rfl⟩
abbrev main_v289 : Ref sig .tc := ⟨.hbm, 547, rfl⟩
abbrev main_v290 : Ref sig .tc := ⟨.hbm, 548, rfl⟩
abbrev main_v291 : Ref sig .tc := ⟨.hbm, 549, rfl⟩
abbrev main_v292 : Ref sig .tc := ⟨.hbm, 550, rfl⟩
abbrev main_v293 : Ref sig .tc := ⟨.hbm, 551, rfl⟩
abbrev main_v294 : Ref sig .tc := ⟨.hbm, 552, rfl⟩
abbrev main_v295 : Ref sig .tc := ⟨.hbm, 553, rfl⟩
abbrev main_v296 : Ref sig .tc := ⟨.hbm, 554, rfl⟩
abbrev main_v297 : Ref sig .tc := ⟨.hbm, 555, rfl⟩
abbrev main_v298 : Ref sig .tc := ⟨.hbm, 556, rfl⟩
abbrev main_v299 : Ref sig .tc := ⟨.hbm, 557, rfl⟩
abbrev main_cst_61 : Ref sig .tc := ⟨.hbm, 558, rfl⟩
abbrev main_v300 : Ref sig .tc := ⟨.hbm, 559, rfl⟩
abbrev main_v301 : Ref sig .tc := ⟨.hbm, 560, rfl⟩
abbrev main_cst_62 : Ref sig .tc := ⟨.hbm, 561, rfl⟩
abbrev main_v302 : Ref sig .tc := ⟨.hbm, 562, rfl⟩
abbrev main_v303 : Ref sig .tc := ⟨.hbm, 563, rfl⟩
abbrev main_c_63 : Ref sig .tc := ⟨.hbm, 564, rfl⟩
abbrev main_call13_cst : Ref sig .tc := ⟨.hbm, 565, rfl⟩
abbrev main_call13_v0 : Ref sig .tc := ⟨.hbm, 566, rfl⟩
abbrev main_call13_v1 : Ref sig .tc := ⟨.hbm, 567, rfl⟩
abbrev main_call13_cst_0 : Ref sig .tc := ⟨.hbm, 568, rfl⟩
abbrev main_call13_v2 : Ref sig .tc := ⟨.hbm, 569, rfl⟩
abbrev main_call13_v3 : Ref sig .tc := ⟨.hbm, 570, rfl⟩
abbrev main_call13_v4 : Ref sig .tc := ⟨.hbm, 571, rfl⟩
abbrev main_call13_v5 : Ref sig .tc := ⟨.hbm, 572, rfl⟩
abbrev main_call13_v6 : Ref sig .tc := ⟨.hbm, 573, rfl⟩
abbrev main_call13_v7 : Ref sig .tc := ⟨.hbm, 574, rfl⟩
abbrev main_call13_cst_1 : Ref sig .tc := ⟨.hbm, 575, rfl⟩
abbrev main_call13_v8 : Ref sig .tc := ⟨.hbm, 576, rfl⟩
abbrev main_call13_cst_2 : Ref sig .tc := ⟨.hbm, 577, rfl⟩
abbrev main_call13_v9 : Ref sig .tc := ⟨.hbm, 578, rfl⟩
abbrev main_call13_v10 : Ref sig .tc := ⟨.hbm, 579, rfl⟩
abbrev main_call13_v11 : Ref sig .tc := ⟨.hbm, 580, rfl⟩
abbrev main_call13_v12 : Ref sig .tc := ⟨.hbm, 581, rfl⟩
abbrev main_call13_cst_3 : Ref sig .tc := ⟨.hbm, 582, rfl⟩
abbrev main_call13_v13 : Ref sig .tc := ⟨.hbm, 583, rfl⟩
abbrev main_call13_cst_4 : Ref sig .tc := ⟨.hbm, 584, rfl⟩
abbrev main_call13_call0_v0 : Ref sig .tc := ⟨.hbm, 585, rfl⟩
abbrev main_call13_call0_v1 : Ref sig .tc := ⟨.hbm, 586, rfl⟩
abbrev main_v304 : Ref sig .tc := ⟨.hbm, 587, rfl⟩
abbrev main_v305 : Ref sig .tc := ⟨.hbm, 588, rfl⟩
abbrev main_v306 : Ref sig .tc := ⟨.hbm, 589, rfl⟩
abbrev main_cst_64 : Ref sig .tc := ⟨.hbm, 590, rfl⟩
abbrev main_v307 : Ref sig .tc := ⟨.hbm, 591, rfl⟩
abbrev main_v308 : Ref sig .tc := ⟨.hbm, 592, rfl⟩
abbrev main_v309 : Ref sig .tc := ⟨.hbm, 593, rfl⟩
abbrev main_v310 : Ref sig .tc := ⟨.hbm, 594, rfl⟩
abbrev main_v311 : Ref sig .tc := ⟨.hbm, 595, rfl⟩
abbrev main_v312 : Ref sig .tc := ⟨.hbm, 596, rfl⟩
abbrev main_v313 : Ref sig .tc := ⟨.hbm, 597, rfl⟩
abbrev main_v314 : Ref sig .tc := ⟨.hbm, 598, rfl⟩
abbrev main_v315 : Ref sig .tc := ⟨.hbm, 599, rfl⟩
abbrev main_v316 : Ref sig .tc := ⟨.hbm, 600, rfl⟩
abbrev main_v317 : Ref sig .tc := ⟨.hbm, 601, rfl⟩
abbrev main_call14_cst : Ref sig .tc := ⟨.hbm, 602, rfl⟩
abbrev main_call14_v0 : Ref sig .tc := ⟨.hbm, 603, rfl⟩
abbrev main_v318 : Ref sig .tc := ⟨.hbm, 604, rfl⟩
abbrev main_v319 : Ref sig .tc := ⟨.hbm, 605, rfl⟩
abbrev main_v320 : Ref sig .tc := ⟨.hbm, 606, rfl⟩
abbrev main_v321 : Ref sig .tc := ⟨.hbm, 607, rfl⟩
abbrev main_v322 : Ref sig .tc := ⟨.hbm, 608, rfl⟩
abbrev main_v323 : Ref sig .tc := ⟨.hbm, 609, rfl⟩
abbrev main_cst_65 : Ref sig .tc := ⟨.hbm, 610, rfl⟩
abbrev main_v324 : Ref sig .tc := ⟨.hbm, 611, rfl⟩
abbrev main_v325 : Ref sig .tc := ⟨.hbm, 612, rfl⟩
abbrev main_cst_66 : Ref sig .tc := ⟨.hbm, 613, rfl⟩
abbrev main_v326 : Ref sig .tc := ⟨.hbm, 614, rfl⟩
abbrev main_v327 : Ref sig .tc := ⟨.hbm, 615, rfl⟩
abbrev main_c_67 : Ref sig .tc := ⟨.hbm, 616, rfl⟩
abbrev main_call15_cst : Ref sig .tc := ⟨.hbm, 617, rfl⟩
abbrev main_call15_v0 : Ref sig .tc := ⟨.hbm, 618, rfl⟩
abbrev main_call15_v1 : Ref sig .tc := ⟨.hbm, 619, rfl⟩
abbrev main_call15_cst_0 : Ref sig .tc := ⟨.hbm, 620, rfl⟩
abbrev main_call15_v2 : Ref sig .tc := ⟨.hbm, 621, rfl⟩
abbrev main_call15_v3 : Ref sig .tc := ⟨.hbm, 622, rfl⟩
abbrev main_call15_v4 : Ref sig .tc := ⟨.hbm, 623, rfl⟩
abbrev main_call15_v5 : Ref sig .tc := ⟨.hbm, 624, rfl⟩
abbrev main_call15_v6 : Ref sig .tc := ⟨.hbm, 625, rfl⟩
abbrev main_call15_v7 : Ref sig .tc := ⟨.hbm, 626, rfl⟩
abbrev main_call15_cst_1 : Ref sig .tc := ⟨.hbm, 627, rfl⟩
abbrev main_call15_v8 : Ref sig .tc := ⟨.hbm, 628, rfl⟩
abbrev main_call15_cst_2 : Ref sig .tc := ⟨.hbm, 629, rfl⟩
abbrev main_call15_v9 : Ref sig .tc := ⟨.hbm, 630, rfl⟩
abbrev main_call15_v10 : Ref sig .tc := ⟨.hbm, 631, rfl⟩
abbrev main_call15_v11 : Ref sig .tc := ⟨.hbm, 632, rfl⟩
abbrev main_call15_v12 : Ref sig .tc := ⟨.hbm, 633, rfl⟩
abbrev main_call15_cst_3 : Ref sig .tc := ⟨.hbm, 634, rfl⟩
abbrev main_call15_v13 : Ref sig .tc := ⟨.hbm, 635, rfl⟩
abbrev main_call15_cst_4 : Ref sig .tc := ⟨.hbm, 636, rfl⟩
abbrev main_call15_call0_v0 : Ref sig .tc := ⟨.hbm, 637, rfl⟩
abbrev main_call15_call0_v1 : Ref sig .tc := ⟨.hbm, 638, rfl⟩
abbrev main_v328 : Ref sig .tc := ⟨.hbm, 639, rfl⟩
abbrev main_v329 : Ref sig .tc := ⟨.hbm, 640, rfl⟩
abbrev main_v330 : Ref sig .tc := ⟨.hbm, 641, rfl⟩
abbrev main_cst_68 : Ref sig .tc := ⟨.hbm, 642, rfl⟩
abbrev main_v331 : Ref sig .tc := ⟨.hbm, 643, rfl⟩
abbrev main_v332 : Ref sig .tc := ⟨.hbm, 644, rfl⟩
abbrev main_v333 : Ref sig .tc := ⟨.hbm, 645, rfl⟩
abbrev main_v334 : Ref sig .tc := ⟨.hbm, 646, rfl⟩
abbrev main_v335 : Ref sig .tc := ⟨.hbm, 647, rfl⟩
abbrev main_v336 : Ref sig .tc := ⟨.hbm, 648, rfl⟩
abbrev main_v337 : Ref sig .tc := ⟨.hbm, 649, rfl⟩
abbrev main_v338 : Ref sig .tc := ⟨.hbm, 650, rfl⟩
abbrev main_v339 : Ref sig .tc := ⟨.hbm, 651, rfl⟩
abbrev main_v340 : Ref sig .tc := ⟨.hbm, 652, rfl⟩
abbrev main_v341 : Ref sig .tc := ⟨.hbm, 653, rfl⟩
abbrev main_call16_cst : Ref sig .tc := ⟨.hbm, 654, rfl⟩
abbrev main_call16_v0 : Ref sig .tc := ⟨.hbm, 655, rfl⟩
abbrev main_v342 : Ref sig .tc := ⟨.hbm, 656, rfl⟩
abbrev main_v343 : Ref sig .tc := ⟨.hbm, 657, rfl⟩
abbrev main_v344 : Ref sig .tc := ⟨.hbm, 658, rfl⟩
abbrev main_v345 : Ref sig .tc := ⟨.hbm, 659, rfl⟩
abbrev main_v346 : Ref sig .tc := ⟨.hbm, 660, rfl⟩
abbrev main_v347 : Ref sig .tc := ⟨.hbm, 661, rfl⟩
abbrev main_v348 : Ref sig .tc := ⟨.hbm, 662, rfl⟩
abbrev main_v349 : Ref sig .tc := ⟨.hbm, 663, rfl⟩
abbrev main_v350 : Ref sig .tc := ⟨.hbm, 664, rfl⟩
abbrev main_cst_69 : Ref sig .tc := ⟨.hbm, 665, rfl⟩
abbrev main_v351 : Ref sig .tc := ⟨.hbm, 666, rfl⟩
abbrev main_v352 : Ref sig .tc := ⟨.hbm, 667, rfl⟩
abbrev main_cst_70 : Ref sig .tc := ⟨.hbm, 668, rfl⟩
abbrev main_v353 : Ref sig .tc := ⟨.hbm, 669, rfl⟩
abbrev main_v354 : Ref sig .tc := ⟨.hbm, 670, rfl⟩
abbrev main_cst_71 : Ref sig .tc := ⟨.hbm, 671, rfl⟩
abbrev main_cst_72 : Ref sig .tc := ⟨.hbm, 672, rfl⟩
abbrev main_call17_v0 : Ref sig .tc := ⟨.hbm, 673, rfl⟩
abbrev main_call17_v1 : Ref sig .tc := ⟨.hbm, 674, rfl⟩
abbrev main_call17_v2 : Ref sig .tc := ⟨.hbm, 675, rfl⟩
abbrev main_call17_v3 : Ref sig .tc := ⟨.hbm, 676, rfl⟩
abbrev main_call17_v4 : Ref sig .tc := ⟨.hbm, 677, rfl⟩
abbrev main_v355 : Ref sig .tc := ⟨.hbm, 678, rfl⟩
abbrev main_cst_73 : Ref sig .tc := ⟨.hbm, 679, rfl⟩
abbrev main_v356 : Ref sig .tc := ⟨.hbm, 680, rfl⟩
abbrev main_cst_74 : Ref sig .tc := ⟨.hbm, 681, rfl⟩
abbrev main_v357 : Ref sig .tc := ⟨.hbm, 682, rfl⟩
abbrev main_cst_75 : Ref sig .tc := ⟨.hbm, 683, rfl⟩
abbrev main_v358 : Ref sig .tc := ⟨.hbm, 684, rfl⟩
abbrev main_v359 : Ref sig .tc := ⟨.hbm, 685, rfl⟩
abbrev main_v360 : Ref sig .tc := ⟨.hbm, 686, rfl⟩
abbrev main_v361 : Ref sig .tc := ⟨.hbm, 687, rfl⟩
abbrev main_v362 : Ref sig .tc := ⟨.hbm, 688, rfl⟩
abbrev main_v363 : Ref sig .tc := ⟨.hbm, 689, rfl⟩
abbrev main_v364 : Ref sig .tc := ⟨.hbm, 690, rfl⟩
abbrev main_v365 : Ref sig .tc := ⟨.hbm, 691, rfl⟩
abbrev main_v366 : Ref sig .tc := ⟨.hbm, 692, rfl⟩
abbrev main_v367 : Ref sig .tc := ⟨.hbm, 693, rfl⟩
abbrev main_cst_76 : Ref sig .tc := ⟨.hbm, 694, rfl⟩
abbrev main_v368 : Ref sig .tc := ⟨.hbm, 695, rfl⟩
abbrev main_v369 : Ref sig .tc := ⟨.hbm, 696, rfl⟩
abbrev main_v370 : Ref sig .tc := ⟨.hbm, 697, rfl⟩
abbrev main_v371 : Ref sig .tc := ⟨.hbm, 698, rfl⟩
abbrev main_v372 : Ref sig .tc := ⟨.hbm, 699, rfl⟩
abbrev main_v373 : Ref sig .tc := ⟨.hbm, 700, rfl⟩
abbrev main_v374 : Ref sig .tc := ⟨.hbm, 701, rfl⟩
abbrev main_v375 : Ref sig .tc := ⟨.hbm, 702, rfl⟩
abbrev main_cst_77 : Ref sig .tc := ⟨.hbm, 703, rfl⟩
abbrev main_v376 : Ref sig .tc := ⟨.hbm, 704, rfl⟩
abbrev main_v377 : Ref sig .tc := ⟨.hbm, 705, rfl⟩
abbrev main_v378 : Ref sig .tc := ⟨.hbm, 706, rfl⟩
abbrev main_v379 : Ref sig .tc := ⟨.hbm, 707, rfl⟩
abbrev main_v380 : Ref sig .tc := ⟨.hbm, 708, rfl⟩
abbrev main_v381 : Ref sig .tc := ⟨.hbm, 709, rfl⟩
abbrev main_cst_78 : Ref sig .tc := ⟨.hbm, 710, rfl⟩
abbrev main_v382 : Ref sig .tc := ⟨.hbm, 711, rfl⟩
abbrev main_v383 : Ref sig .tc := ⟨.hbm, 712, rfl⟩
abbrev main_v384 : Ref sig .tc := ⟨.hbm, 713, rfl⟩
abbrev main_v385 : Ref sig .tc := ⟨.hbm, 714, rfl⟩
abbrev main_cst_79 : Ref sig .tc := ⟨.hbm, 715, rfl⟩
abbrev main_v386 : Ref sig .tc := ⟨.hbm, 716, rfl⟩
abbrev main_v387 : Ref sig .tc := ⟨.hbm, 717, rfl⟩
abbrev main_cst_80 : Ref sig .tc := ⟨.hbm, 718, rfl⟩
abbrev main_v388 : Ref sig .tc := ⟨.hbm, 719, rfl⟩
abbrev main_v389 : Ref sig .tc := ⟨.hbm, 720, rfl⟩
abbrev main_v390 : Ref sig .tc := ⟨.hbm, 721, rfl⟩
abbrev main_v391 : Ref sig .tc := ⟨.hbm, 722, rfl⟩
abbrev main_v392 : Ref sig .tc := ⟨.hbm, 723, rfl⟩
abbrev main_v393 : Ref sig .tc := ⟨.hbm, 724, rfl⟩
abbrev main_v394 : Ref sig .tc := ⟨.hbm, 725, rfl⟩
abbrev main_v395 : Ref sig .tc := ⟨.hbm, 726, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S4096x512_S1x4096x512_1_2 : S4096x512.BroadcastsInDim S1x4096x512 (![1, 2] : Fin 2 → Fin S1x4096x512.rank)
  reducesTo_S1x4096x512_S4096x512_d0 : S1x4096x512.ReducesTo [0] S4096x512
  h_S_ : 0 < S_.numel
  bcast_S_S4096x512 : S_.BroadcastsInDim S4096x512 (![] : Fin 0 → Fin S4096x512.rank)
  slices_S4x512_S1x512_0_0 : S4x512.Slices ![0, 0] S1x512
  shapeCasts_S1x512_S512 : S1x512.ShapeCasts S512
  bcast_S_S512 : S_.BroadcastsInDim S512 (![] : Fin 0 → Fin S512.rank)
  reducesTo_S4096x512_S4096_d1 : S4096x512.ReducesTo [1] S4096
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  slices_S4x128_S1x128_0_0 : S4x128.Slices ![0, 0] S1x128
  shapeCasts_S1x128_S128 : S1x128.ShapeCasts S128
  bcast_S128_S4096x128_1 : S128.BroadcastsInDim S4096x128 (![1] : Fin 1 → Fin S4096x128.rank)
  concatenates_S4096x512_S4096x128_S4096x640_d1 : Shape.Concatenates [S4096x512, S4096x128] S4096x640 1
  transposes_S256x640_S640x256_1_0 : S256x640.Transposes [1, 0] S640x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  bcast_S4096x1_S4096x128_0_1 : S4096x1.BroadcastsInDim S4096x128 (![0, 1] : Fin 2 → Fin S4096x128.rank)
  bcast_S_S4096x128 : S_.BroadcastsInDim S4096x128 (![] : Fin 0 → Fin S4096x128.rank)
  transposes_S1x128_S128x1_1_0 : S1x128.Transposes [1, 0] S128x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  reducesTo_S4096_S_d0 : S4096.ReducesTo [0] S_
  bcast_S1024_S1x1x1024_2 : S1024.BroadcastsInDim S1x1x1024 (![2] : Fin 1 → Fin S1x1x1024.rank)
  bcast_S1x1x1024_S1x4096x1024_0_1_2 : S1x1x1024.BroadcastsInDim S1x4096x1024 (![0, 1, 2] : Fin 3 → Fin S1x4096x1024.rank)
  slices_S1x4096x1024_S1x4096x512_0_0_0 : S1x4096x1024.Slices ![0, 0, 0] S1x4096x512
  slices_S2x512_S1x512_0_0 : S2x512.Slices ![0, 0] S1x512
  bcast_S512_S1x1x512_2 : S512.BroadcastsInDim S1x1x512 (![2] : Fin 1 → Fin S1x1x512.rank)
  bcast_S1x1x512_S1x4096x512_0_1_2 : S1x1x512.BroadcastsInDim S1x4096x512 (![0, 1, 2] : Fin 3 → Fin S1x4096x512.rank)
  slices_S1x4096x1024_S1x4096x512_0_0_512 : S1x4096x1024.Slices ![0, 0, 512] S1x4096x512
  slices_S2x512_S1x512_1_0 : S2x512.Slices ![1, 0] S1x512
  concatenates_S1x4096x512_S1x4096x512_S2x4096x512_d0 : Shape.Concatenates [S1x4096x512, S1x4096x512] S2x4096x512 0
  reducesTo_S2x4096x512_S4096x512_d0 : S2x4096x512.ReducesTo [0] S4096x512
  slices_S4x512_S1x512_1_0 : S4x512.Slices ![1, 0] S1x512
  slices_S4x128_S1x128_1_0 : S4x128.Slices ![1, 0] S1x128
  bcast_S1x1x1024_S2x4096x1024_0_1_2 : S1x1x1024.BroadcastsInDim S2x4096x1024 (![0, 1, 2] : Fin 3 → Fin S2x4096x1024.rank)
  slices_S2x4096x1024_S2x4096x512_0_0_0 : S2x4096x1024.Slices ![0, 0, 0] S2x4096x512
  bcast_S1x1x512_S2x4096x512_0_1_2 : S1x1x512.BroadcastsInDim S2x4096x512 (![0, 1, 2] : Fin 3 → Fin S2x4096x512.rank)
  slices_S2x4096x1024_S2x4096x512_0_0_512 : S2x4096x1024.Slices ![0, 0, 512] S2x4096x512
  concatenates_S2x4096x512_S2x4096x512_S4x4096x512_d0 : Shape.Concatenates [S2x4096x512, S2x4096x512] S4x4096x512 0
  reducesTo_S4x4096x512_S4096x512_d0 : S4x4096x512.ReducesTo [0] S4096x512
  slices_S4x512_S1x512_2_0 : S4x512.Slices ![2, 0] S1x512
  slices_S4x128_S1x128_2_0 : S4x128.Slices ![2, 0] S1x128
  bcast_S1x1x1024_S4x4096x1024_0_1_2 : S1x1x1024.BroadcastsInDim S4x4096x1024 (![0, 1, 2] : Fin 3 → Fin S4x4096x1024.rank)
  slices_S4x4096x1024_S4x4096x512_0_0_0 : S4x4096x1024.Slices ![0, 0, 0] S4x4096x512
  bcast_S1x1x512_S4x4096x512_0_1_2 : S1x1x512.BroadcastsInDim S4x4096x512 (![0, 1, 2] : Fin 3 → Fin S4x4096x512.rank)
  slices_S4x4096x1024_S4x4096x512_0_0_512 : S4x4096x1024.Slices ![0, 0, 512] S4x4096x512
  concatenates_S4x4096x512_S4x4096x512_S8x4096x512_d0 : Shape.Concatenates [S4x4096x512, S4x4096x512] S8x4096x512 0
  reducesTo_S8x4096x512_S4096x512_d0 : S8x4096x512.ReducesTo [0] S4096x512
  transposes_S32000x512_S512x32000_1_0 : S32000x512.Transposes [1, 0] S512x32000
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  gather_S32000x512_S4096x1_S4096x512_1_0_n_n_0_1_1512_wf : GatherDims.WF S32000x512 S4096x1 S4096x512 [1] [0] [] [0] [] 1 ![1, 512]
  dot_S4096x512_S512x512_S4096x512_1_0_0_1_n_n_wf : DotDims.WF S4096x512 S512x512 S4096x512 [1] [0] [0] [1] [] []
  dot_S4096x640_S640x256_S4096x256_1_0_0_1_n_n_wf : DotDims.WF S4096x640 S640x256 S4096x256 [1] [0] [0] [1] [] []
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []
  dot_S1x4096x512_S1024x512_S1x4096x1024_2_1_01_0_n_n_wf : DotDims.WF S1x4096x512 S1024x512 S1x4096x1024 [2] [1] [0, 1] [0] [] []
  dot_S2x4096x512_S1024x512_S2x4096x1024_2_1_01_0_n_n_wf : DotDims.WF S2x4096x512 S1024x512 S2x4096x1024 [2] [1] [0, 1] [0] [] []
  dot_S4x4096x512_S1024x512_S4x4096x1024_2_1_01_0_n_n_wf : DotDims.WF S4x4096x512 S1024x512 S4x4096x1024 [2] [1] [0, 1] [0] [] []
  dot_S4096x512_S512x32000_S4096x32000_1_0_0_1_n_n_wf : DotDims.WF S4096x512 S512x32000 S4096x32000 [1] [0] [0] [1] [] []

variable [Facts₀]

def gather_S32000x512_S4096x1_S4096x512_1_0_n_n_0_1_1512 : GatherDims S32000x512 S4096x1 S4096x512 where
  offsetDims := [1]
  collapsedSliceDims := [0]
  operandBatchingDims := []
  startIndicesBatchingDims := []
  startIndexMap := [0]
  indexVectorDim := 1
  sliceSizes := ![1, 512]
  wf := gather_S32000x512_S4096x1_S4096x512_1_0_n_n_0_1_1512_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x640_S640x256_S4096x256_1_0_0_1_n_n : DotDims S4096x640 S640x256 S4096x256 where
  lhsContracting := [1]
  rhsContracting := [0]
  lhsNonContracting := [0]
  rhsNonContracting := [1]
  lhsBatch := []
  rhsBatch := []
  wf := dot_S4096x640_S640x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S1x4096x512_S1024x512_S1x4096x1024_2_1_01_0_n_n : DotDims S1x4096x512 S1024x512 S1x4096x1024 where
  lhsContracting := [2]
  rhsContracting := [1]
  lhsNonContracting := [0, 1]
  rhsNonContracting := [0]
  lhsBatch := []
  rhsBatch := []
  wf := dot_S1x4096x512_S1024x512_S1x4096x1024_2_1_01_0_n_n_wf
def dot_S2x4096x512_S1024x512_S2x4096x1024_2_1_01_0_n_n : DotDims S2x4096x512 S1024x512 S2x4096x1024 where
  lhsContracting := [2]
  rhsContracting := [1]
  lhsNonContracting := [0, 1]
  rhsNonContracting := [0]
  lhsBatch := []
  rhsBatch := []
  wf := dot_S2x4096x512_S1024x512_S2x4096x1024_2_1_01_0_n_n_wf
def dot_S4x4096x512_S1024x512_S4x4096x1024_2_1_01_0_n_n : DotDims S4x4096x512 S1024x512 S4x4096x1024 where
  lhsContracting := [2]
  rhsContracting := [1]
  lhsNonContracting := [0, 1]
  rhsNonContracting := [0]
  lhsBatch := []
  rhsBatch := []
  wf := dot_S4x4096x512_S1024x512_S4x4096x1024_2_1_01_0_n_n_wf
def dot_S4096x512_S512x32000_S4096x32000_1_0_0_1_n_n : DotDims S4096x512 S512x32000 S4096x32000 where
  lhsContracting := [1]
  rhsContracting := [0]
  lhsNonContracting := [0]
  rhsNonContracting := [1]
  lhsBatch := []
  rhsBatch := []
  wf := dot_S4096x512_S512x32000_S4096x32000_1_0_0_1_n_n_wf

class Facts : Prop extends Facts₀ where

variable [Facts]
-- ==== Proof.Spec.lean ====
/-
  The specification of the last layer, shared by both programs: the logits are the pooled hidden state
  times the output embedding, contracted over the hidden axis, plus the output bias.
-/
import Idealize.ShloMosaic.PureOps.Ideal
import Idealize.ShloMosaic.Lib.ValueIdx

noncomputable section

namespace Cert.Spec

open Idealize.ShloMosaic Idealize.ShloMosaic.ValueIdx

/-- One logit: token `r`'s pooled state against vocabulary row `v` of the output embedding, summed over the
    512 hidden coordinates, plus that row's bias (the bias as a one-row matrix). -/
def logitAt (p : (⟨2, ![4096, 512]⟩ : Shape).Idx → EReal) (w : (⟨2, ![32000, 512]⟩ : Shape).Idx → EReal)
    (b : (⟨2, ![1, 32000]⟩ : Shape).Idx → EReal) (r : Fin 4096) (v : Fin 32000) : EReal :=
  (∑ k : Fin 512, p (ix2 r k) * w (ix2 v k)) + b (ix2 (0 : Fin 1) v)

/-- The logits as one array over [4096, 32000]. -/
def logits (p : (⟨2, ![4096, 512]⟩ : Shape).Idx → EReal) (w : (⟨2, ![32000, 512]⟩ : Shape).Idx → EReal)
    (b : (⟨2, ![1, 32000]⟩ : Shape).Idx → EReal) : (⟨2, ![4096, 32000]⟩ : Shape).Idx → EReal :=
  fun j => logitAt p w b (j 0) (j 1)

theorem logits_apply (p : (⟨2, ![4096, 512]⟩ : Shape).Idx → EReal) (w : (⟨2, ![32000, 512]⟩ : Shape).Idx → EReal)
    (b : (⟨2, ![1, 32000]⟩ : Shape).Idx → EReal) (r : Fin 4096) (v : Fin 32000) :
    logits p w b (ix2 r v) = logitAt p w b r v := rfl

end Cert.Spec

end
-- ==== Proof.KernelOutPayload.lean ====
/-
  One entry of the kernel body's result block.

  The body multiplies a 1024 x 512 block of pooled states by the transpose of a 3200 x 512 block of output-embedding
  rows, accumulating from zero, and adds the 3200 biases of those rows to every row of the product. Read at
  (p, q) this is the sum over the 512 hidden coordinates of the products of row p of the first block and row q of
  the second, plus bias q.
-/
import proofs.«125887_j14422500180043_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.OutValue

open Cert.KernelIdeal Cert.KernelIdeal.Gen Idealize.ShloMosaic Idealize.ShloMosaic.ValueIdx

/-- The contraction of the body's product runs over one axis of extent 512: at output entry (p, q) and hidden
    coordinate k the left factor is read at (p, k). -/
theorem lhs_index (p : Fin 1024) (q : Fin 3200) (k : Fin 512) :
    dot_S1024x512_S3200x512_S1024x3200_1_1_0_0_n_n.lhsIdx (ix2 p q)
      ((contrEquiv1 dot_S1024x512_S3200x512_S1024x3200_1_1_0_0_n_n 512 rfl rfl).symm k) = ix2 p k := by
  funext ax; apply Fin.ext
  match ax with
  | ⟨0, _⟩ => simp [DotDims.lhsIdx, dot_S1024x512_S3200x512_S1024x3200_1_1_0_0_n_n]; rfl
  | ⟨1, _⟩ =>
    exact (DotDims.lhsIdx_val_of_single dot_S1024x512_S3200x512_S1024x3200_1_1_0_0_n_n (cl := 1) rfl (ix2 p q) _).trans
      (contrEquiv1_symm_val dot_S1024x512_S3200x512_S1024x3200_1_1_0_0_n_n 512 rfl rfl k)

/-- … and the right factor at (q, k): the second block is contracted along its rows' hidden axis too. -/
theorem rhs_index (p : Fin 1024) (q : Fin 3200) (k : Fin 512) :
    dot_S1024x512_S3200x512_S1024x3200_1_1_0_0_n_n.rhsIdx (ix2 p q)
      ((contrEquiv1 dot_S1024x512_S3200x512_S1024x3200_1_1_0_0_n_n 512 rfl rfl).symm k) = ix2 q k := by
  funext ax; apply Fin.ext
  match ax with
  | ⟨0, _⟩ => simp [DotDims.rhsIdx, dot_S1024x512_S3200x512_S1024x3200_1_1_0_0_n_n]; rfl
  | ⟨1, _⟩ =>
    exact (DotDims.rhsIdx_val_of_single dot_S1024x512_S3200x512_S1024x3200_1_1_0_0_n_n (cr := 1) rfl (ix2 p q) _).trans
      (contrEquiv1_symm_val dot_S1024x512_S3200x512_S1024x3200_1_1_0_0_n_n 512 rfl rfl k)

/-- The product accumulated from zero, at entry (p, q): row p of the first block against row q of the second. -/
theorem product_apply (a : FVec Ideal S1024x512 .bf16) (b : FVec Ideal S3200x512 .bf16) (p : Fin 1024) (q : Fin 3200) :
    matmul dot_S1024x512_S3200x512_S1024x3200_1_1_0_0_n_n none a b
      (constant (F := Ideal) S1024x3200 .f32 0x00000000#32) (ix2 p q) = ∑ k : Fin 512, a (ix2 p k) * b (ix2 q k) := by
  show FloatOps.matmul dot_S1024x512_S3200x512_S1024x3200_1_1_0_0_n_n none a b
    (constant (F := Ideal) S1024x3200 .f32 0x00000000#32) (ix2 p q) = _
  rw [Ideal.matmul_constant_zero_apply,
    ← Equiv.sum_comp (contrEquiv1 dot_S1024x512_S3200x512_S1024x3200_1_1_0_0_n_n 512 rfl rfl).symm]
  refine Finset.sum_congr rfl fun k _ => ?_
  rw [lhs_index, rhs_index]

/-- The bias row spread over the block's 1024 rows, at entry (p, q): bias q. -/
theorem bias_apply (x : FVec Ideal S1x3200 .f32) (p : Fin 1024) (q : Fin 3200) :
    broadcastTo S1024x3200 x broadcasts_S1x3200_S1024x3200 (ix2 p q) = x (ix2 (0 : Fin 1) q) :=
  broadcastTo_apply x broadcasts_S1x3200_S1024x3200 (ix2 p q) (ix2 (0 : Fin 1) q) fun a => by
    match a with
    | ⟨0, _⟩ => rfl
    | ⟨1, _⟩ => rfl

/-- The body's result at entry (p, q) of its block. -/
theorem payload_apply (x0 : Vec Ideal S1024x512 .bf16) (x2 : Vec Ideal S3200x512 .bf16) (x5 : Vec Ideal S1x3200 .f32)
    (p : Fin 1024) (q : Fin 3200) :
    Gen.k0_pay1 x0 x2 x5 (ix2 p q) = (∑ k : Fin 512, x0 (ix2 p k) * x2 (ix2 q k)) + x5 (ix2 (0 : Fin 1) q) := by
  unfold Gen.k0_pay1
  rw [shapeCast_self, shapeCast_self, shapeCast_self, addf_apply]
  exact congrArg₂ (· + ·) (product_apply x0 x2 p q) (bias_apply x5 p q)

end Cert.KernelIdeal.OutValue

end
-- ==== Proof.KernelOutBlocks.lean ====
/-
  Each grid point's result block is a block of ONE array, and the blocks tile the result.

  The grid has 10 x 4 points. Point (iv, jn) reads rows 1024 jn … 1024 jn + 1023 of the pooled states, rows
  3200 iv … 3200 iv + 3199 of the output embedding and the biases of those rows, and produces the 1024 x 3200 block
  at block position (jn, iv) of a 4096 x 32000 array. Entry (p, q) of that block is the logit of token
  1024 jn + p against vocabulary row 3200 iv + q. So, whatever three arrays the blocks are read from, the block a
  point produces is that point's block of the logits of those arrays; and the 4 x 10 block positions are all
  taken, so every entry of the 4096 x 32000 array lies in some point's block.
-/
import proofs.«125887_j14422500180043_2_alg».proof.Proof.Gen.KernelIdeal.Points
import proofs.«125887_j14422500180043_2_alg».proof.Proof.Spec
import proofs.«125887_j14422500180043_2_alg».proof.Proof.KernelOutPayload

noncomputable section

open scoped BigOperators

namespace Cert.KernelIdeal.OutValue

open Cert.KernelIdeal Cert.KernelIdeal.Gen Idealize.ShloMosaic Idealize.ShloMosaic.TcCoe Idealize.SL.Sem
open Idealize.ShloMosaic.ValueIdx

/-- Where the four windows sit at each of the 40 points: the pooled-state block moves with the result's row block,
    the embedding and bias blocks with its column block; the hidden axis and the bias row are never split; the
    result's block position stays inside 4 x 10. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 9 :=
  (by decide +kernel : ∀ t : Fin grid0.N, _)

/-- Every block position of the result is some point's. -/
theorem every_position : ∀ (a : Fin 4) (b : Fin 10), ∃ t : Fin cfg0.N, win0_3.index t = ![a.val, b.val] :=
  (by decide +kernel : ∀ (a : Fin 4) (b : Fin 10), ∃ t : Fin grid0.N, win0_3.index t = ![a.val, b.val])

/-- One entry of a result block from the blocks it is computed from, when those blocks are rows of three arrays
    P, W, B: if row p of the first block is row r of P, row q of the second is row v of W and entry q of the third
    is bias v, the entry is the logit of r against v. -/
theorem entry_of_rows (P : (⟨2, ![4096, 512]⟩ : Shape).Idx → EReal) (W : (⟨2, ![32000, 512]⟩ : Shape).Idx → EReal)
    (B : (⟨2, ![1, 32000]⟩ : Shape).Idx → EReal)
    (x0 : Vec Ideal S1024x512 .bf16) (x2 : Vec Ideal S3200x512 .bf16) (x5 : Vec Ideal S1x3200 .f32)
    (r : Fin 4096) (v : Fin 32000) (p : Fin 1024) (q : Fin 3200)
    (h0 : ∀ k : Fin 512, x0 (ix2 p k) = P (ix2 r k)) (h2 : ∀ k : Fin 512, x2 (ix2 q k) = W (ix2 v k))
    (h5 : x5 (ix2 (0 : Fin 1) q) = B (ix2 (0 : Fin 1) v)) :
    Gen.k0_pay1 x0 x2 x5 (ix2 p q) = Cert.Spec.logitAt P W B r v := by
  rw [payload_apply]
  unfold Cert.Spec.logitAt
  rw [h5]
  exact congrArg (· + B (ix2 (0 : Fin 1) v)) (Finset.sum_congr rfl fun k _ => by rw [h0 k, h2 k])

/-- THE BLOCK A POINT PRODUCES from its blocks of three arrays P, W, B is its block of their logits. -/
theorem block_of_logits (P : (⟨2, ![4096, 512]⟩ : Shape).Idx → EReal) (W : (⟨2, ![32000, 512]⟩ : Shape).Idx → EReal)
    (B : (⟨2, ![1, 32000]⟩ : Shape).Idx → EReal) (t : Fin cfg0.N) :
    (cfg0.win 3).cut (grid0.coords t)
        (Gen.k0_pay1 (((cfg0.win 0).blk t).view.read (Elt Ideal) P) (((cfg0.win 1).blk t).view.read (Elt Ideal) W)
          (((cfg0.win 2).blk t).view.read (Elt Ideal) B))
      = ((cfg0.win 3).blk t).view.read (Elt Ideal) (Cert.Spec.logits P W B) := by
  obtain ⟨e0, e1, e2, e3, e4, e5, e6, e7⟩ := block_positions t
  funext j
  obtain ⟨p, q, rfl⟩ : ∃ (p : Fin 1024) (q : Fin 3200), j = ix2 p q := ⟨j 0, j 1, eq_ix2 j⟩
  -- the row and the column of the result this entry lands on
  have hr : win0_3.index t (0 : Fin 2) * 1024 + p.val < 4096 := by omega
  have hv : win0_3.index t (1 : Fin 2) * 3200 + q.val < 32000 := by omega
  show Gen.k0_pay1 (((cfg0.win 0).blk t).view.read (Elt Ideal) P) (((cfg0.win 1).blk t).view.read (Elt Ideal) W)
      (((cfg0.win 2).blk t).view.read (Elt Ideal) B) (ix2 p q)
    = Cert.Spec.logitAt P W B ⟨win0_3.index t (0 : Fin 2) * 1024 + 1 * p.val, by omega⟩
        ⟨win0_3.index t (1 : Fin 2) * 3200 + 1 * q.val, by omega⟩
  refine entry_of_rows P W B (((cfg0.win 0).blk t).view.read (Elt Ideal) P) (((cfg0.win 1).blk t).view.read (Elt Ideal) W)
    (((cfg0.win 2).blk t).view.read (Elt Ideal) B) _ _ p q (fun k => ?_) (fun k => ?_) ?_
  · show P (((cfg0.win 0).blk t).view.emb (ix2 p k)) = P _
    refine congrArg P (funext fun a => Fin.ext ?_)
    match a with
    | ⟨0, _⟩ =>
      show win0_0.index t (0 : Fin 2) * 1024 + 1 * p.val = win0_3.index t (0 : Fin 2) * 1024 + 1 * p.val
      omega
    | ⟨1, _⟩ => show win0_0.index t (1 : Fin 2) * 512 + 1 * k.val = k.val; omega
  · show W (((cfg0.win 1).blk t).view.emb (ix2 q k)) = W _
    refine congrArg W (funext fun a => Fin.ext ?_)
    match a with
    | ⟨0, _⟩ =>
      show win0_1.index t (0 : Fin 2) * 3200 + 1 * q.val = win0_3.index t (1 : Fin 2) * 3200 + 1 * q.val
      omega
    | ⟨1, _⟩ => show win0_1.index t (1 : Fin 2) * 512 + 1 * k.val = k.val; omega
  · show B (((cfg0.win 2).blk t).view.emb (ix2 (0 : Fin 1) q)) = B _
    refine congrArg B (funext fun a => Fin.ext ?_)
    match a with
    | ⟨0, _⟩ => show win0_2.index t (0 : Fin 2) * 1 + 1 * 0 = 0; omega
    | ⟨1, _⟩ =>
      show win0_2.index t (1 : Fin 2) * 3200 + 1 * q.val = win0_3.index t (1 : Fin 2) * 3200 + 1 * q.val
      omega

/-- An index of the result is in point t's block iff each coordinate is in the block's range on its axis. -/
theorem mem_block (t : Fin cfg0.N) (i : S4096x32000.Idx) :
    i ∈ ((cfg0.win 3).blk t).view.set ↔ ∀ a : Fin 2, win0_3.index t a * S1024x3200.size a ≤ (i a).val
      ∧ (i a).val < win0_3.index t a * S1024x3200.size a + S1024x3200.size a := by
  show i ∈ ((View.whole main_v362).slice (win0_3.rect t)).set ↔ _
  rw [View.set_slice_whole, Rect.mem_set_unit]
  exact Iff.rfl

/-- The 40 blocks cover the result: entry (r, v) lies in the block at position (r / 1024, v / 3200). -/
theorem covered (i : S4096x32000.Idx) :
    ∃ t : Fin cfg0.N, (cfg0.win 3).flush t = true ∧ i ∈ ((cfg0.win 3).blk t).view.set := by
  have hi0 : (i 0).val < 4096 := (i 0).isLt
  have hi1 : (i 1).val < 32000 := (i 1).isLt
  obtain ⟨t, ht⟩ := every_position ⟨(i 0).val / 1024, by omega⟩ ⟨(i 1).val / 3200, by omega⟩
  have q0 : win0_3.index t (0 : Fin 2) = (i 0).val / 1024 := congrFun ht 0
  have q1 : win0_3.index t (1 : Fin 2) = (i 1).val / 3200 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 3200 ≤ (i 1).val ∧ (i 1).val < win0_3.index t (1 : Fin 2) * 3200 + 3200
    omega

end Cert.KernelIdeal.OutValue

end
-- ==== Proof.KernelOut.lean ====
/-
  The kernel's output array after the run.

  What each of the 40 grid points writes back is the body's result block, computed from that point's blocks of the
  three arrays the kernel is launched on: the pooled states, the output embedding and the bias row, as the kernel
  finds them. That block is the point's block of the logits of those three arrays, and the blocks tile the
  4096 x 32000 result; so after the run the result holds exactly those logits, and no argument has changed.
-/
import proofs.«125887_j14422500180043_2_alg».proof.Proof.KernelIdealValueP
import proofs.«125887_j14422500180043_2_alg».proof.Proof.KernelOutBlocks

noncomputable section

namespace Cert.KernelIdeal.OutValue

open Cert.KernelIdeal Cert.KernelIdeal.Gen Cert.KernelIdeal.GenP Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body loads and stores its whole staging buffers: every offset is zero. -/
theorem zero_offsets : (![0, 0] : Fin 2 → Nat) = fun _ => 0 := funext fun a => by fin_cases a <;> rfl

/-- WHAT POINT t WRITES BACK is its block of the logits of the three staged arrays. -/
theorem flushed_eq (c : Dev nD) (t : Fin cfg0.N) :
    (dats m 0 c).flushed 3 t = ((cfg0.win 3).blk t).view.read (Elt Ideal)
      (Cert.Spec.logits (V m c main_v359) (V m c main_v360) (V m c main_v361)) := by
  rw [ValueP.flushed3]
  unfold GenP.out0_3
  rw [View.canon_unit_zero zero_offsets]
  simp only [View.ld_unit_zero (S := S1024x512) zero_offsets, View.ld_unit_zero (S := S3200x512) zero_offsets,
    View.ld_unit_zero (S := S1x3200) zero_offsets]
  exact block_of_logits (V m c main_v359) (V m c main_v360) (V m c main_v361) t

/-- THE RESULT after the run is the logits of the three staged arrays. -/
theorem final (c : Dev nD) : (dats m 0 c).arrAt 3 cfg0.N
    = Cert.Spec.logits (V m c main_v359) (V m c main_v360) (V m c main_v361) :=
  (dats m 0 c).arrAt_eq_of_cover 3 (Cert.Spec.logits (V m c main_v359) (V m c main_v360) (V m c main_v361))
    (fun t _ => flushed_eq m c t) covered

/-- The run, read: the result holds the logits of the pooled states, the output embedding and the bias row as the
    kernel finds them, and every argument is unchanged. -/
theorem run : θ_run (defs (F := Ideal)) (onTc (τ := τ) (main (F := Ideal))) ⟨m, fun _ => 0, ρ⟩ fun r => ∀ c : Dev nD,
      r.2.mem ((c : Thread nD τ).loc main_v362)
        = Cert.Spec.logits (GenP.V m c main_v359) (GenP.V m c main_v360) (GenP.V m c main_v361)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (ValueP.run_blocks m ρ)

end Cert.KernelIdeal.OutValue

end
-- ==== Proof.Region.lean ====
/-
  Reading one buffer of a long straight line of host operations through a MIDDLE stretch of it.
  A line is cut as  start ++ (middle ++ rest).  In these programs every operation writes its own fresh buffer, so
    * a buffer the rest does not write holds, at the end, what the middle computes from what the start left (out_eq);
    * a buffer that neither the middle nor the rest writes holds after the start already what it holds at the end (in_eq).
  Which buffers a stretch writes is recorded as a list of references; "not written" is then a finite check.
-/
import Idealize.ShloMosaic.Lib.StableHlo.Run
import Idealize.ShloMosaic.Lib.Pipeline.Frame

namespace Cert.Region

open Idealize.ShloMosaic Idealize.ShloMosaic.StableHlo

variable {τ : Topo} {sig : RefSig} {Val : EltTy → Type}

/-- Every operation of the line writes only references of the list `T`. -/
def WritesIn (ops : List (HloOp τ sig Val)) (T : List (Ref sig .tc)) : Prop :=
  ops.Forall fun op => op.writes ⊆ (T.map (Proc.devRef (τ := τ) .tc)).toFinset

theorem WritesIn.mono {ops : List (HloOp τ sig Val)} {T T' : List (Ref sig .tc)} (h : WritesIn ops T)
    (hsub : ∀ r ∈ T, r ∈ T') : WritesIn ops T' :=
  List.forall_iff_forall_mem.mpr fun op hop => (List.forall_iff_forall_mem.mp h op hop).trans fun b hb => by
    obtain ⟨r, hr, rfl⟩ := List.mem_map.mp (List.mem_toFinset.mp hb)
    exact List.mem_toFinset.mpr (List.mem_map_of_mem (hsub r hr))

theorem WritesIn.append {A B : List (HloOp τ sig Val)} {TA TB : List (Ref sig .tc)} (hA : WritesIn A TA)
    (hB : WritesIn B TB) : WritesIn (A ++ B) (TA ++ TB) :=
  List.forall_iff_forall_mem.mpr fun op hop => by
    rcases List.mem_append.mp hop with h | h
    · exact List.forall_iff_forall_mem.mp (hA.mono fun r hr => List.mem_append_left _ hr) op h
    · exact List.forall_iff_forall_mem.mp (hB.mono fun r hr => List.mem_append_right _ hr) op h

theorem writesIn_nil : WritesIn ([] : List (HloOp τ sig Val)) [] := List.forall_iff_forall_mem.mpr fun _ h => nomatch h

/-- Lines and their tables, concatenated. -/
theorem writesIn_flatten : ∀ {L : List (List (HloOp τ sig Val))} {T : List (List (Ref sig .tc))},
    List.Forall₂ WritesIn L T → WritesIn L.flatten T.flatten
  | _, _, .nil => writesIn_nil
  | _, _, .cons h hs => by rw [List.flatten_cons, List.flatten_cons]; exact h.append (writesIn_flatten hs)

/-- A buffer the line does not write keeps its contents. -/
theorem keep {ops : List (HloOp τ sig Val)} {T : List (Ref sig .tc)} (h : WritesIn ops T) (V : Valuation τ sig Val)
    {r : Ref sig .tc} (hr : r ∉ T) : after ops V (Proc.devRef .tc r) = V (Proc.devRef .tc r) :=
  after_of_writes_sub ops V h hr

/-- A buffer the rest does not write: at the end it is what the middle computes from what the start left. -/
theorem out_eq (A B C : List (HloOp τ sig Val)) (V : Valuation τ sig Val) {TC : List (Ref sig .tc)} (hC : WritesIn C TC)
    {y : Ref sig .tc} (hy : y ∉ TC) :
    after (A ++ (B ++ C)) V (Proc.devRef .tc y) = after B (after A V) (Proc.devRef .tc y) := by
  rw [StableHlo.after_append, StableHlo.after_append, keep hC _ hy]

/-- A buffer neither the middle nor the rest writes: after the start it already is what it is at the end. -/
theorem in_eq (A B C : List (HloOp τ sig Val)) (V : Valuation τ sig Val) {TB TC : List (Ref sig .tc)}
    (hB : WritesIn B TB) (hC : WritesIn C TC) {x : Ref sig .tc} (hxB : x ∉ TB) (hxC : x ∉ TC) :
    after A V (Proc.devRef .tc x) = after (A ++ (B ++ C)) V (Proc.devRef .tc x) := by
  rw [StableHlo.after_append, StableHlo.after_append, keep hC _ hxC, keep hB _ hxB]

/-- A list of lines cut at two positions. -/
theorem split_flatten {α : Type} (L : List (List α)) (i j : Nat) (h : i ≤ j) :
    L.flatten = (L.take i).flatten ++ (((L.drop i).take (j - i)).flatten ++ (L.drop j).flatten) := by
  have e1 : L = L.take i ++ ((L.drop i).take (j - i) ++ L.drop j) := by
    have : (L.drop i).drop (j - i) = L.drop j := by rw [List.drop_drop]; congr 1; omega
    rw [← this, List.take_append_drop, List.take_append_drop]
  conv_lhs => rw [e1]
  rw [List.flatten_append, List.flatten_append]

end Cert.Region
-- ==== Proof.RefRunW0.lean ====
/-
  Window 0 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 0: 15 operations of @main itself. -/
abbrev w0_l0 : List (HloOp τ sig (Elt F)) :=
  [ StableHlo.nullary main_c (constantI S_ 32 0#32),
    StableHlo.unary main_c main_v0 (broadcastInDim S4096 ![] bcast_S_S4096 : (⟨S_, .i32⟩ : BufTy).Contents (Elt F) → (⟨S4096, .i32⟩ : BufTy).Contents (Elt F)),
    StableHlo.binary main_arg0 main_v0 main_v1 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 32000#32),
    StableHlo.unary main_c_0 main_v2 (broadcastInDim S4096 ![] bcast_S_S4096 : (⟨S_, .i32⟩ : BufTy).Contents (Elt F) → (⟨S4096, .i32⟩ : BufTy).Contents (Elt F)),
    StableHlo.binary main_arg0 main_v2 main_v3 (addi : (⟨S4096, .i32⟩ : BufTy).Contents (Elt F) → (⟨S4096, .i32⟩ : BufTy).Contents (Elt F) → (⟨S4096, .i32⟩ : BufTy).Contents (Elt F)),
    StableHlo.ternary main_v1 main_v3 main_arg0 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v4 main_v5 (broadcastInDim S4096x1 ![0] bcast_S4096_S4096x1_0 : (⟨S4096, .i32⟩ : BufTy).Contents (Elt F) → (⟨S4096x1, .i32⟩ : BufTy).Contents (Elt F)),
    StableHlo.binary main_arg1 main_v5 main_v6 ((fun x i => Host.gather gather_S32000x512_S4096x1_S4096x512_1_0_n_n_0_1_1512 x i) : (⟨S32000x512, .f32⟩ : BufTy).Contents (Elt F) → (⟨S4096x1, .i32⟩ : BufTy).Contents (Elt F) → (⟨S4096x512, .f32⟩ : BufTy).Contents (Elt F)),
    StableHlo.unary main_arg2 main_v7 ((transpose S512x512 [1, 0] · transposes_S512x512_S512x512_1_0) : (⟨S512x512, .f32⟩ : BufTy).Contents (Elt F) → (⟨S512x512, .f32⟩ : BufTy).Contents (Elt F)),
    StableHlo.binary main_v6 main_v7 main_v8 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg3 main_v9 (broadcastInDim S1x512 ![1] bcast_S512_S1x512_1 : (⟨S512, .f32⟩ : BufTy).Contents (Elt F) → (⟨S1x512, .f32⟩ : BufTy).Contents (Elt F)),
    StableHlo.unary main_v9 main_v10 (broadcastInDim S4096x512 ![0, 1] bcast_S1x512_S4096x512_0_1 : (⟨S1x512, .f32⟩ : BufTy).Contents (Elt F) → (⟨S4096x512, .f32⟩ : BufTy).Contents (Elt F)),
    StableHlo.binary main_v8 main_v10 main_v11 (addf : (⟨S4096x512, .f32⟩ : BufTy).Contents (Elt F) → (⟨S4096x512, .f32⟩ : BufTy).Contents (Elt F) → (⟨S4096x512, .f32⟩ : BufTy).Contents (Elt F)),
    StableHlo.unary main_v11 main_v12 (broadcastInDim S1x4096x512 ![1, 2] bcast_S4096x512_S1x4096x512_1_2 : (⟨S4096x512, .f32⟩ : BufTy).Contents (Elt F) → (⟨S1x4096x512, .f32⟩ : BufTy).Contents (Elt F)) ]
theorem w0_l0_sub : (w0_l0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub ..⟩
/-- The buffers line 0 of window 0 writes, one per operation. -/
abbrev w0_l0_tab : List (Ref sig .tc) :=
  [ main_c, main_v0, main_v1, main_c_0, main_v2, main_v3, main_v4, main_v5, main_v6, main_v7, main_v8, main_v9, main_v10, main_v11, main_v12 ]
theorem w0_l0_writes : Cert.Region.WritesIn (τ := τ) (w0_l0 : List (HloOp τ sig (Elt F))) w0_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w0_l0_fresh : ∀ op ∈ (w0_l0 : List (HloOp τ sig (Elt F))), op.fresh = ∅ := by
  intro _ h; (repeat (cases h with | head => rfl | tail _ h => ?_)); exact nomatch h

/-- Line 1 of window 0: 20 operations of @main itself. -/
abbrev w0_l1 : List (HloOp τ sig (Elt F)) :=
  [ StableHlo.nullary main_cst (constant S_ .f32 0x00000000#32),
    StableHlo.binary main_v12 main_cst main_v13 ((fun x v => Host.reduceAdd x v reducesTo_S1x4096x512_S4096x512_d0 h_S_) : (⟨S1x4096x512, .f32⟩ : BufTy).Contents (Elt F) → (⟨S_, .f32⟩ : BufTy).Contents (Elt F) → (⟨S4096x512, .f32⟩ : BufTy).Contents (Elt F)),
    StableHlo.nullary main_cst_1 (constant S_ .f32 0x3F800000#32),
    StableHlo.unary main_cst_1 main_v14 (broadcastInDim S4096x512 ![] bcast_S_S4096x512 : (⟨S_, .f32⟩ : BufTy).Contents (Elt F) → (⟨S4096x512, .f32⟩ : BufTy).Contents (Elt F)),
    StableHlo.binary main_v13 main_v14 main_v15 (Host.divf : (⟨S4096x512, .f32⟩ : BufTy).Contents (Elt F) → (⟨S4096x512, .f32⟩ : BufTy).Contents (Elt F) → (⟨S4096x512, .f32⟩ : BufTy).Contents (Elt F)),
    StableHlo.unary main_arg20 main_v16 ((extractStridedSlice S1x512 ![0, 0] · slices_S4x512_S1x512_0_0) : (⟨S4x512, .f32⟩ : BufTy).Contents (Elt F) → (⟨S1x512, .f32⟩ : BufTy).Contents (Elt F)),
    StableHlo.reshape main_v16 main_v17 rfl shapeCasts_S1x512_S512,
    StableHlo.nullary main_cst_2 (constant S_ .f32 0x3C23D70A#32),
    StableHlo.unary main_cst_2 main_v18 (broadcastInDim S512 ![] bcast_S_S512 : (⟨S_, .f32⟩ : BufTy).Contents (Elt F) → (⟨S512, .f32⟩ : BufTy).Contents (Elt F)),
    StableHlo.binary main_v18 main_v17 main_v19 (mulf : (⟨S512, .f32⟩ : BufTy).Contents (Elt F) → (⟨S512, .f32⟩ : BufTy).Contents (Elt F) → (⟨S512, .f32⟩ : BufTy).Contents (Elt F)),
    StableHlo.unary main_v19 main_v20 (broadcastInDim S1x512 ![1] bcast_S512_S1x512_1 : (⟨S512, .f32⟩ : BufTy).Contents (Elt F) → (⟨S1x512, .f32⟩ : BufTy).Contents (Elt F)),
    StableHlo.unary main_v20 main_v21 (broadcastInDim S4096x512 ![0, 1] bcast_S1x512_S4096x512_0_1 : (⟨S1x512, .f32⟩ : BufTy).Contents (Elt F) → (⟨S4096x512, .f32⟩ : BufTy).Contents (Elt F)),
    StableHlo.binary main_v15 main_v21 main_v22 (addf : (⟨S4096x512, .f32⟩ : BufTy).Contents (Elt F) → (⟨S4096x512, .f32⟩ : BufTy).Contents (Elt F) → (⟨S4096x512, .f32⟩ : BufTy).Contents (Elt F)),
    StableHlo.nullary main_cst_3 (constant S_ .f32 0x00000000#32),
    StableHlo.binary main_v22 main_cst_3 main_v23 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v23 main_v24 (broadcastInDim S4096x1 ![0] bcast_S4096_S4096x1_0 : (⟨S4096, .f32⟩ : BufTy).Contents (Elt F) → (⟨S4096x1, .f32⟩ : BufTy).Contents (Elt F)),
    StableHlo.nullary main_cst_4 (constant S_ .f32 0x44000000#32),
    StableHlo.unary main_cst_4 main_v25 (broadcastInDim S4096x1 ![] bcast_S_S4096x1 : (⟨S_, .f32⟩ : BufTy).Contents (Elt F) → (⟨S4096x1, .f32⟩ : BufTy).Contents (Elt F)),
    StableHlo.binary main_v24 main_v25 main_v26 (Host.divf : (⟨S4096x1, .f32⟩ : BufTy).Contents (Elt F) → (⟨S4096x1, .f32⟩ : BufTy).Contents (Elt F) → (⟨S4096x1, .f32⟩ : BufTy).Contents (Elt F)),
    StableHlo.nullary main_c_5 (constantI S_ 32 0#32) ]
theorem w0_l1_sub : (w0_l1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 1 of window 0 writes, one per operation. -/
abbrev w0_l1_tab : List (Ref sig .tc) :=
  [ main_cst, main_v13, main_cst_1, main_v14, main_v15, main_v16, main_v17, main_cst_2, main_v18, main_v19, main_v20, main_v21, main_v22, main_cst_3, main_v23, main_v24, main_cst_4, main_v25, main_v26, main_c_5 ]
theorem w0_l1_writes : Cert.Region.WritesIn (τ := τ) (w0_l1 : List (HloOp τ sig (Elt F))) w0_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w0_l1_fresh : ∀ op ∈ (w0_l1 : List (HloOp τ sig (Elt F))), op.fresh = ∅ := by
  intro _ h; (repeat (cases h with | head => rfl | tail _ h => ?_)); exact nomatch h

/-- Line 2 of window 0: 23 operations of the outlined function called here (@var), over this call's buffers. -/
abbrev w0_l2 : List (HloOp τ sig (Elt F)) :=
  [ StableHlo.TRef.nullary main_call0.cst (constant S_ .f32 0x00000000#32),
    StableHlo.TRef.binary (.of main_v22 : StableHlo.TRef sig ⟨S4096x512, .f32⟩) main_call0.cst main_call0.v0 (fun x v => Host.reduceAdd x v reducesTo_S4096x512_S4096_d1 h_S_),
    StableHlo.TRef.unary main_call0.v0 main_call0.v1 (broadcastInDim S4096x1 ![0] bcast_S4096_S4096x1_0),
    StableHlo.TRef.nullary main_call0.cst_0 (constant S_ .f32 0x44000000#32),
    StableHlo.TRef.unary main_call0.cst_0 main_call0.v2 (broadcastInDim S4096x1 ![] bcast_S_S4096x1),
    StableHlo.TRef.binary main_call0.v1 main_call0.v2 main_call0.v3 Host.divf,
    StableHlo.TRef.unary main_call0.v3 main_call0.v4 (broadcastInDim S4096x512 ![0, 1] bcast_S4096x1_S4096x512_0_1),
    StableHlo.TRef.binary (.of main_v22 : StableHlo.TRef sig ⟨S4096x512, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x44000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4096x512_S4096_d1 h_S_),
    StableHlo.TRef.unary main_call0.v9 main_call0.v10 (broadcastInDim S4096x1 ![0] bcast_S4096_S4096x1_0),
    StableHlo.TRef.unary main_call0.v8 main_call0.v11 (broadcastInDim S4096x1 ![] bcast_S_S4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary (main_call0.cst_4 : StableHlo.TRef sig ⟨S_, .f32⟩) main_call0.call0.v0 id,
    StableHlo.TRef.unary main_call0.call0.v0 main_call0.call0.v1 (broadcastInDim S4096x1 ![] bcast_S_S4096x1),
    StableHlo.TRef.ternary (main_call0.v13 : StableHlo.TRef sig ⟨S_, .i1⟩) (main_call0.v12 : StableHlo.TRef sig ⟨S4096x1, .f32⟩) main_call0.call0.v1 main_call0.call0.v2 (fun p a b => select (broadcastInDim S4096x1 ![] bcast_S_S4096x1 p) a b) ]
theorem w0_l2_sub : (w0_l2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 2 of window 0 writes, one per operation. -/
abbrev w0_l2_tab : List (Ref sig .tc) :=
  [ main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref ]
theorem w0_l2_writes : Cert.Region.WritesIn (τ := τ) (w0_l2 : List (HloOp τ sig (Elt F))) w0_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w0_l2_fresh : ∀ op ∈ (w0_l2 : List (HloOp τ sig (Elt F))), op.fresh = ∅ := by
  intro _ h; (repeat (cases h with | head => rfl | tail _ h => ?_)); exact nomatch h

/-- Line 3 of window 0: 24 operations of @main itself. -/
abbrev w0_l3 : List (HloOp τ sig (Elt F)) :=
  [ StableHlo.unary main_v26 main_v28 (broadcastInDim S4096x512 ![0, 1] bcast_S4096x1_S4096x512_0_1 : (⟨S4096x1, .f32⟩ : BufTy).Contents (Elt F) → (⟨S4096x512, .f32⟩ : BufTy).Contents (Elt F)),
    StableHlo.binary main_v22 main_v28 main_v29 (subf : (⟨S4096x512, .f32⟩ : BufTy).Contents (Elt F) → (⟨S4096x512, .f32⟩ : BufTy).Contents (Elt F) → (⟨S4096x512, .f32⟩ : BufTy).Contents (Elt F)),
    StableHlo.nullary main_cst_6 (constant S_ .f32 0x3727C5AC#32),
    StableHlo.unary main_cst_6 main_v30 (broadcastInDim S4096x1 ![] bcast_S_S4096x1 : (⟨S_, .f32⟩ : BufTy).Contents (Elt F) → (⟨S4096x1, .f32⟩ : BufTy).Contents (Elt F)),
    StableHlo.binary main_v27 main_v30 main_v31 (addf : (⟨S4096x1, .f32⟩ : BufTy).Contents (Elt F) → (⟨S4096x1, .f32⟩ : BufTy).Contents (Elt F) → (⟨S4096x1, .f32⟩ : BufTy).Contents (Elt F)),
    StableHlo.unary main_v31 main_v32 (Host.rsqrt : (⟨S4096x1, .f32⟩ : BufTy).Contents (Elt F) → (⟨S4096x1, .f32⟩ : BufTy).Contents (Elt F)),
    StableHlo.unary main_v32 main_v33 (broadcastInDim S4096x512 ![0, 1] bcast_S4096x1_S4096x512_0_1 : (⟨S4096x1, .f32⟩ : BufTy).Contents (Elt F) → (⟨S4096x512, .f32⟩ : BufTy).Contents (Elt F)),
    StableHlo.binary main_v29 main_v33 main_v34 (mulf : (⟨S4096x512, .f32⟩ : BufTy).Contents (Elt F) → (⟨S4096x512, .f32⟩ : BufTy).Contents (Elt F) → (⟨S4096x512, .f32⟩ : BufTy).Contents (Elt F)),
    StableHlo.unary main_arg6 main_v35 (broadcastInDim S1x512 ![1] bcast_S512_S1x512_1 : (⟨S512, .f32⟩ : BufTy).Contents (Elt F) → (⟨S1x512, .f32⟩ : BufTy).Contents (Elt F)),
    StableHlo.unary main_v35 main_v36 (broadcastInDim S4096x512 ![0, 1] bcast_S1x512_S4096x512_0_1 : (⟨S1x512, .f32⟩ : BufTy).Contents (Elt F) → (⟨S4096x512, .f32⟩ : BufTy).Contents (Elt F)),
    StableHlo.binary main_v34 main_v36 main_v37 (mulf : (⟨S4096x512, .f32⟩ : BufTy).Contents (Elt F) → (⟨S4096x512, .f32⟩ : BufTy).Contents (Elt F) → (⟨S4096x512, .f32⟩ : BufTy).Contents (Elt F)),
    StableHlo.unary main_arg7 main_v38 (broadcastInDim S1x512 ![1] bcast_S512_S1x512_1 : (⟨S512, .f32⟩ : BufTy).Contents (Elt F) → (⟨S1x512, .f32⟩ : BufTy).Contents (Elt F)),
    StableHlo.unary main_v38 main_v39 (broadcastInDim S4096x512 ![0, 1] bcast_S1x512_S4096x512_0_1 : (⟨S1x512, .f32⟩ : BufTy).Contents (Elt F) → (⟨S4096x512, .f32⟩ : BufTy).Contents (Elt F)),
    StableHlo.binary main_v37 main_v39 main_v40 (addf : (⟨S4096x512, .f32⟩ : BufTy).Contents (Elt F) → (⟨S4096x512, .f32⟩ : BufTy).Contents (Elt F) → (⟨S4096x512, .f32⟩ : BufTy).Contents (Elt F)),
    StableHlo.unary main_arg8 main_v41 ((extractStridedSlice S1x128 ![0, 0] · slices_S4x128_S1x128_0_0) : (⟨S4x128, .f32⟩ : BufTy).Contents (Elt F) → (⟨S1x128, .f32⟩ : BufTy).Contents (Elt F)),
    StableHlo.reshape main_v41 main_v42 rfl shapeCasts_S1x128_S128,
    StableHlo.unary main_v42 main_v43 (broadcastInDim S4096x128 ![1] bcast_S128_S4096x128_1 : (⟨S128, .f32⟩ : BufTy).Contents (Elt F) → (⟨S4096x128, .f32⟩ : BufTy).Contents (Elt F)),
    StableHlo.binary main_v40 main_v43 main_v44 ((fun a b => concatenate S4096x640 1 [⟨S4096x512, a⟩, ⟨S4096x128, b⟩] concatenates_S4096x512_S4096x128_S4096x640_d1) : (⟨S4096x512, .f32⟩ : BufTy).Contents (Elt F) → (⟨S4096x128, .f32⟩ : BufTy).Contents (Elt F) → (⟨S4096x640, .f32⟩ : BufTy).Contents (Elt F)),
    StableHlo.unary main_arg9 main_v45 ((transpose S640x256 [1, 0] · transposes_S256x640_S640x256_1_0) : (⟨S256x640, .f32⟩ : BufTy).Contents (Elt F) → (⟨S640x256, .f32⟩ : BufTy).Contents (Elt F)),
    StableHlo.binary main_v44 main_v45 main_v46 ((fun l r => Host.dotGeneral dot_S4096x640_S640x256_S4096x256_1_0_0_1_n_n none l r) : (⟨S4096x640, .f32⟩ : BufTy).Contents (Elt F) → (⟨S640x256, .f32⟩ : BufTy).Contents (Elt F) → (⟨S4096x256, .f32⟩ : BufTy).Contents (Elt F)),
    StableHlo.unary main_arg10 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S4096x256 ![0, 1] bcast_S1x256_S4096x256_0_1 : (⟨S1x256, .f32⟩ : BufTy).Contents (Elt F) → (⟨S4096x256, .f32⟩ : BufTy).Contents (Elt F)),
    StableHlo.binary main_v46 main_v48 main_v49 (addf : (⟨S4096x256, .f32⟩ : BufTy).Contents (Elt F) → (⟨S4096x256, .f32⟩ : BufTy).Contents (Elt F) → (⟨S4096x256, .f32⟩ : BufTy).Contents (Elt F)),
    StableHlo.nullary main_cst_7 (constant S_ .f32 0x00000000#32) ]
theorem w0_l3_sub : (w0_l3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub ..⟩
/-- The buffers line 3 of window 0 writes, one per operation. -/
abbrev w0_l3_tab : List (Ref sig .tc) :=
  [ main_v28, main_v29, main_cst_6, main_v30, main_v31, main_v32, main_v33, main_v34, main_v35, main_v36, main_v37, main_v38, main_v39, main_v40, main_v41, main_v42, main_v43, main_v44, main_v45, main_v46, main_v47, main_v48, main_v49, main_cst_7 ]
theorem w0_l3_writes : Cert.Region.WritesIn (τ := τ) (w0_l3 : List (HloOp τ sig (Elt F))) w0_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w0_l3_fresh : ∀ op ∈ (w0_l3 : List (HloOp τ sig (Elt F))), op.fresh = ∅ := by
  intro _ h; (repeat (cases h with | head => rfl | tail _ h => ?_)); exact nomatch h

/-- Window 0 is its lines run in order, the last in tail position. -/
theorem w0_chain (c : Dev nD) : main_part0 (F := F) c = (Pipeline.chainK
  [ StableHlo.seq w0_l0,
    StableHlo.seq w0_l1,
    StableHlo.seq w0_l2 ]
  (StableHlo.seq w0_l3) : Prog (TpuEff nD τ sig (Elt F) (Pipeline.Sig Λ₀ (Fin 0) fun p => (pcfgs (F := F) p).Adm) .tc) PUnit) := by
  chain_rfl

end Cert.ReferenceIdeal.RefRun

end
-- ==== Proof.RefRunW1.lean ====
/-
  Window 1 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 1: 6 operations of @main itself. -/
abbrev w1_l0 : List (HloOp τ sig (Elt F)) :=
  [ StableHlo.binary main_v49 main_cst_7 main_v50 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v50 main_v51 (broadcastInDim S4096x1 ![0] bcast_S4096_S4096x1_0 : (⟨S4096, .f32⟩ : BufTy).Contents (Elt F) → (⟨S4096x1, .f32⟩ : BufTy).Contents (Elt F)),
    StableHlo.nullary main_cst_8 (constant S_ .f32 0x43800000#32),
    StableHlo.unary main_cst_8 main_v52 (broadcastInDim S4096x1 ![] bcast_S_S4096x1 : (⟨S_, .f32⟩ : BufTy).Contents (Elt F) → (⟨S4096x1, .f32⟩ : BufTy).Contents (Elt F)),
    StableHlo.binary main_v51 main_v52 main_v53 (Host.divf : (⟨S4096x1, .f32⟩ : BufTy).Contents (Elt F) → (⟨S4096x1, .f32⟩ : BufTy).Contents (Elt F) → (⟨S4096x1, .f32⟩ : BufTy).Contents (Elt F)),
    StableHlo.nullary main_c_9 (constantI S_ 32 0#32) ]
theorem w1_l0_sub : (w1_l0 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub ..⟩
/-- The buffers line 0 of window 1 writes, one per operation. -/
abbrev w1_l0_tab : List (Ref sig .tc) :=
  [ main_v50, main_v51, main_cst_8, main_v52, main_v53, main_c_9 ]
theorem w1_l0_writes : Cert.Region.WritesIn (τ := τ) (w1_l0 : List (HloOp τ sig (Elt F))) w1_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l0_fresh : ∀ op ∈ (w1_l0 : List (HloOp τ sig (Elt F))), op.fresh = ∅ := by
  intro _ h; (repeat (cases h with | head => rfl | tail _ h => ?_)); exact nomatch h

/-- Line 1 of window 1: 23 operations of the outlined function called here (@var_0), over this call's buffers. -/
abbrev w1_l1 : List (HloOp τ sig (Elt F)) :=
  [ StableHlo.TRef.nullary main_call1.cst (constant S_ .f32 0x00000000#32),
    StableHlo.TRef.binary (.of main_v49 : StableHlo.TRef sig ⟨S4096x256, .f32⟩) main_call1.cst main_call1.v0 (fun x v => Host.reduceAdd x v reducesTo_S4096x256_S4096_d1 h_S_),
    StableHlo.TRef.unary main_call1.v0 main_call1.v1 (broadcastInDim S4096x1 ![0] bcast_S4096_S4096x1_0),
    StableHlo.TRef.nullary main_call1.cst_0 (constant S_ .f32 0x43800000#32),
    StableHlo.TRef.unary main_call1.cst_0 main_call1.v2 (broadcastInDim S4096x1 ![] bcast_S_S4096x1),
    StableHlo.TRef.binary main_call1.v1 main_call1.v2 main_call1.v3 Host.divf,
    StableHlo.TRef.unary main_call1.v3 main_call1.v4 (broadcastInDim S4096x256 ![0, 1] bcast_S4096x1_S4096x256_0_1),
    StableHlo.TRef.binary (.of main_v49 : StableHlo.TRef sig ⟨S4096x256, .f32⟩) main_call1.v4 main_call1.v5 subf,
    StableHlo.TRef.binary main_call1.v5 main_call1.v5 main_call1.v6 mulf,
    StableHlo.TRef.unary (.of main_c_9 : StableHlo.TRef sig ⟨S_, .i32⟩) main_call1.v7 (sitofp .f32),
    StableHlo.TRef.nullary main_call1.cst_1 (constant S_ .f32 0x43800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S4096x256_S4096_d1 h_S_),
    StableHlo.TRef.unary main_call1.v9 main_call1.v10 (broadcastInDim S4096x1 ![0] bcast_S4096_S4096x1_0),
    StableHlo.TRef.unary main_call1.v8 main_call1.v11 (broadcastInDim S4096x1 ![] bcast_S_S4096x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S4096x1 ![] bcast_S_S4096x1),
    StableHlo.TRef.ternary (main_call1.v13 : StableHlo.TRef sig ⟨S_, .i1⟩) (main_call1.v12 : StableHlo.TRef sig ⟨S4096x1, .f32⟩) main_call1.call0.v1 main_call1.call0.v2 (fun p a b => select (broadcastInDim S4096x1 ![] bcast_S_S4096x1 p) a b) ]
theorem w1_l1_sub : (w1_l1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 1 of window 1 writes, one per operation. -/
abbrev w1_l1_tab : List (Ref sig .tc) :=
  [ main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref ]
theorem w1_l1_writes : Cert.Region.WritesIn (τ := τ) (w1_l1 : List (HloOp τ sig (Elt F))) w1_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l1_fresh : ∀ op ∈ (w1_l1 : List (HloOp τ sig (Elt F))), op.fresh = ∅ := by
  intro _ h; (repeat (cases h with | head => rfl | tail _ h => ?_)); exact nomatch h

/-- Line 2 of window 1: 14 operations of @main itself. -/
abbrev w1_l2 : List (HloOp τ sig (Elt F)) :=
  [ StableHlo.unary main_v53 main_v55 (broadcastInDim S4096x256 ![0, 1] bcast_S4096x1_S4096x256_0_1 : (⟨S4096x1, .f32⟩ : BufTy).Contents (Elt F) → (⟨S4096x256, .f32⟩ : BufTy).Contents (Elt F)),
    StableHlo.binary main_v49 main_v55 main_v56 (subf : (⟨S4096x256, .f32⟩ : BufTy).Contents (Elt F) → (⟨S4096x256, .f32⟩ : BufTy).Contents (Elt F) → (⟨S4096x256, .f32⟩ : BufTy).Contents (Elt F)),
    StableHlo.nullary main_cst_10 (constant S_ .f32 0x3727C5AC#32),
    StableHlo.unary main_cst_10 main_v57 (broadcastInDim S4096x1 ![] bcast_S_S4096x1 : (⟨S_, .f32⟩ : BufTy).Contents (Elt F) → (⟨S4096x1, .f32⟩ : BufTy).Contents (Elt F)),
    StableHlo.binary main_v54 main_v57 main_v58 (addf : (⟨S4096x1, .f32⟩ : BufTy).Contents (Elt F) → (⟨S4096x1, .f32⟩ : BufTy).Contents (Elt F) → (⟨S4096x1, .f32⟩ : BufTy).Contents (Elt F)),
    StableHlo.unary main_v58 main_v59 (Host.rsqrt : (⟨S4096x1, .f32⟩ : BufTy).Contents (Elt F) → (⟨S4096x1, .f32⟩ : BufTy).Contents (Elt F)),
    StableHlo.unary main_v59 main_v60 (broadcastInDim S4096x256 ![0, 1] bcast_S4096x1_S4096x256_0_1 : (⟨S4096x1, .f32⟩ : BufTy).Contents (Elt F) → (⟨S4096x256, .f32⟩ : BufTy).Contents (Elt F)),
    StableHlo.binary main_v56 main_v60 main_v61 (mulf : (⟨S4096x256, .f32⟩ : BufTy).Contents (Elt F) → (⟨S4096x256, .f32⟩ : BufTy).Contents (Elt F) → (⟨S4096x256, .f32⟩ : BufTy).Contents (Elt F)),
    StableHlo.unary main_arg11 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S4096x256 ![0, 1] bcast_S1x256_S4096x256_0_1 : (⟨S1x256, .f32⟩ : BufTy).Contents (Elt F) → (⟨S4096x256, .f32⟩ : BufTy).Contents (Elt F)),
    StableHlo.binary main_v61 main_v63 main_v64 (mulf : (⟨S4096x256, .f32⟩ : BufTy).Contents (Elt F) → (⟨S4096x256, .f32⟩ : BufTy).Contents (Elt F) → (⟨S4096x256, .f32⟩ : BufTy).Contents (Elt F)),
    StableHlo.unary main_arg12 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S4096x256 ![0, 1] bcast_S1x256_S4096x256_0_1 : (⟨S1x256, .f32⟩ : BufTy).Contents (Elt F) → (⟨S4096x256, .f32⟩ : BufTy).Contents (Elt F)),
    StableHlo.binary main_v64 main_v66 main_v67 (addf : (⟨S4096x256, .f32⟩ : BufTy).Contents (Elt F) → (⟨S4096x256, .f32⟩ : BufTy).Contents (Elt F) → (⟨S4096x256, .f32⟩ : BufTy).Contents (Elt F)) ]
theorem w1_l2_sub : (w1_l2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers line 2 of window 1 writes, one per operation. -/
abbrev w1_l2_tab : List (Ref sig .tc) :=
  [ main_v55, main_v56, main_cst_10, main_v57, main_v58, main_v59, main_v60, main_v61, main_v62, main_v63, main_v64, main_v65, main_v66, main_v67 ]
theorem w1_l2_writes : Cert.Region.WritesIn (τ := τ) (w1_l2 : List (HloOp τ sig (Elt F))) w1_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l2_fresh : ∀ op ∈ (w1_l2 : List (HloOp τ sig (Elt F))), op.fresh = ∅ := by
  intro _ h; (repeat (cases h with | head => rfl | tail _ h => ?_)); exact nomatch h

/-- Line 3 of window 1: 3 operations of the outlined function called here (@relu), over this call's buffers. -/
abbrev w1_l3 : List (HloOp τ sig (Elt F)) :=
  [ StableHlo.TRef.nullary main_call2.cst (constant S_ .f32 0x00000000#32),
    StableHlo.TRef.unary main_call2.cst main_call2.v0 (broadcastInDim S4096x256 ![] bcast_S_S4096x256),
    StableHlo.TRef.binary (.of main_v67 : StableHlo.TRef sig ⟨S4096x256, .f32⟩) main_call2.v0 main_call2.v1 maximumf ]
theorem w1_l3_sub : (w1_l3 : List (HloOp τ sig (Elt F))).Forall fun op => op.bufs ⊆ StableHlo.tcRefs τ sig :=
  ⟨StableHlo.nullary_bufs_sub .., StableHlo.unary_bufs_sub .., StableHlo.binary_bufs_sub ..⟩
/-- The buffers line 3 of window 1 writes, one per operation. -/
abbrev w1_l3_tab : List (Ref sig .tc) :=
  [ main_call2.cst.ref, main_call2.v0.ref, main_call2.v1.ref ]
theorem w1_l3_writes : Cert.Region.WritesIn (τ := τ) (w1_l3 : List (HloOp τ sig (Elt F))) w1_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l3_fresh : ∀ op ∈ (w1_l3 : List (HloOp τ sig (Elt F))), op.fresh = ∅ := by
  intro _ h; (repeat (cases h with | head => rfl | tail _ h => ?_)); exact nomatch h

/-- Line 4 of window 1: 12 operations of @main itself. -/
abbrev w1_l4 : List (HloOp τ sig (Elt F)) :=
  [ StableHlo.unary main_arg13 main_v69 ((transpose S256x128 [1, 0] · transposes_S128x256_S256x128_1_0) : (⟨S128x256, .f32⟩ : BufTy).Contents (Elt F) → (⟨S256x128, .f32⟩ : BufTy).Contents (Elt F)),
    StableHlo.binary main_v68 main_v69 main_v70 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg14 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S4096x128 ![0, 1] bcast_S1x128_S4096x128_0_1 : (⟨S1x128, .f32⟩ : BufTy).Contents (Elt F) → (⟨S4096x128, .f32⟩ : BufTy).Contents (Elt F)),
    StableHlo.binary main_v70 main_v72 main_v73 (addf : (⟨S4096x128, .f32⟩ : BufTy).Contents (Elt F) → (⟨S4096x128, .f32⟩ : BufTy).Contents (Elt F) → (⟨S4096x128, .f32⟩ : BufTy).Contents (Elt F)),
    StableHlo.nullary main_cst_11 (constant S_ .f32 0x00000000#32),
    StableHlo.binary main_v73 main_cst_11 main_v74 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v74 main_v75 (broadcastInDim S4096x1 ![0] bcast_S4096_S4096x1_0 : (⟨S4096, .f32⟩ : BufTy).Contents (Elt F) → (⟨S4096x1, .f32⟩ : BufTy).Contents (Elt F)),
    StableHlo.nullary main_cst_12 (constant S_ .f32 0x43000000#32),
    StableHlo.unary main_cst_12 main_v76 (broadcastInDim S4096x1 ![] bcast_S_S4096x1 : (⟨S_, .f32⟩ : BufTy).Contents (Elt F) → (⟨S4096x1, .f32⟩ : BufTy).Contents (Elt F)),
    StableHlo.binary main_v75 main_v76 main_v77 (Host.divf : (⟨S4096x1, .f32⟩ : BufTy).Contents (Elt F) → (⟨S4096x1, .f32⟩ : BufTy).Contents (Elt F) → (⟨S4096x1, .f32⟩ : BufTy).Contents (Elt F)),
    StableHlo.nullary main_c_13 (constantI S_ 32 0#32) ]
theorem w1_l4_sub : (w1_l4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 4 of window 1 writes, one per operation. -/
abbrev w1_l4_tab : List (Ref sig .tc) :=
  [ main_v69, main_v70, main_v71, main_v72, main_v73, main_cst_11, main_v74, main_v75, main_cst_12, main_v76, main_v77, main_c_13 ]
theorem w1_l4_writes : Cert.Region.WritesIn (τ := τ) (w1_l4 : List (HloOp τ sig (Elt F))) w1_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l4_fresh : ∀ op ∈ (w1_l4 : List (HloOp τ sig (Elt F))), op.fresh = ∅ := by
  intro _ h; (repeat (cases h with | head => rfl | tail _ h => ?_)); exact nomatch h

/-- Line 5 of window 1: 23 operations of the outlined function called here (@var_1), over this call's buffers. -/
abbrev w1_l5 : List (HloOp τ sig (Elt F)) :=
  [ StableHlo.TRef.nullary main_call3.cst (constant S_ .f32 0x00000000#32),
    StableHlo.TRef.binary (.of main_v73 : StableHlo.TRef sig ⟨S4096x128, .f32⟩) main_call3.cst main_call3.v0 (fun x v => Host.reduceAdd x v reducesTo_S4096x128_S4096_d1 h_S_),
    StableHlo.TRef.unary main_call3.v0 main_call3.v1 (broadcastInDim S4096x1 ![0] bcast_S4096_S4096x1_0),
    StableHlo.TRef.nullary main_call3.cst_0 (constant S_ .f32 0x43000000#32),
    StableHlo.TRef.unary main_call3.cst_0 main_call3.v2 (broadcastInDim S4096x1 ![] bcast_S_S4096x1),
    StableHlo.TRef.binary main_call3.v1 main_call3.v2 main_call3.v3 Host.divf,
    StableHlo.TRef.unary main_call3.v3 main_call3.v4 (broadcastInDim S4096x128 ![0, 1] bcast_S4096x1_S4096x128_0_1),
    StableHlo.TRef.binary (.of main_v73 : StableHlo.TRef sig ⟨S4096x128, .f32⟩) main_call3.v4 main_call3.v5 subf,
    StableHlo.TRef.binary main_call3.v5 main_call3.v5 main_call3.v6 mulf,
    StableHlo.TRef.unary (.of main_c_13 : StableHlo.TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S4096x128_S4096_d1 h_S_),
    StableHlo.TRef.unary main_call3.v9 main_call3.v10 (broadcastInDim S4096x1 ![0] bcast_S4096_S4096x1_0),
    StableHlo.TRef.unary main_call3.v8 main_call3.v11 (broadcastInDim S4096x1 ![] bcast_S_S4096x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary (main_call3.cst_4 : StableHlo.TRef sig ⟨S_, .f32⟩) main_call3.call0.v0 id,
    StableHlo.TRef.unary main_call3.call0.v0 main_call3.call0.v1 (broadcastInDim S4096x1 ![] bcast_S_S4096x1),
    StableHlo.TRef.ternary (main_call3.v13 : StableHlo.TRef sig ⟨S_, .i1⟩) (main_call3.v12 : StableHlo.TRef sig ⟨S4096x1, .f32⟩) main_call3.call0.v1 main_call3.call0.v2 (fun p a b => select (broadcastInDim S4096x1 ![] bcast_S_S4096x1 p) a b) ]
theorem w1_l5_sub : (w1_l5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 5 of window 1 writes, one per operation. -/
abbrev w1_l5_tab : List (Ref sig .tc) :=
  [ main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.v12.ref, main_call3.cst_3.ref, main_call3.v13.ref, main_call3.cst_4.ref, main_call3.call0.v0.ref, main_call3.call0.v1.ref, main_call3.call0.v2.ref ]
theorem w1_l5_writes : Cert.Region.WritesIn (τ := τ) (w1_l5 : List (HloOp τ sig (Elt F))) w1_l5_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l5_fresh : ∀ op ∈ (w1_l5 : List (HloOp τ sig (Elt F))), op.fresh = ∅ := by
  intro _ h; (repeat (cases h with | head => rfl | tail _ h => ?_)); exact nomatch h

/-- Line 6 of window 1: 14 operations of @main itself. -/
abbrev w1_l6 : List (HloOp τ sig (Elt F)) :=
  [ StableHlo.unary main_v77 main_v79 (broadcastInDim S4096x128 ![0, 1] bcast_S4096x1_S4096x128_0_1 : (⟨S4096x1, .f32⟩ : BufTy).Contents (Elt F) → (⟨S4096x128, .f32⟩ : BufTy).Contents (Elt F)),
    StableHlo.binary main_v73 main_v79 main_v80 (subf : (⟨S4096x128, .f32⟩ : BufTy).Contents (Elt F) → (⟨S4096x128, .f32⟩ : BufTy).Contents (Elt F) → (⟨S4096x128, .f32⟩ : BufTy).Contents (Elt F)),
    StableHlo.nullary main_cst_14 (constant S_ .f32 0x3727C5AC#32),
    StableHlo.unary main_cst_14 main_v81 (broadcastInDim S4096x1 ![] bcast_S_S4096x1 : (⟨S_, .f32⟩ : BufTy).Contents (Elt F) → (⟨S4096x1, .f32⟩ : BufTy).Contents (Elt F)),
    StableHlo.binary main_v78 main_v81 main_v82 (addf : (⟨S4096x1, .f32⟩ : BufTy).Contents (Elt F) → (⟨S4096x1, .f32⟩ : BufTy).Contents (Elt F) → (⟨S4096x1, .f32⟩ : BufTy).Contents (Elt F)),
    StableHlo.unary main_v82 main_v83 (Host.rsqrt : (⟨S4096x1, .f32⟩ : BufTy).Contents (Elt F) → (⟨S4096x1, .f32⟩ : BufTy).Contents (Elt F)),
    StableHlo.unary main_v83 main_v84 (broadcastInDim S4096x128 ![0, 1] bcast_S4096x1_S4096x128_0_1 : (⟨S4096x1, .f32⟩ : BufTy).Contents (Elt F) → (⟨S4096x128, .f32⟩ : BufTy).Contents (Elt F)),
    StableHlo.binary main_v80 main_v84 main_v85 (mulf : (⟨S4096x128, .f32⟩ : BufTy).Contents (Elt F) → (⟨S4096x128, .f32⟩ : BufTy).Contents (Elt F) → (⟨S4096x128, .f32⟩ : BufTy).Contents (Elt F)),
    StableHlo.unary main_arg15 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S4096x128 ![0, 1] bcast_S1x128_S4096x128_0_1 : (⟨S1x128, .f32⟩ : BufTy).Contents (Elt F) → (⟨S4096x128, .f32⟩ : BufTy).Contents (Elt F)),
    StableHlo.binary main_v85 main_v87 main_v88 (mulf : (⟨S4096x128, .f32⟩ : BufTy).Contents (Elt F) → (⟨S4096x128, .f32⟩ : BufTy).Contents (Elt F) → (⟨S4096x128, .f32⟩ : BufTy).Contents (Elt F)),
    StableHlo.unary main_arg16 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S4096x128 ![0, 1] bcast_S1x128_S4096x128_0_1 : (⟨S1x128, .f32⟩ : BufTy).Contents (Elt F) → (⟨S4096x128, .f32⟩ : BufTy).Contents (Elt F)),
    StableHlo.binary main_v88 main_v90 main_v91 (addf : (⟨S4096x128, .f32⟩ : BufTy).Contents (Elt F) → (⟨S4096x128, .f32⟩ : BufTy).Contents (Elt F) → (⟨S4096x128, .f32⟩ : BufTy).Contents (Elt F)) ]
theorem w1_l6_sub : (w1_l6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers line 6 of window 1 writes, one per operation. -/
abbrev w1_l6_tab : List (Ref sig .tc) :=
  [ main_v79, main_v80, main_cst_14, main_v81, main_v82, main_v83, main_v84, main_v85, main_v86, main_v87, main_v88, main_v89, main_v90, main_v91 ]
theorem w1_l6_writes : Cert.Region.WritesIn (τ := τ) (w1_l6 : List (HloOp τ sig (Elt F))) w1_l6_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l6_fresh : ∀ op ∈ (w1_l6 : List (HloOp τ sig (Elt F))), op.fresh = ∅ := by
  intro _ h; (repeat (cases h with | head => rfl | tail _ h => ?_)); exact nomatch h

/-- Line 7 of window 1: 3 operations of the outlined function called here (@relu_2), over this call's buffers. -/
abbrev w1_l7 : List (HloOp τ sig (Elt F)) :=
  [ StableHlo.TRef.nullary main_call4.cst (constant S_ .f32 0x00000000#32),
    StableHlo.TRef.unary main_call4.cst main_call4.v0 (broadcastInDim S4096x128 ![] bcast_S_S4096x128),
    StableHlo.TRef.binary (.of main_v91 : StableHlo.TRef sig ⟨S4096x128, .f32⟩) main_call4.v0 main_call4.v1 maximumf ]
theorem w1_l7_sub : (w1_l7 : List (HloOp τ sig (Elt F))).Forall fun op => op.bufs ⊆ StableHlo.tcRefs τ sig :=
  ⟨StableHlo.nullary_bufs_sub .., StableHlo.unary_bufs_sub .., StableHlo.binary_bufs_sub ..⟩
/-- The buffers line 7 of window 1 writes, one per operation. -/
abbrev w1_l7_tab : List (Ref sig .tc) :=
  [ main_call4.cst.ref, main_call4.v0.ref, main_call4.v1.ref ]
theorem w1_l7_writes : Cert.Region.WritesIn (τ := τ) (w1_l7 : List (HloOp τ sig (Elt F))) w1_l7_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l7_fresh : ∀ op ∈ (w1_l7 : List (HloOp τ sig (Elt F))), op.fresh = ∅ := by
  intro _ h; (repeat (cases h with | head => rfl | tail _ h => ?_)); exact nomatch h

/-- Line 8 of window 1: 10 operations of @main itself. -/
abbrev w1_l8 : List (HloOp τ sig (Elt F)) :=
  [ StableHlo.unary main_arg17 main_v93 ((transpose S128x1 [1, 0] · transposes_S1x128_S128x1_1_0) : (⟨S1x128, .f32⟩ : BufTy).Contents (Elt F) → (⟨S128x1, .f32⟩ : BufTy).Contents (Elt F)),
    StableHlo.binary main_v92 main_v93 main_v94 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    StableHlo.unary main_arg18 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S4096x1 ![0, 1] bcast_S1x1_S4096x1_0_1 : (⟨S1x1, .f32⟩ : BufTy).Contents (Elt F) → (⟨S4096x1, .f32⟩ : BufTy).Contents (Elt F)),
    StableHlo.binary main_v94 main_v96 main_v97 (addf : (⟨S4096x1, .f32⟩ : BufTy).Contents (Elt F) → (⟨S4096x1, .f32⟩ : BufTy).Contents (Elt F) → (⟨S4096x1, .f32⟩ : BufTy).Contents (Elt F)),
    StableHlo.reshape main_v97 main_v98 rfl shapeCasts_S4096x1_S4096,
    StableHlo.unary main_v98 main_v99 (Host.negf : (⟨S4096, .f32⟩ : BufTy).Contents (Elt F) → (⟨S4096, .f32⟩ : BufTy).Contents (Elt F)),
    StableHlo.unary main_v99 main_v100 (Host.exp : (⟨S4096, .f32⟩ : BufTy).Contents (Elt F) → (⟨S4096, .f32⟩ : BufTy).Contents (Elt F)),
    StableHlo.nullary main_cst_15 (constant S_ .f32 0x3F800000#32),
    StableHlo.unary main_cst_15 main_v101 (broadcastInDim S4096 ![] bcast_S_S4096 : (⟨S_, .f32⟩ : BufTy).Contents (Elt F) → (⟨S4096, .f32⟩ : BufTy).Contents (Elt F)) ]
theorem w1_l8_sub : (w1_l8 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub ..⟩
/-- The buffers line 8 of window 1 writes, one per operation. -/
abbrev w1_l8_tab : List (Ref sig .tc) :=
  [ main_v93, main_v94, main_v95, main_v96, main_v97, main_v98, main_v99, main_v100, main_cst_15, main_v101 ]
theorem w1_l8_writes : Cert.Region.WritesIn (τ := τ) (w1_l8 : List (HloOp τ sig (Elt F))) w1_l8_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w1_l8_fresh : ∀ op ∈ (w1_l8 : List (HloOp τ sig (Elt F))), op.fresh = ∅ := by
  intro _ h; (repeat (cases h with | head => rfl | tail _ h => ?_)); exact nomatch h

/-- Window 1 is its lines run in order, the last in tail position. -/
theorem w1_chain (c : Dev nD) : main_part1 (F := F) c = (Pipeline.chainK
  [ StableHlo.seq w1_l0,
    StableHlo.seq w1_l1,
    StableHlo.seq w1_l2,
    StableHlo.seq w1_l3,
    StableHlo.seq w1_l4,
    StableHlo.seq w1_l5,
    StableHlo.seq w1_l6,
    StableHlo.seq w1_l7 ]
  (StableHlo.seq w1_l8) : Prog (TpuEff nD τ sig (Elt F) (Pipeline.Sig Λ₀ (Fin 0) fun p => (pcfgs (F := F) p).Adm) .tc) PUnit) := by
  chain_rfl

end Cert.ReferenceIdeal.RefRun

end
-- ==== Proof.RefRunW2.lean ====
/-
  Window 2 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 2: 6 operations of @main itself. -/
abbrev w2_l0 : List (HloOp τ sig (Elt F)) :=
  [ StableHlo.binary main_v101 main_v100 main_v102 (addf : (⟨S4096, .f32⟩ : BufTy).Contents (Elt F) → (⟨S4096, .f32⟩ : BufTy).Contents (Elt F) → (⟨S4096, .f32⟩ : BufTy).Contents (Elt F)),
    StableHlo.nullary main_cst_16 (constant S_ .f32 0x3F800000#32),
    StableHlo.unary main_cst_16 main_v103 (broadcastInDim S4096 ![] bcast_S_S4096 : (⟨S_, .f32⟩ : BufTy).Contents (Elt F) → (⟨S4096, .f32⟩ : BufTy).Contents (Elt F)),
    StableHlo.binary main_v103 main_v102 main_v104 (Host.divf : (⟨S4096, .f32⟩ : BufTy).Contents (Elt F) → (⟨S4096, .f32⟩ : BufTy).Contents (Elt F) → (⟨S4096, .f32⟩ : BufTy).Contents (Elt F)),
    StableHlo.nullary main_cst_17 (constant S_ .f32 0x33D6BF95#32),
    StableHlo.nullary main_cst_18 (constant S_ .f32 0x3F7FFFFE#32) ]
theorem w2_l0_sub : (w2_l0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.nullary_bufs_sub ..⟩
/-- The buffers line 0 of window 2 writes, one per operation. -/
abbrev w2_l0_tab : List (Ref sig .tc) :=
  [ main_v102, main_cst_16, main_v103, main_v104, main_cst_17, main_cst_18 ]
theorem w2_l0_writes : Cert.Region.WritesIn (τ := τ) (w2_l0 : List (HloOp τ sig (Elt F))) w2_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w2_l0_fresh : ∀ op ∈ (w2_l0 : List (HloOp τ sig (Elt F))), op.fresh = ∅ := by
  intro _ h; (repeat (cases h with | head => rfl | tail _ h => ?_)); exact nomatch h

/-- Line 1 of window 2: 6 operations of the outlined function called here (@clip), over this call's buffers. -/
abbrev w2_l1 : List (HloOp τ sig (Elt F)) :=
  [ StableHlo.TRef.unary (.of main_cst_17 : StableHlo.TRef sig ⟨S_, .f32⟩) main_call5.v0 id,
    StableHlo.TRef.unary main_call5.v0 main_call5.v1 (broadcastInDim S4096 ![] bcast_S_S4096),
    StableHlo.TRef.binary main_call5.v1 (.of main_v104 : StableHlo.TRef sig ⟨S4096, .f32⟩) main_call5.v2 maximumf,
    StableHlo.TRef.unary (.of main_cst_18 : StableHlo.TRef sig ⟨S_, .f32⟩) main_call5.v3 id,
    StableHlo.TRef.unary main_call5.v3 main_call5.v4 (broadcastInDim S4096 ![] bcast_S_S4096),
    StableHlo.TRef.binary main_call5.v4 main_call5.v2 main_call5.v5 minimumf ]
theorem w2_l1_sub : (w2_l1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- The buffers line 1 of window 2 writes, one per operation. -/
abbrev w2_l1_tab : List (Ref sig .tc) :=
  [ main_call5.v0.ref, main_call5.v1.ref, main_call5.v2.ref, main_call5.v3.ref, main_call5.v4.ref, main_call5.v5.ref ]
theorem w2_l1_writes : Cert.Region.WritesIn (τ := τ) (w2_l1 : List (HloOp τ sig (Elt F))) w2_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w2_l1_fresh : ∀ op ∈ (w2_l1 : List (HloOp τ sig (Elt F))), op.fresh = ∅ := by
  intro _ h; (repeat (cases h with | head => rfl | tail _ h => ?_)); exact nomatch h

/-- Line 2 of window 2: 9 operations of @main itself. -/
abbrev w2_l2 : List (HloOp τ sig (Elt F)) :=
  [ StableHlo.nullary main_cst_19 (constant S_ .f32 0x00000000#32),
    StableHlo.binary main_v105 main_cst_19 main_v106 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_20 (constant S_ .f32 0x45800000#32),
    StableHlo.binary main_v106 main_cst_20 main_v107 (Host.divf : (⟨S_, .f32⟩ : BufTy).Contents (Elt F) → (⟨S_, .f32⟩ : BufTy).Contents (Elt F) → (⟨S_, .f32⟩ : BufTy).Contents (Elt F)),
    StableHlo.nullary main_cst_21 (constant S_ .f32 0x3F000000#32),
    StableHlo.binary main_v107 main_cst_21 main_v108 (cmpf .oge : (⟨S_, .f32⟩ : BufTy).Contents (Elt F) → (⟨S_, .f32⟩ : BufTy).Contents (Elt F) → (⟨S_, .i1⟩ : BufTy).Contents (Elt F)),
    StableHlo.unary main_v108 main_v109 (uitofp .f32 : (⟨S_, .i1⟩ : BufTy).Contents (Elt F) → (⟨S_, .f32⟩ : BufTy).Contents (Elt F)),
    StableHlo.nullary main_cst_22 (constant S_ .f32 0x3F800000#32),
    StableHlo.binary main_cst_22 main_v109 main_v110 (mulf : (⟨S_, .f32⟩ : BufTy).Contents (Elt F) → (⟨S_, .f32⟩ : BufTy).Contents (Elt F) → (⟨S_, .f32⟩ : BufTy).Contents (Elt F)) ]
theorem w2_l2_sub : (w2_l2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub ..⟩
/-- The buffers line 2 of window 2 writes, one per operation. -/
abbrev w2_l2_tab : List (Ref sig .tc) :=
  [ main_cst_19, main_v106, main_cst_20, main_v107, main_cst_21, main_v108, main_v109, main_cst_22, main_v110 ]
theorem w2_l2_writes : Cert.Region.WritesIn (τ := τ) (w2_l2 : List (HloOp τ sig (Elt F))) w2_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w2_l2_fresh : ∀ op ∈ (w2_l2 : List (HloOp τ sig (Elt F))), op.fresh = ∅ := by
  intro _ h; (repeat (cases h with | head => rfl | tail _ h => ?_)); exact nomatch h

/-- Line 3 of window 2: 23 operations of @main itself. -/
abbrev w2_l3 : List (HloOp τ sig (Elt F)) :=
  [ StableHlo.binary main_v12 main_arg4 main_v111 ((fun l r => Host.dotGeneral dot_S1x4096x512_S1024x512_S1x4096x1024_2_1_01_0_n_n none l r) : (⟨S1x4096x512, .f32⟩ : BufTy).Contents (Elt F) → (⟨S1024x512, .f32⟩ : BufTy).Contents (Elt F) → (⟨S1x4096x1024, .f32⟩ : BufTy).Contents (Elt F)),
    StableHlo.unary main_arg5 main_v112 (broadcastInDim S1x1x1024 ![2] bcast_S1024_S1x1x1024_2 : (⟨S1024, .f32⟩ : BufTy).Contents (Elt F) → (⟨S1x1x1024, .f32⟩ : BufTy).Contents (Elt F)),
    StableHlo.unary main_v112 main_v113 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    StableHlo.binary main_v111 main_v113 main_v114 (addf : (⟨S1x4096x1024, .f32⟩ : BufTy).Contents (Elt F) → (⟨S1x4096x1024, .f32⟩ : BufTy).Contents (Elt F) → (⟨S1x4096x1024, .f32⟩ : BufTy).Contents (Elt F)),
    StableHlo.unary main_v114 main_v115 ((extractStridedSlice S1x4096x512 ![0, 0, 0] · slices_S1x4096x1024_S1x4096x512_0_0_0) : (⟨S1x4096x1024, .f32⟩ : BufTy).Contents (Elt F) → (⟨S1x4096x512, .f32⟩ : BufTy).Contents (Elt F)),
    StableHlo.unary main_arg19 main_v116 ((extractStridedSlice S1x512 ![0, 0] · slices_S2x512_S1x512_0_0) : (⟨S2x512, .f32⟩ : BufTy).Contents (Elt F) → (⟨S1x512, .f32⟩ : BufTy).Contents (Elt F)),
    StableHlo.reshape main_v116 main_v117 rfl shapeCasts_S1x512_S512,
    StableHlo.nullary main_cst_23 (constant S_ .f32 0x3D3504F3#32),
    StableHlo.unary main_cst_23 main_v118 (broadcastInDim S512 ![] bcast_S_S512 : (⟨S_, .f32⟩ : BufTy).Contents (Elt F) → (⟨S512, .f32⟩ : BufTy).Contents (Elt F)),
    StableHlo.binary main_v118 main_v117 main_v119 (mulf : (⟨S512, .f32⟩ : BufTy).Contents (Elt F) → (⟨S512, .f32⟩ : BufTy).Contents (Elt F) → (⟨S512, .f32⟩ : BufTy).Contents (Elt F)),
    StableHlo.unary main_v119 main_v120 (broadcastInDim S1x1x512 ![2] bcast_S512_S1x1x512_2 : (⟨S512, .f32⟩ : BufTy).Contents (Elt F) → (⟨S1x1x512, .f32⟩ : BufTy).Contents (Elt F)),
    StableHlo.unary main_v120 main_v121 (broadcastInDim S1x4096x512 ![0, 1, 2] bcast_S1x1x512_S1x4096x512_0_1_2 : (⟨S1x1x512, .f32⟩ : BufTy).Contents (Elt F) → (⟨S1x4096x512, .f32⟩ : BufTy).Contents (Elt F)),
    StableHlo.binary main_v115 main_v121 main_v122 (addf : (⟨S1x4096x512, .f32⟩ : BufTy).Contents (Elt F) → (⟨S1x4096x512, .f32⟩ : BufTy).Contents (Elt F) → (⟨S1x4096x512, .f32⟩ : BufTy).Contents (Elt F)),
    StableHlo.unary main_v114 main_v123 ((extractStridedSlice S1x4096x512 ![0, 0, 512] · slices_S1x4096x1024_S1x4096x512_0_0_512) : (⟨S1x4096x1024, .f32⟩ : BufTy).Contents (Elt F) → (⟨S1x4096x512, .f32⟩ : BufTy).Contents (Elt F)),
    StableHlo.unary main_arg19 main_v124 ((extractStridedSlice S1x512 ![1, 0] · slices_S2x512_S1x512_1_0) : (⟨S2x512, .f32⟩ : BufTy).Contents (Elt F) → (⟨S1x512, .f32⟩ : BufTy).Contents (Elt F)),
    StableHlo.reshape main_v124 main_v125 rfl shapeCasts_S1x512_S512,
    StableHlo.nullary main_cst_24 (constant S_ .f32 0x3D3504F3#32),
    StableHlo.unary main_cst_24 main_v126 (broadcastInDim S512 ![] bcast_S_S512 : (⟨S_, .f32⟩ : BufTy).Contents (Elt F) → (⟨S512, .f32⟩ : BufTy).Contents (Elt F)),
    StableHlo.binary main_v126 main_v125 main_v127 (mulf : (⟨S512, .f32⟩ : BufTy).Contents (Elt F) → (⟨S512, .f32⟩ : BufTy).Contents (Elt F) → (⟨S512, .f32⟩ : BufTy).Contents (Elt F)),
    StableHlo.unary main_v127 main_v128 (broadcastInDim S1x1x512 ![2] bcast_S512_S1x1x512_2 : (⟨S512, .f32⟩ : BufTy).Contents (Elt F) → (⟨S1x1x512, .f32⟩ : BufTy).Contents (Elt F)),
    StableHlo.unary main_v128 main_v129 (broadcastInDim S1x4096x512 ![0, 1, 2] bcast_S1x1x512_S1x4096x512_0_1_2 : (⟨S1x1x512, .f32⟩ : BufTy).Contents (Elt F) → (⟨S1x4096x512, .f32⟩ : BufTy).Contents (Elt F)),
    StableHlo.binary main_v123 main_v129 main_v130 (addf : (⟨S1x4096x512, .f32⟩ : BufTy).Contents (Elt F) → (⟨S1x4096x512, .f32⟩ : BufTy).Contents (Elt F) → (⟨S1x4096x512, .f32⟩ : BufTy).Contents (Elt F)),
    StableHlo.binary main_v122 main_v130 main_v131 ((fun a b => concatenate S2x4096x512 0 [⟨S1x4096x512, a⟩, ⟨S1x4096x512, b⟩] concatenates_S1x4096x512_S1x4096x512_S2x4096x512_d0) : (⟨S1x4096x512, .f32⟩ : BufTy).Contents (Elt F) → (⟨S1x4096x512, .f32⟩ : BufTy).Contents (Elt F) → (⟨S2x4096x512, .f32⟩ : BufTy).Contents (Elt F)) ]
theorem w2_l3_sub : (w2_l3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub ..⟩
/-- The buffers line 3 of window 2 writes, one per operation. -/
abbrev w2_l3_tab : List (Ref sig .tc) :=
  [ main_v111, main_v112, main_v113, main_v114, main_v115, main_v116, main_v117, main_cst_23, main_v118, main_v119, main_v120, main_v121, main_v122, main_v123, main_v124, main_v125, main_cst_24, main_v126, main_v127, main_v128, main_v129, main_v130, main_v131 ]
theorem w2_l3_writes : Cert.Region.WritesIn (τ := τ) (w2_l3 : List (HloOp τ sig (Elt F))) w2_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w2_l3_fresh : ∀ op ∈ (w2_l3 : List (HloOp τ sig (Elt F))), op.fresh = ∅ := by
  intro _ h; (repeat (cases h with | head => rfl | tail _ h => ?_)); exact nomatch h

/-- Line 4 of window 2: 9 operations of @main itself. -/
abbrev w2_l4 : List (HloOp τ sig (Elt F)) :=
  [ StableHlo.nullary main_cst_25 (constant S_ .f32 0x00000000#32),
    StableHlo.binary main_v131 main_cst_25 main_v132 ((fun x v => Host.reduceAdd x v reducesTo_S2x4096x512_S4096x512_d0 h_S_) : (⟨S2x4096x512, .f32⟩ : BufTy).Contents (Elt F) → (⟨S_, .f32⟩ : BufTy).Contents (Elt F) → (⟨S4096x512, .f32⟩ : BufTy).Contents (Elt F)),
    StableHlo.unary main_v110 main_v133 (broadcastInDim S4096x512 ![] bcast_S_S4096x512 : (⟨S_, .f32⟩ : BufTy).Contents (Elt F) → (⟨S4096x512, .f32⟩ : BufTy).Contents (Elt F)),
    StableHlo.binary main_v133 main_v132 main_v134 (mulf : (⟨S4096x512, .f32⟩ : BufTy).Contents (Elt F) → (⟨S4096x512, .f32⟩ : BufTy).Contents (Elt F) → (⟨S4096x512, .f32⟩ : BufTy).Contents (Elt F)),
    StableHlo.binary main_v11 main_v134 main_v135 (addf : (⟨S4096x512, .f32⟩ : BufTy).Contents (Elt F) → (⟨S4096x512, .f32⟩ : BufTy).Contents (Elt F) → (⟨S4096x512, .f32⟩ : BufTy).Contents (Elt F)),
    StableHlo.nullary main_cst_26 (constant S_ .f32 0x40000000#32),
    StableHlo.binary main_v110 main_cst_26 main_v136 (mulf : (⟨S_, .f32⟩ : BufTy).Contents (Elt F) → (⟨S_, .f32⟩ : BufTy).Contents (Elt F) → (⟨S_, .f32⟩ : BufTy).Contents (Elt F)),
    StableHlo.nullary main_cst_27 (constant S_ .f32 0x3F800000#32),
    StableHlo.binary main_cst_27 main_v136 main_v137 (addf : (⟨S_, .f32⟩ : BufTy).Contents (Elt F) → (⟨S_, .f32⟩ : BufTy).Contents (Elt F) → (⟨S_, .f32⟩ : BufTy).Contents (Elt F)) ]
theorem w2_l4_sub : (w2_l4 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub ..⟩
/-- The buffers line 4 of window 2 writes, one per operation. -/
abbrev w2_l4_tab : List (Ref sig .tc) :=
  [ main_cst_25, main_v132, main_v133, main_v134, main_v135, main_cst_26, main_v136, main_cst_27, main_v137 ]
theorem w2_l4_writes : Cert.Region.WritesIn (τ := τ) (w2_l4 : List (HloOp τ sig (Elt F))) w2_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w2_l4_fresh : ∀ op ∈ (w2_l4 : List (HloOp τ sig (Elt F))), op.fresh = ∅ := by
  intro _ h; (repeat (cases h with | head => rfl | tail _ h => ?_)); exact nomatch h

/-- Line 5 of window 2: 12 operations of @main itself. -/
abbrev w2_l5 : List (HloOp τ sig (Elt F)) :=
  [ StableHlo.nullary main_cst_28 (constant S_ .f32 0x00000000#32),
    StableHlo.binary main_v131 main_cst_28 main_v138 ((fun x v => Host.reduceAdd x v reducesTo_S2x4096x512_S4096x512_d0 h_S_) : (⟨S2x4096x512, .f32⟩ : BufTy).Contents (Elt F) → (⟨S_, .f32⟩ : BufTy).Contents (Elt F) → (⟨S4096x512, .f32⟩ : BufTy).Contents (Elt F)),
    StableHlo.nullary main_cst_29 (constant S_ .f32 0x40000000#32),
    StableHlo.unary main_cst_29 main_v139 (broadcastInDim S4096x512 ![] bcast_S_S4096x512 : (⟨S_, .f32⟩ : BufTy).Contents (Elt F) → (⟨S4096x512, .f32⟩ : BufTy).Contents (Elt F)),
    StableHlo.binary main_v138 main_v139 main_v140 (Host.divf : (⟨S4096x512, .f32⟩ : BufTy).Contents (Elt F) → (⟨S4096x512, .f32⟩ : BufTy).Contents (Elt F) → (⟨S4096x512, .f32⟩ : BufTy).Contents (Elt F)),
    StableHlo.unary main_arg20 main_v141 ((extractStridedSlice S1x512 ![1, 0] · slices_S4x512_S1x512_1_0) : (⟨S4x512, .f32⟩ : BufTy).Contents (Elt F) → (⟨S1x512, .f32⟩ : BufTy).Contents (Elt F)),
    StableHlo.reshape main_v141 main_v142 rfl shapeCasts_S1x512_S512,
    StableHlo.nullary main_cst_30 (constant S_ .f32 0x3C23D70A#32),
    StableHlo.unary main_cst_30 main_v143 (broadcastInDim S512 ![] bcast_S_S512 : (⟨S_, .f32⟩ : BufTy).Contents (Elt F) → (⟨S512, .f32⟩ : BufTy).Contents (Elt F)),
    StableHlo.binary main_v143 main_v142 main_v144 (mulf : (⟨S512, .f32⟩ : BufTy).Contents (Elt F) → (⟨S512, .f32⟩ : BufTy).Contents (Elt F) → (⟨S512, .f32⟩ : BufTy).Contents (Elt F)),
    StableHlo.unary main_v144 main_v145 (broadcastInDim S1x512 ![1] bcast_S512_S1x512_1 : (⟨S512, .f32⟩ : BufTy).Contents (Elt F) → (⟨S1x512, .f32⟩ : BufTy).Contents (Elt F)),
    StableHlo.unary main_v145 main_v146 (broadcastInDim S4096x512 ![0, 1] bcast_S1x512_S4096x512_0_1 : (⟨S1x512, .f32⟩ : BufTy).Contents (Elt F) → (⟨S4096x512, .f32⟩ : BufTy).Contents (Elt F)) ]
theorem w2_l5_sub : (w2_l5 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub ..⟩
/-- The buffers line 5 of window 2 writes, one per operation. -/
abbrev w2_l5_tab : List (Ref sig .tc) :=
  [ main_cst_28, main_v138, main_cst_29, main_v139, main_v140, main_v141, main_v142, main_cst_30, main_v143, main_v144, main_v145, main_v146 ]
theorem w2_l5_writes : Cert.Region.WritesIn (τ := τ) (w2_l5 : List (HloOp τ sig (Elt F))) w2_l5_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w2_l5_fresh : ∀ op ∈ (w2_l5 : List (HloOp τ sig (Elt F))), op.fresh = ∅ := by
  intro _ h; (repeat (cases h with | head => rfl | tail _ h => ?_)); exact nomatch h

/-- Window 2 is its lines run in order, the last in tail position. -/
theorem w2_chain (c : Dev nD) : main_part2 (F := F) c = (Pipeline.chainK
  [ StableHlo.seq w2_l0,
    StableHlo.seq w2_l1,
    StableHlo.seq w2_l2,
    StableHlo.seq w2_l3,
    StableHlo.seq w2_l4 ]
  (StableHlo.seq w2_l5) : Prog (TpuEff nD τ sig (Elt F) (Pipeline.Sig Λ₀ (Fin 0) fun p => (pcfgs (F := F) p).Adm) .tc) PUnit) := by
  chain_rfl

end Cert.ReferenceIdeal.RefRun

end
-- ==== Proof.RefRunW3.lean ====
/-
  Window 3 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 3: 8 operations of @main itself. -/
abbrev w3_l0 : List (HloOp τ sig (Elt F)) :=
  [ StableHlo.binary main_v140 main_v146 main_v147 (addf : (⟨S4096x512, .f32⟩ : BufTy).Contents (Elt F) → (⟨S4096x512, .f32⟩ : BufTy).Contents (Elt F) → (⟨S4096x512, .f32⟩ : BufTy).Contents (Elt F)),
    StableHlo.nullary main_cst_31 (constant S_ .f32 0x00000000#32),
    StableHlo.binary main_v147 main_cst_31 main_v148 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v148 main_v149 (broadcastInDim S4096x1 ![0] bcast_S4096_S4096x1_0 : (⟨S4096, .f32⟩ : BufTy).Contents (Elt F) → (⟨S4096x1, .f32⟩ : BufTy).Contents (Elt F)),
    StableHlo.nullary main_cst_32 (constant S_ .f32 0x44000000#32),
    StableHlo.unary main_cst_32 main_v150 (broadcastInDim S4096x1 ![] bcast_S_S4096x1 : (⟨S_, .f32⟩ : BufTy).Contents (Elt F) → (⟨S4096x1, .f32⟩ : BufTy).Contents (Elt F)),
    StableHlo.binary main_v149 main_v150 main_v151 (Host.divf : (⟨S4096x1, .f32⟩ : BufTy).Contents (Elt F) → (⟨S4096x1, .f32⟩ : BufTy).Contents (Elt F) → (⟨S4096x1, .f32⟩ : BufTy).Contents (Elt F)),
    StableHlo.nullary main_c_33 (constantI S_ 32 0#32) ]
theorem w3_l0_sub : (w3_l0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 0 of window 3 writes, one per operation. -/
abbrev w3_l0_tab : List (Ref sig .tc) :=
  [ main_v147, main_cst_31, main_v148, main_v149, main_cst_32, main_v150, main_v151, main_c_33 ]
theorem w3_l0_writes : Cert.Region.WritesIn (τ := τ) (w3_l0 : List (HloOp τ sig (Elt F))) w3_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l0_fresh : ∀ op ∈ (w3_l0 : List (HloOp τ sig (Elt F))), op.fresh = ∅ := by
  intro _ h; (repeat (cases h with | head => rfl | tail _ h => ?_)); exact nomatch h

/-- Line 1 of window 3: 23 operations of the outlined function called here (@var), over this call's buffers. -/
abbrev w3_l1 : List (HloOp τ sig (Elt F)) :=
  [ StableHlo.TRef.nullary main_call6.cst (constant S_ .f32 0x00000000#32),
    StableHlo.TRef.binary (.of main_v147 : StableHlo.TRef sig ⟨S4096x512, .f32⟩) main_call6.cst main_call6.v0 (fun x v => Host.reduceAdd x v reducesTo_S4096x512_S4096_d1 h_S_),
    StableHlo.TRef.unary main_call6.v0 main_call6.v1 (broadcastInDim S4096x1 ![0] bcast_S4096_S4096x1_0),
    StableHlo.TRef.nullary main_call6.cst_0 (constant S_ .f32 0x44000000#32),
    StableHlo.TRef.unary main_call6.cst_0 main_call6.v2 (broadcastInDim S4096x1 ![] bcast_S_S4096x1),
    StableHlo.TRef.binary main_call6.v1 main_call6.v2 main_call6.v3 Host.divf,
    StableHlo.TRef.unary main_call6.v3 main_call6.v4 (broadcastInDim S4096x512 ![0, 1] bcast_S4096x1_S4096x512_0_1),
    StableHlo.TRef.binary (.of main_v147 : StableHlo.TRef sig ⟨S4096x512, .f32⟩) main_call6.v4 main_call6.v5 subf,
    StableHlo.TRef.binary main_call6.v5 main_call6.v5 main_call6.v6 mulf,
    StableHlo.TRef.unary (.of main_c_33 : StableHlo.TRef sig ⟨S_, .i32⟩) main_call6.v7 (sitofp .f32),
    StableHlo.TRef.nullary main_call6.cst_1 (constant S_ .f32 0x44000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S4096x512_S4096_d1 h_S_),
    StableHlo.TRef.unary main_call6.v9 main_call6.v10 (broadcastInDim S4096x1 ![0] bcast_S4096_S4096x1_0),
    StableHlo.TRef.unary main_call6.v8 main_call6.v11 (broadcastInDim S4096x1 ![] bcast_S_S4096x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary (main_call6.cst_4 : StableHlo.TRef sig ⟨S_, .f32⟩) main_call6.call0.v0 id,
    StableHlo.TRef.unary main_call6.call0.v0 main_call6.call0.v1 (broadcastInDim S4096x1 ![] bcast_S_S4096x1),
    StableHlo.TRef.ternary (main_call6.v13 : StableHlo.TRef sig ⟨S_, .i1⟩) (main_call6.v12 : StableHlo.TRef sig ⟨S4096x1, .f32⟩) main_call6.call0.v1 main_call6.call0.v2 (fun p a b => select (broadcastInDim S4096x1 ![] bcast_S_S4096x1 p) a b) ]
theorem w3_l1_sub : (w3_l1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 1 of window 3 writes, one per operation. -/
abbrev w3_l1_tab : List (Ref sig .tc) :=
  [ main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.v12.ref, main_call6.cst_3.ref, main_call6.v13.ref, main_call6.cst_4.ref, main_call6.call0.v0.ref, main_call6.call0.v1.ref, main_call6.call0.v2.ref ]
theorem w3_l1_writes : Cert.Region.WritesIn (τ := τ) (w3_l1 : List (HloOp τ sig (Elt F))) w3_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l1_fresh : ∀ op ∈ (w3_l1 : List (HloOp τ sig (Elt F))), op.fresh = ∅ := by
  intro _ h; (repeat (cases h with | head => rfl | tail _ h => ?_)); exact nomatch h

/-- Line 2 of window 3: 30 operations of @main itself. -/
abbrev w3_l2 : List (HloOp τ sig (Elt F)) :=
  [ StableHlo.unary main_v151 main_v153 (broadcastInDim S4096x512 ![0, 1] bcast_S4096x1_S4096x512_0_1 : (⟨S4096x1, .f32⟩ : BufTy).Contents (Elt F) → (⟨S4096x512, .f32⟩ : BufTy).Contents (Elt F)),
    StableHlo.binary main_v147 main_v153 main_v154 (subf : (⟨S4096x512, .f32⟩ : BufTy).Contents (Elt F) → (⟨S4096x512, .f32⟩ : BufTy).Contents (Elt F) → (⟨S4096x512, .f32⟩ : BufTy).Contents (Elt F)),
    StableHlo.nullary main_cst_34 (constant S_ .f32 0x3727C5AC#32),
    StableHlo.unary main_cst_34 main_v155 (broadcastInDim S4096x1 ![] bcast_S_S4096x1 : (⟨S_, .f32⟩ : BufTy).Contents (Elt F) → (⟨S4096x1, .f32⟩ : BufTy).Contents (Elt F)),
    StableHlo.binary main_v152 main_v155 main_v156 (addf : (⟨S4096x1, .f32⟩ : BufTy).Contents (Elt F) → (⟨S4096x1, .f32⟩ : BufTy).Contents (Elt F) → (⟨S4096x1, .f32⟩ : BufTy).Contents (Elt F)),
    StableHlo.unary main_v156 main_v157 (Host.rsqrt : (⟨S4096x1, .f32⟩ : BufTy).Contents (Elt F) → (⟨S4096x1, .f32⟩ : BufTy).Contents (Elt F)),
    StableHlo.unary main_v157 main_v158 (broadcastInDim S4096x512 ![0, 1] bcast_S4096x1_S4096x512_0_1 : (⟨S4096x1, .f32⟩ : BufTy).Contents (Elt F) → (⟨S4096x512, .f32⟩ : BufTy).Contents (Elt F)),
    StableHlo.binary main_v154 main_v158 main_v159 (mulf : (⟨S4096x512, .f32⟩ : BufTy).Contents (Elt F) → (⟨S4096x512, .f32⟩ : BufTy).Contents (Elt F) → (⟨S4096x512, .f32⟩ : BufTy).Contents (Elt F)),
    StableHlo.unary main_arg6 main_v160 (broadcastInDim S1x512 ![1] bcast_S512_S1x512_1 : (⟨S512, .f32⟩ : BufTy).Contents (Elt F) → (⟨S1x512, .f32⟩ : BufTy).Contents (Elt F)),
    StableHlo.unary main_v160 main_v161 (broadcastInDim S4096x512 ![0, 1] bcast_S1x512_S4096x512_0_1 : (⟨S1x512, .f32⟩ : BufTy).Contents (Elt F) → (⟨S4096x512, .f32⟩ : BufTy).Contents (Elt F)),
    StableHlo.binary main_v159 main_v161 main_v162 (mulf : (⟨S4096x512, .f32⟩ : BufTy).Contents (Elt F) → (⟨S4096x512, .f32⟩ : BufTy).Contents (Elt F) → (⟨S4096x512, .f32⟩ : BufTy).Contents (Elt F)),
    StableHlo.unary main_arg7 main_v163 (broadcastInDim S1x512 ![1] bcast_S512_S1x512_1 : (⟨S512, .f32⟩ : BufTy).Contents (Elt F) → (⟨S1x512, .f32⟩ : BufTy).Contents (Elt F)),
    StableHlo.unary main_v163 main_v164 (broadcastInDim S4096x512 ![0, 1] bcast_S1x512_S4096x512_0_1 : (⟨S1x512, .f32⟩ : BufTy).Contents (Elt F) → (⟨S4096x512, .f32⟩ : BufTy).Contents (Elt F)),
    StableHlo.binary main_v162 main_v164 main_v165 (addf : (⟨S4096x512, .f32⟩ : BufTy).Contents (Elt F) → (⟨S4096x512, .f32⟩ : BufTy).Contents (Elt F) → (⟨S4096x512, .f32⟩ : BufTy).Contents (Elt F)),
    StableHlo.unary main_arg8 main_v166 ((extractStridedSlice S1x128 ![1, 0] · slices_S4x128_S1x128_1_0) : (⟨S4x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S4096x128 ![1] bcast_S128_S4096x128_1 : (⟨S128, .f32⟩ : BufTy).Contents (Elt F) → (⟨S4096x128, .f32⟩ : BufTy).Contents (Elt F)),
    StableHlo.binary main_v165 main_v168 main_v169 ((fun a b => concatenate S4096x640 1 [⟨S4096x512, a⟩, ⟨S4096x128, b⟩] concatenates_S4096x512_S4096x128_S4096x640_d1) : (⟨S4096x512, .f32⟩ : BufTy).Contents (Elt F) → (⟨S4096x128, .f32⟩ : BufTy).Contents (Elt F) → (⟨S4096x640, .f32⟩ : BufTy).Contents (Elt F)),
    StableHlo.unary main_arg9 main_v170 ((transpose S640x256 [1, 0] · transposes_S256x640_S640x256_1_0) : (⟨S256x640, .f32⟩ : BufTy).Contents (Elt F) → (⟨S640x256, .f32⟩ : BufTy).Contents (Elt F)),
    StableHlo.binary main_v169 main_v170 main_v171 ((fun l r => Host.dotGeneral dot_S4096x640_S640x256_S4096x256_1_0_0_1_n_n none l r) : (⟨S4096x640, .f32⟩ : BufTy).Contents (Elt F) → (⟨S640x256, .f32⟩ : BufTy).Contents (Elt F) → (⟨S4096x256, .f32⟩ : BufTy).Contents (Elt F)),
    StableHlo.unary main_arg10 main_v172 (broadcastInDim S1x256 ![1] bcast_S256_S1x256_1 : (⟨S256, .f32⟩ : BufTy).Contents (Elt F) → (⟨S1x256, .f32⟩ : BufTy).Contents (Elt F)),
    StableHlo.unary main_v172 main_v173 (broadcastInDim S4096x256 ![0, 1] bcast_S1x256_S4096x256_0_1 : (⟨S1x256, .f32⟩ : BufTy).Contents (Elt F) → (⟨S4096x256, .f32⟩ : BufTy).Contents (Elt F)),
    StableHlo.binary main_v171 main_v173 main_v174 (addf : (⟨S4096x256, .f32⟩ : BufTy).Contents (Elt F) → (⟨S4096x256, .f32⟩ : BufTy).Contents (Elt F) → (⟨S4096x256, .f32⟩ : BufTy).Contents (Elt F)),
    StableHlo.nullary main_cst_35 (constant S_ .f32 0x00000000#32),
    StableHlo.binary main_v174 main_cst_35 main_v175 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v175 main_v176 (broadcastInDim S4096x1 ![0] bcast_S4096_S4096x1_0 : (⟨S4096, .f32⟩ : BufTy).Contents (Elt F) → (⟨S4096x1, .f32⟩ : BufTy).Contents (Elt F)),
    StableHlo.nullary main_cst_36 (constant S_ .f32 0x43800000#32),
    StableHlo.unary main_cst_36 main_v177 (broadcastInDim S4096x1 ![] bcast_S_S4096x1 : (⟨S_, .f32⟩ : BufTy).Contents (Elt F) → (⟨S4096x1, .f32⟩ : BufTy).Contents (Elt F)),
    StableHlo.binary main_v176 main_v177 main_v178 (Host.divf : (⟨S4096x1, .f32⟩ : BufTy).Contents (Elt F) → (⟨S4096x1, .f32⟩ : BufTy).Contents (Elt F) → (⟨S4096x1, .f32⟩ : BufTy).Contents (Elt F)),
    StableHlo.nullary main_c_37 (constantI S_ 32 0#32) ]
theorem w3_l2_sub : (w3_l2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 2 of window 3 writes, one per operation. -/
abbrev w3_l2_tab : List (Ref sig .tc) :=
  [ main_v153, main_v154, main_cst_34, main_v155, main_v156, main_v157, main_v158, main_v159, main_v160, main_v161, main_v162, main_v163, main_v164, main_v165, main_v166, main_v167, main_v168, main_v169, main_v170, main_v171, main_v172, main_v173, main_v174, main_cst_35, main_v175, main_v176, main_cst_36, main_v177, main_v178, main_c_37 ]
theorem w3_l2_writes : Cert.Region.WritesIn (τ := τ) (w3_l2 : List (HloOp τ sig (Elt F))) w3_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l2_fresh : ∀ op ∈ (w3_l2 : List (HloOp τ sig (Elt F))), op.fresh = ∅ := by
  intro _ h; (repeat (cases h with | head => rfl | tail _ h => ?_)); exact nomatch h

/-- Line 3 of window 3: 23 operations of the outlined function called here (@var_0), over this call's buffers. -/
abbrev w3_l3 : List (HloOp τ sig (Elt F)) :=
  [ StableHlo.TRef.nullary main_call7.cst (constant S_ .f32 0x00000000#32),
    StableHlo.TRef.binary (.of main_v174 : StableHlo.TRef sig ⟨S4096x256, .f32⟩) main_call7.cst main_call7.v0 (fun x v => Host.reduceAdd x v reducesTo_S4096x256_S4096_d1 h_S_),
    StableHlo.TRef.unary main_call7.v0 main_call7.v1 (broadcastInDim S4096x1 ![0] bcast_S4096_S4096x1_0),
    StableHlo.TRef.nullary main_call7.cst_0 (constant S_ .f32 0x43800000#32),
    StableHlo.TRef.unary main_call7.cst_0 main_call7.v2 (broadcastInDim S4096x1 ![] bcast_S_S4096x1),
    StableHlo.TRef.binary main_call7.v1 main_call7.v2 main_call7.v3 Host.divf,
    StableHlo.TRef.unary main_call7.v3 main_call7.v4 (broadcastInDim S4096x256 ![0, 1] bcast_S4096x1_S4096x256_0_1),
    StableHlo.TRef.binary (.of main_v174 : StableHlo.TRef sig ⟨S4096x256, .f32⟩) main_call7.v4 main_call7.v5 subf,
    StableHlo.TRef.binary main_call7.v5 main_call7.v5 main_call7.v6 mulf,
    StableHlo.TRef.unary (.of main_c_37 : StableHlo.TRef sig ⟨S_, .i32⟩) main_call7.v7 (sitofp .f32),
    StableHlo.TRef.nullary main_call7.cst_1 (constant S_ .f32 0x43800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S4096x256_S4096_d1 h_S_),
    StableHlo.TRef.unary main_call7.v9 main_call7.v10 (broadcastInDim S4096x1 ![0] bcast_S4096_S4096x1_0),
    StableHlo.TRef.unary main_call7.v8 main_call7.v11 (broadcastInDim S4096x1 ![] bcast_S_S4096x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary (main_call7.cst_4 : StableHlo.TRef sig ⟨S_, .f32⟩) main_call7.call0.v0 id,
    StableHlo.TRef.unary main_call7.call0.v0 main_call7.call0.v1 (broadcastInDim S4096x1 ![] bcast_S_S4096x1),
    StableHlo.TRef.ternary (main_call7.v13 : StableHlo.TRef sig ⟨S_, .i1⟩) (main_call7.v12 : StableHlo.TRef sig ⟨S4096x1, .f32⟩) main_call7.call0.v1 main_call7.call0.v2 (fun p a b => select (broadcastInDim S4096x1 ![] bcast_S_S4096x1 p) a b) ]
theorem w3_l3_sub : (w3_l3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 3 of window 3 writes, one per operation. -/
abbrev w3_l3_tab : List (Ref sig .tc) :=
  [ main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.v12.ref, main_call7.cst_3.ref, main_call7.v13.ref, main_call7.cst_4.ref, main_call7.call0.v0.ref, main_call7.call0.v1.ref, main_call7.call0.v2.ref ]
theorem w3_l3_writes : Cert.Region.WritesIn (τ := τ) (w3_l3 : List (HloOp τ sig (Elt F))) w3_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l3_fresh : ∀ op ∈ (w3_l3 : List (HloOp τ sig (Elt F))), op.fresh = ∅ := by
  intro _ h; (repeat (cases h with | head => rfl | tail _ h => ?_)); exact nomatch h

/-- Line 4 of window 3: 14 operations of @main itself. -/
abbrev w3_l4 : List (HloOp τ sig (Elt F)) :=
  [ StableHlo.unary main_v178 main_v180 (broadcastInDim S4096x256 ![0, 1] bcast_S4096x1_S4096x256_0_1 : (⟨S4096x1, .f32⟩ : BufTy).Contents (Elt F) → (⟨S4096x256, .f32⟩ : BufTy).Contents (Elt F)),
    StableHlo.binary main_v174 main_v180 main_v181 (subf : (⟨S4096x256, .f32⟩ : BufTy).Contents (Elt F) → (⟨S4096x256, .f32⟩ : BufTy).Contents (Elt F) → (⟨S4096x256, .f32⟩ : BufTy).Contents (Elt F)),
    StableHlo.nullary main_cst_38 (constant S_ .f32 0x3727C5AC#32),
    StableHlo.unary main_cst_38 main_v182 (broadcastInDim S4096x1 ![] bcast_S_S4096x1 : (⟨S_, .f32⟩ : BufTy).Contents (Elt F) → (⟨S4096x1, .f32⟩ : BufTy).Contents (Elt F)),
    StableHlo.binary main_v179 main_v182 main_v183 (addf : (⟨S4096x1, .f32⟩ : BufTy).Contents (Elt F) → (⟨S4096x1, .f32⟩ : BufTy).Contents (Elt F) → (⟨S4096x1, .f32⟩ : BufTy).Contents (Elt F)),
    StableHlo.unary main_v183 main_v184 (Host.rsqrt : (⟨S4096x1, .f32⟩ : BufTy).Contents (Elt F) → (⟨S4096x1, .f32⟩ : BufTy).Contents (Elt F)),
    StableHlo.unary main_v184 main_v185 (broadcastInDim S4096x256 ![0, 1] bcast_S4096x1_S4096x256_0_1 : (⟨S4096x1, .f32⟩ : BufTy).Contents (Elt F) → (⟨S4096x256, .f32⟩ : BufTy).Contents (Elt F)),
    StableHlo.binary main_v181 main_v185 main_v186 (mulf : (⟨S4096x256, .f32⟩ : BufTy).Contents (Elt F) → (⟨S4096x256, .f32⟩ : BufTy).Contents (Elt F) → (⟨S4096x256, .f32⟩ : BufTy).Contents (Elt F)),
    StableHlo.unary main_arg11 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S4096x256 ![0, 1] bcast_S1x256_S4096x256_0_1 : (⟨S1x256, .f32⟩ : BufTy).Contents (Elt F) → (⟨S4096x256, .f32⟩ : BufTy).Contents (Elt F)),
    StableHlo.binary main_v186 main_v188 main_v189 (mulf : (⟨S4096x256, .f32⟩ : BufTy).Contents (Elt F) → (⟨S4096x256, .f32⟩ : BufTy).Contents (Elt F) → (⟨S4096x256, .f32⟩ : BufTy).Contents (Elt F)),
    StableHlo.unary main_arg12 main_v190 (broadcastInDim S1x256 ![1] bcast_S256_S1x256_1 : (⟨S256, .f32⟩ : BufTy).Contents (Elt F) → (⟨S1x256, .f32⟩ : BufTy).Contents (Elt F)),
    StableHlo.unary main_v190 main_v191 (broadcastInDim S4096x256 ![0, 1] bcast_S1x256_S4096x256_0_1 : (⟨S1x256, .f32⟩ : BufTy).Contents (Elt F) → (⟨S4096x256, .f32⟩ : BufTy).Contents (Elt F)),
    StableHlo.binary main_v189 main_v191 main_v192 (addf : (⟨S4096x256, .f32⟩ : BufTy).Contents (Elt F) → (⟨S4096x256, .f32⟩ : BufTy).Contents (Elt F) → (⟨S4096x256, .f32⟩ : BufTy).Contents (Elt F)) ]
theorem w3_l4_sub : (w3_l4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers line 4 of window 3 writes, one per operation. -/
abbrev w3_l4_tab : List (Ref sig .tc) :=
  [ main_v180, main_v181, main_cst_38, main_v182, main_v183, main_v184, main_v185, main_v186, main_v187, main_v188, main_v189, main_v190, main_v191, main_v192 ]
theorem w3_l4_writes : Cert.Region.WritesIn (τ := τ) (w3_l4 : List (HloOp τ sig (Elt F))) w3_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l4_fresh : ∀ op ∈ (w3_l4 : List (HloOp τ sig (Elt F))), op.fresh = ∅ := by
  intro _ h; (repeat (cases h with | head => rfl | tail _ h => ?_)); exact nomatch h

/-- Line 5 of window 3: 3 operations of the outlined function called here (@relu), over this call's buffers. -/
abbrev w3_l5 : List (HloOp τ sig (Elt F)) :=
  [ StableHlo.TRef.nullary main_call8.cst (constant S_ .f32 0x00000000#32),
    StableHlo.TRef.unary main_call8.cst main_call8.v0 (broadcastInDim S4096x256 ![] bcast_S_S4096x256),
    StableHlo.TRef.binary (.of main_v192 : StableHlo.TRef sig ⟨S4096x256, .f32⟩) main_call8.v0 main_call8.v1 maximumf ]
theorem w3_l5_sub : (w3_l5 : List (HloOp τ sig (Elt F))).Forall fun op => op.bufs ⊆ StableHlo.tcRefs τ sig :=
  ⟨StableHlo.nullary_bufs_sub .., StableHlo.unary_bufs_sub .., StableHlo.binary_bufs_sub ..⟩
/-- The buffers line 5 of window 3 writes, one per operation. -/
abbrev w3_l5_tab : List (Ref sig .tc) :=
  [ main_call8.cst.ref, main_call8.v0.ref, main_call8.v1.ref ]
theorem w3_l5_writes : Cert.Region.WritesIn (τ := τ) (w3_l5 : List (HloOp τ sig (Elt F))) w3_l5_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l5_fresh : ∀ op ∈ (w3_l5 : List (HloOp τ sig (Elt F))), op.fresh = ∅ := by
  intro _ h; (repeat (cases h with | head => rfl | tail _ h => ?_)); exact nomatch h

/-- Line 6 of window 3: 5 operations of @main itself. -/
abbrev w3_l6 : List (HloOp τ sig (Elt F)) :=
  [ StableHlo.unary main_arg13 main_v194 ((transpose S256x128 [1, 0] · transposes_S128x256_S256x128_1_0) : (⟨S128x256, .f32⟩ : BufTy).Contents (Elt F) → (⟨S256x128, .f32⟩ : BufTy).Contents (Elt F)),
    StableHlo.binary main_v193 main_v194 main_v195 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg14 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S4096x128 ![0, 1] bcast_S1x128_S4096x128_0_1 : (⟨S1x128, .f32⟩ : BufTy).Contents (Elt F) → (⟨S4096x128, .f32⟩ : BufTy).Contents (Elt F)),
    StableHlo.binary main_v195 main_v197 main_v198 (addf : (⟨S4096x128, .f32⟩ : BufTy).Contents (Elt F) → (⟨S4096x128, .f32⟩ : BufTy).Contents (Elt F) → (⟨S4096x128, .f32⟩ : BufTy).Contents (Elt F)) ]
theorem w3_l6_sub : (w3_l6 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
/-- The buffers line 6 of window 3 writes, one per operation. -/
abbrev w3_l6_tab : List (Ref sig .tc) :=
  [ main_v194, main_v195, main_v196, main_v197, main_v198 ]
theorem w3_l6_writes : Cert.Region.WritesIn (τ := τ) (w3_l6 : List (HloOp τ sig (Elt F))) w3_l6_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w3_l6_fresh : ∀ op ∈ (w3_l6 : List (HloOp τ sig (Elt F))), op.fresh = ∅ := by
  intro _ h; (repeat (cases h with | head => rfl | tail _ h => ?_)); exact nomatch h

/-- Window 3 is its lines run in order, the last in tail position. -/
theorem w3_chain (c : Dev nD) : main_part3 (F := F) c = (Pipeline.chainK
  [ StableHlo.seq w3_l0,
    StableHlo.seq w3_l1,
    StableHlo.seq w3_l2,
    StableHlo.seq w3_l3,
    StableHlo.seq w3_l4,
    StableHlo.seq w3_l5 ]
  (StableHlo.seq w3_l6) : Prog (TpuEff nD τ sig (Elt F) (Pipeline.Sig Λ₀ (Fin 0) fun p => (pcfgs (F := F) p).Adm) .tc) PUnit) := by
  chain_rfl

end Cert.ReferenceIdeal.RefRun

end
-- ==== Proof.RefRunW4.lean ====
/-
  Window 4 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 4: 7 operations of @main itself. -/
abbrev w4_l0 : List (HloOp τ sig (Elt F)) :=
  [ StableHlo.nullary main_cst_39 (constant S_ .f32 0x00000000#32),
    StableHlo.binary main_v198 main_cst_39 main_v199 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v199 main_v200 (broadcastInDim S4096x1 ![0] bcast_S4096_S4096x1_0 : (⟨S4096, .f32⟩ : BufTy).Contents (Elt F) → (⟨S4096x1, .f32⟩ : BufTy).Contents (Elt F)),
    StableHlo.nullary main_cst_40 (constant S_ .f32 0x43000000#32),
    StableHlo.unary main_cst_40 main_v201 (broadcastInDim S4096x1 ![] bcast_S_S4096x1 : (⟨S_, .f32⟩ : BufTy).Contents (Elt F) → (⟨S4096x1, .f32⟩ : BufTy).Contents (Elt F)),
    StableHlo.binary main_v200 main_v201 main_v202 (Host.divf : (⟨S4096x1, .f32⟩ : BufTy).Contents (Elt F) → (⟨S4096x1, .f32⟩ : BufTy).Contents (Elt F) → (⟨S4096x1, .f32⟩ : BufTy).Contents (Elt F)),
    StableHlo.nullary main_c_41 (constantI S_ 32 0#32) ]
theorem w4_l0_sub : (w4_l0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 0 of window 4 writes, one per operation. -/
abbrev w4_l0_tab : List (Ref sig .tc) :=
  [ main_cst_39, main_v199, main_v200, main_cst_40, main_v201, main_v202, main_c_41 ]
theorem w4_l0_writes : Cert.Region.WritesIn (τ := τ) (w4_l0 : List (HloOp τ sig (Elt F))) w4_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l0_fresh : ∀ op ∈ (w4_l0 : List (HloOp τ sig (Elt F))), op.fresh = ∅ := by
  intro _ h; (repeat (cases h with | head => rfl | tail _ h => ?_)); exact nomatch h

/-- Line 1 of window 4: 23 operations of the outlined function called here (@var_1), over this call's buffers. -/
abbrev w4_l1 : List (HloOp τ sig (Elt F)) :=
  [ StableHlo.TRef.nullary main_call9.cst (constant S_ .f32 0x00000000#32),
    StableHlo.TRef.binary (.of main_v198 : StableHlo.TRef sig ⟨S4096x128, .f32⟩) main_call9.cst main_call9.v0 (fun x v => Host.reduceAdd x v reducesTo_S4096x128_S4096_d1 h_S_),
    StableHlo.TRef.unary main_call9.v0 main_call9.v1 (broadcastInDim S4096x1 ![0] bcast_S4096_S4096x1_0),
    StableHlo.TRef.nullary main_call9.cst_0 (constant S_ .f32 0x43000000#32),
    StableHlo.TRef.unary main_call9.cst_0 main_call9.v2 (broadcastInDim S4096x1 ![] bcast_S_S4096x1),
    StableHlo.TRef.binary main_call9.v1 main_call9.v2 main_call9.v3 Host.divf,
    StableHlo.TRef.unary main_call9.v3 main_call9.v4 (broadcastInDim S4096x128 ![0, 1] bcast_S4096x1_S4096x128_0_1),
    StableHlo.TRef.binary (.of main_v198 : StableHlo.TRef sig ⟨S4096x128, .f32⟩) main_call9.v4 main_call9.v5 subf,
    StableHlo.TRef.binary main_call9.v5 main_call9.v5 main_call9.v6 mulf,
    StableHlo.TRef.unary (.of main_c_41 : StableHlo.TRef sig ⟨S_, .i32⟩) main_call9.v7 (sitofp .f32),
    StableHlo.TRef.nullary main_call9.cst_1 (constant S_ .f32 0x43000000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S4096x128_S4096_d1 h_S_),
    StableHlo.TRef.unary main_call9.v9 main_call9.v10 (broadcastInDim S4096x1 ![0] bcast_S4096_S4096x1_0),
    StableHlo.TRef.unary main_call9.v8 main_call9.v11 (broadcastInDim S4096x1 ![] bcast_S_S4096x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary (main_call9.cst_4 : StableHlo.TRef sig ⟨S_, .f32⟩) main_call9.call0.v0 id,
    StableHlo.TRef.unary main_call9.call0.v0 main_call9.call0.v1 (broadcastInDim S4096x1 ![] bcast_S_S4096x1),
    StableHlo.TRef.ternary (main_call9.v13 : StableHlo.TRef sig ⟨S_, .i1⟩) (main_call9.v12 : StableHlo.TRef sig ⟨S4096x1, .f32⟩) main_call9.call0.v1 main_call9.call0.v2 (fun p a b => select (broadcastInDim S4096x1 ![] bcast_S_S4096x1 p) a b) ]
theorem w4_l1_sub : (w4_l1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 1 of window 4 writes, one per operation. -/
abbrev w4_l1_tab : List (Ref sig .tc) :=
  [ main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.v12.ref, main_call9.cst_3.ref, main_call9.v13.ref, main_call9.cst_4.ref, main_call9.call0.v0.ref, main_call9.call0.v1.ref, main_call9.call0.v2.ref ]
theorem w4_l1_writes : Cert.Region.WritesIn (τ := τ) (w4_l1 : List (HloOp τ sig (Elt F))) w4_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l1_fresh : ∀ op ∈ (w4_l1 : List (HloOp τ sig (Elt F))), op.fresh = ∅ := by
  intro _ h; (repeat (cases h with | head => rfl | tail _ h => ?_)); exact nomatch h

/-- Line 2 of window 4: 14 operations of @main itself. -/
abbrev w4_l2 : List (HloOp τ sig (Elt F)) :=
  [ StableHlo.unary main_v202 main_v204 (broadcastInDim S4096x128 ![0, 1] bcast_S4096x1_S4096x128_0_1 : (⟨S4096x1, .f32⟩ : BufTy).Contents (Elt F) → (⟨S4096x128, .f32⟩ : BufTy).Contents (Elt F)),
    StableHlo.binary main_v198 main_v204 main_v205 (subf : (⟨S4096x128, .f32⟩ : BufTy).Contents (Elt F) → (⟨S4096x128, .f32⟩ : BufTy).Contents (Elt F) → (⟨S4096x128, .f32⟩ : BufTy).Contents (Elt F)),
    StableHlo.nullary main_cst_42 (constant S_ .f32 0x3727C5AC#32),
    StableHlo.unary main_cst_42 main_v206 (broadcastInDim S4096x1 ![] bcast_S_S4096x1 : (⟨S_, .f32⟩ : BufTy).Contents (Elt F) → (⟨S4096x1, .f32⟩ : BufTy).Contents (Elt F)),
    StableHlo.binary main_v203 main_v206 main_v207 (addf : (⟨S4096x1, .f32⟩ : BufTy).Contents (Elt F) → (⟨S4096x1, .f32⟩ : BufTy).Contents (Elt F) → (⟨S4096x1, .f32⟩ : BufTy).Contents (Elt F)),
    StableHlo.unary main_v207 main_v208 (Host.rsqrt : (⟨S4096x1, .f32⟩ : BufTy).Contents (Elt F) → (⟨S4096x1, .f32⟩ : BufTy).Contents (Elt F)),
    StableHlo.unary main_v208 main_v209 (broadcastInDim S4096x128 ![0, 1] bcast_S4096x1_S4096x128_0_1 : (⟨S4096x1, .f32⟩ : BufTy).Contents (Elt F) → (⟨S4096x128, .f32⟩ : BufTy).Contents (Elt F)),
    StableHlo.binary main_v205 main_v209 main_v210 (mulf : (⟨S4096x128, .f32⟩ : BufTy).Contents (Elt F) → (⟨S4096x128, .f32⟩ : BufTy).Contents (Elt F) → (⟨S4096x128, .f32⟩ : BufTy).Contents (Elt F)),
    StableHlo.unary main_arg15 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S4096x128 ![0, 1] bcast_S1x128_S4096x128_0_1 : (⟨S1x128, .f32⟩ : BufTy).Contents (Elt F) → (⟨S4096x128, .f32⟩ : BufTy).Contents (Elt F)),
    StableHlo.binary main_v210 main_v212 main_v213 (mulf : (⟨S4096x128, .f32⟩ : BufTy).Contents (Elt F) → (⟨S4096x128, .f32⟩ : BufTy).Contents (Elt F) → (⟨S4096x128, .f32⟩ : BufTy).Contents (Elt F)),
    StableHlo.unary main_arg16 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S4096x128 ![0, 1] bcast_S1x128_S4096x128_0_1 : (⟨S1x128, .f32⟩ : BufTy).Contents (Elt F) → (⟨S4096x128, .f32⟩ : BufTy).Contents (Elt F)),
    StableHlo.binary main_v213 main_v215 main_v216 (addf : (⟨S4096x128, .f32⟩ : BufTy).Contents (Elt F) → (⟨S4096x128, .f32⟩ : BufTy).Contents (Elt F) → (⟨S4096x128, .f32⟩ : BufTy).Contents (Elt F)) ]
theorem w4_l2_sub : (w4_l2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers line 2 of window 4 writes, one per operation. -/
abbrev w4_l2_tab : List (Ref sig .tc) :=
  [ main_v204, main_v205, main_cst_42, main_v206, main_v207, main_v208, main_v209, main_v210, main_v211, main_v212, main_v213, main_v214, main_v215, main_v216 ]
theorem w4_l2_writes : Cert.Region.WritesIn (τ := τ) (w4_l2 : List (HloOp τ sig (Elt F))) w4_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l2_fresh : ∀ op ∈ (w4_l2 : List (HloOp τ sig (Elt F))), op.fresh = ∅ := by
  intro _ h; (repeat (cases h with | head => rfl | tail _ h => ?_)); exact nomatch h

/-- Line 3 of window 4: 3 operations of the outlined function called here (@relu_2), over this call's buffers. -/
abbrev w4_l3 : List (HloOp τ sig (Elt F)) :=
  [ StableHlo.TRef.nullary main_call10.cst (constant S_ .f32 0x00000000#32),
    StableHlo.TRef.unary main_call10.cst main_call10.v0 (broadcastInDim S4096x128 ![] bcast_S_S4096x128),
    StableHlo.TRef.binary (.of main_v216 : StableHlo.TRef sig ⟨S4096x128, .f32⟩) main_call10.v0 main_call10.v1 maximumf ]
theorem w4_l3_sub : (w4_l3 : List (HloOp τ sig (Elt F))).Forall fun op => op.bufs ⊆ StableHlo.tcRefs τ sig :=
  ⟨StableHlo.nullary_bufs_sub .., StableHlo.unary_bufs_sub .., StableHlo.binary_bufs_sub ..⟩
/-- The buffers line 3 of window 4 writes, one per operation. -/
abbrev w4_l3_tab : List (Ref sig .tc) :=
  [ main_call10.cst.ref, main_call10.v0.ref, main_call10.v1.ref ]
theorem w4_l3_writes : Cert.Region.WritesIn (τ := τ) (w4_l3 : List (HloOp τ sig (Elt F))) w4_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l3_fresh : ∀ op ∈ (w4_l3 : List (HloOp τ sig (Elt F))), op.fresh = ∅ := by
  intro _ h; (repeat (cases h with | head => rfl | tail _ h => ?_)); exact nomatch h

/-- Line 4 of window 4: 16 operations of @main itself. -/
abbrev w4_l4 : List (HloOp τ sig (Elt F)) :=
  [ StableHlo.unary main_arg17 main_v218 ((transpose S128x1 [1, 0] · transposes_S1x128_S128x1_1_0) : (⟨S1x128, .f32⟩ : BufTy).Contents (Elt F) → (⟨S128x1, .f32⟩ : BufTy).Contents (Elt F)),
    StableHlo.binary main_v217 main_v218 main_v219 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    StableHlo.unary main_arg18 main_v220 (broadcastInDim S1x1 ![1] bcast_S1_S1x1_1 : (⟨S1, .f32⟩ : BufTy).Contents (Elt F) → (⟨S1x1, .f32⟩ : BufTy).Contents (Elt F)),
    StableHlo.unary main_v220 main_v221 (broadcastInDim S4096x1 ![0, 1] bcast_S1x1_S4096x1_0_1 : (⟨S1x1, .f32⟩ : BufTy).Contents (Elt F) → (⟨S4096x1, .f32⟩ : BufTy).Contents (Elt F)),
    StableHlo.binary main_v219 main_v221 main_v222 (addf : (⟨S4096x1, .f32⟩ : BufTy).Contents (Elt F) → (⟨S4096x1, .f32⟩ : BufTy).Contents (Elt F) → (⟨S4096x1, .f32⟩ : BufTy).Contents (Elt F)),
    StableHlo.reshape main_v222 main_v223 rfl shapeCasts_S4096x1_S4096,
    StableHlo.unary main_v223 main_v224 (Host.negf : (⟨S4096, .f32⟩ : BufTy).Contents (Elt F) → (⟨S4096, .f32⟩ : BufTy).Contents (Elt F)),
    StableHlo.unary main_v224 main_v225 (Host.exp : (⟨S4096, .f32⟩ : BufTy).Contents (Elt F) → (⟨S4096, .f32⟩ : BufTy).Contents (Elt F)),
    StableHlo.nullary main_cst_43 (constant S_ .f32 0x3F800000#32),
    StableHlo.unary main_cst_43 main_v226 (broadcastInDim S4096 ![] bcast_S_S4096 : (⟨S_, .f32⟩ : BufTy).Contents (Elt F) → (⟨S4096, .f32⟩ : BufTy).Contents (Elt F)),
    StableHlo.binary main_v226 main_v225 main_v227 (addf : (⟨S4096, .f32⟩ : BufTy).Contents (Elt F) → (⟨S4096, .f32⟩ : BufTy).Contents (Elt F) → (⟨S4096, .f32⟩ : BufTy).Contents (Elt F)),
    StableHlo.nullary main_cst_44 (constant S_ .f32 0x3F800000#32),
    StableHlo.unary main_cst_44 main_v228 (broadcastInDim S4096 ![] bcast_S_S4096 : (⟨S_, .f32⟩ : BufTy).Contents (Elt F) → (⟨S4096, .f32⟩ : BufTy).Contents (Elt F)),
    StableHlo.binary main_v228 main_v227 main_v229 (Host.divf : (⟨S4096, .f32⟩ : BufTy).Contents (Elt F) → (⟨S4096, .f32⟩ : BufTy).Contents (Elt F) → (⟨S4096, .f32⟩ : BufTy).Contents (Elt F)),
    StableHlo.nullary main_cst_45 (constant S_ .f32 0x33D6BF95#32),
    StableHlo.nullary main_cst_46 (constant S_ .f32 0x3F7FFFFE#32) ]
theorem w4_l4_sub : (w4_l4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
/-- The buffers line 4 of window 4 writes, one per operation. -/
abbrev w4_l4_tab : List (Ref sig .tc) :=
  [ main_v218, main_v219, main_v220, main_v221, main_v222, main_v223, main_v224, main_v225, main_cst_43, main_v226, main_v227, main_cst_44, main_v228, main_v229, main_cst_45, main_cst_46 ]
theorem w4_l4_writes : Cert.Region.WritesIn (τ := τ) (w4_l4 : List (HloOp τ sig (Elt F))) w4_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l4_fresh : ∀ op ∈ (w4_l4 : List (HloOp τ sig (Elt F))), op.fresh = ∅ := by
  intro _ h; (repeat (cases h with | head => rfl | tail _ h => ?_)); exact nomatch h

/-- Line 5 of window 4: 6 operations of the outlined function called here (@clip), over this call's buffers. -/
abbrev w4_l5 : List (HloOp τ sig (Elt F)) :=
  [ StableHlo.TRef.unary (.of main_cst_45 : StableHlo.TRef sig ⟨S_, .f32⟩) main_call11.v0 id,
    StableHlo.TRef.unary main_call11.v0 main_call11.v1 (broadcastInDim S4096 ![] bcast_S_S4096),
    StableHlo.TRef.binary main_call11.v1 (.of main_v229 : StableHlo.TRef sig ⟨S4096, .f32⟩) main_call11.v2 maximumf,
    StableHlo.TRef.unary (.of main_cst_46 : StableHlo.TRef sig ⟨S_, .f32⟩) main_call11.v3 id,
    StableHlo.TRef.unary main_call11.v3 main_call11.v4 (broadcastInDim S4096 ![] bcast_S_S4096),
    StableHlo.TRef.binary main_call11.v4 main_call11.v2 main_call11.v5 minimumf ]
theorem w4_l5_sub : (w4_l5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- The buffers line 5 of window 4 writes, one per operation. -/
abbrev w4_l5_tab : List (Ref sig .tc) :=
  [ main_call11.v0.ref, main_call11.v1.ref, main_call11.v2.ref, main_call11.v3.ref, main_call11.v4.ref, main_call11.v5.ref ]
theorem w4_l5_writes : Cert.Region.WritesIn (τ := τ) (w4_l5 : List (HloOp τ sig (Elt F))) w4_l5_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l5_fresh : ∀ op ∈ (w4_l5 : List (HloOp τ sig (Elt F))), op.fresh = ∅ := by
  intro _ h; (repeat (cases h with | head => rfl | tail _ h => ?_)); exact nomatch h

/-- Line 6 of window 4: 8 operations of @main itself. -/
abbrev w4_l6 : List (HloOp τ sig (Elt F)) :=
  [ StableHlo.nullary main_cst_47 (constant S_ .f32 0x00000000#32),
    StableHlo.binary main_v230 main_cst_47 main_v231 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_48 (constant S_ .f32 0x45800000#32),
    StableHlo.binary main_v231 main_cst_48 main_v232 (Host.divf : (⟨S_, .f32⟩ : BufTy).Contents (Elt F) → (⟨S_, .f32⟩ : BufTy).Contents (Elt F) → (⟨S_, .f32⟩ : BufTy).Contents (Elt F)),
    StableHlo.nullary main_cst_49 (constant S_ .f32 0x3F000000#32),
    StableHlo.binary main_v232 main_cst_49 main_v233 (cmpf .oge : (⟨S_, .f32⟩ : BufTy).Contents (Elt F) → (⟨S_, .f32⟩ : BufTy).Contents (Elt F) → (⟨S_, .i1⟩ : BufTy).Contents (Elt F)),
    StableHlo.unary main_v233 main_v234 (uitofp .f32 : (⟨S_, .i1⟩ : BufTy).Contents (Elt F) → (⟨S_, .f32⟩ : BufTy).Contents (Elt F)),
    StableHlo.binary main_v110 main_v234 main_v235 (mulf : (⟨S_, .f32⟩ : BufTy).Contents (Elt F) → (⟨S_, .f32⟩ : BufTy).Contents (Elt F) → (⟨S_, .f32⟩ : BufTy).Contents (Elt F)) ]
theorem w4_l6_sub : (w4_l6 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub ..⟩
/-- The buffers line 6 of window 4 writes, one per operation. -/
abbrev w4_l6_tab : List (Ref sig .tc) :=
  [ main_cst_47, main_v231, main_cst_48, main_v232, main_cst_49, main_v233, main_v234, main_v235 ]
theorem w4_l6_writes : Cert.Region.WritesIn (τ := τ) (w4_l6 : List (HloOp τ sig (Elt F))) w4_l6_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l6_fresh : ∀ op ∈ (w4_l6 : List (HloOp τ sig (Elt F))), op.fresh = ∅ := by
  intro _ h; (repeat (cases h with | head => rfl | tail _ h => ?_)); exact nomatch h

/-- Line 7 of window 4: 12 operations of @main itself. -/
abbrev w4_l7 : List (HloOp τ sig (Elt F)) :=
  [ StableHlo.binary main_v131 main_arg4 main_v236 ((fun l r => Host.dotGeneral dot_S2x4096x512_S1024x512_S2x4096x1024_2_1_01_0_n_n none l r) : (⟨S2x4096x512, .f32⟩ : BufTy).Contents (Elt F) → (⟨S1024x512, .f32⟩ : BufTy).Contents (Elt F) → (⟨S2x4096x1024, .f32⟩ : BufTy).Contents (Elt F)),
    StableHlo.unary main_arg5 main_v237 (broadcastInDim S1x1x1024 ![2] bcast_S1024_S1x1x1024_2 : (⟨S1024, .f32⟩ : BufTy).Contents (Elt F) → (⟨S1x1x1024, .f32⟩ : BufTy).Contents (Elt F)),
    StableHlo.unary main_v237 main_v238 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F)),
    StableHlo.binary main_v236 main_v238 main_v239 (addf : (⟨S2x4096x1024, .f32⟩ : BufTy).Contents (Elt F) → (⟨S2x4096x1024, .f32⟩ : BufTy).Contents (Elt F) → (⟨S2x4096x1024, .f32⟩ : BufTy).Contents (Elt F)),
    StableHlo.unary main_v239 main_v240 ((extractStridedSlice S2x4096x512 ![0, 0, 0] · slices_S2x4096x1024_S2x4096x512_0_0_0) : (⟨S2x4096x1024, .f32⟩ : BufTy).Contents (Elt F) → (⟨S2x4096x512, .f32⟩ : BufTy).Contents (Elt F)),
    StableHlo.unary main_arg19 main_v241 ((extractStridedSlice S1x512 ![0, 0] · slices_S2x512_S1x512_0_0) : (⟨S2x512, .f32⟩ : BufTy).Contents (Elt F) → (⟨S1x512, .f32⟩ : BufTy).Contents (Elt F)),
    StableHlo.reshape main_v241 main_v242 rfl shapeCasts_S1x512_S512,
    StableHlo.nullary main_cst_50 (constant S_ .f32 0x3D3504F3#32),
    StableHlo.unary main_cst_50 main_v243 (broadcastInDim S512 ![] bcast_S_S512 : (⟨S_, .f32⟩ : BufTy).Contents (Elt F) → (⟨S512, .f32⟩ : BufTy).Contents (Elt F)),
    StableHlo.binary main_v243 main_v242 main_v244 (mulf : (⟨S512, .f32⟩ : BufTy).Contents (Elt F) → (⟨S512, .f32⟩ : BufTy).Contents (Elt F) → (⟨S512, .f32⟩ : BufTy).Contents (Elt F)),
    StableHlo.unary main_v244 main_v245 (broadcastInDim S1x1x512 ![2] bcast_S512_S1x1x512_2 : (⟨S512, .f32⟩ : BufTy).Contents (Elt F) → (⟨S1x1x512, .f32⟩ : BufTy).Contents (Elt F)),
    StableHlo.unary main_v245 main_v246 (broadcastInDim S2x4096x512 ![0, 1, 2] bcast_S1x1x512_S2x4096x512_0_1_2 : (⟨S1x1x512, .f32⟩ : BufTy).Contents (Elt F) → (⟨S2x4096x512, .f32⟩ : BufTy).Contents (Elt F)) ]
theorem w4_l7_sub : (w4_l7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub ..⟩
/-- The buffers line 7 of window 4 writes, one per operation. -/
abbrev w4_l7_tab : List (Ref sig .tc) :=
  [ main_v236, main_v237, main_v238, main_v239, main_v240, main_v241, main_v242, main_cst_50, main_v243, main_v244, main_v245, main_v246 ]
theorem w4_l7_writes : Cert.Region.WritesIn (τ := τ) (w4_l7 : List (HloOp τ sig (Elt F))) w4_l7_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w4_l7_fresh : ∀ op ∈ (w4_l7 : List (HloOp τ sig (Elt F))), op.fresh = ∅ := by
  intro _ h; (repeat (cases h with | head => rfl | tail _ h => ?_)); exact nomatch h

/-- Window 4 is its lines run in order, the last in tail position. -/
theorem w4_chain (c : Dev nD) : main_part4 (F := F) c = (Pipeline.chainK
  [ StableHlo.seq w4_l0,
    StableHlo.seq w4_l1,
    StableHlo.seq w4_l2,
    StableHlo.seq w4_l3,
    StableHlo.seq w4_l4,
    StableHlo.seq w4_l5,
    StableHlo.seq w4_l6 ]
  (StableHlo.seq w4_l7) : Prog (TpuEff nD τ sig (Elt F) (Pipeline.Sig Λ₀ (Fin 0) fun p => (pcfgs (F := F) p).Adm) .tc) PUnit) := by
  chain_rfl

end Cert.ReferenceIdeal.RefRun

end
-- ==== Proof.RefRunW5.lean ====
/-
  Window 5 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 5: 11 operations of @main itself. -/
abbrev w5_l0 : List (HloOp τ sig (Elt F)) :=
  [ StableHlo.binary main_v240 main_v246 main_v247 (addf : (⟨S2x4096x512, .f32⟩ : BufTy).Contents (Elt F) → (⟨S2x4096x512, .f32⟩ : BufTy).Contents (Elt F) → (⟨S2x4096x512, .f32⟩ : BufTy).Contents (Elt F)),
    StableHlo.unary main_v239 main_v248 ((extractStridedSlice S2x4096x512 ![0, 0, 512] · slices_S2x4096x1024_S2x4096x512_0_0_512) : (⟨S2x4096x1024, .f32⟩ : BufTy).Contents (Elt F) → (⟨S2x4096x512, .f32⟩ : BufTy).Contents (Elt F)),
    StableHlo.unary main_arg19 main_v249 ((extractStridedSlice S1x512 ![1, 0] · slices_S2x512_S1x512_1_0) : (⟨S2x512, .f32⟩ : BufTy).Contents (Elt F) → (⟨S1x512, .f32⟩ : BufTy).Contents (Elt F)),
    StableHlo.reshape main_v249 main_v250 rfl shapeCasts_S1x512_S512,
    StableHlo.nullary main_cst_51 (constant S_ .f32 0x3D3504F3#32),
    StableHlo.unary main_cst_51 main_v251 (broadcastInDim S512 ![] bcast_S_S512 : (⟨S_, .f32⟩ : BufTy).Contents (Elt F) → (⟨S512, .f32⟩ : BufTy).Contents (Elt F)),
    StableHlo.binary main_v251 main_v250 main_v252 (mulf : (⟨S512, .f32⟩ : BufTy).Contents (Elt F) → (⟨S512, .f32⟩ : BufTy).Contents (Elt F) → (⟨S512, .f32⟩ : BufTy).Contents (Elt F)),
    StableHlo.unary main_v252 main_v253 (broadcastInDim S1x1x512 ![2] bcast_S512_S1x1x512_2 : (⟨S512, .f32⟩ : BufTy).Contents (Elt F) → (⟨S1x1x512, .f32⟩ : BufTy).Contents (Elt F)),
    StableHlo.unary main_v253 main_v254 (broadcastInDim S2x4096x512 ![0, 1, 2] bcast_S1x1x512_S2x4096x512_0_1_2 : (⟨S1x1x512, .f32⟩ : BufTy).Contents (Elt F) → (⟨S2x4096x512, .f32⟩ : BufTy).Contents (Elt F)),
    StableHlo.binary main_v248 main_v254 main_v255 (addf : (⟨S2x4096x512, .f32⟩ : BufTy).Contents (Elt F) → (⟨S2x4096x512, .f32⟩ : BufTy).Contents (Elt F) → (⟨S2x4096x512, .f32⟩ : BufTy).Contents (Elt F)),
    StableHlo.binary main_v247 main_v255 main_v256 ((fun a b => concatenate S4x4096x512 0 [⟨S2x4096x512, a⟩, ⟨S2x4096x512, b⟩] concatenates_S2x4096x512_S2x4096x512_S4x4096x512_d0) : (⟨S2x4096x512, .f32⟩ : BufTy).Contents (Elt F) → (⟨S2x4096x512, .f32⟩ : BufTy).Contents (Elt F) → (⟨S4x4096x512, .f32⟩ : BufTy).Contents (Elt F)) ]
theorem w5_l0_sub : (w5_l0 : List (HloOp τ sig (Elt F))).Forall fun op => op.bufs ⊆ StableHlo.tcRefs τ sig :=
  ⟨StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub ..⟩
/-- The buffers line 0 of window 5 writes, one per operation. -/
abbrev w5_l0_tab : List (Ref sig .tc) :=
  [ main_v247, main_v248, main_v249, main_v250, main_cst_51, main_v251, main_v252, main_v253, main_v254, main_v255, main_v256 ]
theorem w5_l0_writes : Cert.Region.WritesIn (τ := τ) (w5_l0 : List (HloOp τ sig (Elt F))) w5_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w5_l0_fresh : ∀ op ∈ (w5_l0 : List (HloOp τ sig (Elt F))), op.fresh = ∅ := by
  intro _ h; (repeat (cases h with | head => rfl | tail _ h => ?_)); exact nomatch h

/-- Line 1 of window 5: 8 operations of @main itself. -/
abbrev w5_l1 : List (HloOp τ sig (Elt F)) :=
  [ StableHlo.nullary main_cst_52 (constant S_ .f32 0x00000000#32),
    StableHlo.binary main_v256 main_cst_52 main_v257 ((fun x v => Host.reduceAdd x v reducesTo_S4x4096x512_S4096x512_d0 h_S_) : (⟨S4x4096x512, .f32⟩ : BufTy).Contents (Elt F) → (⟨S_, .f32⟩ : BufTy).Contents (Elt F) → (⟨S4096x512, .f32⟩ : BufTy).Contents (Elt F)),
    StableHlo.unary main_v235 main_v258 (broadcastInDim S4096x512 ![] bcast_S_S4096x512 : (⟨S_, .f32⟩ : BufTy).Contents (Elt F) → (⟨S4096x512, .f32⟩ : BufTy).Contents (Elt F)),
    StableHlo.binary main_v258 main_v257 main_v259 (mulf : (⟨S4096x512, .f32⟩ : BufTy).Contents (Elt F) → (⟨S4096x512, .f32⟩ : BufTy).Contents (Elt F) → (⟨S4096x512, .f32⟩ : BufTy).Contents (Elt F)),
    StableHlo.binary main_v135 main_v259 main_v260 (addf : (⟨S4096x512, .f32⟩ : BufTy).Contents (Elt F) → (⟨S4096x512, .f32⟩ : BufTy).Contents (Elt F) → (⟨S4096x512, .f32⟩ : BufTy).Contents (Elt F)),
    StableHlo.nullary main_cst_53 (constant S_ .f32 0x40800000#32),
    StableHlo.binary main_v235 main_cst_53 main_v261 (mulf : (⟨S_, .f32⟩ : BufTy).Contents (Elt F) → (⟨S_, .f32⟩ : BufTy).Contents (Elt F) → (⟨S_, .f32⟩ : BufTy).Contents (Elt F)),
    StableHlo.binary main_v137 main_v261 main_v262 (addf : (⟨S_, .f32⟩ : BufTy).Contents (Elt F) → (⟨S_, .f32⟩ : BufTy).Contents (Elt F) → (⟨S_, .f32⟩ : BufTy).Contents (Elt F)) ]
theorem w5_l1_sub : (w5_l1 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
/-- The buffers line 1 of window 5 writes, one per operation. -/
abbrev w5_l1_tab : List (Ref sig .tc) :=
  [ main_cst_52, main_v257, main_v258, main_v259, main_v260, main_cst_53, main_v261, main_v262 ]
theorem w5_l1_writes : Cert.Region.WritesIn (τ := τ) (w5_l1 : List (HloOp τ sig (Elt F))) w5_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w5_l1_fresh : ∀ op ∈ (w5_l1 : List (HloOp τ sig (Elt F))), op.fresh = ∅ := by
  intro _ h; (repeat (cases h with | head => rfl | tail _ h => ?_)); exact nomatch h

/-- Line 2 of window 5: 20 operations of @main itself. -/
abbrev w5_l2 : List (HloOp τ sig (Elt F)) :=
  [ StableHlo.nullary main_cst_54 (constant S_ .f32 0x00000000#32),
    StableHlo.binary main_v256 main_cst_54 main_v263 ((fun x v => Host.reduceAdd x v reducesTo_S4x4096x512_S4096x512_d0 h_S_) : (⟨S4x4096x512, .f32⟩ : BufTy).Contents (Elt F) → (⟨S_, .f32⟩ : BufTy).Contents (Elt F) → (⟨S4096x512, .f32⟩ : BufTy).Contents (Elt F)),
    StableHlo.nullary main_cst_55 (constant S_ .f32 0x40800000#32),
    StableHlo.unary main_cst_55 main_v264 (broadcastInDim S4096x512 ![] bcast_S_S4096x512 : (⟨S_, .f32⟩ : BufTy).Contents (Elt F) → (⟨S4096x512, .f32⟩ : BufTy).Contents (Elt F)),
    StableHlo.binary main_v263 main_v264 main_v265 (Host.divf : (⟨S4096x512, .f32⟩ : BufTy).Contents (Elt F) → (⟨S4096x512, .f32⟩ : BufTy).Contents (Elt F) → (⟨S4096x512, .f32⟩ : BufTy).Contents (Elt F)),
    StableHlo.unary main_arg20 main_v266 ((extractStridedSlice S1x512 ![2, 0] · slices_S4x512_S1x512_2_0) : (⟨S4x512, .f32⟩ : BufTy).Contents (Elt F) → (⟨S1x512, .f32⟩ : BufTy).Contents (Elt F)),
    StableHlo.reshape main_v266 main_v267 rfl shapeCasts_S1x512_S512,
    StableHlo.nullary main_cst_56 (constant S_ .f32 0x3C23D70A#32),
    StableHlo.unary main_cst_56 main_v268 (broadcastInDim S512 ![] bcast_S_S512 : (⟨S_, .f32⟩ : BufTy).Contents (Elt F) → (⟨S512, .f32⟩ : BufTy).Contents (Elt F)),
    StableHlo.binary main_v268 main_v267 main_v269 (mulf : (⟨S512, .f32⟩ : BufTy).Contents (Elt F) → (⟨S512, .f32⟩ : BufTy).Contents (Elt F) → (⟨S512, .f32⟩ : BufTy).Contents (Elt F)),
    StableHlo.unary main_v269 main_v270 (broadcastInDim S1x512 ![1] bcast_S512_S1x512_1 : (⟨S512, .f32⟩ : BufTy).Contents (Elt F) → (⟨S1x512, .f32⟩ : BufTy).Contents (Elt F)),
    StableHlo.unary main_v270 main_v271 (broadcastInDim S4096x512 ![0, 1] bcast_S1x512_S4096x512_0_1 : (⟨S1x512, .f32⟩ : BufTy).Contents (Elt F) → (⟨S4096x512, .f32⟩ : BufTy).Contents (Elt F)),
    StableHlo.binary main_v265 main_v271 main_v272 (addf : (⟨S4096x512, .f32⟩ : BufTy).Contents (Elt F) → (⟨S4096x512, .f32⟩ : BufTy).Contents (Elt F) → (⟨S4096x512, .f32⟩ : BufTy).Contents (Elt F)),
    StableHlo.nullary main_cst_57 (constant S_ .f32 0x00000000#32),
    StableHlo.binary main_v272 main_cst_57 main_v273 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v273 main_v274 (broadcastInDim S4096x1 ![0] bcast_S4096_S4096x1_0 : (⟨S4096, .f32⟩ : BufTy).Contents (Elt F) → (⟨S4096x1, .f32⟩ : BufTy).Contents (Elt F)),
    StableHlo.nullary main_cst_58 (constant S_ .f32 0x44000000#32),
    StableHlo.unary main_cst_58 main_v275 (broadcastInDim S4096x1 ![] bcast_S_S4096x1 : (⟨S_, .f32⟩ : BufTy).Contents (Elt F) → (⟨S4096x1, .f32⟩ : BufTy).Contents (Elt F)),
    StableHlo.binary main_v274 main_v275 main_v276 (Host.divf : (⟨S4096x1, .f32⟩ : BufTy).Contents (Elt F) → (⟨S4096x1, .f32⟩ : BufTy).Contents (Elt F) → (⟨S4096x1, .f32⟩ : BufTy).Contents (Elt F)),
    StableHlo.nullary main_c_59 (constantI S_ 32 0#32) ]
theorem w5_l2_sub : (w5_l2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 2 of window 5 writes, one per operation. -/
abbrev w5_l2_tab : List (Ref sig .tc) :=
  [ main_cst_54, main_v263, main_cst_55, main_v264, main_v265, main_v266, main_v267, main_cst_56, main_v268, main_v269, main_v270, main_v271, main_v272, main_cst_57, main_v273, main_v274, main_cst_58, main_v275, main_v276, main_c_59 ]
theorem w5_l2_writes : Cert.Region.WritesIn (τ := τ) (w5_l2 : List (HloOp τ sig (Elt F))) w5_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w5_l2_fresh : ∀ op ∈ (w5_l2 : List (HloOp τ sig (Elt F))), op.fresh = ∅ := by
  intro _ h; (repeat (cases h with | head => rfl | tail _ h => ?_)); exact nomatch h

/-- Line 3 of window 5: 23 operations of the outlined function called here (@var), over this call's buffers. -/
abbrev w5_l3 : List (HloOp τ sig (Elt F)) :=
  [ StableHlo.TRef.nullary main_call12.cst (constant S_ .f32 0x00000000#32),
    StableHlo.TRef.binary (.of main_v272 : StableHlo.TRef sig ⟨S4096x512, .f32⟩) main_call12.cst main_call12.v0 (fun x v => Host.reduceAdd x v reducesTo_S4096x512_S4096_d1 h_S_),
    StableHlo.TRef.unary main_call12.v0 main_call12.v1 (broadcastInDim S4096x1 ![0] bcast_S4096_S4096x1_0),
    StableHlo.TRef.nullary main_call12.cst_0 (constant S_ .f32 0x44000000#32),
    StableHlo.TRef.unary main_call12.cst_0 main_call12.v2 (broadcastInDim S4096x1 ![] bcast_S_S4096x1),
    StableHlo.TRef.binary main_call12.v1 main_call12.v2 main_call12.v3 Host.divf,
    StableHlo.TRef.unary main_call12.v3 main_call12.v4 (broadcastInDim S4096x512 ![0, 1] bcast_S4096x1_S4096x512_0_1),
    StableHlo.TRef.binary (.of main_v272 : StableHlo.TRef sig ⟨S4096x512, .f32⟩) main_call12.v4 main_call12.v5 subf,
    StableHlo.TRef.binary main_call12.v5 main_call12.v5 main_call12.v6 mulf,
    StableHlo.TRef.unary (.of main_c_59 : StableHlo.TRef sig ⟨S_, .i32⟩) main_call12.v7 (sitofp .f32),
    StableHlo.TRef.nullary main_call12.cst_1 (constant S_ .f32 0x44000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S4096x512_S4096_d1 h_S_),
    StableHlo.TRef.unary main_call12.v9 main_call12.v10 (broadcastInDim S4096x1 ![0] bcast_S4096_S4096x1_0),
    StableHlo.TRef.unary main_call12.v8 main_call12.v11 (broadcastInDim S4096x1 ![] bcast_S_S4096x1),
    StableHlo.TRef.binary main_call12.v10 main_call12.v11 main_call12.v12 Host.divf,
    StableHlo.TRef.nullary main_call12.cst_3 (constant S_ .f32 0x00000000#32),
    StableHlo.TRef.binary main_call12.v8 main_call12.cst_3 main_call12.v13 (cmpf .ogt),
    StableHlo.TRef.nullary main_call12.cst_4 (constant S_ .f32 0x7FC00000#32),
    StableHlo.TRef.unary (main_call12.cst_4 : StableHlo.TRef sig ⟨S_, .f32⟩) main_call12.call0.v0 id,
    StableHlo.TRef.unary main_call12.call0.v0 main_call12.call0.v1 (broadcastInDim S4096x1 ![] bcast_S_S4096x1),
    StableHlo.TRef.ternary (main_call12.v13 : StableHlo.TRef sig ⟨S_, .i1⟩) (main_call12.v12 : StableHlo.TRef sig ⟨S4096x1, .f32⟩) main_call12.call0.v1 main_call12.call0.v2 (fun p a b => select (broadcastInDim S4096x1 ![] bcast_S_S4096x1 p) a b) ]
theorem w5_l3_sub : (w5_l3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 3 of window 5 writes, one per operation. -/
abbrev w5_l3_tab : List (Ref sig .tc) :=
  [ main_call12.cst.ref, main_call12.v0.ref, main_call12.v1.ref, main_call12.cst_0.ref, main_call12.v2.ref, main_call12.v3.ref, main_call12.v4.ref, main_call12.v5.ref, main_call12.v6.ref, main_call12.v7.ref, main_call12.cst_1.ref, main_call12.v8.ref, main_call12.cst_2.ref, main_call12.v9.ref, main_call12.v10.ref, main_call12.v11.ref, main_call12.v12.ref, main_call12.cst_3.ref, main_call12.v13.ref, main_call12.cst_4.ref, main_call12.call0.v0.ref, main_call12.call0.v1.ref, main_call12.call0.v2.ref ]
theorem w5_l3_writes : Cert.Region.WritesIn (τ := τ) (w5_l3 : List (HloOp τ sig (Elt F))) w5_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w5_l3_fresh : ∀ op ∈ (w5_l3 : List (HloOp τ sig (Elt F))), op.fresh = ∅ := by
  intro _ h; (repeat (cases h with | head => rfl | tail _ h => ?_)); exact nomatch h

/-- Line 4 of window 5: 20 operations of @main itself. -/
abbrev w5_l4 : List (HloOp τ sig (Elt F)) :=
  [ StableHlo.unary main_v276 main_v278 (broadcastInDim S4096x512 ![0, 1] bcast_S4096x1_S4096x512_0_1 : (⟨S4096x1, .f32⟩ : BufTy).Contents (Elt F) → (⟨S4096x512, .f32⟩ : BufTy).Contents (Elt F)),
    StableHlo.binary main_v272 main_v278 main_v279 (subf : (⟨S4096x512, .f32⟩ : BufTy).Contents (Elt F) → (⟨S4096x512, .f32⟩ : BufTy).Contents (Elt F) → (⟨S4096x512, .f32⟩ : BufTy).Contents (Elt F)),
    StableHlo.nullary main_cst_60 (constant S_ .f32 0x3727C5AC#32),
    StableHlo.unary main_cst_60 main_v280 (broadcastInDim S4096x1 ![] bcast_S_S4096x1 : (⟨S_, .f32⟩ : BufTy).Contents (Elt F) → (⟨S4096x1, .f32⟩ : BufTy).Contents (Elt F)),
    StableHlo.binary main_v277 main_v280 main_v281 (addf : (⟨S4096x1, .f32⟩ : BufTy).Contents (Elt F) → (⟨S4096x1, .f32⟩ : BufTy).Contents (Elt F) → (⟨S4096x1, .f32⟩ : BufTy).Contents (Elt F)),
    StableHlo.unary main_v281 main_v282 (Host.rsqrt : (⟨S4096x1, .f32⟩ : BufTy).Contents (Elt F) → (⟨S4096x1, .f32⟩ : BufTy).Contents (Elt F)),
    StableHlo.unary main_v282 main_v283 (broadcastInDim S4096x512 ![0, 1] bcast_S4096x1_S4096x512_0_1 : (⟨S4096x1, .f32⟩ : BufTy).Contents (Elt F) → (⟨S4096x512, .f32⟩ : BufTy).Contents (Elt F)),
    StableHlo.binary main_v279 main_v283 main_v284 (mulf : (⟨S4096x512, .f32⟩ : BufTy).Contents (Elt F) → (⟨S4096x512, .f32⟩ : BufTy).Contents (Elt F) → (⟨S4096x512, .f32⟩ : BufTy).Contents (Elt F)),
    StableHlo.unary main_arg6 main_v285 (broadcastInDim S1x512 ![1] bcast_S512_S1x512_1 : (⟨S512, .f32⟩ : BufTy).Contents (Elt F) → (⟨S1x512, .f32⟩ : BufTy).Contents (Elt F)),
    StableHlo.unary main_v285 main_v286 (broadcastInDim S4096x512 ![0, 1] bcast_S1x512_S4096x512_0_1 : (⟨S1x512, .f32⟩ : BufTy).Contents (Elt F) → (⟨S4096x512, .f32⟩ : BufTy).Contents (Elt F)),
    StableHlo.binary main_v284 main_v286 main_v287 (mulf : (⟨S4096x512, .f32⟩ : BufTy).Contents (Elt F) → (⟨S4096x512, .f32⟩ : BufTy).Contents (Elt F) → (⟨S4096x512, .f32⟩ : BufTy).Contents (Elt F)),
    StableHlo.unary main_arg7 main_v288 (broadcastInDim S1x512 ![1] bcast_S512_S1x512_1 : (⟨S512, .f32⟩ : BufTy).Contents (Elt F) → (⟨S1x512, .f32⟩ : BufTy).Contents (Elt F)),
    StableHlo.unary main_v288 main_v289 (broadcastInDim S4096x512 ![0, 1] bcast_S1x512_S4096x512_0_1 : (⟨S1x512, .f32⟩ : BufTy).Contents (Elt F) → (⟨S4096x512, .f32⟩ : BufTy).Contents (Elt F)),
    StableHlo.binary main_v287 main_v289 main_v290 (addf : (⟨S4096x512, .f32⟩ : BufTy).Contents (Elt F) → (⟨S4096x512, .f32⟩ : BufTy).Contents (Elt F) → (⟨S4096x512, .f32⟩ : BufTy).Contents (Elt F)),
    StableHlo.unary main_arg8 main_v291 ((extractStridedSlice S1x128 ![2, 0] · slices_S4x128_S1x128_2_0) : (⟨S4x128, .f32⟩ : BufTy).Contents (Elt F) → (⟨S1x128, .f32⟩ : BufTy).Contents (Elt F)),
    StableHlo.reshape main_v291 main_v292 rfl shapeCasts_S1x128_S128,
    StableHlo.unary main_v292 main_v293 (broadcastInDim S4096x128 ![1] bcast_S128_S4096x128_1 : (⟨S128, .f32⟩ : BufTy).Contents (Elt F) → (⟨S4096x128, .f32⟩ : BufTy).Contents (Elt F)),
    StableHlo.binary main_v290 main_v293 main_v294 ((fun a b => concatenate S4096x640 1 [⟨S4096x512, a⟩, ⟨S4096x128, b⟩] concatenates_S4096x512_S4096x128_S4096x640_d1) : (⟨S4096x512, .f32⟩ : BufTy).Contents (Elt F) → (⟨S4096x128, .f32⟩ : BufTy).Contents (Elt F) → (⟨S4096x640, .f32⟩ : BufTy).Contents (Elt F)),
    StableHlo.unary main_arg9 main_v295 ((transpose S640x256 [1, 0] · transposes_S256x640_S640x256_1_0) : (⟨S256x640, .f32⟩ : BufTy).Contents (Elt F) → (⟨S640x256, .f32⟩ : BufTy).Contents (Elt F)),
    StableHlo.binary main_v294 main_v295 main_v296 ((fun l r => Host.dotGeneral dot_S4096x640_S640x256_S4096x256_1_0_0_1_n_n none l r) : (⟨S4096x640, .f32⟩ : BufTy).Contents (Elt F) → (⟨S640x256, .f32⟩ : BufTy).Contents (Elt F) → (⟨S4096x256, .f32⟩ : BufTy).Contents (Elt F)) ]
theorem w5_l4_sub : (w5_l4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub ..⟩
/-- The buffers line 4 of window 5 writes, one per operation. -/
abbrev w5_l4_tab : List (Ref sig .tc) :=
  [ main_v278, main_v279, main_cst_60, main_v280, main_v281, main_v282, main_v283, main_v284, main_v285, main_v286, main_v287, main_v288, main_v289, main_v290, main_v291, main_v292, main_v293, main_v294, main_v295, main_v296 ]
theorem w5_l4_writes : Cert.Region.WritesIn (τ := τ) (w5_l4 : List (HloOp τ sig (Elt F))) w5_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w5_l4_fresh : ∀ op ∈ (w5_l4 : List (HloOp τ sig (Elt F))), op.fresh = ∅ := by
  intro _ h; (repeat (cases h with | head => rfl | tail _ h => ?_)); exact nomatch h

/-- Window 5 is its lines run in order, the last in tail position. -/
theorem w5_chain (c : Dev nD) : main_part5 (F := F) c = (Pipeline.chainK
  [ StableHlo.seq w5_l0,
    StableHlo.seq w5_l1,
    StableHlo.seq w5_l2,
    StableHlo.seq w5_l3 ]
  (StableHlo.seq w5_l4) : Prog (TpuEff nD τ sig (Elt F) (Pipeline.Sig Λ₀ (Fin 0) fun p => (pcfgs (F := F) p).Adm) .tc) PUnit) := by
  chain_rfl

end Cert.ReferenceIdeal.RefRun

end
-- ==== Proof.RefRunW6.lean ====
/-
  Window 6 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 6: 10 operations of @main itself. -/
abbrev w6_l0 : List (HloOp τ sig (Elt F)) :=
  [ StableHlo.unary main_arg10 main_v297 (broadcastInDim S1x256 ![1] bcast_S256_S1x256_1 : (⟨S256, .f32⟩ : BufTy).Contents (Elt F) → (⟨S1x256, .f32⟩ : BufTy).Contents (Elt F)),
    StableHlo.unary main_v297 main_v298 (broadcastInDim S4096x256 ![0, 1] bcast_S1x256_S4096x256_0_1 : (⟨S1x256, .f32⟩ : BufTy).Contents (Elt F) → (⟨S4096x256, .f32⟩ : BufTy).Contents (Elt F)),
    StableHlo.binary main_v296 main_v298 main_v299 (addf : (⟨S4096x256, .f32⟩ : BufTy).Contents (Elt F) → (⟨S4096x256, .f32⟩ : BufTy).Contents (Elt F) → (⟨S4096x256, .f32⟩ : BufTy).Contents (Elt F)),
    StableHlo.nullary main_cst_61 (constant S_ .f32 0x00000000#32),
    StableHlo.binary main_v299 main_cst_61 main_v300 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v300 main_v301 (broadcastInDim S4096x1 ![0] bcast_S4096_S4096x1_0 : (⟨S4096, .f32⟩ : BufTy).Contents (Elt F) → (⟨S4096x1, .f32⟩ : BufTy).Contents (Elt F)),
    StableHlo.nullary main_cst_62 (constant S_ .f32 0x43800000#32),
    StableHlo.unary main_cst_62 main_v302 (broadcastInDim S4096x1 ![] bcast_S_S4096x1 : (⟨S_, .f32⟩ : BufTy).Contents (Elt F) → (⟨S4096x1, .f32⟩ : BufTy).Contents (Elt F)),
    StableHlo.binary main_v301 main_v302 main_v303 (Host.divf : (⟨S4096x1, .f32⟩ : BufTy).Contents (Elt F) → (⟨S4096x1, .f32⟩ : BufTy).Contents (Elt F) → (⟨S4096x1, .f32⟩ : BufTy).Contents (Elt F)),
    StableHlo.nullary main_c_63 (constantI S_ 32 0#32) ]
theorem w6_l0_sub : (w6_l0 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 0 of window 6 writes, one per operation. -/
abbrev w6_l0_tab : List (Ref sig .tc) :=
  [ main_v297, main_v298, main_v299, main_cst_61, main_v300, main_v301, main_cst_62, main_v302, main_v303, main_c_63 ]
theorem w6_l0_writes : Cert.Region.WritesIn (τ := τ) (w6_l0 : List (HloOp τ sig (Elt F))) w6_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l0_fresh : ∀ op ∈ (w6_l0 : List (HloOp τ sig (Elt F))), op.fresh = ∅ := by
  intro _ h; (repeat (cases h with | head => rfl | tail _ h => ?_)); exact nomatch h

/-- Line 1 of window 6: 23 operations of the outlined function called here (@var_0), over this call's buffers. -/
abbrev w6_l1 : List (HloOp τ sig (Elt F)) :=
  [ StableHlo.TRef.nullary main_call13.cst (constant S_ .f32 0x00000000#32),
    StableHlo.TRef.binary (.of main_v299 : StableHlo.TRef sig ⟨S4096x256, .f32⟩) main_call13.cst main_call13.v0 (fun x v => Host.reduceAdd x v reducesTo_S4096x256_S4096_d1 h_S_),
    StableHlo.TRef.unary main_call13.v0 main_call13.v1 (broadcastInDim S4096x1 ![0] bcast_S4096_S4096x1_0),
    StableHlo.TRef.nullary main_call13.cst_0 (constant S_ .f32 0x43800000#32),
    StableHlo.TRef.unary main_call13.cst_0 main_call13.v2 (broadcastInDim S4096x1 ![] bcast_S_S4096x1),
    StableHlo.TRef.binary main_call13.v1 main_call13.v2 main_call13.v3 Host.divf,
    StableHlo.TRef.unary main_call13.v3 main_call13.v4 (broadcastInDim S4096x256 ![0, 1] bcast_S4096x1_S4096x256_0_1),
    StableHlo.TRef.binary (.of main_v299 : StableHlo.TRef sig ⟨S4096x256, .f32⟩) main_call13.v4 main_call13.v5 subf,
    StableHlo.TRef.binary main_call13.v5 main_call13.v5 main_call13.v6 mulf,
    StableHlo.TRef.unary (.of main_c_63 : StableHlo.TRef sig ⟨S_, .i32⟩) main_call13.v7 (sitofp .f32),
    StableHlo.TRef.nullary main_call13.cst_1 (constant S_ .f32 0x43800000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S4096x256_S4096_d1 h_S_),
    StableHlo.TRef.unary main_call13.v9 main_call13.v10 (broadcastInDim S4096x1 ![0] bcast_S4096_S4096x1_0),
    StableHlo.TRef.unary main_call13.v8 main_call13.v11 (broadcastInDim S4096x1 ![] bcast_S_S4096x1),
    StableHlo.TRef.binary main_call13.v10 main_call13.v11 main_call13.v12 Host.divf,
    StableHlo.TRef.nullary main_call13.cst_3 (constant S_ .f32 0x00000000#32),
    StableHlo.TRef.binary main_call13.v8 main_call13.cst_3 main_call13.v13 (cmpf .ogt),
    StableHlo.TRef.nullary main_call13.cst_4 (constant S_ .f32 0x7FC00000#32),
    StableHlo.TRef.unary (main_call13.cst_4 : StableHlo.TRef sig ⟨S_, .f32⟩) main_call13.call0.v0 id,
    StableHlo.TRef.unary main_call13.call0.v0 main_call13.call0.v1 (broadcastInDim S4096x1 ![] bcast_S_S4096x1),
    StableHlo.TRef.ternary (main_call13.v13 : StableHlo.TRef sig ⟨S_, .i1⟩) (main_call13.v12 : StableHlo.TRef sig ⟨S4096x1, .f32⟩) main_call13.call0.v1 main_call13.call0.v2 (fun p a b => select (broadcastInDim S4096x1 ![] bcast_S_S4096x1 p) a b) ]
theorem w6_l1_sub : (w6_l1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 1 of window 6 writes, one per operation. -/
abbrev w6_l1_tab : List (Ref sig .tc) :=
  [ main_call13.cst.ref, main_call13.v0.ref, main_call13.v1.ref, main_call13.cst_0.ref, main_call13.v2.ref, main_call13.v3.ref, main_call13.v4.ref, main_call13.v5.ref, main_call13.v6.ref, main_call13.v7.ref, main_call13.cst_1.ref, main_call13.v8.ref, main_call13.cst_2.ref, main_call13.v9.ref, main_call13.v10.ref, main_call13.v11.ref, main_call13.v12.ref, main_call13.cst_3.ref, main_call13.v13.ref, main_call13.cst_4.ref, main_call13.call0.v0.ref, main_call13.call0.v1.ref, main_call13.call0.v2.ref ]
theorem w6_l1_writes : Cert.Region.WritesIn (τ := τ) (w6_l1 : List (HloOp τ sig (Elt F))) w6_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l1_fresh : ∀ op ∈ (w6_l1 : List (HloOp τ sig (Elt F))), op.fresh = ∅ := by
  intro _ h; (repeat (cases h with | head => rfl | tail _ h => ?_)); exact nomatch h

/-- Line 2 of window 6: 14 operations of @main itself. -/
abbrev w6_l2 : List (HloOp τ sig (Elt F)) :=
  [ StableHlo.unary main_v303 main_v305 (broadcastInDim S4096x256 ![0, 1] bcast_S4096x1_S4096x256_0_1 : (⟨S4096x1, .f32⟩ : BufTy).Contents (Elt F) → (⟨S4096x256, .f32⟩ : BufTy).Contents (Elt F)),
    StableHlo.binary main_v299 main_v305 main_v306 (subf : (⟨S4096x256, .f32⟩ : BufTy).Contents (Elt F) → (⟨S4096x256, .f32⟩ : BufTy).Contents (Elt F) → (⟨S4096x256, .f32⟩ : BufTy).Contents (Elt F)),
    StableHlo.nullary main_cst_64 (constant S_ .f32 0x3727C5AC#32),
    StableHlo.unary main_cst_64 main_v307 (broadcastInDim S4096x1 ![] bcast_S_S4096x1 : (⟨S_, .f32⟩ : BufTy).Contents (Elt F) → (⟨S4096x1, .f32⟩ : BufTy).Contents (Elt F)),
    StableHlo.binary main_v304 main_v307 main_v308 (addf : (⟨S4096x1, .f32⟩ : BufTy).Contents (Elt F) → (⟨S4096x1, .f32⟩ : BufTy).Contents (Elt F) → (⟨S4096x1, .f32⟩ : BufTy).Contents (Elt F)),
    StableHlo.unary main_v308 main_v309 (Host.rsqrt : (⟨S4096x1, .f32⟩ : BufTy).Contents (Elt F) → (⟨S4096x1, .f32⟩ : BufTy).Contents (Elt F)),
    StableHlo.unary main_v309 main_v310 (broadcastInDim S4096x256 ![0, 1] bcast_S4096x1_S4096x256_0_1 : (⟨S4096x1, .f32⟩ : BufTy).Contents (Elt F) → (⟨S4096x256, .f32⟩ : BufTy).Contents (Elt F)),
    StableHlo.binary main_v306 main_v310 main_v311 (mulf : (⟨S4096x256, .f32⟩ : BufTy).Contents (Elt F) → (⟨S4096x256, .f32⟩ : BufTy).Contents (Elt F) → (⟨S4096x256, .f32⟩ : BufTy).Contents (Elt F)),
    StableHlo.unary main_arg11 main_v312 (broadcastInDim S1x256 ![1] bcast_S256_S1x256_1 : (⟨S256, .f32⟩ : BufTy).Contents (Elt F) → (⟨S1x256, .f32⟩ : BufTy).Contents (Elt F)),
    StableHlo.unary main_v312 main_v313 (broadcastInDim S4096x256 ![0, 1] bcast_S1x256_S4096x256_0_1 : (⟨S1x256, .f32⟩ : BufTy).Contents (Elt F) → (⟨S4096x256, .f32⟩ : BufTy).Contents (Elt F)),
    StableHlo.binary main_v311 main_v313 main_v314 (mulf : (⟨S4096x256, .f32⟩ : BufTy).Contents (Elt F) → (⟨S4096x256, .f32⟩ : BufTy).Contents (Elt F) → (⟨S4096x256, .f32⟩ : BufTy).Contents (Elt F)),
    StableHlo.unary main_arg12 main_v315 (broadcastInDim S1x256 ![1] bcast_S256_S1x256_1 : (⟨S256, .f32⟩ : BufTy).Contents (Elt F) → (⟨S1x256, .f32⟩ : BufTy).Contents (Elt F)),
    StableHlo.unary main_v315 main_v316 (broadcastInDim S4096x256 ![0, 1] bcast_S1x256_S4096x256_0_1 : (⟨S1x256, .f32⟩ : BufTy).Contents (Elt F) → (⟨S4096x256, .f32⟩ : BufTy).Contents (Elt F)),
    StableHlo.binary main_v314 main_v316 main_v317 (addf : (⟨S4096x256, .f32⟩ : BufTy).Contents (Elt F) → (⟨S4096x256, .f32⟩ : BufTy).Contents (Elt F) → (⟨S4096x256, .f32⟩ : BufTy).Contents (Elt F)) ]
theorem w6_l2_sub : (w6_l2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers line 2 of window 6 writes, one per operation. -/
abbrev w6_l2_tab : List (Ref sig .tc) :=
  [ main_v305, main_v306, main_cst_64, main_v307, main_v308, main_v309, main_v310, main_v311, main_v312, main_v313, main_v314, main_v315, main_v316, main_v317 ]
theorem w6_l2_writes : Cert.Region.WritesIn (τ := τ) (w6_l2 : List (HloOp τ sig (Elt F))) w6_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l2_fresh : ∀ op ∈ (w6_l2 : List (HloOp τ sig (Elt F))), op.fresh = ∅ := by
  intro _ h; (repeat (cases h with | head => rfl | tail _ h => ?_)); exact nomatch h

/-- Line 3 of window 6: 3 operations of the outlined function called here (@relu), over this call's buffers. -/
abbrev w6_l3 : List (HloOp τ sig (Elt F)) :=
  [ StableHlo.TRef.nullary main_call14.cst (constant S_ .f32 0x00000000#32),
    StableHlo.TRef.unary main_call14.cst main_call14.v0 (broadcastInDim S4096x256 ![] bcast_S_S4096x256),
    StableHlo.TRef.binary (.of main_v317 : StableHlo.TRef sig ⟨S4096x256, .f32⟩) main_call14.v0 main_call14.v1 maximumf ]
theorem w6_l3_sub : (w6_l3 : List (HloOp τ sig (Elt F))).Forall fun op => op.bufs ⊆ StableHlo.tcRefs τ sig :=
  ⟨StableHlo.nullary_bufs_sub .., StableHlo.unary_bufs_sub .., StableHlo.binary_bufs_sub ..⟩
/-- The buffers line 3 of window 6 writes, one per operation. -/
abbrev w6_l3_tab : List (Ref sig .tc) :=
  [ main_call14.cst.ref, main_call14.v0.ref, main_call14.v1.ref ]
theorem w6_l3_writes : Cert.Region.WritesIn (τ := τ) (w6_l3 : List (HloOp τ sig (Elt F))) w6_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l3_fresh : ∀ op ∈ (w6_l3 : List (HloOp τ sig (Elt F))), op.fresh = ∅ := by
  intro _ h; (repeat (cases h with | head => rfl | tail _ h => ?_)); exact nomatch h

/-- Line 4 of window 6: 12 operations of @main itself. -/
abbrev w6_l4 : List (HloOp τ sig (Elt F)) :=
  [ StableHlo.unary main_arg13 main_v319 ((transpose S256x128 [1, 0] · transposes_S128x256_S256x128_1_0) : (⟨S128x256, .f32⟩ : BufTy).Contents (Elt F) → (⟨S256x128, .f32⟩ : BufTy).Contents (Elt F)),
    StableHlo.binary main_v318 main_v319 main_v320 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg14 main_v321 (broadcastInDim S1x128 ![1] bcast_S128_S1x128_1 : (⟨S128, .f32⟩ : BufTy).Contents (Elt F) → (⟨S1x128, .f32⟩ : BufTy).Contents (Elt F)),
    StableHlo.unary main_v321 main_v322 (broadcastInDim S4096x128 ![0, 1] bcast_S1x128_S4096x128_0_1 : (⟨S1x128, .f32⟩ : BufTy).Contents (Elt F) → (⟨S4096x128, .f32⟩ : BufTy).Contents (Elt F)),
    StableHlo.binary main_v320 main_v322 main_v323 (addf : (⟨S4096x128, .f32⟩ : BufTy).Contents (Elt F) → (⟨S4096x128, .f32⟩ : BufTy).Contents (Elt F) → (⟨S4096x128, .f32⟩ : BufTy).Contents (Elt F)),
    StableHlo.nullary main_cst_65 (constant S_ .f32 0x00000000#32),
    StableHlo.binary main_v323 main_cst_65 main_v324 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v324 main_v325 (broadcastInDim S4096x1 ![0] bcast_S4096_S4096x1_0 : (⟨S4096, .f32⟩ : BufTy).Contents (Elt F) → (⟨S4096x1, .f32⟩ : BufTy).Contents (Elt F)),
    StableHlo.nullary main_cst_66 (constant S_ .f32 0x43000000#32),
    StableHlo.unary main_cst_66 main_v326 (broadcastInDim S4096x1 ![] bcast_S_S4096x1 : (⟨S_, .f32⟩ : BufTy).Contents (Elt F) → (⟨S4096x1, .f32⟩ : BufTy).Contents (Elt F)),
    StableHlo.binary main_v325 main_v326 main_v327 (Host.divf : (⟨S4096x1, .f32⟩ : BufTy).Contents (Elt F) → (⟨S4096x1, .f32⟩ : BufTy).Contents (Elt F) → (⟨S4096x1, .f32⟩ : BufTy).Contents (Elt F)),
    StableHlo.nullary main_c_67 (constantI S_ 32 0#32) ]
theorem w6_l4_sub : (w6_l4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- The buffers line 4 of window 6 writes, one per operation. -/
abbrev w6_l4_tab : List (Ref sig .tc) :=
  [ main_v319, main_v320, main_v321, main_v322, main_v323, main_cst_65, main_v324, main_v325, main_cst_66, main_v326, main_v327, main_c_67 ]
theorem w6_l4_writes : Cert.Region.WritesIn (τ := τ) (w6_l4 : List (HloOp τ sig (Elt F))) w6_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l4_fresh : ∀ op ∈ (w6_l4 : List (HloOp τ sig (Elt F))), op.fresh = ∅ := by
  intro _ h; (repeat (cases h with | head => rfl | tail _ h => ?_)); exact nomatch h

/-- Line 5 of window 6: 23 operations of the outlined function called here (@var_1), over this call's buffers. -/
abbrev w6_l5 : List (HloOp τ sig (Elt F)) :=
  [ StableHlo.TRef.nullary main_call15.cst (constant S_ .f32 0x00000000#32),
    StableHlo.TRef.binary (.of main_v323 : StableHlo.TRef sig ⟨S4096x128, .f32⟩) main_call15.cst main_call15.v0 (fun x v => Host.reduceAdd x v reducesTo_S4096x128_S4096_d1 h_S_),
    StableHlo.TRef.unary main_call15.v0 main_call15.v1 (broadcastInDim S4096x1 ![0] bcast_S4096_S4096x1_0),
    StableHlo.TRef.nullary main_call15.cst_0 (constant S_ .f32 0x43000000#32),
    StableHlo.TRef.unary main_call15.cst_0 main_call15.v2 (broadcastInDim S4096x1 ![] bcast_S_S4096x1),
    StableHlo.TRef.binary main_call15.v1 main_call15.v2 main_call15.v3 Host.divf,
    StableHlo.TRef.unary main_call15.v3 main_call15.v4 (broadcastInDim S4096x128 ![0, 1] bcast_S4096x1_S4096x128_0_1),
    StableHlo.TRef.binary (.of main_v323 : StableHlo.TRef sig ⟨S4096x128, .f32⟩) main_call15.v4 main_call15.v5 subf,
    StableHlo.TRef.binary main_call15.v5 main_call15.v5 main_call15.v6 mulf,
    StableHlo.TRef.unary (.of main_c_67 : StableHlo.TRef sig ⟨S_, .i32⟩) main_call15.v7 (sitofp .f32),
    StableHlo.TRef.nullary main_call15.cst_1 (constant S_ .f32 0x43000000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S4096x128_S4096_d1 h_S_),
    StableHlo.TRef.unary main_call15.v9 main_call15.v10 (broadcastInDim S4096x1 ![0] bcast_S4096_S4096x1_0),
    StableHlo.TRef.unary main_call15.v8 main_call15.v11 (broadcastInDim S4096x1 ![] bcast_S_S4096x1),
    StableHlo.TRef.binary main_call15.v10 main_call15.v11 main_call15.v12 Host.divf,
    StableHlo.TRef.nullary main_call15.cst_3 (constant S_ .f32 0x00000000#32),
    StableHlo.TRef.binary main_call15.v8 main_call15.cst_3 main_call15.v13 (cmpf .ogt),
    StableHlo.TRef.nullary main_call15.cst_4 (constant S_ .f32 0x7FC00000#32),
    StableHlo.TRef.unary (main_call15.cst_4 : StableHlo.TRef sig ⟨S_, .f32⟩) main_call15.call0.v0 id,
    StableHlo.TRef.unary main_call15.call0.v0 main_call15.call0.v1 (broadcastInDim S4096x1 ![] bcast_S_S4096x1),
    StableHlo.TRef.ternary (main_call15.v13 : StableHlo.TRef sig ⟨S_, .i1⟩) (main_call15.v12 : StableHlo.TRef sig ⟨S4096x1, .f32⟩) main_call15.call0.v1 main_call15.call0.v2 (fun p a b => select (broadcastInDim S4096x1 ![] bcast_S_S4096x1 p) a b) ]
theorem w6_l5_sub : (w6_l5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers line 5 of window 6 writes, one per operation. -/
abbrev w6_l5_tab : List (Ref sig .tc) :=
  [ main_call15.cst.ref, main_call15.v0.ref, main_call15.v1.ref, main_call15.cst_0.ref, main_call15.v2.ref, main_call15.v3.ref, main_call15.v4.ref, main_call15.v5.ref, main_call15.v6.ref, main_call15.v7.ref, main_call15.cst_1.ref, main_call15.v8.ref, main_call15.cst_2.ref, main_call15.v9.ref, main_call15.v10.ref, main_call15.v11.ref, main_call15.v12.ref, main_call15.cst_3.ref, main_call15.v13.ref, main_call15.cst_4.ref, main_call15.call0.v0.ref, main_call15.call0.v1.ref, main_call15.call0.v2.ref ]
theorem w6_l5_writes : Cert.Region.WritesIn (τ := τ) (w6_l5 : List (HloOp τ sig (Elt F))) w6_l5_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l5_fresh : ∀ op ∈ (w6_l5 : List (HloOp τ sig (Elt F))), op.fresh = ∅ := by
  intro _ h; (repeat (cases h with | head => rfl | tail _ h => ?_)); exact nomatch h

/-- Line 6 of window 6: 14 operations of @main itself. -/
abbrev w6_l6 : List (HloOp τ sig (Elt F)) :=
  [ StableHlo.unary main_v327 main_v329 (broadcastInDim S4096x128 ![0, 1] bcast_S4096x1_S4096x128_0_1 : (⟨S4096x1, .f32⟩ : BufTy).Contents (Elt F) → (⟨S4096x128, .f32⟩ : BufTy).Contents (Elt F)),
    StableHlo.binary main_v323 main_v329 main_v330 (subf : (⟨S4096x128, .f32⟩ : BufTy).Contents (Elt F) → (⟨S4096x128, .f32⟩ : BufTy).Contents (Elt F) → (⟨S4096x128, .f32⟩ : BufTy).Contents (Elt F)),
    StableHlo.nullary main_cst_68 (constant S_ .f32 0x3727C5AC#32),
    StableHlo.unary main_cst_68 main_v331 (broadcastInDim S4096x1 ![] bcast_S_S4096x1 : (⟨S_, .f32⟩ : BufTy).Contents (Elt F) → (⟨S4096x1, .f32⟩ : BufTy).Contents (Elt F)),
    StableHlo.binary main_v328 main_v331 main_v332 (addf : (⟨S4096x1, .f32⟩ : BufTy).Contents (Elt F) → (⟨S4096x1, .f32⟩ : BufTy).Contents (Elt F) → (⟨S4096x1, .f32⟩ : BufTy).Contents (Elt F)),
    StableHlo.unary main_v332 main_v333 (Host.rsqrt : (⟨S4096x1, .f32⟩ : BufTy).Contents (Elt F) → (⟨S4096x1, .f32⟩ : BufTy).Contents (Elt F)),
    StableHlo.unary main_v333 main_v334 (broadcastInDim S4096x128 ![0, 1] bcast_S4096x1_S4096x128_0_1 : (⟨S4096x1, .f32⟩ : BufTy).Contents (Elt F) → (⟨S4096x128, .f32⟩ : BufTy).Contents (Elt F)),
    StableHlo.binary main_v330 main_v334 main_v335 (mulf : (⟨S4096x128, .f32⟩ : BufTy).Contents (Elt F) → (⟨S4096x128, .f32⟩ : BufTy).Contents (Elt F) → (⟨S4096x128, .f32⟩ : BufTy).Contents (Elt F)),
    StableHlo.unary main_arg15 main_v336 (broadcastInDim S1x128 ![1] bcast_S128_S1x128_1 : (⟨S128, .f32⟩ : BufTy).Contents (Elt F) → (⟨S1x128, .f32⟩ : BufTy).Contents (Elt F)),
    StableHlo.unary main_v336 main_v337 (broadcastInDim S4096x128 ![0, 1] bcast_S1x128_S4096x128_0_1 : (⟨S1x128, .f32⟩ : BufTy).Contents (Elt F) → (⟨S4096x128, .f32⟩ : BufTy).Contents (Elt F)),
    StableHlo.binary main_v335 main_v337 main_v338 (mulf : (⟨S4096x128, .f32⟩ : BufTy).Contents (Elt F) → (⟨S4096x128, .f32⟩ : BufTy).Contents (Elt F) → (⟨S4096x128, .f32⟩ : BufTy).Contents (Elt F)),
    StableHlo.unary main_arg16 main_v339 (broadcastInDim S1x128 ![1] bcast_S128_S1x128_1 : (⟨S128, .f32⟩ : BufTy).Contents (Elt F) → (⟨S1x128, .f32⟩ : BufTy).Contents (Elt F)),
    StableHlo.unary main_v339 main_v340 (broadcastInDim S4096x128 ![0, 1] bcast_S1x128_S4096x128_0_1 : (⟨S1x128, .f32⟩ : BufTy).Contents (Elt F) → (⟨S4096x128, .f32⟩ : BufTy).Contents (Elt F)),
    StableHlo.binary main_v338 main_v340 main_v341 (addf : (⟨S4096x128, .f32⟩ : BufTy).Contents (Elt F) → (⟨S4096x128, .f32⟩ : BufTy).Contents (Elt F) → (⟨S4096x128, .f32⟩ : BufTy).Contents (Elt F)) ]
theorem w6_l6_sub : (w6_l6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers line 6 of window 6 writes, one per operation. -/
abbrev w6_l6_tab : List (Ref sig .tc) :=
  [ main_v329, main_v330, main_cst_68, main_v331, main_v332, main_v333, main_v334, main_v335, main_v336, main_v337, main_v338, main_v339, main_v340, main_v341 ]
theorem w6_l6_writes : Cert.Region.WritesIn (τ := τ) (w6_l6 : List (HloOp τ sig (Elt F))) w6_l6_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l6_fresh : ∀ op ∈ (w6_l6 : List (HloOp τ sig (Elt F))), op.fresh = ∅ := by
  intro _ h; (repeat (cases h with | head => rfl | tail _ h => ?_)); exact nomatch h

/-- Line 7 of window 6: 3 operations of the outlined function called here (@relu_2), over this call's buffers. -/
abbrev w6_l7 : List (HloOp τ sig (Elt F)) :=
  [ StableHlo.TRef.nullary main_call16.cst (constant S_ .f32 0x00000000#32),
    StableHlo.TRef.unary main_call16.cst main_call16.v0 (broadcastInDim S4096x128 ![] bcast_S_S4096x128),
    StableHlo.TRef.binary (.of main_v341 : StableHlo.TRef sig ⟨S4096x128, .f32⟩) main_call16.v0 main_call16.v1 maximumf ]
theorem w6_l7_sub : (w6_l7 : List (HloOp τ sig (Elt F))).Forall fun op => op.bufs ⊆ StableHlo.tcRefs τ sig :=
  ⟨StableHlo.nullary_bufs_sub .., StableHlo.unary_bufs_sub .., StableHlo.binary_bufs_sub ..⟩
/-- The buffers line 7 of window 6 writes, one per operation. -/
abbrev w6_l7_tab : List (Ref sig .tc) :=
  [ main_call16.cst.ref, main_call16.v0.ref, main_call16.v1.ref ]
theorem w6_l7_writes : Cert.Region.WritesIn (τ := τ) (w6_l7 : List (HloOp τ sig (Elt F))) w6_l7_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l7_fresh : ∀ op ∈ (w6_l7 : List (HloOp τ sig (Elt F))), op.fresh = ∅ := by
  intro _ h; (repeat (cases h with | head => rfl | tail _ h => ?_)); exact nomatch h

/-- Line 8 of window 6: 6 operations of @main itself. -/
abbrev w6_l8 : List (HloOp τ sig (Elt F)) :=
  [ StableHlo.unary main_arg17 main_v343 ((transpose S128x1 [1, 0] · transposes_S1x128_S128x1_1_0) : (⟨S1x128, .f32⟩ : BufTy).Contents (Elt F) → (⟨S128x1, .f32⟩ : BufTy).Contents (Elt F)),
    StableHlo.binary main_v342 main_v343 main_v344 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    StableHlo.unary main_arg18 main_v345 (broadcastInDim S1x1 ![1] bcast_S1_S1x1_1 : (⟨S1, .f32⟩ : BufTy).Contents (Elt F) → (⟨S1x1, .f32⟩ : BufTy).Contents (Elt F)),
    StableHlo.unary main_v345 main_v346 (broadcastInDim S4096x1 ![0, 1] bcast_S1x1_S4096x1_0_1 : (⟨S1x1, .f32⟩ : BufTy).Contents (Elt F) → (⟨S4096x1, .f32⟩ : BufTy).Contents (Elt F)),
    StableHlo.binary main_v344 main_v346 main_v347 (addf : (⟨S4096x1, .f32⟩ : BufTy).Contents (Elt F) → (⟨S4096x1, .f32⟩ : BufTy).Contents (Elt F) → (⟨S4096x1, .f32⟩ : BufTy).Contents (Elt F)),
    StableHlo.reshape main_v347 main_v348 rfl shapeCasts_S4096x1_S4096 ]
theorem w6_l8_sub : (w6_l8 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.reshape_bufs_sub ..⟩
/-- The buffers line 8 of window 6 writes, one per operation. -/
abbrev w6_l8_tab : List (Ref sig .tc) :=
  [ main_v343, main_v344, main_v345, main_v346, main_v347, main_v348 ]
theorem w6_l8_writes : Cert.Region.WritesIn (τ := τ) (w6_l8 : List (HloOp τ sig (Elt F))) w6_l8_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w6_l8_fresh : ∀ op ∈ (w6_l8 : List (HloOp τ sig (Elt F))), op.fresh = ∅ := by
  intro _ h; (repeat (cases h with | head => rfl | tail _ h => ?_)); exact nomatch h

/-- Window 6 is its lines run in order, the last in tail position. -/
theorem w6_chain (c : Dev nD) : main_part6 (F := F) c = (Pipeline.chainK
  [ StableHlo.seq w6_l0,
    StableHlo.seq w6_l1,
    StableHlo.seq w6_l2,
    StableHlo.seq w6_l3,
    StableHlo.seq w6_l4,
    StableHlo.seq w6_l5,
    StableHlo.seq w6_l6,
    StableHlo.seq w6_l7 ]
  (StableHlo.seq w6_l8) : Prog (TpuEff nD τ sig (Elt F) (Pipeline.Sig Λ₀ (Fin 0) fun p => (pcfgs (F := F) p).Adm) .tc) PUnit) := by
  chain_rfl

end Cert.ReferenceIdeal.RefRun

end
-- ==== Proof.RefRunW7.lean ====
/-
  Window 7 of the reference program's @main as a chain of straight lines of host operations: the statements
  between two calls are one line, and each call of a jax-outlined function (a variance, a relu, a clip) is
  one line of the callee's operations over that call's own buffers.
-/
import proofs.«125887_j14422500180043_2_alg».proof.Proof.Gen.ReferenceIdeal
import Idealize.ShloMosaic.Lib.StableHlo.Run
import Idealize.ShloMosaic.Lib.Pipeline.Regions
import proofs.«125887_j14422500180043_2_alg».proof.Proof.Region

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Line 0 of window 7: 10 operations of @main itself. -/
abbrev w7_l0 : List (HloOp τ sig (Elt F)) :=
  [ StableHlo.unary main_v348 main_v349 (Host.negf : (⟨S4096, .f32⟩ : BufTy).Contents (Elt F) → (⟨S4096, .f32⟩ : BufTy).Contents (Elt F)),
    StableHlo.unary main_v349 main_v350 (Host.exp : (⟨S4096, .f32⟩ : BufTy).Contents (Elt F) → (⟨S4096, .f32⟩ : BufTy).Contents (Elt F)),
    StableHlo.nullary main_cst_69 (constant S_ .f32 0x3F800000#32),
    StableHlo.unary main_cst_69 main_v351 (broadcastInDim S4096 ![] bcast_S_S4096 : (⟨S_, .f32⟩ : BufTy).Contents (Elt F) → (⟨S4096, .f32⟩ : BufTy).Contents (Elt F)),
    StableHlo.binary main_v351 main_v350 main_v352 (addf : (⟨S4096, .f32⟩ : BufTy).Contents (Elt F) → (⟨S4096, .f32⟩ : BufTy).Contents (Elt F) → (⟨S4096, .f32⟩ : BufTy).Contents (Elt F)),
    StableHlo.nullary main_cst_70 (constant S_ .f32 0x3F800000#32),
    StableHlo.unary main_cst_70 main_v353 (broadcastInDim S4096 ![] bcast_S_S4096 : (⟨S_, .f32⟩ : BufTy).Contents (Elt F) → (⟨S4096, .f32⟩ : BufTy).Contents (Elt F)),
    StableHlo.binary main_v353 main_v352 main_v354 (Host.divf : (⟨S4096, .f32⟩ : BufTy).Contents (Elt F) → (⟨S4096, .f32⟩ : BufTy).Contents (Elt F) → (⟨S4096, .f32⟩ : BufTy).Contents (Elt F)),
    StableHlo.nullary main_cst_71 (constant S_ .f32 0x33D6BF95#32),
    StableHlo.nullary main_cst_72 (constant S_ .f32 0x3F7FFFFE#32) ]
theorem w7_l0_sub : (w7_l0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
/-- The buffers line 0 of window 7 writes, one per operation. -/
abbrev w7_l0_tab : List (Ref sig .tc) :=
  [ main_v349, main_v350, main_cst_69, main_v351, main_v352, main_cst_70, main_v353, main_v354, main_cst_71, main_cst_72 ]
theorem w7_l0_writes : Cert.Region.WritesIn (τ := τ) (w7_l0 : List (HloOp τ sig (Elt F))) w7_l0_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l0_fresh : ∀ op ∈ (w7_l0 : List (HloOp τ sig (Elt F))), op.fresh = ∅ := by
  intro _ h; (repeat (cases h with | head => rfl | tail _ h => ?_)); exact nomatch h

/-- Line 1 of window 7: 6 operations of the outlined function called here (@clip), over this call's buffers. -/
abbrev w7_l1 : List (HloOp τ sig (Elt F)) :=
  [ StableHlo.TRef.unary (.of main_cst_71 : StableHlo.TRef sig ⟨S_, .f32⟩) main_call17.v0 id,
    StableHlo.TRef.unary main_call17.v0 main_call17.v1 (broadcastInDim S4096 ![] bcast_S_S4096),
    StableHlo.TRef.binary main_call17.v1 (.of main_v354 : StableHlo.TRef sig ⟨S4096, .f32⟩) main_call17.v2 maximumf,
    StableHlo.TRef.unary (.of main_cst_72 : StableHlo.TRef sig ⟨S_, .f32⟩) main_call17.v3 id,
    StableHlo.TRef.unary main_call17.v3 main_call17.v4 (broadcastInDim S4096 ![] bcast_S_S4096),
    StableHlo.TRef.binary main_call17.v4 main_call17.v2 main_call17.v5 minimumf ]
theorem w7_l1_sub : (w7_l1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- The buffers line 1 of window 7 writes, one per operation. -/
abbrev w7_l1_tab : List (Ref sig .tc) :=
  [ main_call17.v0.ref, main_call17.v1.ref, main_call17.v2.ref, main_call17.v3.ref, main_call17.v4.ref, main_call17.v5.ref ]
theorem w7_l1_writes : Cert.Region.WritesIn (τ := τ) (w7_l1 : List (HloOp τ sig (Elt F))) w7_l1_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l1_fresh : ∀ op ∈ (w7_l1 : List (HloOp τ sig (Elt F))), op.fresh = ∅ := by
  intro _ h; (repeat (cases h with | head => rfl | tail _ h => ?_)); exact nomatch h

/-- Line 2 of window 7: 8 operations of @main itself. -/
abbrev w7_l2 : List (HloOp τ sig (Elt F)) :=
  [ StableHlo.nullary main_cst_73 (constant S_ .f32 0x00000000#32),
    StableHlo.binary main_v355 main_cst_73 main_v356 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_74 (constant S_ .f32 0x45800000#32),
    StableHlo.binary main_v356 main_cst_74 main_v357 (Host.divf : (⟨S_, .f32⟩ : BufTy).Contents (Elt F) → (⟨S_, .f32⟩ : BufTy).Contents (Elt F) → (⟨S_, .f32⟩ : BufTy).Contents (Elt F)),
    StableHlo.nullary main_cst_75 (constant S_ .f32 0x3F000000#32),
    StableHlo.binary main_v357 main_cst_75 main_v358 (cmpf .oge : (⟨S_, .f32⟩ : BufTy).Contents (Elt F) → (⟨S_, .f32⟩ : BufTy).Contents (Elt F) → (⟨S_, .i1⟩ : BufTy).Contents (Elt F)),
    StableHlo.unary main_v358 main_v359 (uitofp .f32 : (⟨S_, .i1⟩ : BufTy).Contents (Elt F) → (⟨S_, .f32⟩ : BufTy).Contents (Elt F)),
    StableHlo.binary main_v235 main_v359 main_v360 (mulf : (⟨S_, .f32⟩ : BufTy).Contents (Elt F) → (⟨S_, .f32⟩ : BufTy).Contents (Elt F) → (⟨S_, .f32⟩ : BufTy).Contents (Elt F)) ]
theorem w7_l2_sub : (w7_l2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub ..⟩
/-- The buffers line 2 of window 7 writes, one per operation. -/
abbrev w7_l2_tab : List (Ref sig .tc) :=
  [ main_cst_73, main_v356, main_cst_74, main_v357, main_cst_75, main_v358, main_v359, main_v360 ]
theorem w7_l2_writes : Cert.Region.WritesIn (τ := τ) (w7_l2 : List (HloOp τ sig (Elt F))) w7_l2_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l2_fresh : ∀ op ∈ (w7_l2 : List (HloOp τ sig (Elt F))), op.fresh = ∅ := by
  intro _ h; (repeat (cases h with | head => rfl | tail _ h => ?_)); exact nomatch h

/-- Line 3 of window 7: 23 operations of @main itself. -/
abbrev w7_l3 : List (HloOp τ sig (Elt F)) :=
  [ StableHlo.binary main_v256 main_arg4 main_v361 ((fun l r => Host.dotGeneral dot_S4x4096x512_S1024x512_S4x4096x1024_2_1_01_0_n_n none l r) : (⟨S4x4096x512, .f32⟩ : BufTy).Contents (Elt F) → (⟨S1024x512, .f32⟩ : BufTy).Contents (Elt F) → (⟨S4x4096x1024, .f32⟩ : BufTy).Contents (Elt F)),
    StableHlo.unary main_arg5 main_v362 (broadcastInDim S1x1x1024 ![2] bcast_S1024_S1x1x1024_2 : (⟨S1024, .f32⟩ : BufTy).Contents (Elt F) → (⟨S1x1x1024, .f32⟩ : BufTy).Contents (Elt F)),
    StableHlo.unary main_v362 main_v363 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v361 main_v363 main_v364 (addf : (⟨S4x4096x1024, .f32⟩ : BufTy).Contents (Elt F) → (⟨S4x4096x1024, .f32⟩ : BufTy).Contents (Elt F) → (⟨S4x4096x1024, .f32⟩ : BufTy).Contents (Elt F)),
    StableHlo.unary main_v364 main_v365 ((extractStridedSlice S4x4096x512 ![0, 0, 0] · slices_S4x4096x1024_S4x4096x512_0_0_0) : (⟨S4x4096x1024, .f32⟩ : BufTy).Contents (Elt F) → (⟨S4x4096x512, .f32⟩ : BufTy).Contents (Elt F)),
    StableHlo.unary main_arg19 main_v366 ((extractStridedSlice S1x512 ![0, 0] · slices_S2x512_S1x512_0_0) : (⟨S2x512, .f32⟩ : BufTy).Contents (Elt F) → (⟨S1x512, .f32⟩ : BufTy).Contents (Elt F)),
    StableHlo.reshape main_v366 main_v367 rfl shapeCasts_S1x512_S512,
    StableHlo.nullary main_cst_76 (constant S_ .f32 0x3D3504F3#32),
    StableHlo.unary main_cst_76 main_v368 (broadcastInDim S512 ![] bcast_S_S512 : (⟨S_, .f32⟩ : BufTy).Contents (Elt F) → (⟨S512, .f32⟩ : BufTy).Contents (Elt F)),
    StableHlo.binary main_v368 main_v367 main_v369 (mulf : (⟨S512, .f32⟩ : BufTy).Contents (Elt F) → (⟨S512, .f32⟩ : BufTy).Contents (Elt F) → (⟨S512, .f32⟩ : BufTy).Contents (Elt F)),
    StableHlo.unary main_v369 main_v370 (broadcastInDim S1x1x512 ![2] bcast_S512_S1x1x512_2 : (⟨S512, .f32⟩ : BufTy).Contents (Elt F) → (⟨S1x1x512, .f32⟩ : BufTy).Contents (Elt F)),
    StableHlo.unary main_v370 main_v371 (broadcastInDim S4x4096x512 ![0, 1, 2] bcast_S1x1x512_S4x4096x512_0_1_2 : (⟨S1x1x512, .f32⟩ : BufTy).Contents (Elt F) → (⟨S4x4096x512, .f32⟩ : BufTy).Contents (Elt F)),
    StableHlo.binary main_v365 main_v371 main_v372 (addf : (⟨S4x4096x512, .f32⟩ : BufTy).Contents (Elt F) → (⟨S4x4096x512, .f32⟩ : BufTy).Contents (Elt F) → (⟨S4x4096x512, .f32⟩ : BufTy).Contents (Elt F)),
    StableHlo.unary main_v364 main_v373 ((extractStridedSlice S4x4096x512 ![0, 0, 512] · slices_S4x4096x1024_S4x4096x512_0_0_512) : (⟨S4x4096x1024, .f32⟩ : BufTy).Contents (Elt F) → (⟨S4x4096x512, .f32⟩ : BufTy).Contents (Elt F)),
    StableHlo.unary main_arg19 main_v374 ((extractStridedSlice S1x512 ![1, 0] · slices_S2x512_S1x512_1_0) : (⟨S2x512, .f32⟩ : BufTy).Contents (Elt F) → (⟨S1x512, .f32⟩ : BufTy).Contents (Elt F)),
    StableHlo.reshape main_v374 main_v375 rfl shapeCasts_S1x512_S512,
    StableHlo.nullary main_cst_77 (constant S_ .f32 0x3D3504F3#32),
    StableHlo.unary main_cst_77 main_v376 (broadcastInDim S512 ![] bcast_S_S512 : (⟨S_, .f32⟩ : BufTy).Contents (Elt F) → (⟨S512, .f32⟩ : BufTy).Contents (Elt F)),
    StableHlo.binary main_v376 main_v375 main_v377 (mulf : (⟨S512, .f32⟩ : BufTy).Contents (Elt F) → (⟨S512, .f32⟩ : BufTy).Contents (Elt F) → (⟨S512, .f32⟩ : BufTy).Contents (Elt F)),
    StableHlo.unary main_v377 main_v378 (broadcastInDim S1x1x512 ![2] bcast_S512_S1x1x512_2 : (⟨S512, .f32⟩ : BufTy).Contents (Elt F) → (⟨S1x1x512, .f32⟩ : BufTy).Contents (Elt F)),
    StableHlo.unary main_v378 main_v379 (broadcastInDim S4x4096x512 ![0, 1, 2] bcast_S1x1x512_S4x4096x512_0_1_2 : (⟨S1x1x512, .f32⟩ : BufTy).Contents (Elt F) → (⟨S4x4096x512, .f32⟩ : BufTy).Contents (Elt F)),
    StableHlo.binary main_v373 main_v379 main_v380 (addf : (⟨S4x4096x512, .f32⟩ : BufTy).Contents (Elt F) → (⟨S4x4096x512, .f32⟩ : BufTy).Contents (Elt F) → (⟨S4x4096x512, .f32⟩ : BufTy).Contents (Elt F)),
    StableHlo.binary main_v372 main_v380 main_v381 ((fun a b => concatenate S8x4096x512 0 [⟨S4x4096x512, a⟩, ⟨S4x4096x512, b⟩] concatenates_S4x4096x512_S4x4096x512_S8x4096x512_d0) : (⟨S4x4096x512, .f32⟩ : BufTy).Contents (Elt F) → (⟨S4x4096x512, .f32⟩ : BufTy).Contents (Elt F) → (⟨S8x4096x512, .f32⟩ : BufTy).Contents (Elt F)) ]
theorem w7_l3_sub : (w7_l3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub ..⟩
/-- The buffers line 3 of window 7 writes, one per operation. -/
abbrev w7_l3_tab : List (Ref sig .tc) :=
  [ main_v361, main_v362, main_v363, main_v364, main_v365, main_v366, main_v367, main_cst_76, main_v368, main_v369, main_v370, main_v371, main_v372, main_v373, main_v374, main_v375, main_cst_77, main_v376, main_v377, main_v378, main_v379, main_v380, main_v381 ]
theorem w7_l3_writes : Cert.Region.WritesIn (τ := τ) (w7_l3 : List (HloOp τ sig (Elt F))) w7_l3_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l3_fresh : ∀ op ∈ (w7_l3 : List (HloOp τ sig (Elt F))), op.fresh = ∅ := by
  intro _ h; (repeat (cases h with | head => rfl | tail _ h => ?_)); exact nomatch h

/-- Line 4 of window 7: 8 operations of @main itself. -/
abbrev w7_l4 : List (HloOp τ sig (Elt F)) :=
  [ StableHlo.nullary main_cst_78 (constant S_ .f32 0x00000000#32),
    StableHlo.binary main_v381 main_cst_78 main_v382 ((fun x v => Host.reduceAdd x v reducesTo_S8x4096x512_S4096x512_d0 h_S_) : (⟨S8x4096x512, .f32⟩ : BufTy).Contents (Elt F) → (⟨S_, .f32⟩ : BufTy).Contents (Elt F) → (⟨S4096x512, .f32⟩ : BufTy).Contents (Elt F)),
    StableHlo.unary main_v360 main_v383 (broadcastInDim S4096x512 ![] bcast_S_S4096x512 : (⟨S_, .f32⟩ : BufTy).Contents (Elt F) → (⟨S4096x512, .f32⟩ : BufTy).Contents (Elt F)),
    StableHlo.binary main_v383 main_v382 main_v384 (mulf : (⟨S4096x512, .f32⟩ : BufTy).Contents (Elt F) → (⟨S4096x512, .f32⟩ : BufTy).Contents (Elt F) → (⟨S4096x512, .f32⟩ : BufTy).Contents (Elt F)),
    StableHlo.binary main_v260 main_v384 main_v385 (addf : (⟨S4096x512, .f32⟩ : BufTy).Contents (Elt F) → (⟨S4096x512, .f32⟩ : BufTy).Contents (Elt F) → (⟨S4096x512, .f32⟩ : BufTy).Contents (Elt F)),
    StableHlo.nullary main_cst_79 (constant S_ .f32 0x41000000#32),
    StableHlo.binary main_v360 main_cst_79 main_v386 (mulf : (⟨S_, .f32⟩ : BufTy).Contents (Elt F) → (⟨S_, .f32⟩ : BufTy).Contents (Elt F) → (⟨S_, .f32⟩ : BufTy).Contents (Elt F)),
    StableHlo.binary main_v262 main_v386 main_v387 (addf : (⟨S_, .f32⟩ : BufTy).Contents (Elt F) → (⟨S_, .f32⟩ : BufTy).Contents (Elt F) → (⟨S_, .f32⟩ : BufTy).Contents (Elt F)) ]
theorem w7_l4_sub : (w7_l4 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
/-- The buffers line 4 of window 7 writes, one per operation. -/
abbrev w7_l4_tab : List (Ref sig .tc) :=
  [ main_cst_78, main_v382, main_v383, main_v384, main_v385, main_cst_79, main_v386, main_v387 ]
theorem w7_l4_writes : Cert.Region.WritesIn (τ := τ) (w7_l4 : List (HloOp τ sig (Elt F))) w7_l4_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l4_fresh : ∀ op ∈ (w7_l4 : List (HloOp τ sig (Elt F))), op.fresh = ∅ := by
  intro _ h; (repeat (cases h with | head => rfl | tail _ h => ?_)); exact nomatch h

/-- Line 5 of window 7: 4 operations of @main itself. -/
abbrev w7_l5 : List (HloOp τ sig (Elt F)) :=
  [ StableHlo.nullary main_cst_80 (constant S_ .f32 0x322BCC77#32),
    StableHlo.binary main_v387 main_cst_80 main_v388 (maximumf : (⟨S_, .f32⟩ : BufTy).Contents (Elt F) → (⟨S_, .f32⟩ : BufTy).Contents (Elt F) → (⟨S_, .f32⟩ : BufTy).Contents (Elt F)),
    StableHlo.unary main_v388 main_v389 (broadcastInDim S4096x512 ![] bcast_S_S4096x512 : (⟨S_, .f32⟩ : BufTy).Contents (Elt F) → (⟨S4096x512, .f32⟩ : BufTy).Contents (Elt F)),
    StableHlo.binary main_v385 main_v389 main_v390 (Host.divf : (⟨S4096x512, .f32⟩ : BufTy).Contents (Elt F) → (⟨S4096x512, .f32⟩ : BufTy).Contents (Elt F) → (⟨S4096x512, .f32⟩ : BufTy).Contents (Elt F)) ]
theorem w7_l5_sub : (w7_l5 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub ..⟩
/-- The buffers line 5 of window 7 writes, one per operation. -/
abbrev w7_l5_tab : List (Ref sig .tc) :=
  [ main_cst_80, main_v388, main_v389, main_v390 ]
theorem w7_l5_writes : Cert.Region.WritesIn (τ := τ) (w7_l5 : List (HloOp τ sig (Elt F))) w7_l5_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l5_fresh : ∀ op ∈ (w7_l5 : List (HloOp τ sig (Elt F))), op.fresh = ∅ := by
  intro _ h; (repeat (cases h with | head => rfl | tail _ h => ?_)); exact nomatch h

/-- Line 6 of window 7: 5 operations of @main itself. -/
abbrev w7_l6 : List (HloOp τ sig (Elt F)) :=
  [ StableHlo.unary main_arg21 main_v391 ((transpose S512x32000 [1, 0] · transposes_S32000x512_S512x32000_1_0) : (⟨S32000x512, .f32⟩ : BufTy).Contents (Elt F) → (⟨S512x32000, .f32⟩ : BufTy).Contents (Elt F)),
    StableHlo.binary main_v390 main_v391 main_v392 ((fun l r => Host.dotGeneral dot_S4096x512_S512x32000_S4096x32000_1_0_0_1_n_n none l r) : (⟨S4096x512, .f32⟩ : BufTy).Contents (Elt F) → (⟨S512x32000, .f32⟩ : BufTy).Contents (Elt F) → (⟨S4096x32000, .f32⟩ : BufTy).Contents (Elt F)),
    StableHlo.unary main_arg22 main_v393 (broadcastInDim S1x32000 ![1] bcast_S32000_S1x32000_1 : (⟨S32000, .f32⟩ : BufTy).Contents (Elt F) → (⟨S1x32000, .f32⟩ : BufTy).Contents (Elt F)),
    StableHlo.unary main_v393 main_v394 (broadcastInDim S4096x32000 ![0, 1] bcast_S1x32000_S4096x32000_0_1 : (⟨S1x32000, .f32⟩ : BufTy).Contents (Elt F) → (⟨S4096x32000, .f32⟩ : BufTy).Contents (Elt F)),
    StableHlo.binary main_v392 main_v394 main_v395 (addf : (⟨S4096x32000, .f32⟩ : BufTy).Contents (Elt F) → (⟨S4096x32000, .f32⟩ : BufTy).Contents (Elt F) → (⟨S4096x32000, .f32⟩ : BufTy).Contents (Elt F)) ]
theorem w7_l6_sub : (w7_l6 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
/-- The buffers line 6 of window 7 writes, one per operation. -/
abbrev w7_l6_tab : List (Ref sig .tc) :=
  [ main_v391, main_v392, main_v393, main_v394, main_v395 ]
theorem w7_l6_writes : Cert.Region.WritesIn (τ := τ) (w7_l6 : List (HloOp τ sig (Elt F))) w7_l6_tab := by
  unfold Cert.Region.WritesIn
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem w7_l6_fresh : ∀ op ∈ (w7_l6 : List (HloOp τ sig (Elt F))), op.fresh = ∅ := by
  intro _ h; (repeat (cases h with | head => rfl | tail _ h => ?_)); exact nomatch h

/-- The last window is its lines run in order. -/
theorem w7_chain (c : Dev nD) : main_part7 (F := F) c = (Pipeline.chain
  [ StableHlo.seq w7_l0,
    StableHlo.seq w7_l1,
    StableHlo.seq w7_l2,
    StableHlo.seq w7_l3,
    StableHlo.seq w7_l4,
    StableHlo.seq w7_l5,
    StableHlo.seq w7_l6 ] : Prog (TpuEff nD τ sig (Elt F) (Pipeline.Sig Λ₀ (Fin 0) fun p => (pcfgs (F := F) p).Adm) .tc) PUnit) := by
  chain_rfl

end Cert.ReferenceIdeal.RefRun

end
-- ==== Proof.RefRun.lean ====
/-
  The reference program's run. Its @main is eight windows of host operations; each window is a chain of
  straight lines (the window modules), so @main is ONE straight line: the concatenation of all the lines.
  A straight line of host operations runs to the fold of the operations' results over the launch contents,
  so every buffer of the reference ends at that fold.
-/
import proofs.«125887_j14422500180043_2_alg».proof.Proof.RefRunW0
import proofs.«125887_j14422500180043_2_alg».proof.Proof.RefRunW1
import proofs.«125887_j14422500180043_2_alg».proof.Proof.RefRunW2
import proofs.«125887_j14422500180043_2_alg».proof.Proof.RefRunW3
import proofs.«125887_j14422500180043_2_alg».proof.Proof.RefRunW4
import proofs.«125887_j14422500180043_2_alg».proof.Proof.RefRunW5
import proofs.«125887_j14422500180043_2_alg».proof.Proof.RefRunW6
import proofs.«125887_j14422500180043_2_alg».proof.Proof.RefRunW7

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The lines of @main, in program order. -/
abbrev lines : List (List (HloOp τ sig (Elt F))) :=
  [ w0_l0, w0_l1, w0_l2, w0_l3, w1_l0, w1_l1, w1_l2, w1_l3, w1_l4, w1_l5, w1_l6, w1_l7, w1_l8, w2_l0, w2_l1, w2_l2, w2_l3, w2_l4, w2_l5, w3_l0, w3_l1, w3_l2, w3_l3, w3_l4, w3_l5, w3_l6, w4_l0, w4_l1, w4_l2, w4_l3, w4_l4, w4_l5, w4_l6, w4_l7, w5_l0, w5_l1, w5_l2, w5_l3, w5_l4, w6_l0, w6_l1, w6_l2, w6_l3, w6_l4, w6_l5, w6_l6, w6_l7, w6_l8, w7_l0, w7_l1, w7_l2, w7_l3, w7_l4, w7_l5, w7_l6 ]

/-- The buffers each line writes, in the same order. -/
abbrev tabs : List (List (Ref sig .tc)) :=
  [ w0_l0_tab, w0_l1_tab, w0_l2_tab, w0_l3_tab, w1_l0_tab, w1_l1_tab, w1_l2_tab, w1_l3_tab, w1_l4_tab, w1_l5_tab, w1_l6_tab, w1_l7_tab, w1_l8_tab, w2_l0_tab, w2_l1_tab, w2_l2_tab, w2_l3_tab, w2_l4_tab, w2_l5_tab, w3_l0_tab, w3_l1_tab, w3_l2_tab, w3_l3_tab, w3_l4_tab, w3_l5_tab, w3_l6_tab, w4_l0_tab, w4_l1_tab, w4_l2_tab, w4_l3_tab, w4_l4_tab, w4_l5_tab, w4_l6_tab, w4_l7_tab, w5_l0_tab, w5_l1_tab, w5_l2_tab, w5_l3_tab, w5_l4_tab, w6_l0_tab, w6_l1_tab, w6_l2_tab, w6_l3_tab, w6_l4_tab, w6_l5_tab, w6_l6_tab, w6_l7_tab, w6_l8_tab, w7_l0_tab, w7_l1_tab, w7_l2_tab, w7_l3_tab, w7_l4_tab, w7_l5_tab, w7_l6_tab ]

/-- Line by line, the operations write the tabulated buffers. -/
theorem lines_writes : List.Forall₂ (Cert.Region.WritesIn (τ := τ)) (lines (F := F)) tabs :=
  .cons w0_l0_writes (.cons w0_l1_writes (.cons w0_l2_writes (.cons w0_l3_writes (.cons w1_l0_writes (.cons w1_l1_writes (.cons w1_l2_writes (.cons w1_l3_writes (.cons w1_l4_writes (.cons w1_l5_writes (.cons w1_l6_writes (.cons w1_l7_writes (.cons w1_l8_writes (.cons w2_l0_writes (.cons w2_l1_writes (.cons w2_l2_writes (.cons w2_l3_writes (.cons w2_l4_writes (.cons w2_l5_writes (.cons w3_l0_writes (.cons w3_l1_writes (.cons w3_l2_writes (.cons w3_l3_writes (.cons w3_l4_writes (.cons w3_l5_writes (.cons w3_l6_writes (.cons w4_l0_writes (.cons w4_l1_writes (.cons w4_l2_writes (.cons w4_l3_writes (.cons w4_l4_writes (.cons w4_l5_writes (.cons w4_l6_writes (.cons w4_l7_writes (.cons w5_l0_writes (.cons w5_l1_writes (.cons w5_l2_writes (.cons w5_l3_writes (.cons w5_l4_writes (.cons w6_l0_writes (.cons w6_l1_writes (.cons w6_l2_writes (.cons w6_l3_writes (.cons w6_l4_writes (.cons w6_l5_writes (.cons w6_l6_writes (.cons w6_l7_writes (.cons w6_l8_writes (.cons w7_l0_writes (.cons w7_l1_writes (.cons w7_l2_writes (.cons w7_l3_writes (.cons w7_l4_writes (.cons w7_l5_writes (.cons w7_l6_writes (.nil)))))))))))))))))))))))))))))))))))))))))))))))))))))))

/-- @main's operations as one list: the lines concatenated. -/
abbrev opsAll : List (HloOp τ sig (Elt F)) := (lines (F := F)).flatten

/-- A chain of straight lines is the straight line of their concatenation. -/
theorem chain_seq {Λ : Labels} : ∀ L : List (List (HloOp τ sig (Elt F))),
    (Pipeline.chain (L.map StableHlo.seq) : Prog (TpuEff nD τ sig (Elt F) Λ .tc) PUnit) = StableHlo.seq L.flatten
  | [] => rfl
  | l :: L => by
    rw [List.map_cons, Pipeline.chain_cons, chain_seq L, List.flatten_cons, StableHlo.seq_append]

/-- A property of every operation of every line holds of every operation of the concatenation. -/
theorem forall_flatten {α : Type} {P : α → Prop} (L : List (List α)) (h : L.Forall fun l => l.Forall P) : L.flatten.Forall P :=
  List.forall_iff_forall_mem.mpr fun x hx => by
    obtain ⟨l, hl, hxl⟩ := List.mem_flatten.mp hx
    exact List.forall_iff_forall_mem.mp (List.forall_iff_forall_mem.mp h l hl) x hxl

theorem mem_flatten_of {α : Type} {P : α → Prop} (L : List (List α)) (h : L.Forall fun l => ∀ x ∈ l, P x) : ∀ x ∈ L.flatten, P x :=
  fun x hx => by
    obtain ⟨l, hl, hxl⟩ := List.mem_flatten.mp hx
    exact List.forall_iff_forall_mem.mp h l hl x hxl

/-- @main is the chain of its lines: window by window. -/
theorem main_chain (c : Dev nD) : main (F := F) c = (Pipeline.chain ((lines (F := F)).map StableHlo.seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c) = _
  rewrite [w7_chain, w6_chain, Pipeline.chainK_bind_chain, w5_chain, Pipeline.chainK_bind_chain, w4_chain, Pipeline.chainK_bind_chain, w3_chain, Pipeline.chainK_bind_chain, w2_chain, Pipeline.chainK_bind_chain, w1_chain, Pipeline.chainK_bind_chain, w0_chain, Pipeline.chainK_bind_chain]
  rfl

/-- @main is one straight line. -/
theorem main_eq (c : Dev nD) : main (F := F) c = StableHlo.seq (opsAll (F := F)) :=
  (main_chain c).trans (chain_seq _)

theorem ops_sub : (opsAll : List (HloOp τ sig (Elt F))).Forall fun op => op.bufs ⊆ StableHlo.tcRefs τ sig :=
  forall_flatten _ ⟨w0_l0_sub, w0_l1_sub, w0_l2_sub, w0_l3_sub, w1_l0_sub, w1_l1_sub, w1_l2_sub, w1_l3_sub, w1_l4_sub, w1_l5_sub, w1_l6_sub, w1_l7_sub, w1_l8_sub, w2_l0_sub, w2_l1_sub, w2_l2_sub, w2_l3_sub, w2_l4_sub, w2_l5_sub, w3_l0_sub, w3_l1_sub, w3_l2_sub, w3_l3_sub, w3_l4_sub, w3_l5_sub, w3_l6_sub, w4_l0_sub, w4_l1_sub, w4_l2_sub, w4_l3_sub, w4_l4_sub, w4_l5_sub, w4_l6_sub, w4_l7_sub, w5_l0_sub, w5_l1_sub, w5_l2_sub, w5_l3_sub, w5_l4_sub, w6_l0_sub, w6_l1_sub, w6_l2_sub, w6_l3_sub, w6_l4_sub, w6_l5_sub, w6_l6_sub, w6_l7_sub, w6_l8_sub, w7_l0_sub, w7_l1_sub, w7_l2_sub, w7_l3_sub, w7_l4_sub, w7_l5_sub, w7_l6_sub⟩

theorem ops_fresh : ∀ op ∈ (opsAll : List (HloOp τ sig (Elt F))), op.fresh = ∅ :=
  mem_flatten_of _ ⟨w0_l0_fresh, w0_l1_fresh, w0_l2_fresh, w0_l3_fresh, w1_l0_fresh, w1_l1_fresh, w1_l2_fresh, w1_l3_fresh, w1_l4_fresh, w1_l5_fresh, w1_l6_fresh, w1_l7_fresh, w1_l8_fresh, w2_l0_fresh, w2_l1_fresh, w2_l2_fresh, w2_l3_fresh, w2_l4_fresh, w2_l5_fresh, w3_l0_fresh, w3_l1_fresh, w3_l2_fresh, w3_l3_fresh, w3_l4_fresh, w3_l5_fresh, w3_l6_fresh, w4_l0_fresh, w4_l1_fresh, w4_l2_fresh, w4_l3_fresh, w4_l4_fresh, w4_l5_fresh, w4_l6_fresh, w4_l7_fresh, w5_l0_fresh, w5_l1_fresh, w5_l2_fresh, w5_l3_fresh, w5_l4_fresh, w6_l0_fresh, w6_l1_fresh, w6_l2_fresh, w6_l3_fresh, w6_l4_fresh, w6_l5_fresh, w6_l6_fresh, w6_l7_fresh, w6_l8_fresh, w7_l0_fresh, w7_l1_fresh, w7_l2_fresh, w7_l3_fresh, w7_l4_fresh, w7_l5_fresh, w7_l6_fresh⟩

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference's @main terminates, and every
    buffer ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (opsAll (F := F)) (StableHlo.launchContents m c) (Proc.devRef .tc b) :=
  StableHlo.run_seq scopedRefs_eq scopedSems_eq defs main (fun _ => opsAll) main_eq (fun _ => ops_sub) m ρ (fun _ => ops_fresh)

end Cert.ReferenceIdeal.RefRun

end
-- ==== Proof.PreReal.lean ====
/-
  Under the certificate's precondition every entry of six of the float argument arrays is a real number.

  The precondition says that a conjunction of 22 terms, one per float argument x, is true; each term is
  "for every index i, |x i| < +∞", written as a reduction by "and" over all axes of the array of comparisons
  max (x i) (-(x i)) < ⊤ in the extended reals. A conjunction that is true has every term true; a reduction by
  "and" over all axes that is true has every entry true; and an extended real x with max x (-x) < ⊤ is neither
  ⊤ nor ⊥, hence a real.
-/
import proofs.«125887_j14422500180043_2_alg».proof.Defs
import proofs.«125887_j14422500180043_2_alg».proof.Proof.Gen.Pre_finite_inputs
import Idealize.ShloMosaic.Lib.ReduceAll

noncomputable section

namespace Cert.PreReal

open Idealize.ShloMosaic Idealize.SL.Sem
open Cert.Pre_finite_inputs

/-- A rank-0 array has exactly one index. -/
instance : Subsingleton S_.Idx := ⟨fun a b => funext fun d => d.elim0⟩

/-- The index of a rank-0 array. -/
def j0 : S_.Idx := fun a => a.elim0

/-- The f32 pattern 0x7F800000 denotes +∞. -/
theorem top_bits : Ideal.ofBits .f32 0x7F800000#32 = (⊤ : EReal) := by simp [Ideal.ofBits, Ideal.ieee]

/-- An extended real whose absolute value max x (-x) is below +∞ is a real: it is neither +∞ (then max x (-x) = ⊤)
    nor -∞ (then -x = ⊤). -/
theorem real_of_abs_lt_top (x : EReal) (h : max x (-x) < ⊤) : ∃ r : ℝ, x = (r : EReal) := by
  induction x using EReal.rec with
  | bot => simp at h
  | coe r => exact ⟨r, rfl⟩
  | top => simp at h

/-- A one-bit truth value made from a decidable proposition is 1 exactly when the proposition holds. -/
theorem ofBool_decide_eq_one (p : Prop) [Decidable p] (h : BitVec.ofBool (decide p) = 1#1) : p := by
  by_cases hp : p
  · exact hp
  · simp [hp] at h

/-- One term of the conjunction, read back: if "all (|x| < +∞)" over every axis of the array x is true, then every
    entry of x is a real number. -/
theorem real_of_all_finite {s : Shape} {axes : List (Fin s.rank)} (x : FVec Ideal s .f32)
    (hb : S_.BroadcastsInDim s (![] : Fin 0 → Fin s.rank)) (h : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) h hu j = 1#1)
    (i : s.Idx) : ∃ r : ℝ, x i = (r : EReal) := by
  have h1 := Host.reduce_andi_all _ _ h hu j e i
  have h2 : Ideal.cmp .olt (max (x i) (-(x i))) (Ideal.ofBits .f32 0x7F800000#32) = 1#1 := h1
  rw [top_bits] at h2
  unfold Ideal.cmp at h2
  exact real_of_abs_lt_top (x i) (ofBool_decide_eq_one _ h2)

/-- The precondition decoded: on every device the entries of arguments 1, 2, 3, 4, 5 and 19 are real numbers. -/
theorem real_args [Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
  ∧ (∀ i, ∃ r : ℝ, m ((c.tc : Thread Cert.KernelIdeal.nD Cert.KernelIdeal.τ).loc Cert.KernelIdeal.main_arg2) i = (r : EReal))
  ∧ (∀ i, ∃ r : ℝ, m ((c.tc : Thread Cert.KernelIdeal.nD Cert.KernelIdeal.τ).loc Cert.KernelIdeal.main_arg3) i = (r : EReal))
  ∧ (∀ i, ∃ r : ℝ, m ((c.tc : Thread Cert.KernelIdeal.nD Cert.KernelIdeal.τ).loc Cert.KernelIdeal.main_arg4) i = (r : EReal))
  ∧ (∀ i, ∃ r : ℝ, m ((c.tc : Thread Cert.KernelIdeal.nD Cert.KernelIdeal.τ).loc Cert.KernelIdeal.main_arg5) i = (r : EReal))
  ∧ (∀ i, ∃ r : ℝ, m ((c.tc : Thread Cert.KernelIdeal.nD Cert.KernelIdeal.τ).loc Cert.KernelIdeal.main_arg19) i = (r : EReal)) := by
  have e := congrFun (hpre c) j0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e
  dsimp only at e
  -- the conjunction is nested to the left: peel the terms off from argument 22 down to argument 2
  obtain ⟨e, h22⟩ := IntOp.andi_eq_one.1 e
  obtain ⟨e, h21⟩ := IntOp.andi_eq_one.1 e
  obtain ⟨e, h20⟩ := IntOp.andi_eq_one.1 e
  obtain ⟨e, h19⟩ := IntOp.andi_eq_one.1 e
  obtain ⟨e, h18⟩ := IntOp.andi_eq_one.1 e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  exact ⟨fun i => real_of_all_finite _ _ _ _ _ e i, fun i => real_of_all_finite _ _ _ _ _ h2 i,
    fun i => real_of_all_finite _ _ _ _ _ h3 i, fun i => real_of_all_finite _ _ _ _ _ h4 i,
    fun i => real_of_all_finite _ _ _ _ _ h5 i, fun i => real_of_all_finite _ _ _ _ _ h19 i⟩

end Cert.PreReal

end
-- ==== Proof.KTables.lean ====
/-
  Which buffers each stretch of the kernel program's host operations writes: one fresh buffer per operation.
  (The stretches are the lists the launch module names: the operations between two calls, and each call's; the three
  stretches that end a tree level are cut in two after the level's node count is updated.)
-/
import proofs.«125887_j14422500180043_2_alg».proof.Proof.Gen.KernelIdeal.Launch
import proofs.«125887_j14422500180043_2_alg».proof.Proof.Region

set_option maxRecDepth 4096

noncomputable section

namespace Cert.KernelIdeal.KTables

open Cert.KernelIdeal Cert.KernelIdeal.Gen Idealize.ShloMosaic Idealize.ShloMosaic.TcCoe Idealize.SL.Sem

variable {F : FTy → Type} [FloatOps F]

abbrev k0_tab : List (Ref sig .tc) :=
  [ main_c, main_v0, main_v1, main_c_0, main_v2, main_v3, main_v4, main_v5, main_v6, main_v7, main_v8, main_v9, main_v10, main_v11, main_v12, main_v13, main_v14, main_v15, main_v16, main_v17, main_v18, main_v19, main_v20, main_v21, main_v22, main_cst, main_v23, main_v24, main_v25, main_cst_1, main_v26, main_v27, main_v28, main_v29, main_cst_2, main_v30, main_v31, main_v32, main_v33, main_v34, main_cst_3, main_v35, main_v36, main_cst_4, main_v37, main_v38, main_c_5 ]
theorem k0_writes : Cert.Region.WritesIn (τ := τ) (hostOps0 : List (HloOp τ sig (Elt F))) k0_tab := by
  unfold Cert.Region.WritesIn
  simp only [hostOps0, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k1_tab : List (Ref sig .tc) :=
  [ main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v39 ]
theorem k1_writes : Cert.Region.WritesIn (τ := τ) (hostOps0_1 : List (HloOp τ sig (Elt F))) k1_tab := by
  unfold Cert.Region.WritesIn
  simp only [hostOps0_1, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k2_tab : List (Ref sig .tc) :=
  [ main_v40, main_v41, main_cst_6, main_v42, main_v43, main_v44, main_v45, main_v46, main_v47, main_v48, main_v49, main_v50, main_v51, main_v52, main_v53, main_v54, main_v55, main_v56, main_v57, main_v58, main_v59, main_v60, main_v61, main_cst_7, main_v62, main_v63, main_cst_8, main_v64, main_v65, main_c_9 ]
theorem k2_writes : Cert.Region.WritesIn (τ := τ) (hostOps0_2 : List (HloOp τ sig (Elt F))) k2_tab := by
  unfold Cert.Region.WritesIn
  simp only [hostOps0_2, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k3_tab : List (Ref sig .tc) :=
  [ main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v66 ]
theorem k3_writes : Cert.Region.WritesIn (τ := τ) (hostOps0_3 : List (HloOp τ sig (Elt F))) k3_tab := by
  unfold Cert.Region.WritesIn
  simp only [hostOps0_3, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k4_tab : List (Ref sig .tc) :=
  [ main_v67, main_v68, main_cst_10, main_v69, main_v70, main_v71, main_v72, main_v73, main_v74, main_v75, main_v76, main_v77, main_v78, main_v79 ]
theorem k4_writes : Cert.Region.WritesIn (τ := τ) (hostOps0_4 : List (HloOp τ sig (Elt F))) k4_tab := by
  unfold Cert.Region.WritesIn
  simp only [hostOps0_4, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k5_tab : List (Ref sig .tc) :=
  [ main_call2_cst, main_call2_v0, main_v80 ]
theorem k5_writes : Cert.Region.WritesIn (τ := τ) (hostOps0_5 : List (HloOp τ sig (Elt F))) k5_tab := by
  unfold Cert.Region.WritesIn
  simp only [hostOps0_5, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k6_tab : List (Ref sig .tc) :=
  [ main_v81, main_v82, main_v83, main_v84, main_v85, main_cst_11, main_v86, main_v87, main_cst_12, main_v88, main_v89, main_c_13 ]
theorem k6_writes : Cert.Region.WritesIn (τ := τ) (hostOps0_6 : List (HloOp τ sig (Elt F))) k6_tab := by
  unfold Cert.Region.WritesIn
  simp only [hostOps0_6, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k7_tab : List (Ref sig .tc) :=
  [ main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v90 ]
theorem k7_writes : Cert.Region.WritesIn (τ := τ) (hostOps0_7 : List (HloOp τ sig (Elt F))) k7_tab := by
  unfold Cert.Region.WritesIn
  simp only [hostOps0_7, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k8_tab : List (Ref sig .tc) :=
  [ main_v91, main_v92, main_cst_14, main_v93, main_v94, main_v95, main_v96, main_v97, main_v98, main_v99, main_v100, main_v101, main_v102, main_v103 ]
theorem k8_writes : Cert.Region.WritesIn (τ := τ) (hostOps0_8 : List (HloOp τ sig (Elt F))) k8_tab := by
  unfold Cert.Region.WritesIn
  simp only [hostOps0_8, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k9_tab : List (Ref sig .tc) :=
  [ main_call4_cst, main_call4_v0, main_v104 ]
theorem k9_writes : Cert.Region.WritesIn (τ := τ) (hostOps0_9 : List (HloOp τ sig (Elt F))) k9_tab := by
  unfold Cert.Region.WritesIn
  simp only [hostOps0_9, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k10_tab : List (Ref sig .tc) :=
  [ main_v105, main_v106, main_v107, main_v108, main_v109, main_v110, main_v111, main_v112, main_cst_15, main_v113, main_v114, main_cst_16, main_v115, main_v116, main_cst_17, main_cst_18 ]
theorem k10_writes : Cert.Region.WritesIn (τ := τ) (hostOps0_10 : List (HloOp τ sig (Elt F))) k10_tab := by
  unfold Cert.Region.WritesIn
  simp only [hostOps0_10, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k11_tab : List (Ref sig .tc) :=
  [ main_call5_v0, main_call5_v1, main_call5_v2, main_call5_v3, main_call5_v4, main_v117 ]
theorem k11_writes : Cert.Region.WritesIn (τ := τ) (hostOps0_11 : List (HloOp τ sig (Elt F))) k11_tab := by
  unfold Cert.Region.WritesIn
  simp only [hostOps0_11, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k12a_tab : List (Ref sig .tc) :=
  [ main_cst_19, main_v118, main_cst_20, main_v119, main_cst_21, main_v120, main_v121, main_cst_22, main_v122 ]
theorem k12a_writes : Cert.Region.WritesIn (τ := τ) (((hostOps0_12.drop 0).take 9) : List (HloOp τ sig (Elt F))) k12a_tab := by
  unfold Cert.Region.WritesIn
  simp only [hostOps0_12, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k12b_tab : List (Ref sig .tc) :=
  [ main_v123, main_v124, main_cst_23, main_v125, main_v126, main_v127, main_v128, main_v129 ]
theorem k12b_writes : Cert.Region.WritesIn (τ := τ) (((hostOps0_12.drop 9).take 8) : List (HloOp τ sig (Elt F))) k12b_tab := by
  unfold Cert.Region.WritesIn
  simp only [hostOps0_12, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k12c_tab : List (Ref sig .tc) :=
  [ main_cst_24, main_cst_25, main_v130, main_v131, main_v132, main_v133, main_v134, main_cst_26, main_v135 ]
theorem k12c_writes : Cert.Region.WritesIn (τ := τ) (((hostOps0_12.drop 17).take 9) : List (HloOp τ sig (Elt F))) k12c_tab := by
  unfold Cert.Region.WritesIn
  simp only [hostOps0_12, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k12d_tab : List (Ref sig .tc) :=
  [ main_v136, main_v137, main_v138, main_v139, main_cst_27, main_v140, main_v141, main_v142, main_v143, main_v144, main_cst_28, main_v145, main_v146, main_cst_29, main_v147, main_v148, main_c_30 ]
theorem k12d_writes : Cert.Region.WritesIn (τ := τ) (((hostOps0_12.drop 26).take 17) : List (HloOp τ sig (Elt F))) k12d_tab := by
  unfold Cert.Region.WritesIn
  simp only [hostOps0_12, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k13_tab : List (Ref sig .tc) :=
  [ main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v149 ]
theorem k13_writes : Cert.Region.WritesIn (τ := τ) (hostOps0_13 : List (HloOp τ sig (Elt F))) k13_tab := by
  unfold Cert.Region.WritesIn
  simp only [hostOps0_13, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k14_tab : List (Ref sig .tc) :=
  [ main_v150, main_v151, main_cst_31, main_v152, main_v153, main_v154, main_v155, main_v156, main_v157, main_v158, main_v159, main_v160, main_v161, main_v162, main_v163, main_v164, main_v165, main_v166, main_v167, main_v168, main_v169, main_v170, main_v171, main_cst_32, main_v172, main_v173, main_cst_33, main_v174, main_v175, main_c_34 ]
theorem k14_writes : Cert.Region.WritesIn (τ := τ) (hostOps0_14 : List (HloOp τ sig (Elt F))) k14_tab := by
  unfold Cert.Region.WritesIn
  simp only [hostOps0_14, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k15_tab : List (Ref sig .tc) :=
  [ main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v176 ]
theorem k15_writes : Cert.Region.WritesIn (τ := τ) (hostOps0_15 : List (HloOp τ sig (Elt F))) k15_tab := by
  unfold Cert.Region.WritesIn
  simp only [hostOps0_15, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k16_tab : List (Ref sig .tc) :=
  [ main_v177, main_v178, main_cst_35, main_v179, main_v180, main_v181, main_v182, main_v183, main_v184, main_v185, main_v186, main_v187, main_v188, main_v189 ]
theorem k16_writes : Cert.Region.WritesIn (τ := τ) (hostOps0_16 : List (HloOp τ sig (Elt F))) k16_tab := by
  unfold Cert.Region.WritesIn
  simp only [hostOps0_16, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k17_tab : List (Ref sig .tc) :=
  [ main_call8_cst, main_call8_v0, main_v190 ]
theorem k17_writes : Cert.Region.WritesIn (τ := τ) (hostOps0_17 : List (HloOp τ sig (Elt F))) k17_tab := by
  unfold Cert.Region.WritesIn
  simp only [hostOps0_17, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k18_tab : List (Ref sig .tc) :=
  [ main_v191, main_v192, main_v193, main_v194, main_v195, main_cst_36, main_v196, main_v197, main_cst_37, main_v198, main_v199, main_c_38 ]
theorem k18_writes : Cert.Region.WritesIn (τ := τ) (hostOps0_18 : List (HloOp τ sig (Elt F))) k18_tab := by
  unfold Cert.Region.WritesIn
  simp only [hostOps0_18, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k19_tab : List (Ref sig .tc) :=
  [ main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v200 ]
theorem k19_writes : Cert.Region.WritesIn (τ := τ) (hostOps0_19 : List (HloOp τ sig (Elt F))) k19_tab := by
  unfold Cert.Region.WritesIn
  simp only [hostOps0_19, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k20_tab : List (Ref sig .tc) :=
  [ main_v201, main_v202, main_cst_39, main_v203, main_v204, main_v205, main_v206, main_v207, main_v208, main_v209, main_v210, main_v211, main_v212, main_v213 ]
theorem k20_writes : Cert.Region.WritesIn (τ := τ) (hostOps0_20 : List (HloOp τ sig (Elt F))) k20_tab := by
  unfold Cert.Region.WritesIn
  simp only [hostOps0_20, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k21_tab : List (Ref sig .tc) :=
  [ main_call10_cst, main_call10_v0, main_v214 ]
theorem k21_writes : Cert.Region.WritesIn (τ := τ) (hostOps0_21 : List (HloOp τ sig (Elt F))) k21_tab := by
  unfold Cert.Region.WritesIn
  simp only [hostOps0_21, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k22_tab : List (Ref sig .tc) :=
  [ main_v215, main_v216, main_v217, main_v218, main_v219, main_v220, main_v221, main_v222, main_cst_40, main_v223, main_v224, main_cst_41, main_v225, main_v226, main_cst_42, main_cst_43 ]
theorem k22_writes : Cert.Region.WritesIn (τ := τ) (hostOps0_22 : List (HloOp τ sig (Elt F))) k22_tab := by
  unfold Cert.Region.WritesIn
  simp only [hostOps0_22, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k23_tab : List (Ref sig .tc) :=
  [ main_call11_v0, main_call11_v1, main_call11_v2, main_call11_v3, main_call11_v4, main_v227 ]
theorem k23_writes : Cert.Region.WritesIn (τ := τ) (hostOps0_23 : List (HloOp τ sig (Elt F))) k23_tab := by
  unfold Cert.Region.WritesIn
  simp only [hostOps0_23, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k24a_tab : List (Ref sig .tc) :=
  [ main_cst_44, main_v228, main_cst_45, main_v229, main_cst_46, main_v230, main_v231, main_v232 ]
theorem k24a_writes : Cert.Region.WritesIn (τ := τ) (((hostOps0_24.drop 0).take 8) : List (HloOp τ sig (Elt F))) k24a_tab := by
  unfold Cert.Region.WritesIn
  simp only [hostOps0_24, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k24b_tab : List (Ref sig .tc) :=
  [ main_v233, main_v234, main_v235, main_v236, main_v237, main_v238, main_v239 ]
theorem k24b_writes : Cert.Region.WritesIn (τ := τ) (((hostOps0_24.drop 8).take 7) : List (HloOp τ sig (Elt F))) k24b_tab := by
  unfold Cert.Region.WritesIn
  simp only [hostOps0_24, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k24c_tab : List (Ref sig .tc) :=
  [ main_cst_47, main_v240, main_v241, main_v242, main_v243, main_v244, main_v245 ]
theorem k24c_writes : Cert.Region.WritesIn (τ := τ) (((hostOps0_24.drop 15).take 7) : List (HloOp τ sig (Elt F))) k24c_tab := by
  unfold Cert.Region.WritesIn
  simp only [hostOps0_24, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k24d_tab : List (Ref sig .tc) :=
  [ main_v246, main_v247, main_v248, main_v249, main_cst_48, main_v250, main_v251, main_v252, main_v253, main_v254, main_cst_49, main_v255, main_v256, main_cst_50, main_v257, main_v258, main_c_51 ]
theorem k24d_writes : Cert.Region.WritesIn (τ := τ) (((hostOps0_24.drop 22).take 17) : List (HloOp τ sig (Elt F))) k24d_tab := by
  unfold Cert.Region.WritesIn
  simp only [hostOps0_24, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k25_tab : List (Ref sig .tc) :=
  [ main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_v12, main_call12_cst_3, main_call12_v13, main_call12_cst_4, main_call12_call0_v0, main_call12_call0_v1, main_v259 ]
theorem k25_writes : Cert.Region.WritesIn (τ := τ) (hostOps0_25 : List (HloOp τ sig (Elt F))) k25_tab := by
  unfold Cert.Region.WritesIn
  simp only [hostOps0_25, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k26_tab : List (Ref sig .tc) :=
  [ main_v260, main_v261, main_cst_52, main_v262, main_v263, main_v264, main_v265, main_v266, main_v267, main_v268, main_v269, main_v270, main_v271, main_v272, main_v273, main_v274, main_v275, main_v276, main_v277, main_v278, main_v279, main_v280, main_v281, main_cst_53, main_v282, main_v283, main_cst_54, main_v284, main_v285, main_c_55 ]
theorem k26_writes : Cert.Region.WritesIn (τ := τ) (hostOps0_26 : List (HloOp τ sig (Elt F))) k26_tab := by
  unfold Cert.Region.WritesIn
  simp only [hostOps0_26, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k27_tab : List (Ref sig .tc) :=
  [ main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_v12, main_call13_cst_3, main_call13_v13, main_call13_cst_4, main_call13_call0_v0, main_call13_call0_v1, main_v286 ]
theorem k27_writes : Cert.Region.WritesIn (τ := τ) (hostOps0_27 : List (HloOp τ sig (Elt F))) k27_tab := by
  unfold Cert.Region.WritesIn
  simp only [hostOps0_27, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k28_tab : List (Ref sig .tc) :=
  [ main_v287, main_v288, main_cst_56, main_v289, main_v290, main_v291, main_v292, main_v293, main_v294, main_v295, main_v296, main_v297, main_v298, main_v299 ]
theorem k28_writes : Cert.Region.WritesIn (τ := τ) (hostOps0_28 : List (HloOp τ sig (Elt F))) k28_tab := by
  unfold Cert.Region.WritesIn
  simp only [hostOps0_28, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k29_tab : List (Ref sig .tc) :=
  [ main_call14_cst, main_call14_v0, main_v300 ]
theorem k29_writes : Cert.Region.WritesIn (τ := τ) (hostOps0_29 : List (HloOp τ sig (Elt F))) k29_tab := by
  unfold Cert.Region.WritesIn
  simp only [hostOps0_29, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k30_tab : List (Ref sig .tc) :=
  [ main_v301, main_v302, main_v303, main_v304, main_v305, main_cst_57, main_v306, main_v307, main_cst_58, main_v308, main_v309, main_c_59 ]
theorem k30_writes : Cert.Region.WritesIn (τ := τ) (hostOps0_30 : List (HloOp τ sig (Elt F))) k30_tab := by
  unfold Cert.Region.WritesIn
  simp only [hostOps0_30, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k31_tab : List (Ref sig .tc) :=
  [ main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_v12, main_call15_cst_3, main_call15_v13, main_call15_cst_4, main_call15_call0_v0, main_call15_call0_v1, main_v310 ]
theorem k31_writes : Cert.Region.WritesIn (τ := τ) (hostOps0_31 : List (HloOp τ sig (Elt F))) k31_tab := by
  unfold Cert.Region.WritesIn
  simp only [hostOps0_31, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k32_tab : List (Ref sig .tc) :=
  [ main_v311, main_v312, main_cst_60, main_v313, main_v314, main_v315, main_v316, main_v317, main_v318, main_v319, main_v320, main_v321, main_v322, main_v323 ]
theorem k32_writes : Cert.Region.WritesIn (τ := τ) (hostOps0_32 : List (HloOp τ sig (Elt F))) k32_tab := by
  unfold Cert.Region.WritesIn
  simp only [hostOps0_32, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k33_tab : List (Ref sig .tc) :=
  [ main_call16_cst, main_call16_v0, main_v324 ]
theorem k33_writes : Cert.Region.WritesIn (τ := τ) (hostOps0_33 : List (HloOp τ sig (Elt F))) k33_tab := by
  unfold Cert.Region.WritesIn
  simp only [hostOps0_33, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k34_tab : List (Ref sig .tc) :=
  [ main_v325, main_v326, main_v327, main_v328, main_v329, main_v330, main_v331, main_v332, main_cst_61, main_v333, main_v334, main_cst_62, main_v335, main_v336, main_cst_63, main_cst_64 ]
theorem k34_writes : Cert.Region.WritesIn (τ := τ) (hostOps0_34 : List (HloOp τ sig (Elt F))) k34_tab := by
  unfold Cert.Region.WritesIn
  simp only [hostOps0_34, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k35_tab : List (Ref sig .tc) :=
  [ main_call17_v0, main_call17_v1, main_call17_v2, main_call17_v3, main_call17_v4, main_v337 ]
theorem k35_writes : Cert.Region.WritesIn (τ := τ) (hostOps0_35 : List (HloOp τ sig (Elt F))) k35_tab := by
  unfold Cert.Region.WritesIn
  simp only [hostOps0_35, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k36a_tab : List (Ref sig .tc) :=
  [ main_cst_65, main_v338, main_cst_66, main_v339, main_cst_67, main_v340, main_v341, main_v342 ]
theorem k36a_writes : Cert.Region.WritesIn (τ := τ) (((hostOps0_36.drop 0).take 8) : List (HloOp τ sig (Elt F))) k36a_tab := by
  unfold Cert.Region.WritesIn
  simp only [hostOps0_36, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k36b_tab : List (Ref sig .tc) :=
  [ main_v343, main_v344, main_v345, main_v346, main_v347, main_v348, main_v349 ]
theorem k36b_writes : Cert.Region.WritesIn (τ := τ) (((hostOps0_36.drop 8).take 7) : List (HloOp τ sig (Elt F))) k36b_tab := by
  unfold Cert.Region.WritesIn
  simp only [hostOps0_36, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k36c_tab : List (Ref sig .tc) :=
  [ main_cst_68, main_v350, main_v351, main_v352, main_v353, main_v354, main_v355 ]
theorem k36c_writes : Cert.Region.WritesIn (τ := τ) (((hostOps0_36.drop 15).take 7) : List (HloOp τ sig (Elt F))) k36c_tab := by
  unfold Cert.Region.WritesIn
  simp only [hostOps0_36, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k36d_tab : List (Ref sig .tc) :=
  [ main_cst_69, main_v356, main_v357, main_v358 ]
theorem k36d_writes : Cert.Region.WritesIn (τ := τ) (((hostOps0_36.drop 22).take 4) : List (HloOp τ sig (Elt F))) k36d_tab := by
  unfold Cert.Region.WritesIn
  simp only [hostOps0_36, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev k36e_tab : List (Ref sig .tc) :=
  [ main_v359, main_v360, main_v361 ]
theorem k36e_writes : Cert.Region.WritesIn (τ := τ) (((hostOps0_36.drop 26).take 3) : List (HloOp τ sig (Elt F))) k36e_tab := by
  unfold Cert.Region.WritesIn
  simp only [hostOps0_36, List.Forall, List.take, List.drop, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The stretches in program order: the host operations before the pallas_call. -/
abbrev klines : List (List (HloOp τ sig (Elt F))) :=
  [ hostOps0, hostOps0_1, hostOps0_2, hostOps0_3, hostOps0_4, hostOps0_5, hostOps0_6, hostOps0_7, hostOps0_8, hostOps0_9, hostOps0_10, hostOps0_11, ((hostOps0_12.drop 0).take 9), ((hostOps0_12.drop 9).take 8), ((hostOps0_12.drop 17).take 9), ((hostOps0_12.drop 26).take 17), hostOps0_13, hostOps0_14, hostOps0_15, hostOps0_16, hostOps0_17, hostOps0_18, hostOps0_19, hostOps0_20, hostOps0_21, hostOps0_22, hostOps0_23, ((hostOps0_24.drop 0).take 8), ((hostOps0_24.drop 8).take 7), ((hostOps0_24.drop 15).take 7), ((hostOps0_24.drop 22).take 17), hostOps0_25, hostOps0_26, hostOps0_27, hostOps0_28, hostOps0_29, hostOps0_30, hostOps0_31, hostOps0_32, hostOps0_33, hostOps0_34, hostOps0_35, ((hostOps0_36.drop 0).take 8), ((hostOps0_36.drop 8).take 7), ((hostOps0_36.drop 15).take 7), ((hostOps0_36.drop 22).take 4), ((hostOps0_36.drop 26).take 3) ]

abbrev ktabs : List (List (Ref sig .tc)) :=
  [ k0_tab, k1_tab, k2_tab, k3_tab, k4_tab, k5_tab, k6_tab, k7_tab, k8_tab, k9_tab, k10_tab, k11_tab, k12a_tab, k12b_tab, k12c_tab, k12d_tab, k13_tab, k14_tab, k15_tab, k16_tab, k17_tab, k18_tab, k19_tab, k20_tab, k21_tab, k22_tab, k23_tab, k24a_tab, k24b_tab, k24c_tab, k24d_tab, k25_tab, k26_tab, k27_tab, k28_tab, k29_tab, k30_tab, k31_tab, k32_tab, k33_tab, k34_tab, k35_tab, k36a_tab, k36b_tab, k36c_tab, k36d_tab, k36e_tab ]

theorem klines_writes : List.Forall₂ (Cert.Region.WritesIn (τ := τ)) (klines (F := F)) ktabs :=
  .cons k0_writes (.cons k1_writes (.cons k2_writes (.cons k3_writes (.cons k4_writes (.cons k5_writes (.cons k6_writes (.cons k7_writes (.cons k8_writes (.cons k9_writes (.cons k10_writes (.cons k11_writes (.cons k12a_writes (.cons k12b_writes (.cons k12c_writes (.cons k12d_writes (.cons k13_writes (.cons k14_writes (.cons k15_writes (.cons k16_writes (.cons k17_writes (.cons k18_writes (.cons k19_writes (.cons k20_writes (.cons k21_writes (.cons k22_writes (.cons k23_writes (.cons k24a_writes (.cons k24b_writes (.cons k24c_writes (.cons k24d_writes (.cons k25_writes (.cons k26_writes (.cons k27_writes (.cons k28_writes (.cons k29_writes (.cons k30_writes (.cons k31_writes (.cons k32_writes (.cons k33_writes (.cons k34_writes (.cons k35_writes (.cons k36a_writes (.cons k36b_writes (.cons k36c_writes (.cons k36d_writes (.cons k36e_writes (.nil)))))))))))))))))))))))))))))))))))))))))))))))

/-- Cutting a stretch in pieces does not change the line. -/
theorem klines_flatten : (klines (F := F)).flatten = List.flatten [ hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36 ] := by
  rfl

end Cert.KernelIdeal.KTables

end
-- ==== Proof.BridgeBase.lean ====
/-
  Common ground for joining the two programs' host operations: the kernel program's buffers before its pallas_call are
  the fold of 691 host operations over the launch contents, the reference's the fold of its 704; both folds are read
  through a prefix of the operations (everything after the prefix writes other buffers).
-/
import proofs.«125887_j14422500180043_2_alg».proof.Proof.RefRun
import proofs.«125887_j14422500180043_2_alg».proof.Proof.KTables
import proofs.«125887_j14422500180043_2_alg».proof.Proof.Region
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.TcCoe Idealize.SL.Sem Idealize.ShloMosaic.StableHlo

/-- The kernel program's host operations before the pallas_call, as one list. -/
def kops : List (HloOp Cert.KernelIdeal.τ Cert.KernelIdeal.sig (Elt Ideal)) := (Cert.KernelIdeal.KTables.klines (F := Ideal)).flatten
/-- The reference's host operations, as one list. -/
def rops : List (HloOp Cert.ReferenceIdeal.τ Cert.ReferenceIdeal.sig (Elt Ideal)) := Cert.ReferenceIdeal.RefRun.opsAll (F := Ideal)

/-- A line cut in two: a buffer the second part does not write is, at the end, what the first part leaves. -/
theorem out_eq₂ {τ : Topo} {sig : RefSig} {Val : EltTy → Type} (B C : List (HloOp τ sig Val)) (V : Valuation τ sig Val)
    {TC : List (Ref sig .tc)} (hC : Cert.Region.WritesIn C TC) {y : Ref sig .tc} (hy : y ∉ TC) :
    after (B ++ C) V (Proc.devRef .tc y) = after B V (Proc.devRef .tc y) := by
  rw [StableHlo.after_append, Cert.Region.keep hC _ hy]

theorem split₂ {α : Type} (L : List (List α)) (j : Nat) : L.flatten = (L.take j).flatten ++ (L.drop j).flatten := by
  conv_lhs => rw [← List.take_append_drop j L]
  rw [List.flatten_append]

/-- The kernel program's buffer `y`, written among the first `j` stretches, read through those stretches only. -/
theorem kops_prefix (j : Nat) (V : Valuation Cert.KernelIdeal.τ Cert.KernelIdeal.sig (Elt Ideal)) {y : Ref Cert.KernelIdeal.sig .tc}
    (hy : y ∉ (Cert.KernelIdeal.KTables.ktabs.drop j).flatten) :
    after kops V (Proc.devRef .tc y) = after ((Cert.KernelIdeal.KTables.klines (F := Ideal)).take j).flatten V (Proc.devRef .tc y) := by
  unfold kops
  rw [split₂ _ j]
  exact out_eq₂ _ _ V (Cert.Region.writesIn_flatten (List.forall₂_drop j Cert.KernelIdeal.KTables.klines_writes)) hy

/-- The reference's buffer `y`, written among the first `j` lines, read through those lines only. -/
theorem rops_prefix (j : Nat) (V : Valuation Cert.ReferenceIdeal.τ Cert.ReferenceIdeal.sig (Elt Ideal)) {y : Ref Cert.ReferenceIdeal.sig .tc}
    (hy : y ∉ (Cert.ReferenceIdeal.RefRun.tabs.drop j).flatten) :
    after rops V (Proc.devRef .tc y) = after ((Cert.ReferenceIdeal.RefRun.lines (F := Ideal)).take j).flatten V (Proc.devRef .tc y) := by
  unfold rops Cert.ReferenceIdeal.RefRun.opsAll
  rw [split₂ _ j]
  exact out_eq₂ _ _ V (Cert.Region.writesIn_flatten (List.forall₂_drop j Cert.ReferenceIdeal.RefRun.lines_writes)) hy

/-- Rewriting under a two-piece concatenation: its pieces are ordinary arguments. -/
theorem concat_pair_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx; subst hy; rfl

end Cert.Bridge

end
-- ==== Proof.BridgeTac.lean ====
/-
  Reading a buffer of either program through a MIDDLE stretch of its host operations, the buffers the stretch takes in
  standing for themselves: the value at the end of the whole line of a buffer written in the stretch is the stretch's
  composed operations applied to the end-of-line values of the buffers it reads.
-/
import proofs.«125887_j14422500180043_2_alg».proof.Proof.BridgeBase

noncomputable section

namespace Cert.Bridge

open Idealize.ShloMosaic Idealize.ShloMosaic.TcCoe Idealize.SL.Sem Idealize.ShloMosaic.StableHlo

/-- A buffer `y` the kernel program writes in stretches `i … j-1`: its final value is what those stretches compute from
    what the first `i` stretches leave. -/
theorem kops_region (i j : Nat) (hij : i ≤ j) (V : Valuation Cert.KernelIdeal.τ Cert.KernelIdeal.sig (Elt Ideal)) {y : Ref Cert.KernelIdeal.sig .tc}
    (hy : y ∉ (Cert.KernelIdeal.KTables.ktabs.drop j).flatten) :
    after kops V (Proc.devRef .tc y)
      = after (((Cert.KernelIdeal.KTables.klines (F := Ideal)).drop i).take (j - i)).flatten
          (after ((Cert.KernelIdeal.KTables.klines (F := Ideal)).take i).flatten V) (Proc.devRef .tc y) := by
  unfold kops
  rw [Cert.Region.split_flatten _ i j hij]
  exact Cert.Region.out_eq _ _ _ V (Cert.Region.writesIn_flatten (List.forall₂_drop j Cert.KernelIdeal.KTables.klines_writes)) hy

/-- A buffer `x` none of the stretches from `i` on writes: after the first `i` stretches it already has its final value. -/
theorem kops_in (i : Nat) (V : Valuation Cert.KernelIdeal.τ Cert.KernelIdeal.sig (Elt Ideal)) {x : Ref Cert.KernelIdeal.sig .tc}
    (hx : x ∉ (Cert.KernelIdeal.KTables.ktabs.drop i).flatten) :
    after ((Cert.KernelIdeal.KTables.klines (F := Ideal)).take i).flatten V (Proc.devRef .tc x) = after kops V (Proc.devRef .tc x) := by
  unfold kops
  conv_rhs => rw [split₂ _ i]
  exact (out_eq₂ _ _ V (Cert.Region.writesIn_flatten (List.forall₂_drop i Cert.KernelIdeal.KTables.klines_writes)) hx).symm

theorem rops_region (i j : Nat) (hij : i ≤ j) (V : Valuation Cert.ReferenceIdeal.τ Cert.ReferenceIdeal.sig (Elt Ideal)) {y : Ref Cert.ReferenceIdeal.sig .tc}
    (hy : y ∉ (Cert.ReferenceIdeal.RefRun.tabs.drop j).flatten) :
    after rops V (Proc.devRef .tc y)
      = after (((Cert.ReferenceIdeal.RefRun.lines (F := Ideal)).drop i).take (j - i)).flatten
          (after ((Cert.ReferenceIdeal.RefRun.lines (F := Ideal)).take i).flatten V) (Proc.devRef .tc y) := by
  unfold rops Cert.ReferenceIdeal.RefRun.opsAll
  rw [Cert.Region.split_flatten _ i j hij]
  exact Cert.Region.out_eq _ _ _ V (Cert.Region.writesIn_flatten (List.forall₂_drop j Cert.ReferenceIdeal.RefRun.lines_writes)) hy

theorem rops_in (i : Nat) (V : Valuation Cert.ReferenceIdeal.τ Cert.ReferenceIdeal.sig (Elt Ideal)) {x : Ref Cert.ReferenceIdeal.sig .tc}
    (hx : x ∉ (Cert.ReferenceIdeal.RefRun.tabs.drop i).flatten) :
    after ((Cert.ReferenceIdeal.RefRun.lines (F := Ideal)).take i).flatten V (Proc.devRef .tc x) = after rops V (Proc.devRef .tc x) := by
  unfold rops Cert.ReferenceIdeal.RefRun.opsAll
  conv_rhs => rw [split₂ _ i]
  exact (out_eq₂ _ _ V (Cert.Region.writesIn_flatten (List.forall₂_drop i Cert.ReferenceIdeal.RefRun.lines_writes)) hx).symm

end Cert.Bridge

end
-- ==== Proof.BridgeMacros.lean ====
/-
  Two proof steps used throughout the bridge: replace the final value of one buffer of the kernel program (or of the
  reference) by the composed operations of the stretch that computes it, applied to the final values of the buffers
  the stretch reads.
-/
import proofs.«125887_j14422500180043_2_alg».proof.Proof.BridgeTac

namespace Cert.Bridge

open Idealize.ShloMosaic Idealize.ShloMosaic.StableHlo

/-- `knorm i j V y`: rewrite the kernel program's final value of buffer `y` (written in stretches `i … j-1`) as those stretches'
    operations composed, over the final values of the buffers they read. -/
macro "knorm " i:num j:num V:ident y:ident : tactic => `(tactic| (
  rw [Cert.Bridge.kops_region $i $j (by decide) $V (y := $y) (by decide)]
  generalize hW__ : StableHlo.after ((Cert.KernelIdeal.KTables.klines (F := Idealize.ShloMosaic.Ideal)).take $i).flatten $V = W__
  simp only [Cert.KernelIdeal.KTables.klines, Cert.KernelIdeal.Gen.hostOps0_12, Cert.KernelIdeal.Gen.hostOps0_24,
    Cert.KernelIdeal.Gen.hostOps0_36, List.take, List.drop, List.flatten_cons, List.flatten_nil, List.append_nil,
    StableHlo.after_append]
  after_results_simp
  subst hW__
  try simp (disch := decide) only [Cert.Bridge.kops_in $i $V]))

/-- `rnorm i j V y`: the same for the reference's buffer `y`, written in lines `i … j-1`. -/
macro "rnorm " i:num j:num V:ident y:ident : tactic => `(tactic| (
  rw [Cert.Bridge.rops_region $i $j (by decide) $V (y := $y) (by decide)]
  generalize hW__ : StableHlo.after ((Cert.ReferenceIdeal.RefRun.lines (F := Idealize.ShloMosaic.Ideal)).take $i).flatten $V = W__
  simp only [Cert.ReferenceIdeal.RefRun.lines, List.take, List.drop, List.flatten_cons, List.flatten_nil, List.append_nil,
    StableHlo.after_append]
  after_results_simp
  subst hW__
  try simp (disch := decide) only [Cert.Bridge.rops_in $i $V]))

end Cert.Bridge
-- ==== Proof.FactsArgs.lean ====
/-
  The arguments at the end of either program's host operations are the arguments as launched (no operation writes
  an argument buffer). "The two programs agree on the arguments" is stated for the end values, which is where the
  composed operations read them; finite inputs are real numbers at the end as at launch.
-/
import proofs.«125887_j14422500180043_2_alg».proof.Proof.BridgeMacros

set_option maxRecDepth 16384
set_option maxHeartbeats 0

noncomputable section

namespace Cert.Bridge

open Idealize.ShloMosaic Idealize.ShloMosaic.TcCoe Idealize.SL.Sem Idealize.ShloMosaic.StableHlo

attribute [local congr] concat_pair_congr

variable (V : Valuation Cert.KernelIdeal.τ Cert.KernelIdeal.sig (Elt Ideal)) (V' : Valuation Cert.ReferenceIdeal.τ Cert.ReferenceIdeal.sig (Elt Ideal))

/-- The 23 argument buffers hold the same arrays at the end of the two programs' host operations. -/
def FinalAgree : Prop :=
    (after kops V (Proc.devRef .tc Cert.KernelIdeal.main_arg0) : IVec Cert.KernelIdeal.S4096 32) = (after rops V' (Proc.devRef .tc Cert.ReferenceIdeal.main_arg0) : IVec Cert.ReferenceIdeal.S4096 32)
    ∧ (after kops V (Proc.devRef .tc Cert.KernelIdeal.main_arg1) : FVec Ideal Cert.KernelIdeal.S32000x512 .f32) = (after rops V' (Proc.devRef .tc Cert.ReferenceIdeal.main_arg1) : FVec Ideal Cert.ReferenceIdeal.S32000x512 .f32)
    ∧ (after kops V (Proc.devRef .tc Cert.KernelIdeal.main_arg2) : FVec Ideal Cert.KernelIdeal.S512x512 .f32) = (after rops V' (Proc.devRef .tc Cert.ReferenceIdeal.main_arg2) : FVec Ideal Cert.ReferenceIdeal.S512x512 .f32)
    ∧ (after kops V (Proc.devRef .tc Cert.KernelIdeal.main_arg3) : FVec Ideal Cert.KernelIdeal.S512 .f32) = (after rops V' (Proc.devRef .tc Cert.ReferenceIdeal.main_arg3) : FVec Ideal Cert.ReferenceIdeal.S512 .f32)
    ∧ (after kops V (Proc.devRef .tc Cert.KernelIdeal.main_arg4) : FVec Ideal Cert.KernelIdeal.S1024x512 .f32) = (after rops V' (Proc.devRef .tc Cert.ReferenceIdeal.main_arg4) : FVec Ideal Cert.ReferenceIdeal.S1024x512 .f32)
    ∧ (after kops V (Proc.devRef .tc Cert.KernelIdeal.main_arg5) : FVec Ideal Cert.KernelIdeal.S1024 .f32) = (after rops V' (Proc.devRef .tc Cert.ReferenceIdeal.main_arg5) : FVec Ideal Cert.ReferenceIdeal.S1024 .f32)
    ∧ (after kops V (Proc.devRef .tc Cert.KernelIdeal.main_arg6) : FVec Ideal Cert.KernelIdeal.S512 .f32) = (after rops V' (Proc.devRef .tc Cert.ReferenceIdeal.main_arg6) : FVec Ideal Cert.ReferenceIdeal.S512 .f32)
    ∧ (after kops V (Proc.devRef .tc Cert.KernelIdeal.main_arg7) : FVec Ideal Cert.KernelIdeal.S512 .f32) = (after rops V' (Proc.devRef .tc Cert.ReferenceIdeal.main_arg7) : FVec Ideal Cert.ReferenceIdeal.S512 .f32)
    ∧ (after kops V (Proc.devRef .tc Cert.KernelIdeal.main_arg8) : FVec Ideal Cert.KernelIdeal.S4x128 .f32) = (after rops V' (Proc.devRef .tc Cert.ReferenceIdeal.main_arg8) : FVec Ideal Cert.ReferenceIdeal.S4x128 .f32)
    ∧ (after kops V (Proc.devRef .tc Cert.KernelIdeal.main_arg9) : FVec Ideal Cert.KernelIdeal.S256x640 .f32) = (after rops V' (Proc.devRef .tc Cert.ReferenceIdeal.main_arg9) : FVec Ideal Cert.ReferenceIdeal.S256x640 .f32)
    ∧ (after kops V (Proc.devRef .tc Cert.KernelIdeal.main_arg10) : FVec Ideal Cert.KernelIdeal.S256 .f32) = (after rops V' (Proc.devRef .tc Cert.ReferenceIdeal.main_arg10) : FVec Ideal Cert.ReferenceIdeal.S256 .f32)
    ∧ (after kops V (Proc.devRef .tc Cert.KernelIdeal.main_arg11) : FVec Ideal Cert.KernelIdeal.S256 .f32) = (after rops V' (Proc.devRef .tc Cert.ReferenceIdeal.main_arg11) : FVec Ideal Cert.ReferenceIdeal.S256 .f32)
    ∧ (after kops V (Proc.devRef .tc Cert.KernelIdeal.main_arg12) : FVec Ideal Cert.KernelIdeal.S256 .f32) = (after rops V' (Proc.devRef .tc Cert.ReferenceIdeal.main_arg12) : FVec Ideal Cert.ReferenceIdeal.S256 .f32)
    ∧ (after kops V (Proc.devRef .tc Cert.KernelIdeal.main_arg13) : FVec Ideal Cert.KernelIdeal.S128x256 .f32) = (after rops V' (Proc.devRef .tc Cert.ReferenceIdeal.main_arg13) : FVec Ideal Cert.ReferenceIdeal.S128x256 .f32)
    ∧ (after kops V (Proc.devRef .tc Cert.KernelIdeal.main_arg14) : FVec Ideal Cert.KernelIdeal.S128 .f32) = (after rops V' (Proc.devRef .tc Cert.ReferenceIdeal.main_arg14) : FVec Ideal Cert.ReferenceIdeal.S128 .f32)
    ∧ (after kops V (Proc.devRef .tc Cert.KernelIdeal.main_arg15) : FVec Ideal Cert.KernelIdeal.S128 .f32) = (after rops V' (Proc.devRef .tc Cert.ReferenceIdeal.main_arg15) : FVec Ideal Cert.ReferenceIdeal.S128 .f32)
    ∧ (after kops V (Proc.devRef .tc Cert.KernelIdeal.main_arg16) : FVec Ideal Cert.KernelIdeal.S128 .f32) = (after rops V' (Proc.devRef .tc Cert.ReferenceIdeal.main_arg16) : FVec Ideal Cert.ReferenceIdeal.S128 .f32)
    ∧ (after kops V (Proc.devRef .tc Cert.KernelIdeal.main_arg17) : FVec Ideal Cert.KernelIdeal.S1x128 .f32) = (after rops V' (Proc.devRef .tc Cert.ReferenceIdeal.main_arg17) : FVec Ideal Cert.ReferenceIdeal.S1x128 .f32)
    ∧ (after kops V (Proc.devRef .tc Cert.KernelIdeal.main_arg18) : FVec Ideal Cert.KernelIdeal.S1 .f32) = (after rops V' (Proc.devRef .tc Cert.ReferenceIdeal.main_arg18) : FVec Ideal Cert.ReferenceIdeal.S1 .f32)
    ∧ (after kops V (Proc.devRef .tc Cert.KernelIdeal.main_arg19) : FVec Ideal Cert.KernelIdeal.S2x512 .f32) = (after rops V' (Proc.devRef .tc Cert.ReferenceIdeal.main_arg19) : FVec Ideal Cert.ReferenceIdeal.S2x512 .f32)
    ∧ (after kops V (Proc.devRef .tc Cert.KernelIdeal.main_arg20) : FVec Ideal Cert.KernelIdeal.S4x512 .f32) = (after rops V' (Proc.devRef .tc Cert.ReferenceIdeal.main_arg20) : FVec Ideal Cert.ReferenceIdeal.S4x512 .f32)
    ∧ (after kops V (Proc.devRef .tc Cert.KernelIdeal.main_arg21) : FVec Ideal Cert.KernelIdeal.S32000x512 .f32) = (after rops V' (Proc.devRef .tc Cert.ReferenceIdeal.main_arg21) : FVec Ideal Cert.ReferenceIdeal.S32000x512 .f32)
    ∧ (after kops V (Proc.devRef .tc Cert.KernelIdeal.main_arg22) : FVec Ideal Cert.KernelIdeal.S32000 .f32) = (after rops V' (Proc.devRef .tc Cert.ReferenceIdeal.main_arg22) : FVec Ideal Cert.ReferenceIdeal.S32000 .f32)

theorem kops_arg {x : Ref Cert.KernelIdeal.sig .tc} (hx : x ∉ Cert.KernelIdeal.KTables.ktabs.flatten) :
    after kops V (Proc.devRef .tc x) = V (Proc.devRef .tc x) :=
  Cert.Region.keep (Cert.Region.writesIn_flatten Cert.KernelIdeal.KTables.klines_writes) V hx

theorem rops_arg {x : Ref Cert.ReferenceIdeal.sig .tc} (hx : x ∉ Cert.ReferenceIdeal.RefRun.tabs.flatten) :
    after rops V' (Proc.devRef .tc x) = V' (Proc.devRef .tc x) :=
  Cert.Region.keep (Cert.Region.writesIn_flatten Cert.ReferenceIdeal.RefRun.lines_writes) V' hx

/-- The entries of the six arrays the tree algebra multiplies out are real numbers (at the end of the reference's
    operations: the embedding table, the projection and its bias, the child map and its bias, the sibling embeddings). -/
structure RealArgs : Prop where
  emb : ∀ i, ∃ r : ℝ, (after rops V' (Proc.devRef .tc Cert.ReferenceIdeal.main_arg1) : FVec Ideal Cert.ReferenceIdeal.S32000x512 .f32) i = (r : EReal)
  pw : ∀ i, ∃ r : ℝ, (after rops V' (Proc.devRef .tc Cert.ReferenceIdeal.main_arg2) : FVec Ideal Cert.ReferenceIdeal.S512x512 .f32) i = (r : EReal)
  pb : ∀ i, ∃ r : ℝ, (after rops V' (Proc.devRef .tc Cert.ReferenceIdeal.main_arg3) : FVec Ideal Cert.ReferenceIdeal.S512 .f32) i = (r : EReal)
  cfw : ∀ i, ∃ r : ℝ, (after rops V' (Proc.devRef .tc Cert.ReferenceIdeal.main_arg4) : FVec Ideal Cert.ReferenceIdeal.S1024x512 .f32) i = (r : EReal)
  cfb : ∀ i, ∃ r : ℝ, (after rops V' (Proc.devRef .tc Cert.ReferenceIdeal.main_arg5) : FVec Ideal Cert.ReferenceIdeal.S1024 .f32) i = (r : EReal)
  sib : ∀ i, ∃ r : ℝ, (after rops V' (Proc.devRef .tc Cert.ReferenceIdeal.main_arg19) : FVec Ideal Cert.ReferenceIdeal.S2x512 .f32) i = (r : EReal)

end Cert.Bridge

end
-- ==== Proof.ArgsBridge.lean ====
/-
  The arguments across the two programs. Neither program's host operations write an argument buffer, so at the end
  of either line of operations every argument holds its launch contents. Hence: memories that agree on the arguments
  give end values that agree (the form in which the composed operations read them); inputs that are real numbers in
  the kernel program's memory are real numbers at the end of the reference's operations; and after the reference's
  run every argument is unchanged.
-/
import proofs.«125887_j14422500180043_2_alg».proof.Defs
import proofs.«125887_j14422500180043_2_alg».proof.Proof.Gen.KernelIdeal
import proofs.«125887_j14422500180043_2_alg».proof.Proof.Gen.ReferenceIdeal
import proofs.«125887_j14422500180043_2_alg».proof.Proof.Gen.Pre_finite_inputs
import proofs.«125887_j14422500180043_2_alg».proof.Proof.PreReal
import proofs.«125887_j14422500180043_2_alg».proof.Proof.FactsArgs

set_option maxRecDepth 16384
set_option maxHeartbeats 0
-- one declaration at a time: each statement that mentions both programs' buffer tables is heavy to check
set_option Elab.async false

noncomputable section

namespace Cert.ArgsBridge

open Idealize.ShloMosaic Idealize.ShloMosaic.TcCoe Idealize.SL.Sem

/-! ## No operation writes an argument buffer -/

theorem r_arg0 : Cert.ReferenceIdeal.main_arg0 ∉ Cert.ReferenceIdeal.RefRun.tabs.flatten := by decide
theorem k_arg0 : Cert.KernelIdeal.main_arg0 ∉ Cert.KernelIdeal.KTables.ktabs.flatten := by decide
theorem r_arg1 : Cert.ReferenceIdeal.main_arg1 ∉ Cert.ReferenceIdeal.RefRun.tabs.flatten := by decide
theorem k_arg1 : Cert.KernelIdeal.main_arg1 ∉ Cert.KernelIdeal.KTables.ktabs.flatten := by decide
theorem r_arg2 : Cert.ReferenceIdeal.main_arg2 ∉ Cert.ReferenceIdeal.RefRun.tabs.flatten := by decide
theorem k_arg2 : Cert.KernelIdeal.main_arg2 ∉ Cert.KernelIdeal.KTables.ktabs.flatten := by decide
theorem r_arg3 : Cert.ReferenceIdeal.main_arg3 ∉ Cert.ReferenceIdeal.RefRun.tabs.flatten := by decide
theorem k_arg3 : Cert.KernelIdeal.main_arg3 ∉ Cert.KernelIdeal.KTables.ktabs.flatten := by decide
theorem r_arg4 : Cert.ReferenceIdeal.main_arg4 ∉ Cert.ReferenceIdeal.RefRun.tabs.flatten := by decide
theorem k_arg4 : Cert.KernelIdeal.main_arg4 ∉ Cert.KernelIdeal.KTables.ktabs.flatten := by decide
theorem r_arg5 : Cert.ReferenceIdeal.main_arg5 ∉ Cert.ReferenceIdeal.RefRun.tabs.flatten := by decide
theorem k_arg5 : Cert.KernelIdeal.main_arg5 ∉ Cert.KernelIdeal.KTables.ktabs.flatten := by decide
theorem r_arg6 : Cert.ReferenceIdeal.main_arg6 ∉ Cert.ReferenceIdeal.RefRun.tabs.flatten := by decide
theorem k_arg6 : Cert.KernelIdeal.main_arg6 ∉ Cert.KernelIdeal.KTables.ktabs.flatten := by decide
theorem r_arg7 : Cert.ReferenceIdeal.main_arg7 ∉ Cert.ReferenceIdeal.RefRun.tabs.flatten := by decide
theorem k_arg7 : Cert.KernelIdeal.main_arg7 ∉ Cert.KernelIdeal.KTables.ktabs.flatten := by decide
theorem r_arg8 : Cert.ReferenceIdeal.main_arg8 ∉ Cert.ReferenceIdeal.RefRun.tabs.flatten := by decide
theorem k_arg8 : Cert.KernelIdeal.main_arg8 ∉ Cert.KernelIdeal.KTables.ktabs.flatten := by decide
theorem r_arg9 : Cert.ReferenceIdeal.main_arg9 ∉ Cert.ReferenceIdeal.RefRun.tabs.flatten := by decide
theorem k_arg9 : Cert.KernelIdeal.main_arg9 ∉ Cert.KernelIdeal.KTables.ktabs.flatten := by decide
theorem r_arg10 : Cert.ReferenceIdeal.main_arg10 ∉ Cert.ReferenceIdeal.RefRun.tabs.flatten := by decide
theorem k_arg10 : Cert.KernelIdeal.main_arg10 ∉ Cert.KernelIdeal.KTables.ktabs.flatten := by decide
theorem r_arg11 : Cert.ReferenceIdeal.main_arg11 ∉ Cert.ReferenceIdeal.RefRun.tabs.flatten := by decide
theorem k_arg11 : Cert.KernelIdeal.main_arg11 ∉ Cert.KernelIdeal.KTables.ktabs.flatten := by decide
theorem r_arg12 : Cert.ReferenceIdeal.main_arg12 ∉ Cert.ReferenceIdeal.RefRun.tabs.flatten := by decide
theorem k_arg12 : Cert.KernelIdeal.main_arg12 ∉ Cert.KernelIdeal.KTables.ktabs.flatten := by decide
theorem r_arg13 : Cert.ReferenceIdeal.main_arg13 ∉ Cert.ReferenceIdeal.RefRun.tabs.flatten := by decide
theorem k_arg13 : Cert.KernelIdeal.main_arg13 ∉ Cert.KernelIdeal.KTables.ktabs.flatten := by decide
theorem r_arg14 : Cert.ReferenceIdeal.main_arg14 ∉ Cert.ReferenceIdeal.RefRun.tabs.flatten := by decide
theorem k_arg14 : Cert.KernelIdeal.main_arg14 ∉ Cert.KernelIdeal.KTables.ktabs.flatten := by decide
theorem r_arg15 : Cert.ReferenceIdeal.main_arg15 ∉ Cert.ReferenceIdeal.RefRun.tabs.flatten := by decide
theorem k_arg15 : Cert.KernelIdeal.main_arg15 ∉ Cert.KernelIdeal.KTables.ktabs.flatten := by decide
theorem r_arg16 : Cert.ReferenceIdeal.main_arg16 ∉ Cert.ReferenceIdeal.RefRun.tabs.flatten := by decide
theorem k_arg16 : Cert.KernelIdeal.main_arg16 ∉ Cert.KernelIdeal.KTables.ktabs.flatten := by decide
theorem r_arg17 : Cert.ReferenceIdeal.main_arg17 ∉ Cert.ReferenceIdeal.RefRun.tabs.flatten := by decide
theorem k_arg17 : Cert.KernelIdeal.main_arg17 ∉ Cert.KernelIdeal.KTables.ktabs.flatten := by decide
theorem r_arg18 : Cert.ReferenceIdeal.main_arg18 ∉ Cert.ReferenceIdeal.RefRun.tabs.flatten := by decide
theorem k_arg18 : Cert.KernelIdeal.main_arg18 ∉ Cert.KernelIdeal.KTables.ktabs.flatten := by decide
theorem r_arg19 : Cert.ReferenceIdeal.main_arg19 ∉ Cert.ReferenceIdeal.RefRun.tabs.flatten := by decide
theorem k_arg19 : Cert.KernelIdeal.main_arg19 ∉ Cert.KernelIdeal.KTables.ktabs.flatten := by decide
theorem r_arg20 : Cert.ReferenceIdeal.main_arg20 ∉ Cert.ReferenceIdeal.RefRun.tabs.flatten := by decide
theorem k_arg20 : Cert.KernelIdeal.main_arg20 ∉ Cert.KernelIdeal.KTables.ktabs.flatten := by decide
theorem r_arg21 : Cert.ReferenceIdeal.main_arg21 ∉ Cert.ReferenceIdeal.RefRun.tabs.flatten := by decide
theorem k_arg21 : Cert.KernelIdeal.main_arg21 ∉ Cert.KernelIdeal.KTables.ktabs.flatten := by decide
theorem r_arg22 : Cert.ReferenceIdeal.main_arg22 ∉ Cert.ReferenceIdeal.RefRun.tabs.flatten := by decide
theorem k_arg22 : Cert.KernelIdeal.main_arg22 ∉ Cert.KernelIdeal.KTables.ktabs.flatten := by decide

/-! ## Agreeing launch contents give agreeing end values -/

theorem agree0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (StableHlo.after Cert.Bridge.kops (StableHlo.launchContents m c) (Proc.devRef .tc Cert.KernelIdeal.main_arg0) : IVec Cert.KernelIdeal.S4096 32) = (StableHlo.after Cert.Bridge.rops (StableHlo.launchContents m' c) (Proc.devRef .tc Cert.ReferenceIdeal.main_arg0) : IVec Cert.ReferenceIdeal.S4096 32) :=
  (Cert.Bridge.kops_arg (StableHlo.launchContents m c) k_arg0).trans (g.symm.trans (Cert.Bridge.rops_arg (StableHlo.launchContents m' c) r_arg0).symm)

theorem agree1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after Cert.Bridge.kops (StableHlo.launchContents m c) (Proc.devRef .tc Cert.KernelIdeal.main_arg1) : FVec Ideal Cert.KernelIdeal.S32000x512 .f32) = (StableHlo.after Cert.Bridge.rops (StableHlo.launchContents m' c) (Proc.devRef .tc Cert.ReferenceIdeal.main_arg1) : FVec Ideal Cert.ReferenceIdeal.S32000x512 .f32) :=
  (Cert.Bridge.kops_arg (StableHlo.launchContents m c) k_arg1).trans (g.symm.trans (Cert.Bridge.rops_arg (StableHlo.launchContents m' c) r_arg1).symm)

theorem agree2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (StableHlo.after Cert.Bridge.kops (StableHlo.launchContents m c) (Proc.devRef .tc Cert.KernelIdeal.main_arg2) : FVec Ideal Cert.KernelIdeal.S512x512 .f32) = (StableHlo.after Cert.Bridge.rops (StableHlo.launchContents m' c) (Proc.devRef .tc Cert.ReferenceIdeal.main_arg2) : FVec Ideal Cert.ReferenceIdeal.S512x512 .f32) :=
  (Cert.Bridge.kops_arg (StableHlo.launchContents m c) k_arg2).trans (g.symm.trans (Cert.Bridge.rops_arg (StableHlo.launchContents m' c) r_arg2).symm)

theorem agree3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (StableHlo.after Cert.Bridge.kops (StableHlo.launchContents m c) (Proc.devRef .tc Cert.KernelIdeal.main_arg3) : FVec Ideal Cert.KernelIdeal.S512 .f32) = (StableHlo.after Cert.Bridge.rops (StableHlo.launchContents m' c) (Proc.devRef .tc Cert.ReferenceIdeal.main_arg3) : FVec Ideal Cert.ReferenceIdeal.S512 .f32) :=
  (Cert.Bridge.kops_arg (StableHlo.launchContents m c) k_arg3).trans (g.symm.trans (Cert.Bridge.rops_arg (StableHlo.launchContents m' c) r_arg3).symm)

theorem agree4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (StableHlo.after Cert.Bridge.kops (StableHlo.launchContents m c) (Proc.devRef .tc Cert.KernelIdeal.main_arg4) : FVec Ideal Cert.KernelIdeal.S1024x512 .f32) = (StableHlo.after Cert.Bridge.rops (StableHlo.launchContents m' c) (Proc.devRef .tc Cert.ReferenceIdeal.main_arg4) : FVec Ideal Cert.ReferenceIdeal.S1024x512 .f32) :=
  (Cert.Bridge.kops_arg (StableHlo.launchContents m c) k_arg4).trans (g.symm.trans (Cert.Bridge.rops_arg (StableHlo.launchContents m' c) r_arg4).symm)

theorem agree5 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (StableHlo.after Cert.Bridge.kops (StableHlo.launchContents m c) (Proc.devRef .tc Cert.KernelIdeal.main_arg5) : FVec Ideal Cert.KernelIdeal.S1024 .f32) = (StableHlo.after Cert.Bridge.rops (StableHlo.launchContents m' c) (Proc.devRef .tc Cert.ReferenceIdeal.main_arg5) : FVec Ideal Cert.ReferenceIdeal.S1024 .f32) :=
  (Cert.Bridge.kops_arg (StableHlo.launchContents m c) k_arg5).trans (g.symm.trans (Cert.Bridge.rops_arg (StableHlo.launchContents m' c) r_arg5).symm)

theorem agree6 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (StableHlo.after Cert.Bridge.kops (StableHlo.launchContents m c) (Proc.devRef .tc Cert.KernelIdeal.main_arg6) : FVec Ideal Cert.KernelIdeal.S512 .f32) = (StableHlo.after Cert.Bridge.rops (StableHlo.launchContents m' c) (Proc.devRef .tc Cert.ReferenceIdeal.main_arg6) : FVec Ideal Cert.ReferenceIdeal.S512 .f32) :=
  (Cert.Bridge.kops_arg (StableHlo.launchContents m c) k_arg6).trans (g.symm.trans (Cert.Bridge.rops_arg (StableHlo.launchContents m' c) r_arg6).symm)

theorem agree7 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (StableHlo.after Cert.Bridge.kops (StableHlo.launchContents m c) (Proc.devRef .tc Cert.KernelIdeal.main_arg7) : FVec Ideal Cert.KernelIdeal.S512 .f32) = (StableHlo.after Cert.Bridge.rops (StableHlo.launchContents m' c) (Proc.devRef .tc Cert.ReferenceIdeal.main_arg7) : FVec Ideal Cert.ReferenceIdeal.S512 .f32) :=
  (Cert.Bridge.kops_arg (StableHlo.launchContents m c) k_arg7).trans (g.symm.trans (Cert.Bridge.rops_arg (StableHlo.launchContents m' c) r_arg7).symm)

theorem agree8 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (StableHlo.after Cert.Bridge.kops (StableHlo.launchContents m c) (Proc.devRef .tc Cert.KernelIdeal.main_arg8) : FVec Ideal Cert.KernelIdeal.S4x128 .f32) = (StableHlo.after Cert.Bridge.rops (StableHlo.launchContents m' c) (Proc.devRef .tc Cert.ReferenceIdeal.main_arg8) : FVec Ideal Cert.ReferenceIdeal.S4x128 .f32) :=
  (Cert.Bridge.kops_arg (StableHlo.launchContents m c) k_arg8).trans (g.symm.trans (Cert.Bridge.rops_arg (StableHlo.launchContents m' c) r_arg8).symm)

theorem agree9 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (StableHlo.after Cert.Bridge.kops (StableHlo.launchContents m c) (Proc.devRef .tc Cert.KernelIdeal.main_arg9) : FVec Ideal Cert.KernelIdeal.S256x640 .f32) = (StableHlo.after Cert.Bridge.rops (StableHlo.launchContents m' c) (Proc.devRef .tc Cert.ReferenceIdeal.main_arg9) : FVec Ideal Cert.ReferenceIdeal.S256x640 .f32) :=
  (Cert.Bridge.kops_arg (StableHlo.launchContents m c) k_arg9).trans (g.symm.trans (Cert.Bridge.rops_arg (StableHlo.launchContents m' c) r_arg9).symm)

theorem agree10 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (StableHlo.after Cert.Bridge.kops (StableHlo.launchContents m c) (Proc.devRef .tc Cert.KernelIdeal.main_arg10) : FVec Ideal Cert.KernelIdeal.S256 .f32) = (StableHlo.after Cert.Bridge.rops (StableHlo.launchContents m' c) (Proc.devRef .tc Cert.ReferenceIdeal.main_arg10) : FVec Ideal Cert.ReferenceIdeal.S256 .f32) :=
  (Cert.Bridge.kops_arg (StableHlo.launchContents m c) k_arg10).trans (g.symm.trans (Cert.Bridge.rops_arg (StableHlo.launchContents m' c) r_arg10).symm)

theorem agree11 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (StableHlo.after Cert.Bridge.kops (StableHlo.launchContents m c) (Proc.devRef .tc Cert.KernelIdeal.main_arg11) : FVec Ideal Cert.KernelIdeal.S256 .f32) = (StableHlo.after Cert.Bridge.rops (StableHlo.launchContents m' c) (Proc.devRef .tc Cert.ReferenceIdeal.main_arg11) : FVec Ideal Cert.ReferenceIdeal.S256 .f32) :=
  (Cert.Bridge.kops_arg (StableHlo.launchContents m c) k_arg11).trans (g.symm.trans (Cert.Bridge.rops_arg (StableHlo.launchContents m' c) r_arg11).symm)

theorem agree12 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.Bridge.kops (StableHlo.launchContents m c) (Proc.devRef .tc Cert.KernelIdeal.main_arg12) : FVec Ideal Cert.KernelIdeal.S256 .f32) = (StableHlo.after Cert.Bridge.rops (StableHlo.launchContents m' c) (Proc.devRef .tc Cert.ReferenceIdeal.main_arg12) : FVec Ideal Cert.ReferenceIdeal.S256 .f32) :=
  (Cert.Bridge.kops_arg (StableHlo.launchContents m c) k_arg12).trans (g.symm.trans (Cert.Bridge.rops_arg (StableHlo.launchContents m' c) r_arg12).symm)

theorem agree13 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (StableHlo.after Cert.Bridge.kops (StableHlo.launchContents m c) (Proc.devRef .tc Cert.KernelIdeal.main_arg13) : FVec Ideal Cert.KernelIdeal.S128x256 .f32) = (StableHlo.after Cert.Bridge.rops (StableHlo.launchContents m' c) (Proc.devRef .tc Cert.ReferenceIdeal.main_arg13) : FVec Ideal Cert.ReferenceIdeal.S128x256 .f32) :=
  (Cert.Bridge.kops_arg (StableHlo.launchContents m c) k_arg13).trans (g.symm.trans (Cert.Bridge.rops_arg (StableHlo.launchContents m' c) r_arg13).symm)

theorem agree14 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    (StableHlo.after Cert.Bridge.kops (StableHlo.launchContents m c) (Proc.devRef .tc Cert.KernelIdeal.main_arg14) : FVec Ideal Cert.KernelIdeal.S128 .f32) = (StableHlo.after Cert.Bridge.rops (StableHlo.launchContents m' c) (Proc.devRef .tc Cert.ReferenceIdeal.main_arg14) : FVec Ideal Cert.ReferenceIdeal.S128 .f32) :=
  (Cert.Bridge.kops_arg (StableHlo.launchContents m c) k_arg14).trans (g.symm.trans (Cert.Bridge.rops_arg (StableHlo.launchContents m' c) r_arg14).symm)

theorem agree15 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    (StableHlo.after Cert.Bridge.kops (StableHlo.launchContents m c) (Proc.devRef .tc Cert.KernelIdeal.main_arg15) : FVec Ideal Cert.KernelIdeal.S128 .f32) = (StableHlo.after Cert.Bridge.rops (StableHlo.launchContents m' c) (Proc.devRef .tc Cert.ReferenceIdeal.main_arg15) : FVec Ideal Cert.ReferenceIdeal.S128 .f32) :=
  (Cert.Bridge.kops_arg (StableHlo.launchContents m c) k_arg15).trans (g.symm.trans (Cert.Bridge.rops_arg (StableHlo.launchContents m' c) r_arg15).symm)

theorem agree16 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    (StableHlo.after Cert.Bridge.kops (StableHlo.launchContents m c) (Proc.devRef .tc Cert.KernelIdeal.main_arg16) : FVec Ideal Cert.KernelIdeal.S128 .f32) = (StableHlo.after Cert.Bridge.rops (StableHlo.launchContents m' c) (Proc.devRef .tc Cert.ReferenceIdeal.main_arg16) : FVec Ideal Cert.ReferenceIdeal.S128 .f32) :=
  (Cert.Bridge.kops_arg (StableHlo.launchContents m c) k_arg16).trans (g.symm.trans (Cert.Bridge.rops_arg (StableHlo.launchContents m' c) r_arg16).symm)

theorem agree17 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (StableHlo.after Cert.Bridge.kops (StableHlo.launchContents m c) (Proc.devRef .tc Cert.KernelIdeal.main_arg17) : FVec Ideal Cert.KernelIdeal.S1x128 .f32) = (StableHlo.after Cert.Bridge.rops (StableHlo.launchContents m' c) (Proc.devRef .tc Cert.ReferenceIdeal.main_arg17) : FVec Ideal Cert.ReferenceIdeal.S1x128 .f32) :=
  (Cert.Bridge.kops_arg (StableHlo.launchContents m c) k_arg17).trans (g.symm.trans (Cert.Bridge.rops_arg (StableHlo.launchContents m' c) r_arg17).symm)

theorem agree18 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    (StableHlo.after Cert.Bridge.kops (StableHlo.launchContents m c) (Proc.devRef .tc Cert.KernelIdeal.main_arg18) : FVec Ideal Cert.KernelIdeal.S1 .f32) = (StableHlo.after Cert.Bridge.rops (StableHlo.launchContents m' c) (Proc.devRef .tc Cert.ReferenceIdeal.main_arg18) : FVec Ideal Cert.ReferenceIdeal.S1 .f32) :=
  (Cert.Bridge.kops_arg (StableHlo.launchContents m c) k_arg18).trans (g.symm.trans (Cert.Bridge.rops_arg (StableHlo.launchContents m' c) r_arg18).symm)

theorem agree19 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    (StableHlo.after Cert.Bridge.kops (StableHlo.launchContents m c) (Proc.devRef .tc Cert.KernelIdeal.main_arg19) : FVec Ideal Cert.KernelIdeal.S2x512 .f32) = (StableHlo.after Cert.Bridge.rops (StableHlo.launchContents m' c) (Proc.devRef .tc Cert.ReferenceIdeal.main_arg19) : FVec Ideal Cert.ReferenceIdeal.S2x512 .f32) :=
  (Cert.Bridge.kops_arg (StableHlo.launchContents m c) k_arg19).trans (g.symm.trans (Cert.Bridge.rops_arg (StableHlo.launchContents m' c) r_arg19).symm)

theorem agree20 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    (StableHlo.after Cert.Bridge.kops (StableHlo.launchContents m c) (Proc.devRef .tc Cert.KernelIdeal.main_arg20) : FVec Ideal Cert.KernelIdeal.S4x512 .f32) = (StableHlo.after Cert.Bridge.rops (StableHlo.launchContents m' c) (Proc.devRef .tc Cert.ReferenceIdeal.main_arg20) : FVec Ideal Cert.ReferenceIdeal.S4x512 .f32) :=
  (Cert.Bridge.kops_arg (StableHlo.launchContents m c) k_arg20).trans (g.symm.trans (Cert.Bridge.rops_arg (StableHlo.launchContents m' c) r_arg20).symm)

theorem agree21 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    (StableHlo.after Cert.Bridge.kops (StableHlo.launchContents m c) (Proc.devRef .tc Cert.KernelIdeal.main_arg21) : FVec Ideal Cert.KernelIdeal.S32000x512 .f32) = (StableHlo.after Cert.Bridge.rops (StableHlo.launchContents m' c) (Proc.devRef .tc Cert.ReferenceIdeal.main_arg21) : FVec Ideal Cert.ReferenceIdeal.S32000x512 .f32) :=
  (Cert.Bridge.kops_arg (StableHlo.launchContents m c) k_arg21).trans (g.symm.trans (Cert.Bridge.rops_arg (StableHlo.launchContents m' c) r_arg21).symm)

theorem agree22 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    (StableHlo.after Cert.Bridge.kops (StableHlo.launchContents m c) (Proc.devRef .tc Cert.KernelIdeal.main_arg22) : FVec Ideal Cert.KernelIdeal.S32000 .f32) = (StableHlo.after Cert.Bridge.rops (StableHlo.launchContents m' c) (Proc.devRef .tc Cert.ReferenceIdeal.main_arg22) : FVec Ideal Cert.ReferenceIdeal.S32000 .f32) :=
  (Cert.Bridge.kops_arg (StableHlo.launchContents m c) k_arg22).trans (g.symm.trans (Cert.Bridge.rops_arg (StableHlo.launchContents m' c) r_arg22).symm)

/-- Memories that agree on the 23 arguments give host-operation end values that agree on them. -/
theorem final_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.Bridge.FinalAgree (StableHlo.launchContents m c) (StableHlo.launchContents m' c) := by
  obtain ⟨g0, g1, g2, g3, g4, g5, g6, g7, g8, g9, g10, g11, g12, g13, g14, g15, g16, g17, g18, g19, g20, g21, g22⟩ := hagree
  exact ⟨agree0 m m' c g0, agree1 m m' c g1, agree2 m m' c g2, agree3 m m' c g3, agree4 m m' c g4, agree5 m m' c g5, agree6 m m' c g6, agree7 m m' c g7, agree8 m m' c g8, agree9 m m' c g9, agree10 m m' c g10, agree11 m m' c g11, agree12 m m' c g12, agree13 m m' c g13, agree14 m m' c g14, agree15 m m' c g15, agree16 m m' c g16, agree17 m m' c g17, agree18 m m' c g18, agree19 m m' c g19, agree20 m m' c g20, agree21 m m' c g21, agree22 m m' c g22⟩

/-! ## Real inputs are real at the end of the reference's operations -/

theorem real1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h : ∀ i, ∃ r : ℝ, m ((c.tc : Thread Cert.KernelIdeal.nD Cert.KernelIdeal.τ).loc Cert.KernelIdeal.main_arg1) i = (r : EReal)) :
    ∀ i, ∃ r : ℝ, (StableHlo.after Cert.Bridge.rops (StableHlo.launchContents m' c) (Proc.devRef .tc Cert.ReferenceIdeal.main_arg1) : FVec Ideal Cert.ReferenceIdeal.S32000x512 .f32) i = (r : EReal) := by
  have e : (StableHlo.after Cert.Bridge.rops (StableHlo.launchContents m' c) (Proc.devRef .tc Cert.ReferenceIdeal.main_arg1) : FVec Ideal Cert.ReferenceIdeal.S32000x512 .f32)
      = m ((c.tc : Thread Cert.KernelIdeal.nD Cert.KernelIdeal.τ).loc Cert.KernelIdeal.main_arg1) := (Cert.Bridge.rops_arg (StableHlo.launchContents m' c) r_arg1).trans g
  intro i
  obtain ⟨x, hx⟩ := h i
  exact ⟨x, (congrFun e i).trans hx⟩

theorem real2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h : ∀ i, ∃ r : ℝ, m ((c.tc : Thread Cert.KernelIdeal.nD Cert.KernelIdeal.τ).loc Cert.KernelIdeal.main_arg2) i = (r : EReal)) :
    ∀ i, ∃ r : ℝ, (StableHlo.after Cert.Bridge.rops (StableHlo.launchContents m' c) (Proc.devRef .tc Cert.ReferenceIdeal.main_arg2) : FVec Ideal Cert.ReferenceIdeal.S512x512 .f32) i = (r : EReal) := by
  have e : (StableHlo.after Cert.Bridge.rops (StableHlo.launchContents m' c) (Proc.devRef .tc Cert.ReferenceIdeal.main_arg2) : FVec Ideal Cert.ReferenceIdeal.S512x512 .f32)
      = m ((c.tc : Thread Cert.KernelIdeal.nD Cert.KernelIdeal.τ).loc Cert.KernelIdeal.main_arg2) := (Cert.Bridge.rops_arg (StableHlo.launchContents m' c) r_arg2).trans g
  intro i
  obtain ⟨x, hx⟩ := h i
  exact ⟨x, (congrFun e i).trans hx⟩

theorem real3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h : ∀ i, ∃ r : ℝ, m ((c.tc : Thread Cert.KernelIdeal.nD Cert.KernelIdeal.τ).loc Cert.KernelIdeal.main_arg3) i = (r : EReal)) :
    ∀ i, ∃ r : ℝ, (StableHlo.after Cert.Bridge.rops (StableHlo.launchContents m' c) (Proc.devRef .tc Cert.ReferenceIdeal.main_arg3) : FVec Ideal Cert.ReferenceIdeal.S512 .f32) i = (r : EReal) := by
  have e : (StableHlo.after Cert.Bridge.rops (StableHlo.launchContents m' c) (Proc.devRef .tc Cert.ReferenceIdeal.main_arg3) : FVec Ideal Cert.ReferenceIdeal.S512 .f32)
      = m ((c.tc : Thread Cert.KernelIdeal.nD Cert.KernelIdeal.τ).loc Cert.KernelIdeal.main_arg3) := (Cert.Bridge.rops_arg (StableHlo.launchContents m' c) r_arg3).trans g
  intro i
  obtain ⟨x, hx⟩ := h i
  exact ⟨x, (congrFun e i).trans hx⟩

theorem real4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h : ∀ i, ∃ r : ℝ, m ((c.tc : Thread Cert.KernelIdeal.nD Cert.KernelIdeal.τ).loc Cert.KernelIdeal.main_arg4) i = (r : EReal)) :
    ∀ i, ∃ r : ℝ, (StableHlo.after Cert.Bridge.rops (StableHlo.launchContents m' c) (Proc.devRef .tc Cert.ReferenceIdeal.main_arg4) : FVec Ideal Cert.ReferenceIdeal.S1024x512 .f32) i = (r : EReal) := by
  have e : (StableHlo.after Cert.Bridge.rops (StableHlo.launchContents m' c) (Proc.devRef .tc Cert.ReferenceIdeal.main_arg4) : FVec Ideal Cert.ReferenceIdeal.S1024x512 .f32)
      = m ((c.tc : Thread Cert.KernelIdeal.nD Cert.KernelIdeal.τ).loc Cert.KernelIdeal.main_arg4) := (Cert.Bridge.rops_arg (StableHlo.launchContents m' c) r_arg4).trans g
  intro i
  obtain ⟨x, hx⟩ := h i
  exact ⟨x, (congrFun e i).trans hx⟩

theorem real5 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h : ∀ i, ∃ r : ℝ, m ((c.tc : Thread Cert.KernelIdeal.nD Cert.KernelIdeal.τ).loc Cert.KernelIdeal.main_arg5) i = (r : EReal)) :
    ∀ i, ∃ r : ℝ, (StableHlo.after Cert.Bridge.rops (StableHlo.launchContents m' c) (Proc.devRef .tc Cert.ReferenceIdeal.main_arg5) : FVec Ideal Cert.ReferenceIdeal.S1024 .f32) i = (r : EReal) := by
  have e : (StableHlo.after Cert.Bridge.rops (StableHlo.launchContents m' c) (Proc.devRef .tc Cert.ReferenceIdeal.main_arg5) : FVec Ideal Cert.ReferenceIdeal.S1024 .f32)
      = m ((c.tc : Thread Cert.KernelIdeal.nD Cert.KernelIdeal.τ).loc Cert.KernelIdeal.main_arg5) := (Cert.Bridge.rops_arg (StableHlo.launchContents m' c) r_arg5).trans g
  intro i
  obtain ⟨x, hx⟩ := h i
  exact ⟨x, (congrFun e i).trans hx⟩

theorem real19 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h : ∀ i, ∃ r : ℝ, m ((c.tc : Thread Cert.KernelIdeal.nD Cert.KernelIdeal.τ).loc Cert.KernelIdeal.main_arg19) i = (r : EReal)) :
    ∀ i, ∃ r : ℝ, (StableHlo.after Cert.Bridge.rops (StableHlo.launchContents m' c) (Proc.devRef .tc Cert.ReferenceIdeal.main_arg19) : FVec Ideal Cert.ReferenceIdeal.S2x512 .f32) i = (r : EReal) := by
  have e : (StableHlo.after Cert.Bridge.rops (StableHlo.launchContents m' c) (Proc.devRef .tc Cert.ReferenceIdeal.main_arg19) : FVec Ideal Cert.ReferenceIdeal.S2x512 .f32)
      = m ((c.tc : Thread Cert.KernelIdeal.nD Cert.KernelIdeal.τ).loc Cert.KernelIdeal.main_arg19) := (Cert.Bridge.rops_arg (StableHlo.launchContents m' c) r_arg19).trans g
  intro i
  obtain ⟨x, hx⟩ := h i
  exact ⟨x, (congrFun e i).trans hx⟩

/-- Under the precondition, with memories that agree on the arguments, the six arrays the tree algebra multiplies
    out are arrays of real numbers at the end of the reference's operations. -/
theorem real_args [Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.Bridge.RealArgs (StableHlo.launchContents m' c) := by
  obtain ⟨g0, g1, g2, g3, g4, g5, g6, g7, g8, g9, g10, g11, g12, g13, g14, g15, g16, g17, g18, g19, g20, g21, g22⟩ := hagree
  obtain ⟨h1, h2, h3, h4, h5, h19⟩ := Cert.PreReal.real_args m hpre c
  exact ⟨real1 m m' c g1 h1, real2 m m' c g2 h2, real3 m m' c g3 h3, real4 m m' c g4 h4, real5 m m' c g5 h5, real19 m m' c g19 h19⟩

/-! ## The reference's arguments after its run -/

/-- Once every buffer of the reference holds the fold of its operations over the launch contents, every argument
    holds its launch contents. -/
theorem ref_args_kept (m' : (ℓ : Loc Cert.ReferenceIdeal.nD Cert.ReferenceIdeal.τ Cert.ReferenceIdeal.sig) → Buf (Elt Ideal) ℓ)
    (mem : (ℓ : Loc Cert.ReferenceIdeal.nD Cert.ReferenceIdeal.τ Cert.ReferenceIdeal.sig) → Buf (Elt Ideal) ℓ) (c : Dev Cert.ReferenceIdeal.nD)
    (h : ∀ b : Ref Cert.ReferenceIdeal.sig .tc, mem ((c.tc : Thread Cert.ReferenceIdeal.nD Cert.ReferenceIdeal.τ).loc b)
        = StableHlo.after (Cert.ReferenceIdeal.RefRun.opsAll (F := Ideal)) (StableHlo.launchContents m' c) (Proc.devRef .tc b)) :
    mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
    ∧ mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
    ∧ mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
    ∧ mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
    ∧ mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
    ∧ mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
    ∧ mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
    ∧ mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
    ∧ mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
    ∧ mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
    ∧ mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
    ∧ mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
    ∧ mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
    ∧ mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
    ∧ mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
    ∧ mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
    ∧ mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
    ∧ mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
    ∧ mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
    ∧ mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
    ∧ mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
    ∧ mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
    ∧ mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22) :=
  ⟨(h Cert.ReferenceIdeal.main_arg0).trans (Cert.Bridge.rops_arg (StableHlo.launchContents m' c) r_arg0),
   (h Cert.ReferenceIdeal.main_arg1).trans (Cert.Bridge.rops_arg (StableHlo.launchContents m' c) r_arg1),
   (h Cert.ReferenceIdeal.main_arg2).trans (Cert.Bridge.rops_arg (StableHlo.launchContents m' c) r_arg2),
   (h Cert.ReferenceIdeal.main_arg3).trans (Cert.Bridge.rops_arg (StableHlo.launchContents m' c) r_arg3),
   (h Cert.ReferenceIdeal.main_arg4).trans (Cert.Bridge.rops_arg (StableHlo.launchContents m' c) r_arg4),
   (h Cert.ReferenceIdeal.main_arg5).trans (Cert.Bridge.rops_arg (StableHlo.launchContents m' c) r_arg5),
   (h Cert.ReferenceIdeal.main_arg6).trans (Cert.Bridge.rops_arg (StableHlo.launchContents m' c) r_arg6),
   (h Cert.ReferenceIdeal.main_arg7).trans (Cert.Bridge.rops_arg (StableHlo.launchContents m' c) r_arg7),
   (h Cert.ReferenceIdeal.main_arg8).trans (Cert.Bridge.rops_arg (StableHlo.launchContents m' c) r_arg8),
   (h Cert.ReferenceIdeal.main_arg9).trans (Cert.Bridge.rops_arg (StableHlo.launchContents m' c) r_arg9),
   (h Cert.ReferenceIdeal.main_arg10).trans (Cert.Bridge.rops_arg (StableHlo.launchContents m' c) r_arg10),
   (h Cert.ReferenceIdeal.main_arg11).trans (Cert.Bridge.rops_arg (StableHlo.launchContents m' c) r_arg11),
   (h Cert.ReferenceIdeal.main_arg12).trans (Cert.Bridge.rops_arg (StableHlo.launchContents m' c) r_arg12),
   (h Cert.ReferenceIdeal.main_arg13).trans (Cert.Bridge.rops_arg (StableHlo.launchContents m' c) r_arg13),
   (h Cert.ReferenceIdeal.main_arg14).trans (Cert.Bridge.rops_arg (StableHlo.launchContents m' c) r_arg14),
   (h Cert.ReferenceIdeal.main_arg15).trans (Cert.Bridge.rops_arg (StableHlo.launchContents m' c) r_arg15),
   (h Cert.ReferenceIdeal.main_arg16).trans (Cert.Bridge.rops_arg (StableHlo.launchContents m' c) r_arg16),
   (h Cert.ReferenceIdeal.main_arg17).trans (Cert.Bridge.rops_arg (StableHlo.launchContents m' c) r_arg17),
   (h Cert.ReferenceIdeal.main_arg18).trans (Cert.Bridge.rops_arg (StableHlo.launchContents m' c) r_arg18),
   (h Cert.ReferenceIdeal.main_arg19).trans (Cert.Bridge.rops_arg (StableHlo.launchContents m' c) r_arg19),
   (h Cert.ReferenceIdeal.main_arg20).trans (Cert.Bridge.rops_arg (StableHlo.launchContents m' c) r_arg20),
   (h Cert.ReferenceIdeal.main_arg21).trans (Cert.Bridge.rops_arg (StableHlo.launchContents m' c) r_arg21),
   (h Cert.ReferenceIdeal.main_arg22).trans (Cert.Bridge.rops_arg (StableHlo.launchContents m' c) r_arg22)⟩

end Cert.ArgsBridge

end
-- ==== Proof.UnitAxis.lean ====
/-
  Summing over an axis of extent one. The reference stacks the projected tokens as a one-node level [1, 4096, 512]
  (a broadcast along a new leading axis) and sums over that axis; the sum of one term, from the neutral element, is
  the term: the level's sum is the array itself.
-/
import Idealize.ShloMosaic.PureOps.Ideal.Laws
import Idealize.ShloMosaic.Lib.ValueIdx
import Idealize.ShloMosaic.Lib.Pipeline.Value

noncomputable section

namespace Cert.UnitAxis

open Idealize.ShloMosaic Idealize.ShloMosaic.ValueIdx

abbrev S2 : Shape := ⟨2, ![4096, 512]⟩
abbrev S3 : Shape := ⟨3, ![1, 4096, 512]⟩
abbrev S0 : Shape := ⟨0, ![]⟩

theorem reduce_unit_bcast (x : S2.Idx → EReal) (hb : S2.BroadcastsInDim S3 (![1, 2] : Fin 2 → Fin S3.rank))
    (hr : S3.ReducesTo [0] S2) (hs : 0 < S0.numel) :
    Host.reduceAdd (F := Ideal) (φ := .f32) (broadcastInDim S3 ![1, 2] hb x) (constant S0 .f32 0x00000000#32) hr hs = x := by
  funext j
  have hR : S3.Reduces [0] S2 := by decide
  show Ideal.hostReduceAdd hr (broadcastInDim S3 ![1, 2] hb x) (Ideal.ofBits .f32 0x00000000#32) j = x j
  rw [Ideal.hostReduceAdd_single hr hR, Ideal.ofBits_zero_f32, zero_add]
  show ∑ k : Fin 1, _ = _
  rw [Fin.sum_univ_one]
  refine broadcastInDim_apply _ hb x _ j fun a => ?_
  match a with
  | ⟨0, _⟩ => rfl
  | ⟨1, _⟩ => rfl

end Cert.UnitAxis

end
-- ==== Proof.H0Real.lean ====
/-
  The projected tokens are real numbers.

  An extended real is called real here when it is the reading of a real number. Sums, products and finite sums of
  reals are real. An operation that only re-indexes its operand (a gather of rows, a transpose, a broadcast) has
  real entries when its operand has; a matrix product read at an index is a finite sum of products of entries, real
  when both factors are; an elementwise sum is real when both terms are. The projected tokens are the gathered
  embedding rows times the transposed projection matrix plus the broadcast bias, hence real when the embedding,
  the projection matrix and the bias are — whatever the token ids, since every gathered entry is an entry of the
  embedding.
-/
import proofs.«125887_j14422500180043_2_alg».proof.Proof.Gen.ReferenceIdeal
import Idealize.ShloMosaic.PureOps.Ideal.Laws
import Idealize.ShloMosaic.Lib.ValueIdx

noncomputable section

namespace Cert.H0Real

open Idealize.ShloMosaic Idealize.ShloMosaic.ValueIdx
open Cert.ReferenceIdeal Cert.ReferenceIdeal.Facts₀

/-! ## Real extended reals and their closure -/

/-- An extended real that is the reading of a real number. -/
abbrev IsReal (x : EReal) : Prop := ∃ r : ℝ, x = (r : EReal)

theorem IsReal.coe (r : ℝ) : IsReal (r : EReal) := ⟨r, rfl⟩

theorem IsReal.zero : IsReal (0 : EReal) := ⟨0, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The negative of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact IsReal.add (h a (Finset.mem_insert_self a s)) (ih fun i hi => h i (Finset.mem_insert_of_mem hi))

/-! ## Arrays of reals through the operations -/

section Ops
variable {s t : Shape}

/-- A gather reads entries of its operand, so its entries are real when the operand's are, whatever the indices. -/
theorem isReal_gather {si : Shape} {w : Nat} (d : GatherDims s si t) (x : s.Idx → EReal) (idx : IVec si w)
    (hx : ∀ i, IsReal (x i)) : ∀ j, IsReal (Host.gather d x idx j) := fun j => hx _

/-- A transpose reads entries of its operand. -/
theorem isReal_transpose (perm : List (Fin s.rank)) (x : s.Idx → EReal) (h : s.Transposes perm t)
    (hx : ∀ i, IsReal (x i)) : ∀ j, IsReal (transpose t perm x h j) := fun j => hx _

/-- A broadcast reads entries of its operand. -/
theorem isReal_broadcastInDim (dims : Fin s.rank → Fin t.rank) (h : s.BroadcastsInDim t dims) (x : s.Idx → EReal)
    (hx : ∀ i, IsReal (x i)) : ∀ j, IsReal (broadcastInDim t dims h x j) := fun j => hx _

/-- An elementwise sum of two arrays of reals is an array of reals. -/
theorem isReal_addf {φ : FTy} (a b : FVec Ideal s φ) (ha : ∀ i, IsReal (a i)) (hb : ∀ i, IsReal (b i)) :
    ∀ i, IsReal (addf a b i) := fun i => by
  rw [addf_apply]
  exact IsReal.add (ha i) (hb i)

/-- A matrix product (any dimension numbers) of two arrays of reals is an array of reals: each entry is a finite
    sum of products of entries of the factors. -/
theorem isReal_dotGeneral {sl sr so : Shape} {φ₁ φ₂ : FTy} (d : DotDims sl sr so) (prec : Option ContractPrecision)
    (A : FVec Ideal sl φ₁) (B : FVec Ideal sr φ₂) (hA : ∀ i, IsReal (A i)) (hB : ∀ i, IsReal (B i)) :
    ∀ j, IsReal (Host.dotGeneral d prec A B j) := fun j => by
  show IsReal (FloatOps.dotGeneral d prec _ A B j)
  rw [Ideal.dotGeneral_apply]
  exact IsReal.sum _ _ fun k _ => IsReal.mul (hA _) (hB _)

end Ops

/-! ## The projected tokens and the one-node level -/

/-- Every entry of the projected tokens — the embedding rows the token ids name, times the transposed projection
    matrix, plus the bias in every row — is a real number when the embedding, the matrix and the bias are real. -/
theorem h0_real [Cert.ReferenceIdeal.Facts] (emb : FVec Ideal S32000x512 .f32) (pw : FVec Ideal S512x512 .f32)
    (pb : FVec Ideal S512 .f32) (idx : IVec S4096x1 32)
    (hemb : ∀ i, ∃ r : ℝ, emb i = (r : EReal)) (hpw : ∀ i, ∃ r : ℝ, pw i = (r : EReal))
    (hpb : ∀ i, ∃ r : ℝ, pb i = (r : EReal)) :
    ∀ i, ∃ r : ℝ,
      addf (Host.dotGeneral dot_S4096x512_S512x512_S4096x512_1_0_0_1_n_n none
              (Host.gather gather_S32000x512_S4096x1_S4096x512_1_0_n_n_0_1_1512 emb idx)
              (transpose S512x512 [1, 0] pw transposes_S512x512_S512x512_1_0))
           (broadcastInDim S4096x512 ![0, 1] bcast_S1x512_S4096x512_0_1
              (broadcastInDim S1x512 ![1] bcast_S512_S1x512_1 pb)) i = (r : EReal) :=
  isReal_addf _ _
    (isReal_dotGeneral _ _ _ _ (isReal_gather _ emb idx hemb) (isReal_transpose _ pw _ hpw))
    (isReal_broadcastInDim _ _ _ (isReal_broadcastInDim _ _ pb hpb))

/-- The one-node level of the tree, the projected tokens under a new leading axis of extent one, is real when they are. -/
theorem stack_real [Cert.ReferenceIdeal.Facts] (x : FVec Ideal S4096x512 .f32) (hx : ∀ i, ∃ r : ℝ, x i = (r : EReal)) :
    ∀ i, ∃ r : ℝ, broadcastInDim S1x4096x512 ![1, 2] bcast_S4096x512_S1x4096x512_1_2 x i = (r : EReal) :=
  isReal_broadcastInDim _ _ x hx

end Cert.H0Real

end
-- ==== Proof.FactsL0.lean ====
/-
  Level 0. Both programs project the gathered token embeddings with the same operations (h0). The reference stacks h0
  as a one-node level and sums over that level: the sum is h0 itself, which is what the kernel program starts its running
  sum from. The first growth gate is computed from the level mean by the same policy operations in both programs.
-/
import proofs.«125887_j14422500180043_2_alg».proof.Proof.FactsArgs
import proofs.«125887_j14422500180043_2_alg».proof.Proof.UnitAxis
import proofs.«125887_j14422500180043_2_alg».proof.Proof.H0Real

set_option maxRecDepth 16384
set_option maxHeartbeats 0
set_option Elab.async false

noncomputable section

namespace Cert.Bridge

open Idealize.ShloMosaic Idealize.ShloMosaic.TcCoe Idealize.SL.Sem Idealize.ShloMosaic.StableHlo

attribute [local congr] concat_pair_congr

variable (V : Valuation Cert.KernelIdeal.τ Cert.KernelIdeal.sig (Elt Ideal)) (V' : Valuation Cert.ReferenceIdeal.τ Cert.ReferenceIdeal.sig (Elt Ideal))

variable {V V'}

/-- The projected tokens are the same array in both programs. -/
theorem h0_eq (fa : FinalAgree V V') : after kops V (Proc.devRef .tc Cert.KernelIdeal.main_v11) = after rops V' (Proc.devRef .tc Cert.ReferenceIdeal.main_v11) := by
  obtain ⟨a0, a1, a2, a3, a4, a5, a6, a7, a8, a9, a10, a11, a12, a13, a14, a15, a16, a17, a18, a19, a20, a21, a22⟩ := fa
  knorm 0 1 V Cert.KernelIdeal.main_v11
  rnorm 0 1 V' Cert.ReferenceIdeal.main_v11
  simp only [a0, a1, a2, a3]
  rfl

/-- The kernel program's first running sum is the sum of the reference's one-node level. -/
theorem sum0_eq (fa : FinalAgree V V') :
    (after kops V (Proc.devRef .tc Cert.KernelIdeal.main_v11) : FVec Ideal Cert.KernelIdeal.S4096x512 .f32) = Host.reduceAdd (F := Ideal) (after rops V' (Proc.devRef .tc Cert.ReferenceIdeal.main_v12)) (constant Cert.ReferenceIdeal.S_ .f32 0x00000000#32)
      Cert.ReferenceIdeal.Gen.reducesTo_S1x4096x512_S4096x512_d0 Cert.ReferenceIdeal.Gen.h_S_ := by
  rw [h0_eq fa]
  rnorm 0 1 V' Cert.ReferenceIdeal.main_v12
  rnorm 0 1 V' Cert.ReferenceIdeal.main_v11
  exact (Cert.UnitAxis.reduce_unit_bcast _ _ _ _).symm

/-- The one-node level is an array of real numbers. -/
theorem stack0_real (hr : RealArgs V') : ∀ i, ∃ r : ℝ, (after rops V' (Proc.devRef .tc Cert.ReferenceIdeal.main_v12) : FVec Ideal Cert.ReferenceIdeal.S1x4096x512 .f32) i = (r : EReal) := by
  rnorm 0 1 V' Cert.ReferenceIdeal.main_v12
  exact Cert.H0Real.stack_real _ (Cert.H0Real.h0_real _ _ _ _ hr.emb hr.pw hr.pb)

end Cert.Bridge

end
-- ==== Proof.FactsGate1.lean ====
/-
  The first growth gate. Both programs compute it from the projected tokens alone: the level mean is h0 itself (the
  reference's sum over its one-node level, over one; the kernel program's running sum over its count one), then the same
  policy operations. So the two gates are the same function of the arguments.
-/
import proofs.«125887_j14422500180043_2_alg».proof.Proof.FactsArgs
import proofs.«125887_j14422500180043_2_alg».proof.Proof.UnitAxis

set_option maxRecDepth 16384
set_option maxHeartbeats 0
set_option Elab.async false

noncomputable section

namespace Cert.Bridge

open Idealize.ShloMosaic Idealize.ShloMosaic.TcCoe Idealize.SL.Sem Idealize.ShloMosaic.StableHlo

attribute [local congr] concat_pair_congr

variable (V : Valuation Cert.KernelIdeal.τ Cert.KernelIdeal.sig (Elt Ideal)) (V' : Valuation Cert.ReferenceIdeal.τ Cert.ReferenceIdeal.sig (Elt Ideal))

variable {V V'}

/-- The first growth gate is the same in both programs. -/
theorem alive1_eq (fa : FinalAgree V V') : after kops V (Proc.devRef .tc Cert.KernelIdeal.main_v122) = after rops V' (Proc.devRef .tc Cert.ReferenceIdeal.main_v110) := by
  obtain ⟨a0, a1, a2, a3, a4, a5, a6, a7, a8, a9, a10, a11, a12, a13, a14, a15, a16, a17, a18, a19, a20, a21, a22⟩ := fa
  knorm 0 13 V Cert.KernelIdeal.main_v122
  rnorm 0 16 V' Cert.ReferenceIdeal.main_v110
  simp only [a0, a1, a2, a3, a4, a5, a6, a7, a8, a9, a10, a11, a12, a13, a14, a15, a16, a17, a18, a19, a20, a21, a22]
  rw [Cert.UnitAxis.reduce_unit_bcast]
  all_goals rfl

end Cert.Bridge

end
-- ==== Proof.TreeAlg.lean ====
/-
  The algebra behind collapsing the tree. A level of the tree has M nodes x_1 … x_M (vectors over the hidden axis);
  every node has a left child  W_l x_m + b_l + c s_l  and a right child  W_r x_m + b_r + c s_r  (one coordinate of
  each is stated here: w_l, w_r are the two weight rows of that coordinate). Summing all 2M children gives
      (W_l + W_r) (x_1 + … + x_M) + M (b_l + b_r + c (s_l + s_r)):
  the sum of the children is an affine function of the sum of the nodes. Over the reals this is distributivity and
  an exchange of two finite sums; over the extended reals distributivity needs every quantity to be a real
  number, which is what the finiteness of the inputs gives.
-/
import Mathlib.Data.EReal.Basic
import Mathlib.Data.EReal.Operations
import Mathlib.Algebra.BigOperators.Ring.Finset
import Mathlib.Algebra.BigOperators.Fin
import Mathlib.Tactic.Ring

noncomputable section

namespace Cert.TreeAlg

open Finset

/-- The sum of real numbers, read in the extended reals, is the sum of their readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the children of M nodes sum to the affine image of the nodes' sum. -/
theorem children_sum_real {M H : ℕ} (X : Fin M → Fin H → ℝ) (wl wr : Fin H → ℝ) (bl br sl sr c : ℝ) :
    (∑ m, ((∑ j, X m j * wl j) + bl + c * sl)) + (∑ m, ((∑ j, X m j * wr j) + br + c * sr))
      = (∑ j, (∑ m, X m j) * (wl j + wr j)) + (M : ℝ) * ((bl + br) + c * (sl + sr)) := by
  have e1 : ∀ w : Fin H → ℝ, (∑ m, ∑ j, X m j * w j) = ∑ j, (∑ m, X m j) * w j := fun w => by
    rw [Finset.sum_comm]; exact Finset.sum_congr rfl fun j _ => (Finset.sum_mul _ _ _).symm
  simp only [Finset.sum_add_distrib, Finset.sum_const, Finset.card_univ, Fintype.card_fin, nsmul_eq_mul, mul_add, e1]
  ring

/-- The same over the extended reals, every quantity a real number; the sums carry the neutral element they are
    accumulated from. -/
theorem children_sum {M H : ℕ} (X : Fin M → Fin H → EReal) (wl wr : Fin H → EReal) (bl br sl sr c μ : EReal)
    (hX : ∀ m j, ∃ r : ℝ, X m j = r) (hwl : ∀ j, ∃ r : ℝ, wl j = r) (hwr : ∀ j, ∃ r : ℝ, wr j = r)
    (hbl : ∃ r : ℝ, bl = r) (hbr : ∃ r : ℝ, br = r) (hsl : ∃ r : ℝ, sl = r) (hsr : ∃ r : ℝ, sr = r)
    (hc : ∃ r : ℝ, c = r) (hμ : μ = ((M : ℝ) : EReal)) :
    (0 : EReal) + ((∑ m, ((∑ j, X m j * wl j) + bl + c * sl)) + (∑ m, ((∑ j, X m j * wr j) + br + c * sr)))
      = (∑ j, (0 + ∑ m, X m j) * (wl j + wr j)) + μ * ((bl + br) + c * (sl + sr)) := by
  choose X' hX' using hX
  choose wl' hwl' using hwl
  choose wr' hwr' using hwr
  obtain ⟨bl', rfl⟩ := hbl; obtain ⟨br', rfl⟩ := hbr; obtain ⟨sl', rfl⟩ := hsl; obtain ⟨sr', rfl⟩ := hsr
  obtain ⟨c', rfl⟩ := hc
  subst hμ
  simp only [hX', hwl', hwr', zero_add, ← EReal.coe_mul, ← EReal.coe_add, ← coe_sum]
  exact congrArg _ (children_sum_real X' wl' wr' bl' br' sl' sr' c')

end Cert.TreeAlg

end
-- ==== Proof.Consts.lean ====
/-
  The float constants the two programs spell, as the extended reals their patterns denote: the node counts
  1, 2, 4, 8 (the kernel program doubles its running count: 2·1, 2·(2·1), 2·(2·(2·1)); the reference writes 2, 4, 8), and
  the sibling scale 1/√512 rounded to binary32, which is a real number.
-/
import Idealize.ShloMosaic.PureOps.Ideal

noncomputable section

namespace Cert.Consts

open Idealize.ShloMosaic

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num

/-- The sibling scale is a real number. -/
theorem sib_scale_real : ∃ r : ℝ, Ideal.ofBits .f32 0x3D3504F3#32 = (r : EReal) := by
  simp only [Ideal.ofBits, Ideal.ieee]
  rw [if_neg (by decide), if_neg (by decide)]
  exact ⟨_, rfl⟩

/-- Doubling the count: 2 · 1 = 2, 2 · 2 = 4, 2 · 4 = 8, as products of the denoted reals. -/
theorem two_mul_one : Ideal.ofBits .f32 0x40000000#32 * Ideal.ofBits .f32 0x3F800000#32 = Ideal.ofBits .f32 0x40000000#32 := by
  rw [ofBits_two, ofBits_one, ← EReal.coe_mul]; norm_num
theorem two_mul_two : Ideal.ofBits .f32 0x40000000#32 * Ideal.ofBits .f32 0x40000000#32 = Ideal.ofBits .f32 0x40800000#32 := by
  rw [ofBits_two, ofBits_four, ← EReal.coe_mul]; norm_num
theorem two_mul_four : Ideal.ofBits .f32 0x40000000#32 * Ideal.ofBits .f32 0x40800000#32 = Ideal.ofBits .f32 0x41000000#32 := by
  rw [ofBits_two, ofBits_four, ofBits_eight, ← EReal.coe_mul]; norm_num

/-- The same doublings for scalar arrays (rank 0), as the programs compute them. -/
theorem arr_two_mul_one : (mulf (constant (⟨0, ![]⟩ : Shape) .f32 0x40000000#32) (constant ⟨0, ![]⟩ .f32 0x3F800000#32) : FVec Ideal ⟨0, ![]⟩ .f32)
    = constant ⟨0, ![]⟩ .f32 0x40000000#32 := funext fun _ => two_mul_one
theorem arr_two_mul_two : (mulf (constant (⟨0, ![]⟩ : Shape) .f32 0x40000000#32) (constant ⟨0, ![]⟩ .f32 0x40000000#32) : FVec Ideal ⟨0, ![]⟩ .f32)
    = constant ⟨0, ![]⟩ .f32 0x40800000#32 := funext fun _ => two_mul_two
theorem arr_two_mul_four : (mulf (constant (⟨0, ![]⟩ : Shape) .f32 0x40000000#32) (constant ⟨0, ![]⟩ .f32 0x40800000#32) : FVec Ideal ⟨0, ![]⟩ .f32)
    = constant ⟨0, ![]⟩ .f32 0x41000000#32 := funext fun _ => two_mul_four

end Cert.Consts

end
-- ==== Proof.TreeStep1.lean ====
/-
  One level of the tree, collapsed: the level has 1 node (each a 4096 x 512 array of hidden states), and every node
  x has a left child  x W_lᵀ + b_l + c s_l  and a right child  x W_rᵀ + b_r + c s_r,  where W_l, W_r are the two
  512-row halves of the child weights, b_l, b_r the halves of the child bias, s_l, s_r the two sibling rows and c one
  constant. One program forms all 2 children, stacks them and sums the stack; the other sums the nodes first and
  applies the summed map once:
      Σ children = (Σ nodes) (W_l + W_r)ᵀ + 1 (b_l + b_r + c (s_l + s_r)).
  Both sides are read entry by entry, at token n and hidden coordinate h, and the two readings are the two sides of
  the algebraic identity of sums of real numbers.
-/
import proofs.«125887_j14422500180043_2_alg».proof.Proof.Gen.ReferenceIdeal
import proofs.«125887_j14422500180043_2_alg».proof.Proof.Gen.KernelIdeal
import proofs.«125887_j14422500180043_2_alg».proof.Proof.TreeAlg
import proofs.«125887_j14422500180043_2_alg».proof.Proof.Consts
import Idealize.ShloMosaic.PureOps.Ideal.Laws
import Idealize.ShloMosaic.Lib.ValueIdx
import Idealize.ShloMosaic.Lib.Pipeline.Value

noncomputable section

open scoped BigOperators

namespace Cert.TreeStep1

open Cert.ReferenceIdeal Cert.ReferenceIdeal.Gen Idealize.ShloMosaic Idealize.ShloMosaic.ValueIdx

/-! ## The stacked children, entry by entry -/

/-- The children's product contracts the hidden axis: at entry (m, n, o) and hidden coordinate k the node is read
    at (m, n, k) … -/
theorem node_index (m : Fin 1) (n : Fin 4096) (o : Fin 1024) (k : Fin 512) :
    dot_S1x4096x512_S1024x512_S1x4096x1024_2_1_01_0_n_n.lhsIdx (ix3 m n o) ((contrEquiv1 dot_S1x4096x512_S1024x512_S1x4096x1024_2_1_01_0_n_n 512 rfl rfl).symm k) = ix3 m n k := by
  funext ax; apply Fin.ext
  match ax with
  | ⟨0, _⟩ => simp [DotDims.lhsIdx, dot_S1x4096x512_S1024x512_S1x4096x1024_2_1_01_0_n_n] <;> rfl
  | ⟨1, _⟩ => simp [DotDims.lhsIdx, dot_S1x4096x512_S1024x512_S1x4096x1024_2_1_01_0_n_n] <;> rfl
  | ⟨2, _⟩ =>
    exact (DotDims.lhsIdx_val_of_single dot_S1x4096x512_S1024x512_S1x4096x1024_2_1_01_0_n_n (cl := 2) rfl (ix3 m n o) _).trans
      (contrEquiv1_symm_val dot_S1x4096x512_S1024x512_S1x4096x1024_2_1_01_0_n_n 512 rfl rfl k)

/-- … and the child weights at row o, column k. -/
theorem weight_index (m : Fin 1) (n : Fin 4096) (o : Fin 1024) (k : Fin 512) :
    dot_S1x4096x512_S1024x512_S1x4096x1024_2_1_01_0_n_n.rhsIdx (ix3 m n o) ((contrEquiv1 dot_S1x4096x512_S1024x512_S1x4096x1024_2_1_01_0_n_n 512 rfl rfl).symm k) = ix2 o k := by
  funext ax; apply Fin.ext
  match ax with
  | ⟨0, _⟩ => simp [DotDims.rhsIdx, dot_S1x4096x512_S1024x512_S1x4096x1024_2_1_01_0_n_n] <;> rfl
  | ⟨1, _⟩ =>
    exact (DotDims.rhsIdx_val_of_single dot_S1x4096x512_S1024x512_S1x4096x1024_2_1_01_0_n_n (cr := 1) rfl (ix3 m n o) _).trans
      (contrEquiv1_symm_val dot_S1x4096x512_S1024x512_S1x4096x1024_2_1_01_0_n_n 512 rfl rfl k)

/-- Both children before the sibling term, side by side along the last axis: entry (m, n, o) is node m's token n
    against weight row o, plus bias o. -/
theorem both_apply (X : FVec Ideal S1x4096x512 .f32) (cfw : FVec Ideal S1024x512 .f32) (cfb : FVec Ideal S1024 .f32)
    (m : Fin 1) (n : Fin 4096) (o : Fin 1024) :
    (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) (ix3 m n o)
      = (∑ k : Fin 512, X (ix3 m n k) * cfw (ix2 o k)) + cfb (ix1 o) := by
  rw [addf_apply]
  refine congrArg₂ (· + ·) ?_ ?_
  · show FloatOps.dotGeneral dot_S1x4096x512_S1024x512_S1x4096x1024_2_1_01_0_n_n none .single X cfw (ix3 m n o) = _
    rw [Ideal.dotGeneral_apply, ← Equiv.sum_comp (contrEquiv1 dot_S1x4096x512_S1024x512_S1x4096x1024_2_1_01_0_n_n 512 rfl rfl).symm]
    exact Finset.sum_congr rfl fun k _ => by rw [node_index, weight_index]
  · refine (broadcastInDim_apply _ bcast_S1x1x1024_S1x4096x1024_0_1_2 _ (ix3 m n o) (ix3 (0 : Fin 1) (0 : Fin 1) o) fun a => ?_).trans ?_
    · match a with
      | ⟨0, _⟩ => rfl
      | ⟨1, _⟩ => rfl
      | ⟨2, _⟩ => rfl
    · exact broadcastInDim_apply _ bcast_S1024_S1x1x1024_2 cfb (ix3 (0 : Fin 1) (0 : Fin 1) o) (ix1 o) fun a => by
        match a with
        | ⟨0, _⟩ => rfl

/-- A sibling row scaled by the constant, at hidden coordinate h. -/
theorem sibling_apply (sib : FVec Ideal S2x512 .f32) (o : Nat) (w : S2x512.Slices ![o, 0] S1x512) (r : Fin 2)
    (hr : r.val = o) (h : Fin 512) :
    mulf (broadcastInDim S512 ![] bcast_S_S512 (constant (F := Ideal) S_ .f32 0x3D3504F3#32))
        (shapeCast S512 (extractStridedSlice S1x512 ![o, 0] sib w) shapeCasts_S1x512_S512) (ix1 h)
      = Ideal.ofBits .f32 0x3D3504F3#32 * sib (ix2 r h) := by
  rw [mulf_apply]
  refine congrArg₂ (· * ·) ?_ ?_
  · exact (broadcastInDim_apply _ bcast_S_S512 _ (ix1 h) ix0 fun a => a.elim0).trans (constant_apply _ _)
  · refine (shapeCast_apply _ shapeCasts_S1x512_S512 (ix1 h) (ix2 (0 : Fin 1) h) ?_).trans ?_
    · rw [Shape.rowMajor_val_two, Shape.rowMajor_val_one]
      show 0 * 512 + h.val = h.val
      omega
    · exact extractStridedSlice_apply _ sib w (ix2 (0 : Fin 1) h) (ix2 r h) fun a => by
        match a with
        | ⟨0, _⟩ => show r.val = o + 0; omega
        | ⟨1, _⟩ => show h.val = 0 + h.val; omega

/-- One child: its half of the side-by-side array, shifted by off along the last axis, plus a row spread over every
    node and token. -/
theorem child_apply (Y : FVec Ideal S1x4096x1024 .f32) (v : FVec Ideal S512 .f32) (off : Nat)
    (w : S1x4096x1024.Slices ![0, 0, off] S1x4096x512) (m : Fin 1) (n : Fin 4096) (h : Fin 512) (o : Fin 1024)
    (ho : o.val = off + h.val) :
    addf (extractStridedSlice S1x4096x512 ![0, 0, off] Y w)
        (broadcastInDim S1x4096x512 ![0, 1, 2] bcast_S1x1x512_S1x4096x512_0_1_2 (broadcastInDim S1x1x512 ![2] bcast_S512_S1x1x512_2 v))
        (ix3 m n h)
      = Y (ix3 m n o) + v (ix1 h) := by
  rw [addf_apply]
  refine congrArg₂ (· + ·) ?_ ?_
  · exact extractStridedSlice_apply _ Y w (ix3 m n h) (ix3 m n o) fun a => by
      match a with
      | ⟨0, _⟩ => show m.val = 0 + m.val; omega
      | ⟨1, _⟩ => show n.val = 0 + n.val; omega
      | ⟨2, _⟩ => show o.val = off + h.val; omega
  · refine (broadcastInDim_apply _ bcast_S1x1x512_S1x4096x512_0_1_2 _ (ix3 m n h) (ix3 (0 : Fin 1) (0 : Fin 1) h) fun a => ?_).trans ?_
    · match a with
      | ⟨0, _⟩ => rfl
      | ⟨1, _⟩ => rfl
      | ⟨2, _⟩ => rfl
    · exact broadcastInDim_apply _ bcast_S512_S1x1x512_2 v (ix3 (0 : Fin 1) (0 : Fin 1) h) (ix1 h) fun a => by
        match a with
        | ⟨0, _⟩ => rfl

/-- The stack of the left children on top of the right children, summed over the stacked axis: the left children's
    sum plus the right children's. -/
theorem stack_sum (A B : FVec Ideal S1x4096x512 .f32) (n : Fin 4096) (h : Fin 512) :
    (∑ k : Fin 2, concatenate S2x4096x512 0 [⟨S1x4096x512, A⟩, ⟨S1x4096x512, B⟩] concatenates_S1x4096x512_S1x4096x512_S2x4096x512_d0 (ix3 k n h))
      = (∑ m : Fin 1, A (ix3 m n h)) + ∑ m : Fin 1, B (ix3 m n h) := by
  refine (Fin.sum_univ_add (a := 1) (b := 1) (fun k : Fin (1 + 1) =>
    concatenate S2x4096x512 0 [⟨S1x4096x512, A⟩, ⟨S1x4096x512, B⟩] concatenates_S1x4096x512_S1x4096x512_S2x4096x512_d0 (ix3 k n h))).trans ?_
  refine congrArg₂ (· + ·) (Finset.sum_congr rfl fun m _ => ?_) (Finset.sum_congr rfl fun m _ => ?_)
  · exact concatenate_pair_apply_left 0 A B concatenates_S1x4096x512_S1x4096x512_S2x4096x512_d0 (ix3 (Fin.castAdd 1 m) n h) rfl (ix3 m n h)
      fun b => by
        match b with
        | ⟨0, _⟩ => rfl
        | ⟨1, _⟩ => rfl
        | ⟨2, _⟩ => rfl
  · exact concatenate_pair_apply_right 0 A B concatenates_S1x4096x512_S1x4096x512_S2x4096x512_d0 (ix3 (Fin.natAdd 1 m) n h) rfl rfl (ix3 m n h)
      (fun b hb => by
        match b, hb with
        | ⟨0, _⟩, hb => exact absurd rfl hb
        | ⟨1, _⟩, _ => rfl
        | ⟨2, _⟩, _ => rfl)
      (by show m.val + 1 = 1 + m.val; omega)

/-- The sum over the stacked axis, from zero, at (n, h). -/
theorem sum_over_stack (Y : FVec Ideal S2x4096x512 .f32) (n : Fin 4096) (h : Fin 512) :
    Host.reduceAdd Y (constant (F := Ideal) S_ .f32 0x00000000#32) reducesTo_S2x4096x512_S4096x512_d0 h_S_ (ix2 n h)
      = 0 + ∑ k : Fin 2, Y (ix3 k n h) := by
  show Ideal.hostReduceAdd reducesTo_S2x4096x512_S4096x512_d0 Y (Ideal.ofBits .f32 0x00000000#32) (ix2 n h) = _
  rw [Ideal.hostReduceAdd_single reducesTo_S2x4096x512_S4096x512_d0 (by decide : S2x4096x512.Reduces [0] S4096x512),
    Ideal.ofBits_zero_f32]
  refine congrArg (0 + ·) (Finset.sum_congr rfl fun k _ => congrArg Y (funext fun a => Fin.ext ?_))
  match a with
  | ⟨0, _⟩ => rfl
  | ⟨1, _⟩ => rfl
  | ⟨2, _⟩ => rfl

/-- The nodes' sum, from zero, at (n, k). -/
theorem sum_over_nodes (X : FVec Ideal S1x4096x512 .f32) (n : Fin 4096) (k : Fin 512) :
    Host.reduceAdd X (constant (F := Ideal) S_ .f32 0x00000000#32) reducesTo_S1x4096x512_S4096x512_d0 h_S_ (ix2 n k)
      = 0 + ∑ m : Fin 1, X (ix3 m n k) := by
  show Ideal.hostReduceAdd reducesTo_S1x4096x512_S4096x512_d0 X (Ideal.ofBits .f32 0x00000000#32) (ix2 n k) = _
  rw [Ideal.hostReduceAdd_single reducesTo_S1x4096x512_S4096x512_d0 (by decide : S1x4096x512.Reduces [0] S4096x512),
    Ideal.ofBits_zero_f32]
  refine congrArg (0 + ·) (Finset.sum_congr rfl fun m _ => congrArg X (funext fun a => Fin.ext ?_))
  match a with
  | ⟨0, _⟩ => rfl
  | ⟨1, _⟩ => rfl
  | ⟨2, _⟩ => rfl

/-! ## The summed map applied to the nodes' sum, entry by entry -/

/-- The summed map's product contracts the hidden axis of the nodes' sum: at entry (n, h) and hidden coordinate k
    the sum is read at (n, k) … -/
theorem summed_node_index (n : Fin 4096) (h : Fin 512) (k : Fin 512) :
    Cert.KernelIdeal.dot_S4096x512_S512x512_S4096x512_1_0_0_1_n_n.lhsIdx (ix2 n h) ((contrEquiv1 Cert.KernelIdeal.dot_S4096x512_S512x512_S4096x512_1_0_0_1_n_n 512 rfl rfl).symm k) = ix2 n k := by
  funext ax; apply Fin.ext
  match ax with
  | ⟨0, _⟩ => simp [DotDims.lhsIdx, Cert.KernelIdeal.dot_S4096x512_S512x512_S4096x512_1_0_0_1_n_n] <;> rfl
  | ⟨1, _⟩ =>
    exact (DotDims.lhsIdx_val_of_single Cert.KernelIdeal.dot_S4096x512_S512x512_S4096x512_1_0_0_1_n_n (cl := 1) rfl (ix2 n h) _).trans
      (contrEquiv1_symm_val Cert.KernelIdeal.dot_S4096x512_S512x512_S4096x512_1_0_0_1_n_n 512 rfl rfl k)

/-- … and the transposed summed weights at (k, h). -/
theorem summed_weight_index (n : Fin 4096) (h : Fin 512) (k : Fin 512) :
    Cert.KernelIdeal.dot_S4096x512_S512x512_S4096x512_1_0_0_1_n_n.rhsIdx (ix2 n h) ((contrEquiv1 Cert.KernelIdeal.dot_S4096x512_S512x512_S4096x512_1_0_0_1_n_n 512 rfl rfl).symm k) = ix2 k h := by
  funext ax; apply Fin.ext
  match ax with
  | ⟨0, _⟩ =>
    exact (DotDims.rhsIdx_val_of_single Cert.KernelIdeal.dot_S4096x512_S512x512_S4096x512_1_0_0_1_n_n (cr := 0) rfl (ix2 n h) _).trans
      (contrEquiv1_symm_val Cert.KernelIdeal.dot_S4096x512_S512x512_S4096x512_1_0_0_1_n_n 512 rfl rfl k)
  | ⟨1, _⟩ => simp [DotDims.rhsIdx, Cert.KernelIdeal.dot_S4096x512_S512x512_S4096x512_1_0_0_1_n_n] <;> rfl

/-- The two halves of the child weights added and transposed: entry (k, h) is row h of the left half plus row h of
    the right half, at column k. -/
theorem summed_weight_apply (cfw : FVec Ideal S1024x512 .f32) (k h : Fin 512) (ol or : Fin 1024)
    (hol : ol.val = 0 + h.val) (hor : or.val = 512 + h.val) :
    transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0 (ix2 k h)
      = cfw (ix2 ol k) + cfw (ix2 or k) := by
  refine (transpose_apply [1, 0] _ Cert.KernelIdeal.Gen.transposes_S512x512_S512x512_1_0 (ix2 k h) (ix2 h k) fun b => ?_).trans ?_
  · match b with
    | ⟨0, _⟩ => rfl
    | ⟨1, _⟩ => rfl
  · rw [addf_apply]
    refine congrArg₂ (· + ·) ?_ ?_
    · exact extractStridedSlice_apply _ cfw Cert.KernelIdeal.Gen.slices_S1024x512_S512x512_0_0 (ix2 h k) (ix2 ol k) fun a => by
        match a with
        | ⟨0, _⟩ => show ol.val = 0 + h.val; omega
        | ⟨1, _⟩ => show k.val = 0 + k.val; omega
    · exact extractStridedSlice_apply _ cfw Cert.KernelIdeal.Gen.slices_S1024x512_S512x512_512_0 (ix2 h k) (ix2 or k) fun a => by
        match a with
        | ⟨0, _⟩ => show or.val = 512 + h.val; omega
        | ⟨1, _⟩ => show k.val = 0 + k.val; omega

/-- The summed map's product at (n, h). -/
theorem summed_product_apply (S : FVec Ideal S4096x512 .f32) (T : FVec Ideal Cert.KernelIdeal.S512x512 .f32) (n : Fin 4096) (h : Fin 512) :
    Host.dotGeneral Cert.KernelIdeal.dot_S4096x512_S512x512_S4096x512_1_0_0_1_n_n none S T (ix2 n h) = ∑ k : Fin 512, S (ix2 n k) * T (ix2 k h) := by
  show FloatOps.dotGeneral Cert.KernelIdeal.dot_S4096x512_S512x512_S4096x512_1_0_0_1_n_n none .single S T (ix2 n h) = _
  rw [Ideal.dotGeneral_apply, ← Equiv.sum_comp (contrEquiv1 Cert.KernelIdeal.dot_S4096x512_S512x512_S4096x512_1_0_0_1_n_n 512 rfl rfl).symm]
  exact Finset.sum_congr rfl fun k _ => by rw [summed_node_index, summed_weight_index]

/-- The summed bias row, at hidden coordinate h: the node count times the two bias halves added plus the constant
    times the two sibling rows added. -/
theorem summed_bias_apply (cfb : FVec Ideal S1024 .f32) (sib : FVec Ideal S2x512 .f32) (μ : FVec Ideal S_ .f32)
    (h : Fin 512) (ol or : Fin 1024) (hol : ol.val = 0 + h.val) (hor : or.val = 512 + h.val) :
    (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant (F := Ideal) Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512))))) (ix1 h)
      = μ ix0 * ((cfb (ix1 ol) + cfb (ix1 or))
          + Ideal.ofBits .f32 0x3D3504F3#32 * (sib (ix2 (0 : Fin 2) h) + sib (ix2 (1 : Fin 2) h))) := by
  rw [mulf_apply, addf_apply, addf_apply, mulf_apply, addf_apply]
  refine congrArg₂ (· * ·) ?_ (congrArg₂ (· + ·) (congrArg₂ (· + ·) ?_ ?_) (congrArg₂ (· * ·) ?_ (congrArg₂ (· + ·) ?_ ?_)))
  · exact broadcastInDim_apply _ Cert.KernelIdeal.Gen.bcast_S_S512 μ (ix1 h) ix0 fun a => a.elim0
  · exact extractStridedSlice_apply _ cfb Cert.KernelIdeal.Gen.slices_S1024_S512_0 (ix1 h) (ix1 ol) fun a => by
      match a with
      | ⟨0, _⟩ => show ol.val = 0 + h.val; omega
  · exact extractStridedSlice_apply _ cfb Cert.KernelIdeal.Gen.slices_S1024_S512_512 (ix1 h) (ix1 or) fun a => by
      match a with
      | ⟨0, _⟩ => show or.val = 512 + h.val; omega
  · exact (broadcastInDim_apply _ Cert.KernelIdeal.Gen.bcast_S_S512 _ (ix1 h) ix0 fun a => a.elim0).trans (constant_apply _ _)
  · refine (shapeCast_apply _ Cert.KernelIdeal.Gen.shapeCasts_S1x512_S512 (ix1 h) (ix2 (0 : Fin 1) h) ?_).trans ?_
    · rw [Shape.rowMajor_val_two, Shape.rowMajor_val_one]
      show 0 * 512 + h.val = h.val
      omega
    · exact extractStridedSlice_apply _ sib Cert.KernelIdeal.Gen.slices_S2x512_S1x512_0_0 (ix2 (0 : Fin 1) h) (ix2 (0 : Fin 2) h) fun a => by
        match a with
        | ⟨0, _⟩ => rfl
        | ⟨1, _⟩ => show h.val = 0 + h.val; omega
  · refine (shapeCast_apply _ Cert.KernelIdeal.Gen.shapeCasts_S1x512_S512 (ix1 h) (ix2 (0 : Fin 1) h) ?_).trans ?_
    · rw [Shape.rowMajor_val_two, Shape.rowMajor_val_one]
      show 0 * 512 + h.val = h.val
      omega
    · exact extractStridedSlice_apply _ sib Cert.KernelIdeal.Gen.slices_S2x512_S1x512_1_0 (ix2 (0 : Fin 1) h) (ix2 (1 : Fin 2) h) fun a => by
        match a with
        | ⟨0, _⟩ => rfl
        | ⟨1, _⟩ => show h.val = 0 + h.val; omega

/-- A row spread over the 4096 tokens, at (n, h). -/
theorem row_spread_apply (v : FVec Ideal Cert.KernelIdeal.S512 .f32) (n : Fin 4096) (h : Fin 512) :
    broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 v)
        (ix2 n h) = v (ix1 h) := by
  refine (broadcastInDim_apply _ Cert.KernelIdeal.Gen.bcast_S1x512_S4096x512_0_1 _ (ix2 n h) (ix2 (0 : Fin 1) h) fun a => ?_).trans ?_
  · match a with
    | ⟨0, _⟩ => rfl
    | ⟨1, _⟩ => rfl
  · exact broadcastInDim_apply _ Cert.KernelIdeal.Gen.bcast_S512_S1x512_1 v (ix2 (0 : Fin 1) h) (ix1 h) fun a => by
      match a with
      | ⟨0, _⟩ => rfl

/-! ## The two sides meet -/

/-- One left or right child at (m, n, h): node m's token n against weight row o, plus bias o, plus the constant times
    the sibling entry (r, h), where o is h shifted into the child's half. -/
theorem one_child_apply (X : FVec Ideal S1x4096x512 .f32) (cfw : FVec Ideal S1024x512 .f32) (cfb : FVec Ideal S1024 .f32)
    (sib : FVec Ideal S2x512 .f32) (off : Nat) (w : S1x4096x1024.Slices ![0, 0, off] S1x4096x512) (q : Nat)
    (w' : S2x512.Slices ![q, 0] S1x512) (r : Fin 2) (hr : r.val = q) (m : Fin 1) (n : Fin 4096) (h : Fin 512)
    (o : Fin 1024) (ho : o.val = off + h.val) :
    addf (extractStridedSlice S1x4096x512 ![0, 0, off] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) w)
        (broadcastInDim S1x4096x512 ![0, 1, 2] bcast_S1x1x512_S1x4096x512_0_1_2 (broadcastInDim S1x1x512 ![2] bcast_S512_S1x1x512_2
          (mulf (broadcastInDim S512 ![] bcast_S_S512 (constant (F := Ideal) S_ .f32 0x3D3504F3#32))
            (shapeCast S512 (extractStridedSlice S1x512 ![q, 0] sib w') shapeCasts_S1x512_S512))))
        (ix3 m n h)
      = (∑ k : Fin 512, X (ix3 m n k) * cfw (ix2 o k)) + cfb (ix1 o) + Ideal.ofBits .f32 0x3D3504F3#32 * sib (ix2 r h) :=
  (child_apply _ _ off w m n h o ho).trans
    (congrArg₂ (· + ·) (both_apply X cfw cfb m n o) (sibling_apply sib q w' r hr h))

/-- THE COLLAPSE of one level: the sum of the 2 stacked children is the summed map applied to the nodes' sum. -/
theorem children_sum_ops (X : FVec Ideal S1x4096x512 .f32) (cfw : FVec Ideal S1024x512 .f32) (cfb : FVec Ideal S1024 .f32)
    (sib : FVec Ideal S2x512 .f32)
    (S : FVec Ideal S4096x512 .f32) (μ : FVec Ideal S_ .f32)
    (hX : ∀ i, ∃ r : ℝ, X i = r) (hcfw : ∀ i, ∃ r : ℝ, cfw i = r) (hcfb : ∀ i, ∃ r : ℝ, cfb i = r)
    (hsib : ∀ i, ∃ r : ℝ, sib i = r)
    (hS : S = Host.reduceAdd X (constant S_ .f32 0x00000000#32) reducesTo_S1x4096x512_S4096x512_d0 h_S_)
    (hμ : μ ValueIdx.ix0 = ((1 : ℝ) : EReal)) :
    Host.reduceAdd (concatenate S2x4096x512 0 [⟨S1x4096x512, (addf (extractStridedSlice S1x4096x512 ![0, 0, 0] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) slices_S1x4096x1024_S1x4096x512_0_0_0) (broadcastInDim S1x4096x512 ![0, 1, 2] bcast_S1x1x512_S1x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S1x4096x512, (addf (extractStridedSlice S1x4096x512 ![0, 0, 512] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) slices_S1x4096x1024_S1x4096x512_0_0_512) (broadcastInDim S1x4096x512 ![0, 1, 2] bcast_S1x1x512_S1x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S1x4096x512_S1x4096x512_S2x4096x512_d0) (constant S_ .f32 0x00000000#32) reducesTo_S2x4096x512_S4096x512_d0 h_S_
      = addf (Host.dotGeneral Cert.KernelIdeal.dot_S4096x512_S512x512_S4096x512_1_0_0_1_n_n none S (transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0)) (broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512))))))) := by
  funext j
  obtain ⟨n, h, rfl⟩ : ∃ (n : Fin 4096) (h : Fin 512), j = ix2 n h := ⟨j 0, j 1, eq_ix2 j⟩
  have hh : h.val < 512 := h.isLt
  -- rows h of the left and of the right half of the child weights and bias
  obtain ⟨ol, hol⟩ : ∃ ol : Fin 1024, ol.val = 0 + h.val := ⟨⟨0 + h.val, by omega⟩, rfl⟩
  obtain ⟨or, hor⟩ : ∃ or : Fin 1024, or.val = 512 + h.val := ⟨⟨512 + h.val, by omega⟩, rfl⟩
  -- the stacked children, summed
  have hstack : (Host.reduceAdd (concatenate S2x4096x512 0 [⟨S1x4096x512, (addf (extractStridedSlice S1x4096x512 ![0, 0, 0] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) slices_S1x4096x1024_S1x4096x512_0_0_0) (broadcastInDim S1x4096x512 ![0, 1, 2] bcast_S1x1x512_S1x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S1x4096x512, (addf (extractStridedSlice S1x4096x512 ![0, 0, 512] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) slices_S1x4096x1024_S1x4096x512_0_0_512) (broadcastInDim S1x4096x512 ![0, 1, 2] bcast_S1x1x512_S1x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S1x4096x512_S1x4096x512_S2x4096x512_d0) (constant S_ .f32 0x00000000#32) reducesTo_S2x4096x512_S4096x512_d0 h_S_) (ix2 n h)
      = 0 + ((∑ m : Fin 1, ((∑ k : Fin 512, X (ix3 m n k) * cfw (ix2 ol k)) + cfb (ix1 ol)
              + Ideal.ofBits .f32 0x3D3504F3#32 * sib (ix2 (0 : Fin 2) h)))
          + ∑ m : Fin 1, ((∑ k : Fin 512, X (ix3 m n k) * cfw (ix2 or k)) + cfb (ix1 or)
              + Ideal.ofBits .f32 0x3D3504F3#32 * sib (ix2 (1 : Fin 2) h))) := by
    refine (sum_over_stack _ n h).trans (congrArg (0 + ·) ((stack_sum _ _ n h).trans ?_))
    exact congrArg₂ (· + ·)
      (Finset.sum_congr rfl fun m _ => one_child_apply X cfw cfb sib 0 slices_S1x4096x1024_S1x4096x512_0_0_0 0 slices_S2x512_S1x512_0_0 0 rfl m n h ol hol)
      (Finset.sum_congr rfl fun m _ => one_child_apply X cfw cfb sib 512 slices_S1x4096x1024_S1x4096x512_0_0_512 1 slices_S2x512_S1x512_1_0 1 rfl m n h or hor)
  -- the summed map at the nodes' sum
  have hmap : (addf (Host.dotGeneral Cert.KernelIdeal.dot_S4096x512_S512x512_S4096x512_1_0_0_1_n_n none S (transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0)) (broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512)))))))) (ix2 n h)
      = (∑ k : Fin 512, (0 + ∑ m : Fin 1, X (ix3 m n k)) * (cfw (ix2 ol k) + cfw (ix2 or k)))
          + μ ix0 * ((cfb (ix1 ol) + cfb (ix1 or))
              + Ideal.ofBits .f32 0x3D3504F3#32 * (sib (ix2 (0 : Fin 2) h) + sib (ix2 (1 : Fin 2) h))) := by
    rw [addf_apply]
    refine congrArg₂ (· + ·) ?_ ((row_spread_apply _ n h).trans (summed_bias_apply cfb sib μ h ol or hol hor))
    refine (summed_product_apply S _ n h).trans (Finset.sum_congr rfl fun k _ => congrArg₂ (· * ·) ?_ ?_)
    · rw [hS]; exact sum_over_nodes X n k
    · exact summed_weight_apply cfw k h ol or hol hor
  rw [hstack, hmap]
  exact Cert.TreeAlg.children_sum (fun m k => X (ix3 m n k)) (fun k => cfw (ix2 ol k)) (fun k => cfw (ix2 or k))
    (cfb (ix1 ol)) (cfb (ix1 or)) (sib (ix2 (0 : Fin 2) h)) (sib (ix2 (1 : Fin 2) h)) (Ideal.ofBits .f32 0x3D3504F3#32) (μ ix0)
    (fun m k => hX _) (fun k => hcfw _) (fun k => hcfw _) (hcfb _) (hcfb _) (hsib _) (hsib _) Cert.Consts.sib_scale_real
    (by rw [hμ]; norm_num)

/-! ## Every child is a real number -/

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem real_sum {ι : Type} [Fintype ι] (f : ι → EReal) (hf : ∀ i, ∃ r : ℝ, f i = r) : ∃ r : ℝ, ∑ i, f i = r := by
  choose g hg using hf
  exact ⟨∑ i, g i, by rw [Cert.TreeAlg.coe_sum]; exact Finset.sum_congr rfl fun i _ => hg i⟩

/-- One child's entry is a sum of products of real numbers plus real numbers. -/
theorem one_child_real (X : FVec Ideal S1x4096x512 .f32) (cfw : FVec Ideal S1024x512 .f32) (cfb : FVec Ideal S1024 .f32)
    (sib : FVec Ideal S2x512 .f32)
    (hX : ∀ i, ∃ r : ℝ, X i = r) (hcfw : ∀ i, ∃ r : ℝ, cfw i = r) (hcfb : ∀ i, ∃ r : ℝ, cfb i = r)
    (hsib : ∀ i, ∃ r : ℝ, sib i = r)
    (off : Nat) (w : S1x4096x1024.Slices ![0, 0, off] S1x4096x512) (q : Nat)
    (w' : S2x512.Slices ![q, 0] S1x512) (r : Fin 2) (hr : r.val = q) (m : Fin 1) (n : Fin 4096) (h : Fin 512)
    (o : Fin 1024) (ho : o.val = off + h.val) :
    ∃ x : ℝ, addf (extractStridedSlice S1x4096x512 ![0, 0, off] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) w)
        (broadcastInDim S1x4096x512 ![0, 1, 2] bcast_S1x1x512_S1x4096x512_0_1_2 (broadcastInDim S1x1x512 ![2] bcast_S512_S1x1x512_2
          (mulf (broadcastInDim S512 ![] bcast_S_S512 (constant (F := Ideal) S_ .f32 0x3D3504F3#32))
            (shapeCast S512 (extractStridedSlice S1x512 ![q, 0] sib w') shapeCasts_S1x512_S512))))
        (ix3 m n h) = x := by
  rw [one_child_apply X cfw cfb sib off w q w' r hr m n h o ho]
  exact real_add (real_add (real_sum _ fun k => real_mul (hX _) (hcfw _)) (hcfb _))
    (real_mul Cert.Consts.sib_scale_real (hsib _))

/-- Every stacked child is a real number. -/
theorem children_real (X : FVec Ideal S1x4096x512 .f32) (cfw : FVec Ideal S1024x512 .f32) (cfb : FVec Ideal S1024 .f32)
    (sib : FVec Ideal S2x512 .f32)
    (hX : ∀ i, ∃ r : ℝ, X i = r) (hcfw : ∀ i, ∃ r : ℝ, cfw i = r) (hcfb : ∀ i, ∃ r : ℝ, cfb i = r)
    (hsib : ∀ i, ∃ r : ℝ, sib i = r) :
    ∀ i, ∃ r : ℝ, (concatenate S2x4096x512 0 [⟨S1x4096x512, (addf (extractStridedSlice S1x4096x512 ![0, 0, 0] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) slices_S1x4096x1024_S1x4096x512_0_0_0) (broadcastInDim S1x4096x512 ![0, 1, 2] bcast_S1x1x512_S1x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S1x4096x512, (addf (extractStridedSlice S1x4096x512 ![0, 0, 512] (addf (Host.dotGeneral dot_S1x4096x512_S1024x512_S1x4096x1024_2_1_01_0_n_n none X cfw) (broadcastInDim S1x4096x1024 ![0, 1, 2] bcast_S1x1x1024_S1x4096x1024_0_1_2 (broadcastInDim S1x1x1024 ![2] bcast_S1024_S1x1x1024_2 cfb))) slices_S1x4096x1024_S1x4096x512_0_0_512) (broadcastInDim S1x4096x512 ![0, 1, 2] bcast_S1x1x512_S1x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S1x4096x512_S1x4096x512_S2x4096x512_d0) i = r := by
  intro i
  obtain ⟨k, n, h, rfl⟩ : ∃ (k : Fin 2) (n : Fin 4096) (h : Fin 512), i = ix3 k n h := ⟨i 0, i 1, i 2, eq_ix3 i⟩
  have hh : h.val < 512 := h.isLt
  have hk2 : k.val < 2 := k.isLt
  by_cases hk : k.val < 1
  · obtain ⟨ol, hol⟩ : ∃ ol : Fin 1024, ol.val = 0 + h.val := ⟨⟨0 + h.val, by omega⟩, rfl⟩
    rw [concatenate_pair_apply_left 0 _ _ concatenates_S1x4096x512_S1x4096x512_S2x4096x512_d0 (ix3 k n h) rfl (ix3 (⟨k.val, hk⟩ : Fin 1) n h) fun b => by
      match b with
      | ⟨0, _⟩ => rfl
      | ⟨1, _⟩ => rfl
      | ⟨2, _⟩ => rfl]
    exact one_child_real X cfw cfb sib hX hcfw hcfb hsib 0 slices_S1x4096x1024_S1x4096x512_0_0_0 0 slices_S2x512_S1x512_0_0 0 rfl _ n h ol hol
  · obtain ⟨or, hor⟩ : ∃ or : Fin 1024, or.val = 512 + h.val := ⟨⟨512 + h.val, by omega⟩, rfl⟩
    rw [concatenate_pair_apply_right 0 _ _ concatenates_S1x4096x512_S1x4096x512_S2x4096x512_d0 (ix3 k n h) rfl rfl (ix3 (⟨k.val - 1, by omega⟩ : Fin 1) n h)
      (fun b hb => by
        match b, hb with
        | ⟨0, _⟩, hb => exact absurd rfl hb
        | ⟨1, _⟩, _ => rfl
        | ⟨2, _⟩, _ => rfl)
      (by show k.val - 1 + 1 = k.val; omega)]
    exact one_child_real X cfw cfb sib hX hcfw hcfb hsib 512 slices_S1x4096x1024_S1x4096x512_0_0_512 1 slices_S2x512_S1x512_1_0 1 rfl _ n h or hor

end Cert.TreeStep1

end
-- ==== Proof.FactsL1.lean ====
/-
  Tree level 1. The 2 children of the 1 node of level 0 sum to the affine image of the nodes' sum, which is how
  the kernel program updates its running sum; so after the level the two programs hold the same running sum (the
  reference as the sum over its 2 nodes), the same node count, the same aggregate and the same gated count. What is
  known of the level before (its running sum, that its nodes are real numbers, its count, aggregate and gate) is taken
  as hypotheses here and supplied where the levels are chained.
-/
import proofs.«125887_j14422500180043_2_alg».proof.Proof.FactsArgs
import proofs.«125887_j14422500180043_2_alg».proof.Proof.TreeStep1
import proofs.«125887_j14422500180043_2_alg».proof.Proof.Consts

set_option maxRecDepth 16384
set_option maxHeartbeats 0
-- one theorem at a time: each composes a stretch of both programs and holds gigabytes while it runs
set_option Elab.async false

noncomputable section

namespace Cert.Bridge

open Idealize.ShloMosaic Idealize.ShloMosaic.TcCoe Idealize.SL.Sem Idealize.ShloMosaic.StableHlo

attribute [local congr] concat_pair_congr

variable {V : Valuation Cert.KernelIdeal.τ Cert.KernelIdeal.sig (Elt Ideal)} {V' : Valuation Cert.ReferenceIdeal.τ Cert.ReferenceIdeal.sig (Elt Ideal)}

/-- The kernel program's node count after level 0 is 2. -/
theorem m1_eq : after kops V (Proc.devRef .tc Cert.KernelIdeal.main_v130) = (constant Cert.KernelIdeal.S_ .f32 0x40000000#32 : FVec Ideal Cert.KernelIdeal.S_ .f32) := by
  knorm 14 15 V Cert.KernelIdeal.main_v130
  exact Cert.Consts.arr_two_mul_one

/-- The 2 children of level 0's nodes sum to the kernel program's running sum after the level: the affine image of
    the nodes' sum. -/
theorem sum1_of (fa : FinalAgree V V') (hr : RealArgs V')
    (hS : (after kops V (Proc.devRef .tc Cert.KernelIdeal.main_v11) : FVec Ideal Cert.KernelIdeal.S4096x512 .f32)
      = Host.reduceAdd (F := Ideal) (after rops V' (Proc.devRef .tc Cert.ReferenceIdeal.main_v12)) (constant Cert.ReferenceIdeal.S_ .f32 0x00000000#32) Cert.ReferenceIdeal.Gen.reducesTo_S1x4096x512_S4096x512_d0 Cert.ReferenceIdeal.Gen.h_S_)
    (hX : ∀ i, ∃ r : ℝ, (after rops V' (Proc.devRef .tc Cert.ReferenceIdeal.main_v12) : FVec Ideal Cert.ReferenceIdeal.S1x4096x512 .f32) i = (r : EReal)) :
    (after kops V (Proc.devRef .tc Cert.KernelIdeal.main_v129) : FVec Ideal Cert.KernelIdeal.S4096x512 .f32)
      = Host.reduceAdd (F := Ideal) (after rops V' (Proc.devRef .tc Cert.ReferenceIdeal.main_v131)) (constant Cert.ReferenceIdeal.S_ .f32 0x00000000#32) Cert.ReferenceIdeal.Gen.reducesTo_S2x4096x512_S4096x512_d0 Cert.ReferenceIdeal.Gen.h_S_ := by
  obtain ⟨a0, a1, a2, a3, a4, a5, a6, a7, a8, a9, a10, a11, a12, a13, a14, a15, a16, a17, a18, a19, a20, a21, a22⟩ := fa
  knorm 13 14 V Cert.KernelIdeal.main_v129
  knorm 0 1 V Cert.KernelIdeal.main_v14
  knorm 0 1 V Cert.KernelIdeal.main_v25
  rnorm 16 17 V' Cert.ReferenceIdeal.main_v131
  simp only [a4, a5, a19]
  exact (Cert.TreeStep1.children_sum_ops (after rops V' (Proc.devRef .tc Cert.ReferenceIdeal.main_v12)) (after rops V' (Proc.devRef .tc Cert.ReferenceIdeal.main_arg4)) (after rops V' (Proc.devRef .tc Cert.ReferenceIdeal.main_arg5)) (after rops V' (Proc.devRef .tc Cert.ReferenceIdeal.main_arg19))
    (after kops V (Proc.devRef .tc Cert.KernelIdeal.main_v11)) (constant Cert.KernelIdeal.S_ .f32 0x3F800000#32) hX hr.cfw hr.cfb hr.sib hS Cert.Consts.ofBits_one).symm

/-- Level 1's nodes are arrays of real numbers, given that the nodes of the level before are. -/
theorem nodes1_real_of (hr : RealArgs V')
    (hX : ∀ i, ∃ r : ℝ, (after rops V' (Proc.devRef .tc Cert.ReferenceIdeal.main_v12) : FVec Ideal Cert.ReferenceIdeal.S1x4096x512 .f32) i = (r : EReal)) :
    ∀ i, ∃ r : ℝ, (after rops V' (Proc.devRef .tc Cert.ReferenceIdeal.main_v131) : FVec Ideal Cert.ReferenceIdeal.S2x4096x512 .f32) i = (r : EReal) := by
  rnorm 16 17 V' Cert.ReferenceIdeal.main_v131
  exact Cert.TreeStep1.children_real (after rops V' (Proc.devRef .tc Cert.ReferenceIdeal.main_v12)) (after rops V' (Proc.devRef .tc Cert.ReferenceIdeal.main_arg4)) (after rops V' (Proc.devRef .tc Cert.ReferenceIdeal.main_arg5)) (after rops V' (Proc.devRef .tc Cert.ReferenceIdeal.main_arg19)) hX hr.cfw hr.cfb hr.sib

/-- The aggregate (the gated sum over all tree nodes so far) after level 1 is the same array in both programs. -/
theorem agg1_of
    (e0 : after kops V (Proc.devRef .tc Cert.KernelIdeal.main_v11) = after rops V' (Proc.devRef .tc Cert.ReferenceIdeal.main_v11))
    (e1 : after kops V (Proc.devRef .tc Cert.KernelIdeal.main_v122) = after rops V' (Proc.devRef .tc Cert.ReferenceIdeal.main_v110))
    (e2 : (after kops V (Proc.devRef .tc Cert.KernelIdeal.main_v129) : FVec Ideal Cert.KernelIdeal.S4096x512 .f32)
      = Host.reduceAdd (F := Ideal) (after rops V' (Proc.devRef .tc Cert.ReferenceIdeal.main_v131)) (constant Cert.ReferenceIdeal.S_ .f32 0x00000000#32) Cert.ReferenceIdeal.Gen.reducesTo_S2x4096x512_S4096x512_d0 Cert.ReferenceIdeal.Gen.h_S_) :
    after kops V (Proc.devRef .tc Cert.KernelIdeal.main_v133) = after rops V' (Proc.devRef .tc Cert.ReferenceIdeal.main_v135) := by
  knorm 14 15 V Cert.KernelIdeal.main_v133
  rnorm 17 18 V' Cert.ReferenceIdeal.main_v135
  rw [e0, e1, e2]
  all_goals rfl

/-- The gated node count after level 1 is the same in both programs. -/
theorem cnt1_of
    (e1 : after kops V (Proc.devRef .tc Cert.KernelIdeal.main_v122) = after rops V' (Proc.devRef .tc Cert.ReferenceIdeal.main_v110)) :
    after kops V (Proc.devRef .tc Cert.KernelIdeal.main_v135) = after rops V' (Proc.devRef .tc Cert.ReferenceIdeal.main_v137) := by
  knorm 14 15 V Cert.KernelIdeal.main_v135
  rnorm 17 18 V' Cert.ReferenceIdeal.main_v137
  rw [e1]
  rw [Cert.Consts.arr_two_mul_one]
  all_goals rfl

end Cert.Bridge

end
-- ==== Proof.FactsGate2.lean ====
/-
  The growth gate after tree level 1. Both programs compute it from the level mean by the same policy operations;
  the level mean is the same array once the kernel program's running sum is known to be the sum of the reference's
  level and its node count the number of the level's nodes. Those facts about the level before are taken as
  hypotheses here and supplied where the levels are chained.
-/
import proofs.«125887_j14422500180043_2_alg».proof.Proof.FactsArgs

set_option maxRecDepth 16384
set_option maxHeartbeats 0
-- one theorem at a time: each composes a stretch of both programs and holds gigabytes while it runs
set_option Elab.async false

noncomputable section

namespace Cert.Bridge

open Idealize.ShloMosaic Idealize.ShloMosaic.TcCoe Idealize.SL.Sem Idealize.ShloMosaic.StableHlo

attribute [local congr] concat_pair_congr

variable {V : Valuation Cert.KernelIdeal.τ Cert.KernelIdeal.sig (Elt Ideal)} {V' : Valuation Cert.ReferenceIdeal.τ Cert.ReferenceIdeal.sig (Elt Ideal)}

/-- The growth gate after level 1 is the same in both programs, given the gate, the running sum and the node count of
    the level before. -/
theorem alive2_of (fa : FinalAgree V V')
    (e1 : after kops V (Proc.devRef .tc Cert.KernelIdeal.main_v122) = after rops V' (Proc.devRef .tc Cert.ReferenceIdeal.main_v110))
    (e2 : (after kops V (Proc.devRef .tc Cert.KernelIdeal.main_v129) : FVec Ideal Cert.KernelIdeal.S4096x512 .f32)
      = Host.reduceAdd (F := Ideal) (after rops V' (Proc.devRef .tc Cert.ReferenceIdeal.main_v131)) (constant Cert.ReferenceIdeal.S_ .f32 0x00000000#32) Cert.ReferenceIdeal.Gen.reducesTo_S2x4096x512_S4096x512_d0 Cert.ReferenceIdeal.Gen.h_S_)
    (e3 : after kops V (Proc.devRef .tc Cert.KernelIdeal.main_v130) = (constant Cert.KernelIdeal.S_ .f32 0x40000000#32 : FVec Ideal Cert.KernelIdeal.S_ .f32)) :
    after kops V (Proc.devRef .tc Cert.KernelIdeal.main_v232) = after rops V' (Proc.devRef .tc Cert.ReferenceIdeal.main_v235) := by
  obtain ⟨a0, a1, a2, a3, a4, a5, a6, a7, a8, a9, a10, a11, a12, a13, a14, a15, a16, a17, a18, a19, a20, a21, a22⟩ := fa
  knorm 15 28 V Cert.KernelIdeal.main_v232
  rnorm 18 33 V' Cert.ReferenceIdeal.main_v235
  simp only [a0, a1, a2, a3, a4, a5, a6, a7, a8, a9, a10, a11, a12, a13, a14, a15, a16, a17, a18, a19, a20, a21, a22]
  rw [e1, e2, e3]
  all_goals rfl

end Cert.Bridge

end
-- ==== Proof.TreeStep2.lean ====
/-
  One level of the tree, collapsed: the level has 2 nodes (each a 4096 x 512 array of hidden states), and every node
  x has a left child  x W_lᵀ + b_l + c s_l  and a right child  x W_rᵀ + b_r + c s_r,  where W_l, W_r are the two
  512-row halves of the child weights, b_l, b_r the halves of the child bias, s_l, s_r the two sibling rows and c one
  constant. One program forms all 4 children, stacks them and sums the stack; the other sums the nodes first and
  applies the summed map once:
      Σ children = (Σ nodes) (W_l + W_r)ᵀ + 2 (b_l + b_r + c (s_l + s_r)).
  Both sides are read entry by entry, at token n and hidden coordinate h, and the two readings are the two sides of
  the algebraic identity of sums of real numbers.
-/
import proofs.«125887_j14422500180043_2_alg».proof.Proof.Gen.ReferenceIdeal
import proofs.«125887_j14422500180043_2_alg».proof.Proof.Gen.KernelIdeal
import proofs.«125887_j14422500180043_2_alg».proof.Proof.TreeAlg
import proofs.«125887_j14422500180043_2_alg».proof.Proof.Consts
import Idealize.ShloMosaic.PureOps.Ideal.Laws
import Idealize.ShloMosaic.Lib.ValueIdx
import Idealize.ShloMosaic.Lib.Pipeline.Value

noncomputable section

open scoped BigOperators

namespace Cert.TreeStep2

open Cert.ReferenceIdeal Cert.ReferenceIdeal.Gen Idealize.ShloMosaic Idealize.ShloMosaic.ValueIdx

/-! ## The stacked children, entry by entry -/

/-- The children's product contracts the hidden axis: at entry (m, n, o) and hidden coordinate k the node is read
    at (m, n, k) … -/
theorem node_index (m : Fin 2) (n : Fin 4096) (o : Fin 1024) (k : Fin 512) :
    dot_S2x4096x512_S1024x512_S2x4096x1024_2_1_01_0_n_n.lhsIdx (ix3 m n o) ((contrEquiv1 dot_S2x4096x512_S1024x512_S2x4096x1024_2_1_01_0_n_n 512 rfl rfl).symm k) = ix3 m n k := by
  funext ax; apply Fin.ext
  match ax with
  | ⟨0, _⟩ => simp [DotDims.lhsIdx, dot_S2x4096x512_S1024x512_S2x4096x1024_2_1_01_0_n_n] <;> rfl
  | ⟨1, _⟩ => simp [DotDims.lhsIdx, dot_S2x4096x512_S1024x512_S2x4096x1024_2_1_01_0_n_n] <;> rfl
  | ⟨2, _⟩ =>
    exact (DotDims.lhsIdx_val_of_single dot_S2x4096x512_S1024x512_S2x4096x1024_2_1_01_0_n_n (cl := 2) rfl (ix3 m n o) _).trans
      (contrEquiv1_symm_val dot_S2x4096x512_S1024x512_S2x4096x1024_2_1_01_0_n_n 512 rfl rfl k)

/-- … and the child weights at row o, column k. -/
theorem weight_index (m : Fin 2) (n : Fin 4096) (o : Fin 1024) (k : Fin 512) :
    dot_S2x4096x512_S1024x512_S2x4096x1024_2_1_01_0_n_n.rhsIdx (ix3 m n o) ((contrEquiv1 dot_S2x4096x512_S1024x512_S2x4096x1024_2_1_01_0_n_n 512 rfl rfl).symm k) = ix2 o k := by
  funext ax; apply Fin.ext
  match ax with
  | ⟨0, _⟩ => simp [DotDims.rhsIdx, dot_S2x4096x512_S1024x512_S2x4096x1024_2_1_01_0_n_n] <;> rfl
  | ⟨1, _⟩ =>
    exact (DotDims.rhsIdx_val_of_single dot_S2x4096x512_S1024x512_S2x4096x1024_2_1_01_0_n_n (cr := 1) rfl (ix3 m n o) _).trans
      (contrEquiv1_symm_val dot_S2x4096x512_S1024x512_S2x4096x1024_2_1_01_0_n_n 512 rfl rfl k)

/-- Both children before the sibling term, side by side along the last axis: entry (m, n, o) is node m's token n
    against weight row o, plus bias o. -/
theorem both_apply (X : FVec Ideal S2x4096x512 .f32) (cfw : FVec Ideal S1024x512 .f32) (cfb : FVec Ideal S1024 .f32)
    (m : Fin 2) (n : Fin 4096) (o : Fin 1024) :
    (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) (ix3 m n o)
      = (∑ k : Fin 512, X (ix3 m n k) * cfw (ix2 o k)) + cfb (ix1 o) := by
  rw [addf_apply]
  refine congrArg₂ (· + ·) ?_ ?_
  · show FloatOps.dotGeneral dot_S2x4096x512_S1024x512_S2x4096x1024_2_1_01_0_n_n none .single X cfw (ix3 m n o) = _
    rw [Ideal.dotGeneral_apply, ← Equiv.sum_comp (contrEquiv1 dot_S2x4096x512_S1024x512_S2x4096x1024_2_1_01_0_n_n 512 rfl rfl).symm]
    exact Finset.sum_congr rfl fun k _ => by rw [node_index, weight_index]
  · refine (broadcastInDim_apply _ bcast_S1x1x1024_S2x4096x1024_0_1_2 _ (ix3 m n o) (ix3 (0 : Fin 1) (0 : Fin 1) o) fun a => ?_).trans ?_
    · match a with
      | ⟨0, _⟩ => rfl
      | ⟨1, _⟩ => rfl
      | ⟨2, _⟩ => rfl
    · exact broadcastInDim_apply _ bcast_S1024_S1x1x1024_2 cfb (ix3 (0 : Fin 1) (0 : Fin 1) o) (ix1 o) fun a => by
        match a with
        | ⟨0, _⟩ => rfl

/-- A sibling row scaled by the constant, at hidden coordinate h. -/
theorem sibling_apply (sib : FVec Ideal S2x512 .f32) (o : Nat) (w : S2x512.Slices ![o, 0] S1x512) (r : Fin 2)
    (hr : r.val = o) (h : Fin 512) :
    mulf (broadcastInDim S512 ![] bcast_S_S512 (constant (F := Ideal) S_ .f32 0x3D3504F3#32))
        (shapeCast S512 (extractStridedSlice S1x512 ![o, 0] sib w) shapeCasts_S1x512_S512) (ix1 h)
      = Ideal.ofBits .f32 0x3D3504F3#32 * sib (ix2 r h) := by
  rw [mulf_apply]
  refine congrArg₂ (· * ·) ?_ ?_
  · exact (broadcastInDim_apply _ bcast_S_S512 _ (ix1 h) ix0 fun a => a.elim0).trans (constant_apply _ _)
  · refine (shapeCast_apply _ shapeCasts_S1x512_S512 (ix1 h) (ix2 (0 : Fin 1) h) ?_).trans ?_
    · rw [Shape.rowMajor_val_two, Shape.rowMajor_val_one]
      show 0 * 512 + h.val = h.val
      omega
    · exact extractStridedSlice_apply _ sib w (ix2 (0 : Fin 1) h) (ix2 r h) fun a => by
        match a with
        | ⟨0, _⟩ => show r.val = o + 0; omega
        | ⟨1, _⟩ => show h.val = 0 + h.val; omega

/-- One child: its half of the side-by-side array, shifted by off along the last axis, plus a row spread over every
    node and token. -/
theorem child_apply (Y : FVec Ideal S2x4096x1024 .f32) (v : FVec Ideal S512 .f32) (off : Nat)
    (w : S2x4096x1024.Slices ![0, 0, off] S2x4096x512) (m : Fin 2) (n : Fin 4096) (h : Fin 512) (o : Fin 1024)
    (ho : o.val = off + h.val) :
    addf (extractStridedSlice S2x4096x512 ![0, 0, off] Y w)
        (broadcastInDim S2x4096x512 ![0, 1, 2] bcast_S1x1x512_S2x4096x512_0_1_2 (broadcastInDim S1x1x512 ![2] bcast_S512_S1x1x512_2 v))
        (ix3 m n h)
      = Y (ix3 m n o) + v (ix1 h) := by
  rw [addf_apply]
  refine congrArg₂ (· + ·) ?_ ?_
  · exact extractStridedSlice_apply _ Y w (ix3 m n h) (ix3 m n o) fun a => by
      match a with
      | ⟨0, _⟩ => show m.val = 0 + m.val; omega
      | ⟨1, _⟩ => show n.val = 0 + n.val; omega
      | ⟨2, _⟩ => show o.val = off + h.val; omega
  · refine (broadcastInDim_apply _ bcast_S1x1x512_S2x4096x512_0_1_2 _ (ix3 m n h) (ix3 (0 : Fin 1) (0 : Fin 1) h) fun a => ?_).trans ?_
    · match a with
      | ⟨0, _⟩ => rfl
      | ⟨1, _⟩ => rfl
      | ⟨2, _⟩ => rfl
    · exact broadcastInDim_apply _ bcast_S512_S1x1x512_2 v (ix3 (0 : Fin 1) (0 : Fin 1) h) (ix1 h) fun a => by
        match a with
        | ⟨0, _⟩ => rfl

/-- The stack of the left children on top of the right children, summed over the stacked axis: the left children's
    sum plus the right children's. -/
theorem stack_sum (A B : FVec Ideal S2x4096x512 .f32) (n : Fin 4096) (h : Fin 512) :
    (∑ k : Fin 4, concatenate S4x4096x512 0 [⟨S2x4096x512, A⟩, ⟨S2x4096x512, B⟩] concatenates_S2x4096x512_S2x4096x512_S4x4096x512_d0 (ix3 k n h))
      = (∑ m : Fin 2, A (ix3 m n h)) + ∑ m : Fin 2, B (ix3 m n h) := by
  refine (Fin.sum_univ_add (a := 2) (b := 2) (fun k : Fin (2 + 2) =>
    concatenate S4x4096x512 0 [⟨S2x4096x512, A⟩, ⟨S2x4096x512, B⟩] concatenates_S2x4096x512_S2x4096x512_S4x4096x512_d0 (ix3 k n h))).trans ?_
  refine congrArg₂ (· + ·) (Finset.sum_congr rfl fun m _ => ?_) (Finset.sum_congr rfl fun m _ => ?_)
  · exact concatenate_pair_apply_left 0 A B concatenates_S2x4096x512_S2x4096x512_S4x4096x512_d0 (ix3 (Fin.castAdd 2 m) n h) rfl (ix3 m n h)
      fun b => by
        match b with
        | ⟨0, _⟩ => rfl
        | ⟨1, _⟩ => rfl
        | ⟨2, _⟩ => rfl
  · exact concatenate_pair_apply_right 0 A B concatenates_S2x4096x512_S2x4096x512_S4x4096x512_d0 (ix3 (Fin.natAdd 2 m) n h) rfl rfl (ix3 m n h)
      (fun b hb => by
        match b, hb with
        | ⟨0, _⟩, hb => exact absurd rfl hb
        | ⟨1, _⟩, _ => rfl
        | ⟨2, _⟩, _ => rfl)
      (by show m.val + 2 = 2 + m.val; omega)

/-- The sum over the stacked axis, from zero, at (n, h). -/
theorem sum_over_stack (Y : FVec Ideal S4x4096x512 .f32) (n : Fin 4096) (h : Fin 512) :
    Host.reduceAdd Y (constant (F := Ideal) S_ .f32 0x00000000#32) reducesTo_S4x4096x512_S4096x512_d0 h_S_ (ix2 n h)
      = 0 + ∑ k : Fin 4, Y (ix3 k n h) := by
  show Ideal.hostReduceAdd reducesTo_S4x4096x512_S4096x512_d0 Y (Ideal.ofBits .f32 0x00000000#32) (ix2 n h) = _
  rw [Ideal.hostReduceAdd_single reducesTo_S4x4096x512_S4096x512_d0 (by decide : S4x4096x512.Reduces [0] S4096x512),
    Ideal.ofBits_zero_f32]
  refine congrArg (0 + ·) (Finset.sum_congr rfl fun k _ => congrArg Y (funext fun a => Fin.ext ?_))
  match a with
  | ⟨0, _⟩ => rfl
  | ⟨1, _⟩ => rfl
  | ⟨2, _⟩ => rfl

/-- The nodes' sum, from zero, at (n, k). -/
theorem sum_over_nodes (X : FVec Ideal S2x4096x512 .f32) (n : Fin 4096) (k : Fin 512) :
    Host.reduceAdd X (constant (F := Ideal) S_ .f32 0x00000000#32) reducesTo_S2x4096x512_S4096x512_d0 h_S_ (ix2 n k)
      = 0 + ∑ m : Fin 2, X (ix3 m n k) := by
  show Ideal.hostReduceAdd reducesTo_S2x4096x512_S4096x512_d0 X (Ideal.ofBits .f32 0x00000000#32) (ix2 n k) = _
  rw [Ideal.hostReduceAdd_single reducesTo_S2x4096x512_S4096x512_d0 (by decide : S2x4096x512.Reduces [0] S4096x512),
    Ideal.ofBits_zero_f32]
  refine congrArg (0 + ·) (Finset.sum_congr rfl fun m _ => congrArg X (funext fun a => Fin.ext ?_))
  match a with
  | ⟨0, _⟩ => rfl
  | ⟨1, _⟩ => rfl
  | ⟨2, _⟩ => rfl

/-! ## The summed map applied to the nodes' sum, entry by entry -/

/-- The summed map's product contracts the hidden axis of the nodes' sum: at entry (n, h) and hidden coordinate k
    the sum is read at (n, k) … -/
theorem summed_node_index (n : Fin 4096) (h : Fin 512) (k : Fin 512) :
    Cert.KernelIdeal.dot_S4096x512_S512x512_S4096x512_1_0_0_1_n_n.lhsIdx (ix2 n h) ((contrEquiv1 Cert.KernelIdeal.dot_S4096x512_S512x512_S4096x512_1_0_0_1_n_n 512 rfl rfl).symm k) = ix2 n k := by
  funext ax; apply Fin.ext
  match ax with
  | ⟨0, _⟩ => simp [DotDims.lhsIdx, Cert.KernelIdeal.dot_S4096x512_S512x512_S4096x512_1_0_0_1_n_n] <;> rfl
  | ⟨1, _⟩ =>
    exact (DotDims.lhsIdx_val_of_single Cert.KernelIdeal.dot_S4096x512_S512x512_S4096x512_1_0_0_1_n_n (cl := 1) rfl (ix2 n h) _).trans
      (contrEquiv1_symm_val Cert.KernelIdeal.dot_S4096x512_S512x512_S4096x512_1_0_0_1_n_n 512 rfl rfl k)

/-- … and the transposed summed weights at (k, h). -/
theorem summed_weight_index (n : Fin 4096) (h : Fin 512) (k : Fin 512) :
    Cert.KernelIdeal.dot_S4096x512_S512x512_S4096x512_1_0_0_1_n_n.rhsIdx (ix2 n h) ((contrEquiv1 Cert.KernelIdeal.dot_S4096x512_S512x512_S4096x512_1_0_0_1_n_n 512 rfl rfl).symm k) = ix2 k h := by
  funext ax; apply Fin.ext
  match ax with
  | ⟨0, _⟩ =>
    exact (DotDims.rhsIdx_val_of_single Cert.KernelIdeal.dot_S4096x512_S512x512_S4096x512_1_0_0_1_n_n (cr := 0) rfl (ix2 n h) _).trans
      (contrEquiv1_symm_val Cert.KernelIdeal.dot_S4096x512_S512x512_S4096x512_1_0_0_1_n_n 512 rfl rfl k)
  | ⟨1, _⟩ => simp [DotDims.rhsIdx, Cert.KernelIdeal.dot_S4096x512_S512x512_S4096x512_1_0_0_1_n_n] <;> rfl

/-- The two halves of the child weights added and transposed: entry (k, h) is row h of the left half plus row h of
    the right half, at column k. -/
theorem summed_weight_apply (cfw : FVec Ideal S1024x512 .f32) (k h : Fin 512) (ol or : Fin 1024)
    (hol : ol.val = 0 + h.val) (hor : or.val = 512 + h.val) :
    transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0 (ix2 k h)
      = cfw (ix2 ol k) + cfw (ix2 or k) := by
  refine (transpose_apply [1, 0] _ Cert.KernelIdeal.Gen.transposes_S512x512_S512x512_1_0 (ix2 k h) (ix2 h k) fun b => ?_).trans ?_
  · match b with
    | ⟨0, _⟩ => rfl
    | ⟨1, _⟩ => rfl
  · rw [addf_apply]
    refine congrArg₂ (· + ·) ?_ ?_
    · exact extractStridedSlice_apply _ cfw Cert.KernelIdeal.Gen.slices_S1024x512_S512x512_0_0 (ix2 h k) (ix2 ol k) fun a => by
        match a with
        | ⟨0, _⟩ => show ol.val = 0 + h.val; omega
        | ⟨1, _⟩ => show k.val = 0 + k.val; omega
    · exact extractStridedSlice_apply _ cfw Cert.KernelIdeal.Gen.slices_S1024x512_S512x512_512_0 (ix2 h k) (ix2 or k) fun a => by
        match a with
        | ⟨0, _⟩ => show or.val = 512 + h.val; omega
        | ⟨1, _⟩ => show k.val = 0 + k.val; omega

/-- The summed map's product at (n, h). -/
theorem summed_product_apply (S : FVec Ideal S4096x512 .f32) (T : FVec Ideal Cert.KernelIdeal.S512x512 .f32) (n : Fin 4096) (h : Fin 512) :
    Host.dotGeneral Cert.KernelIdeal.dot_S4096x512_S512x512_S4096x512_1_0_0_1_n_n none S T (ix2 n h) = ∑ k : Fin 512, S (ix2 n k) * T (ix2 k h) := by
  show FloatOps.dotGeneral Cert.KernelIdeal.dot_S4096x512_S512x512_S4096x512_1_0_0_1_n_n none .single S T (ix2 n h) = _
  rw [Ideal.dotGeneral_apply, ← Equiv.sum_comp (contrEquiv1 Cert.KernelIdeal.dot_S4096x512_S512x512_S4096x512_1_0_0_1_n_n 512 rfl rfl).symm]
  exact Finset.sum_congr rfl fun k _ => by rw [summed_node_index, summed_weight_index]

/-- The summed bias row, at hidden coordinate h: the node count times the two bias halves added plus the constant
    times the two sibling rows added. -/
theorem summed_bias_apply (cfb : FVec Ideal S1024 .f32) (sib : FVec Ideal S2x512 .f32) (μ : FVec Ideal S_ .f32)
    (h : Fin 512) (ol or : Fin 1024) (hol : ol.val = 0 + h.val) (hor : or.val = 512 + h.val) :
    (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant (F := Ideal) Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512))))) (ix1 h)
      = μ ix0 * ((cfb (ix1 ol) + cfb (ix1 or))
          + Ideal.ofBits .f32 0x3D3504F3#32 * (sib (ix2 (0 : Fin 2) h) + sib (ix2 (1 : Fin 2) h))) := by
  rw [mulf_apply, addf_apply, addf_apply, mulf_apply, addf_apply]
  refine congrArg₂ (· * ·) ?_ (congrArg₂ (· + ·) (congrArg₂ (· + ·) ?_ ?_) (congrArg₂ (· * ·) ?_ (congrArg₂ (· + ·) ?_ ?_)))
  · exact broadcastInDim_apply _ Cert.KernelIdeal.Gen.bcast_S_S512 μ (ix1 h) ix0 fun a => a.elim0
  · exact extractStridedSlice_apply _ cfb Cert.KernelIdeal.Gen.slices_S1024_S512_0 (ix1 h) (ix1 ol) fun a => by
      match a with
      | ⟨0, _⟩ => show ol.val = 0 + h.val; omega
  · exact extractStridedSlice_apply _ cfb Cert.KernelIdeal.Gen.slices_S1024_S512_512 (ix1 h) (ix1 or) fun a => by
      match a with
      | ⟨0, _⟩ => show or.val = 512 + h.val; omega
  · exact (broadcastInDim_apply _ Cert.KernelIdeal.Gen.bcast_S_S512 _ (ix1 h) ix0 fun a => a.elim0).trans (constant_apply _ _)
  · refine (shapeCast_apply _ Cert.KernelIdeal.Gen.shapeCasts_S1x512_S512 (ix1 h) (ix2 (0 : Fin 1) h) ?_).trans ?_
    · rw [Shape.rowMajor_val_two, Shape.rowMajor_val_one]
      show 0 * 512 + h.val = h.val
      omega
    · exact extractStridedSlice_apply _ sib Cert.KernelIdeal.Gen.slices_S2x512_S1x512_0_0 (ix2 (0 : Fin 1) h) (ix2 (0 : Fin 2) h) fun a => by
        match a with
        | ⟨0, _⟩ => rfl
        | ⟨1, _⟩ => show h.val = 0 + h.val; omega
  · refine (shapeCast_apply _ Cert.KernelIdeal.Gen.shapeCasts_S1x512_S512 (ix1 h) (ix2 (0 : Fin 1) h) ?_).trans ?_
    · rw [Shape.rowMajor_val_two, Shape.rowMajor_val_one]
      show 0 * 512 + h.val = h.val
      omega
    · exact extractStridedSlice_apply _ sib Cert.KernelIdeal.Gen.slices_S2x512_S1x512_1_0 (ix2 (0 : Fin 1) h) (ix2 (1 : Fin 2) h) fun a => by
        match a with
        | ⟨0, _⟩ => rfl
        | ⟨1, _⟩ => show h.val = 0 + h.val; omega

/-- A row spread over the 4096 tokens, at (n, h). -/
theorem row_spread_apply (v : FVec Ideal Cert.KernelIdeal.S512 .f32) (n : Fin 4096) (h : Fin 512) :
    broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 v)
        (ix2 n h) = v (ix1 h) := by
  refine (broadcastInDim_apply _ Cert.KernelIdeal.Gen.bcast_S1x512_S4096x512_0_1 _ (ix2 n h) (ix2 (0 : Fin 1) h) fun a => ?_).trans ?_
  · match a with
    | ⟨0, _⟩ => rfl
    | ⟨1, _⟩ => rfl
  · exact broadcastInDim_apply _ Cert.KernelIdeal.Gen.bcast_S512_S1x512_1 v (ix2 (0 : Fin 1) h) (ix1 h) fun a => by
      match a with
      | ⟨0, _⟩ => rfl

/-! ## The two sides meet -/

/-- One left or right child at (m, n, h): node m's token n against weight row o, plus bias o, plus the constant times
    the sibling entry (r, h), where o is h shifted into the child's half. -/
theorem one_child_apply (X : FVec Ideal S2x4096x512 .f32) (cfw : FVec Ideal S1024x512 .f32) (cfb : FVec Ideal S1024 .f32)
    (sib : FVec Ideal S2x512 .f32) (off : Nat) (w : S2x4096x1024.Slices ![0, 0, off] S2x4096x512) (q : Nat)
    (w' : S2x512.Slices ![q, 0] S1x512) (r : Fin 2) (hr : r.val = q) (m : Fin 2) (n : Fin 4096) (h : Fin 512)
    (o : Fin 1024) (ho : o.val = off + h.val) :
    addf (extractStridedSlice S2x4096x512 ![0, 0, off] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) w)
        (broadcastInDim S2x4096x512 ![0, 1, 2] bcast_S1x1x512_S2x4096x512_0_1_2 (broadcastInDim S1x1x512 ![2] bcast_S512_S1x1x512_2
          (mulf (broadcastInDim S512 ![] bcast_S_S512 (constant (F := Ideal) S_ .f32 0x3D3504F3#32))
            (shapeCast S512 (extractStridedSlice S1x512 ![q, 0] sib w') shapeCasts_S1x512_S512))))
        (ix3 m n h)
      = (∑ k : Fin 512, X (ix3 m n k) * cfw (ix2 o k)) + cfb (ix1 o) + Ideal.ofBits .f32 0x3D3504F3#32 * sib (ix2 r h) :=
  (child_apply _ _ off w m n h o ho).trans
    (congrArg₂ (· + ·) (both_apply X cfw cfb m n o) (sibling_apply sib q w' r hr h))

/-- THE COLLAPSE of one level: the sum of the 4 stacked children is the summed map applied to the nodes' sum. -/
theorem children_sum_ops (X : FVec Ideal S2x4096x512 .f32) (cfw : FVec Ideal S1024x512 .f32) (cfb : FVec Ideal S1024 .f32)
    (sib : FVec Ideal S2x512 .f32)
    (S : FVec Ideal S4096x512 .f32) (μ : FVec Ideal S_ .f32)
    (hX : ∀ i, ∃ r : ℝ, X i = r) (hcfw : ∀ i, ∃ r : ℝ, cfw i = r) (hcfb : ∀ i, ∃ r : ℝ, cfb i = r)
    (hsib : ∀ i, ∃ r : ℝ, sib i = r)
    (hS : S = Host.reduceAdd X (constant S_ .f32 0x00000000#32) reducesTo_S2x4096x512_S4096x512_d0 h_S_)
    (hμ : μ ValueIdx.ix0 = ((2 : ℝ) : EReal)) :
    Host.reduceAdd (concatenate S4x4096x512 0 [⟨S2x4096x512, (addf (extractStridedSlice S2x4096x512 ![0, 0, 0] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) slices_S2x4096x1024_S2x4096x512_0_0_0) (broadcastInDim S2x4096x512 ![0, 1, 2] bcast_S1x1x512_S2x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S2x4096x512, (addf (extractStridedSlice S2x4096x512 ![0, 0, 512] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) slices_S2x4096x1024_S2x4096x512_0_0_512) (broadcastInDim S2x4096x512 ![0, 1, 2] bcast_S1x1x512_S2x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S2x4096x512_S2x4096x512_S4x4096x512_d0) (constant S_ .f32 0x00000000#32) reducesTo_S4x4096x512_S4096x512_d0 h_S_
      = addf (Host.dotGeneral Cert.KernelIdeal.dot_S4096x512_S512x512_S4096x512_1_0_0_1_n_n none S (transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0)) (broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512))))))) := by
  funext j
  obtain ⟨n, h, rfl⟩ : ∃ (n : Fin 4096) (h : Fin 512), j = ix2 n h := ⟨j 0, j 1, eq_ix2 j⟩
  have hh : h.val < 512 := h.isLt
  -- rows h of the left and of the right half of the child weights and bias
  obtain ⟨ol, hol⟩ : ∃ ol : Fin 1024, ol.val = 0 + h.val := ⟨⟨0 + h.val, by omega⟩, rfl⟩
  obtain ⟨or, hor⟩ : ∃ or : Fin 1024, or.val = 512 + h.val := ⟨⟨512 + h.val, by omega⟩, rfl⟩
  -- the stacked children, summed
  have hstack : (Host.reduceAdd (concatenate S4x4096x512 0 [⟨S2x4096x512, (addf (extractStridedSlice S2x4096x512 ![0, 0, 0] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) slices_S2x4096x1024_S2x4096x512_0_0_0) (broadcastInDim S2x4096x512 ![0, 1, 2] bcast_S1x1x512_S2x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S2x4096x512, (addf (extractStridedSlice S2x4096x512 ![0, 0, 512] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) slices_S2x4096x1024_S2x4096x512_0_0_512) (broadcastInDim S2x4096x512 ![0, 1, 2] bcast_S1x1x512_S2x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S2x4096x512_S2x4096x512_S4x4096x512_d0) (constant S_ .f32 0x00000000#32) reducesTo_S4x4096x512_S4096x512_d0 h_S_) (ix2 n h)
      = 0 + ((∑ m : Fin 2, ((∑ k : Fin 512, X (ix3 m n k) * cfw (ix2 ol k)) + cfb (ix1 ol)
              + Ideal.ofBits .f32 0x3D3504F3#32 * sib (ix2 (0 : Fin 2) h)))
          + ∑ m : Fin 2, ((∑ k : Fin 512, X (ix3 m n k) * cfw (ix2 or k)) + cfb (ix1 or)
              + Ideal.ofBits .f32 0x3D3504F3#32 * sib (ix2 (1 : Fin 2) h))) := by
    refine (sum_over_stack _ n h).trans (congrArg (0 + ·) ((stack_sum _ _ n h).trans ?_))
    exact congrArg₂ (· + ·)
      (Finset.sum_congr rfl fun m _ => one_child_apply X cfw cfb sib 0 slices_S2x4096x1024_S2x4096x512_0_0_0 0 slices_S2x512_S1x512_0_0 0 rfl m n h ol hol)
      (Finset.sum_congr rfl fun m _ => one_child_apply X cfw cfb sib 512 slices_S2x4096x1024_S2x4096x512_0_0_512 1 slices_S2x512_S1x512_1_0 1 rfl m n h or hor)
  -- the summed map at the nodes' sum
  have hmap : (addf (Host.dotGeneral Cert.KernelIdeal.dot_S4096x512_S512x512_S4096x512_1_0_0_1_n_n none S (transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0)) (broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512)))))))) (ix2 n h)
      = (∑ k : Fin 512, (0 + ∑ m : Fin 2, X (ix3 m n k)) * (cfw (ix2 ol k) + cfw (ix2 or k)))
          + μ ix0 * ((cfb (ix1 ol) + cfb (ix1 or))
              + Ideal.ofBits .f32 0x3D3504F3#32 * (sib (ix2 (0 : Fin 2) h) + sib (ix2 (1 : Fin 2) h))) := by
    rw [addf_apply]
    refine congrArg₂ (· + ·) ?_ ((row_spread_apply _ n h).trans (summed_bias_apply cfb sib μ h ol or hol hor))
    refine (summed_product_apply S _ n h).trans (Finset.sum_congr rfl fun k _ => congrArg₂ (· * ·) ?_ ?_)
    · rw [hS]; exact sum_over_nodes X n k
    · exact summed_weight_apply cfw k h ol or hol hor
  rw [hstack, hmap]
  exact Cert.TreeAlg.children_sum (fun m k => X (ix3 m n k)) (fun k => cfw (ix2 ol k)) (fun k => cfw (ix2 or k))
    (cfb (ix1 ol)) (cfb (ix1 or)) (sib (ix2 (0 : Fin 2) h)) (sib (ix2 (1 : Fin 2) h)) (Ideal.ofBits .f32 0x3D3504F3#32) (μ ix0)
    (fun m k => hX _) (fun k => hcfw _) (fun k => hcfw _) (hcfb _) (hcfb _) (hsib _) (hsib _) Cert.Consts.sib_scale_real
    (by rw [hμ]; norm_num)

/-! ## Every child is a real number -/

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem real_sum {ι : Type} [Fintype ι] (f : ι → EReal) (hf : ∀ i, ∃ r : ℝ, f i = r) : ∃ r : ℝ, ∑ i, f i = r := by
  choose g hg using hf
  exact ⟨∑ i, g i, by rw [Cert.TreeAlg.coe_sum]; exact Finset.sum_congr rfl fun i _ => hg i⟩

/-- One child's entry is a sum of products of real numbers plus real numbers. -/
theorem one_child_real (X : FVec Ideal S2x4096x512 .f32) (cfw : FVec Ideal S1024x512 .f32) (cfb : FVec Ideal S1024 .f32)
    (sib : FVec Ideal S2x512 .f32)
    (hX : ∀ i, ∃ r : ℝ, X i = r) (hcfw : ∀ i, ∃ r : ℝ, cfw i = r) (hcfb : ∀ i, ∃ r : ℝ, cfb i = r)
    (hsib : ∀ i, ∃ r : ℝ, sib i = r)
    (off : Nat) (w : S2x4096x1024.Slices ![0, 0, off] S2x4096x512) (q : Nat)
    (w' : S2x512.Slices ![q, 0] S1x512) (r : Fin 2) (hr : r.val = q) (m : Fin 2) (n : Fin 4096) (h : Fin 512)
    (o : Fin 1024) (ho : o.val = off + h.val) :
    ∃ x : ℝ, addf (extractStridedSlice S2x4096x512 ![0, 0, off] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) w)
        (broadcastInDim S2x4096x512 ![0, 1, 2] bcast_S1x1x512_S2x4096x512_0_1_2 (broadcastInDim S1x1x512 ![2] bcast_S512_S1x1x512_2
          (mulf (broadcastInDim S512 ![] bcast_S_S512 (constant (F := Ideal) S_ .f32 0x3D3504F3#32))
            (shapeCast S512 (extractStridedSlice S1x512 ![q, 0] sib w') shapeCasts_S1x512_S512))))
        (ix3 m n h) = x := by
  rw [one_child_apply X cfw cfb sib off w q w' r hr m n h o ho]
  exact real_add (real_add (real_sum _ fun k => real_mul (hX _) (hcfw _)) (hcfb _))
    (real_mul Cert.Consts.sib_scale_real (hsib _))

/-- Every stacked child is a real number. -/
theorem children_real (X : FVec Ideal S2x4096x512 .f32) (cfw : FVec Ideal S1024x512 .f32) (cfb : FVec Ideal S1024 .f32)
    (sib : FVec Ideal S2x512 .f32)
    (hX : ∀ i, ∃ r : ℝ, X i = r) (hcfw : ∀ i, ∃ r : ℝ, cfw i = r) (hcfb : ∀ i, ∃ r : ℝ, cfb i = r)
    (hsib : ∀ i, ∃ r : ℝ, sib i = r) :
    ∀ i, ∃ r : ℝ, (concatenate S4x4096x512 0 [⟨S2x4096x512, (addf (extractStridedSlice S2x4096x512 ![0, 0, 0] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) slices_S2x4096x1024_S2x4096x512_0_0_0) (broadcastInDim S2x4096x512 ![0, 1, 2] bcast_S1x1x512_S2x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S2x4096x512, (addf (extractStridedSlice S2x4096x512 ![0, 0, 512] (addf (Host.dotGeneral dot_S2x4096x512_S1024x512_S2x4096x1024_2_1_01_0_n_n none X cfw) (broadcastInDim S2x4096x1024 ![0, 1, 2] bcast_S1x1x1024_S2x4096x1024_0_1_2 (broadcastInDim S1x1x1024 ![2] bcast_S1024_S1x1x1024_2 cfb))) slices_S2x4096x1024_S2x4096x512_0_0_512) (broadcastInDim S2x4096x512 ![0, 1, 2] bcast_S1x1x512_S2x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S2x4096x512_S2x4096x512_S4x4096x512_d0) i = r := by
  intro i
  obtain ⟨k, n, h, rfl⟩ : ∃ (k : Fin 4) (n : Fin 4096) (h : Fin 512), i = ix3 k n h := ⟨i 0, i 1, i 2, eq_ix3 i⟩
  have hh : h.val < 512 := h.isLt
  have hk2 : k.val < 4 := k.isLt
  by_cases hk : k.val < 2
  · obtain ⟨ol, hol⟩ : ∃ ol : Fin 1024, ol.val = 0 + h.val := ⟨⟨0 + h.val, by omega⟩, rfl⟩
    rw [concatenate_pair_apply_left 0 _ _ concatenates_S2x4096x512_S2x4096x512_S4x4096x512_d0 (ix3 k n h) rfl (ix3 (⟨k.val, hk⟩ : Fin 2) n h) fun b => by
      match b with
      | ⟨0, _⟩ => rfl
      | ⟨1, _⟩ => rfl
      | ⟨2, _⟩ => rfl]
    exact one_child_real X cfw cfb sib hX hcfw hcfb hsib 0 slices_S2x4096x1024_S2x4096x512_0_0_0 0 slices_S2x512_S1x512_0_0 0 rfl _ n h ol hol
  · obtain ⟨or, hor⟩ : ∃ or : Fin 1024, or.val = 512 + h.val := ⟨⟨512 + h.val, by omega⟩, rfl⟩
    rw [concatenate_pair_apply_right 0 _ _ concatenates_S2x4096x512_S2x4096x512_S4x4096x512_d0 (ix3 k n h) rfl rfl (ix3 (⟨k.val - 2, by omega⟩ : Fin 2) n h)
      (fun b hb => by
        match b, hb with
        | ⟨0, _⟩, hb => exact absurd rfl hb
        | ⟨1, _⟩, _ => rfl
        | ⟨2, _⟩, _ => rfl)
      (by show k.val - 2 + 2 = k.val; omega)]
    exact one_child_real X cfw cfb sib hX hcfw hcfb hsib 512 slices_S2x4096x1024_S2x4096x512_0_0_512 1 slices_S2x512_S1x512_1_0 1 rfl _ n h or hor

end Cert.TreeStep2

end
-- ==== Proof.FactsL2.lean ====
/-
  Tree level 2. The 4 children of the 2 nodes of level 1 sum to the affine image of the nodes' sum, which is how
  the kernel program updates its running sum; so after the level the two programs hold the same running sum (the
  reference as the sum over its 4 nodes), the same node count, the same aggregate and the same gated count. What is
  known of the level before (its running sum, that its nodes are real numbers, its count, aggregate and gate) is taken
  as hypotheses here and supplied where the levels are chained.
-/
import proofs.«125887_j14422500180043_2_alg».proof.Proof.FactsArgs
import proofs.«125887_j14422500180043_2_alg».proof.Proof.TreeStep2
import proofs.«125887_j14422500180043_2_alg».proof.Proof.Consts

set_option maxRecDepth 16384
set_option maxHeartbeats 0
-- one theorem at a time: each composes a stretch of both programs and holds gigabytes while it runs
set_option Elab.async false

noncomputable section

namespace Cert.Bridge

open Idealize.ShloMosaic Idealize.ShloMosaic.TcCoe Idealize.SL.Sem Idealize.ShloMosaic.StableHlo

attribute [local congr] concat_pair_congr

variable {V : Valuation Cert.KernelIdeal.τ Cert.KernelIdeal.sig (Elt Ideal)} {V' : Valuation Cert.ReferenceIdeal.τ Cert.ReferenceIdeal.sig (Elt Ideal)}

/-- The kernel program's node count after level 1 is 4, given that it was 2 after the level before. -/
theorem m2_of (e3 : after kops V (Proc.devRef .tc Cert.KernelIdeal.main_v130) = (constant Cert.KernelIdeal.S_ .f32 0x40000000#32 : FVec Ideal Cert.KernelIdeal.S_ .f32)) : after kops V (Proc.devRef .tc Cert.KernelIdeal.main_v240) = (constant Cert.KernelIdeal.S_ .f32 0x40800000#32 : FVec Ideal Cert.KernelIdeal.S_ .f32) := by
  knorm 29 30 V Cert.KernelIdeal.main_v240
  rw [e3]
  exact Cert.Consts.arr_two_mul_two

/-- The 4 children of level 1's nodes sum to the kernel program's running sum after the level: the affine image of
    the nodes' sum. -/
theorem sum2_of (fa : FinalAgree V V') (hr : RealArgs V')
    (hS : (after kops V (Proc.devRef .tc Cert.KernelIdeal.main_v129) : FVec Ideal Cert.KernelIdeal.S4096x512 .f32)
      = Host.reduceAdd (F := Ideal) (after rops V' (Proc.devRef .tc Cert.ReferenceIdeal.main_v131)) (constant Cert.ReferenceIdeal.S_ .f32 0x00000000#32) Cert.ReferenceIdeal.Gen.reducesTo_S2x4096x512_S4096x512_d0 Cert.ReferenceIdeal.Gen.h_S_)
    (hX : ∀ i, ∃ r : ℝ, (after rops V' (Proc.devRef .tc Cert.ReferenceIdeal.main_v131) : FVec Ideal Cert.ReferenceIdeal.S2x4096x512 .f32) i = (r : EReal))
    (e3 : after kops V (Proc.devRef .tc Cert.KernelIdeal.main_v130) = (constant Cert.KernelIdeal.S_ .f32 0x40000000#32 : FVec Ideal Cert.KernelIdeal.S_ .f32)) :
    (after kops V (Proc.devRef .tc Cert.KernelIdeal.main_v239) : FVec Ideal Cert.KernelIdeal.S4096x512 .f32)
      = Host.reduceAdd (F := Ideal) (after rops V' (Proc.devRef .tc Cert.ReferenceIdeal.main_v256)) (constant Cert.ReferenceIdeal.S_ .f32 0x00000000#32) Cert.ReferenceIdeal.Gen.reducesTo_S4x4096x512_S4096x512_d0 Cert.ReferenceIdeal.Gen.h_S_ := by
  have hμ : (after kops V (Proc.devRef .tc Cert.KernelIdeal.main_v130) : FVec Ideal Cert.KernelIdeal.S_ .f32) ValueIdx.ix0 = ((2 : ℝ) : EReal) := by
    rw [e3]; exact Cert.Consts.ofBits_two
  obtain ⟨a0, a1, a2, a3, a4, a5, a6, a7, a8, a9, a10, a11, a12, a13, a14, a15, a16, a17, a18, a19, a20, a21, a22⟩ := fa
  knorm 28 29 V Cert.KernelIdeal.main_v239
  knorm 0 1 V Cert.KernelIdeal.main_v14
  knorm 0 1 V Cert.KernelIdeal.main_v25
  rnorm 33 35 V' Cert.ReferenceIdeal.main_v256
  simp only [a4, a5, a19]
  exact (Cert.TreeStep2.children_sum_ops (after rops V' (Proc.devRef .tc Cert.ReferenceIdeal.main_v131)) (after rops V' (Proc.devRef .tc Cert.ReferenceIdeal.main_arg4)) (after rops V' (Proc.devRef .tc Cert.ReferenceIdeal.main_arg5)) (after rops V' (Proc.devRef .tc Cert.ReferenceIdeal.main_arg19))
    (after kops V (Proc.devRef .tc Cert.KernelIdeal.main_v129)) (after kops V (Proc.devRef .tc Cert.KernelIdeal.main_v130)) hX hr.cfw hr.cfb hr.sib hS hμ).symm

/-- Level 2's nodes are arrays of real numbers, given that the nodes of the level before are. -/
theorem nodes2_real_of (hr : RealArgs V')
    (hX : ∀ i, ∃ r : ℝ, (after rops V' (Proc.devRef .tc Cert.ReferenceIdeal.main_v131) : FVec Ideal Cert.ReferenceIdeal.S2x4096x512 .f32) i = (r : EReal)) :
    ∀ i, ∃ r : ℝ, (after rops V' (Proc.devRef .tc Cert.ReferenceIdeal.main_v256) : FVec Ideal Cert.ReferenceIdeal.S4x4096x512 .f32) i = (r : EReal) := by
  rnorm 33 35 V' Cert.ReferenceIdeal.main_v256
  exact Cert.TreeStep2.children_real (after rops V' (Proc.devRef .tc Cert.ReferenceIdeal.main_v131)) (after rops V' (Proc.devRef .tc Cert.ReferenceIdeal.main_arg4)) (after rops V' (Proc.devRef .tc Cert.ReferenceIdeal.main_arg5)) (after rops V' (Proc.devRef .tc Cert.ReferenceIdeal.main_arg19)) hX hr.cfw hr.cfb hr.sib

/-- The aggregate (the gated sum over all tree nodes so far) after level 2 is the same array in both programs. -/
theorem agg2_of
    (e0 : after kops V (Proc.devRef .tc Cert.KernelIdeal.main_v133) = after rops V' (Proc.devRef .tc Cert.ReferenceIdeal.main_v135))
    (e1 : after kops V (Proc.devRef .tc Cert.KernelIdeal.main_v232) = after rops V' (Proc.devRef .tc Cert.ReferenceIdeal.main_v235))
    (e2 : (after kops V (Proc.devRef .tc Cert.KernelIdeal.main_v239) : FVec Ideal Cert.KernelIdeal.S4096x512 .f32)
      = Host.reduceAdd (F := Ideal) (after rops V' (Proc.devRef .tc Cert.ReferenceIdeal.main_v256)) (constant Cert.ReferenceIdeal.S_ .f32 0x00000000#32) Cert.ReferenceIdeal.Gen.reducesTo_S4x4096x512_S4096x512_d0 Cert.ReferenceIdeal.Gen.h_S_) :
    after kops V (Proc.devRef .tc Cert.KernelIdeal.main_v243) = after rops V' (Proc.devRef .tc Cert.ReferenceIdeal.main_v260) := by
  knorm 29 30 V Cert.KernelIdeal.main_v243
  rnorm 35 36 V' Cert.ReferenceIdeal.main_v260
  rw [e0, e1, e2]
  all_goals rfl

/-- The gated node count after level 2 is the same in both programs. -/
theorem cnt2_of
    (e1 : after kops V (Proc.devRef .tc Cert.KernelIdeal.main_v232) = after rops V' (Proc.devRef .tc Cert.ReferenceIdeal.main_v235))
    (e0 : after kops V (Proc.devRef .tc Cert.KernelIdeal.main_v135) = after rops V' (Proc.devRef .tc Cert.ReferenceIdeal.main_v137))
    (e3 : after kops V (Proc.devRef .tc Cert.KernelIdeal.main_v130) = (constant Cert.KernelIdeal.S_ .f32 0x40000000#32 : FVec Ideal Cert.KernelIdeal.S_ .f32)) :
    after kops V (Proc.devRef .tc Cert.KernelIdeal.main_v245) = after rops V' (Proc.devRef .tc Cert.ReferenceIdeal.main_v262) := by
  knorm 29 30 V Cert.KernelIdeal.main_v245
  rnorm 35 36 V' Cert.ReferenceIdeal.main_v262
  rw [e0, e1, e3]
  rw [Cert.Consts.arr_two_mul_two]
  all_goals rfl

end Cert.Bridge

end
-- ==== Proof.FactsGate3.lean ====
/-
  The growth gate after tree level 2. Both programs compute it from the level mean by the same policy operations;
  the level mean is the same array once the kernel program's running sum is known to be the sum of the reference's
  level and its node count the number of the level's nodes. Those facts about the level before are taken as
  hypotheses here and supplied where the levels are chained.
-/
import proofs.«125887_j14422500180043_2_alg».proof.Proof.FactsArgs

set_option maxRecDepth 16384
set_option maxHeartbeats 0
-- one theorem at a time: each composes a stretch of both programs and holds gigabytes while it runs
set_option Elab.async false

noncomputable section

namespace Cert.Bridge

open Idealize.ShloMosaic Idealize.ShloMosaic.TcCoe Idealize.SL.Sem Idealize.ShloMosaic.StableHlo

attribute [local congr] concat_pair_congr

variable {V : Valuation Cert.KernelIdeal.τ Cert.KernelIdeal.sig (Elt Ideal)} {V' : Valuation Cert.ReferenceIdeal.τ Cert.ReferenceIdeal.sig (Elt Ideal)}

/-- The growth gate after level 2 is the same in both programs, given the gate, the running sum and the node count of
    the level before. -/
theorem alive3_of (fa : FinalAgree V V')
    (e1 : after kops V (Proc.devRef .tc Cert.KernelIdeal.main_v232) = after rops V' (Proc.devRef .tc Cert.ReferenceIdeal.main_v235))
    (e2 : (after kops V (Proc.devRef .tc Cert.KernelIdeal.main_v239) : FVec Ideal Cert.KernelIdeal.S4096x512 .f32)
      = Host.reduceAdd (F := Ideal) (after rops V' (Proc.devRef .tc Cert.ReferenceIdeal.main_v256)) (constant Cert.ReferenceIdeal.S_ .f32 0x00000000#32) Cert.ReferenceIdeal.Gen.reducesTo_S4x4096x512_S4096x512_d0 Cert.ReferenceIdeal.Gen.h_S_)
    (e3 : after kops V (Proc.devRef .tc Cert.KernelIdeal.main_v240) = (constant Cert.KernelIdeal.S_ .f32 0x40800000#32 : FVec Ideal Cert.KernelIdeal.S_ .f32)) :
    after kops V (Proc.devRef .tc Cert.KernelIdeal.main_v342) = after rops V' (Proc.devRef .tc Cert.ReferenceIdeal.main_v360) := by
  obtain ⟨a0, a1, a2, a3, a4, a5, a6, a7, a8, a9, a10, a11, a12, a13, a14, a15, a16, a17, a18, a19, a20, a21, a22⟩ := fa
  knorm 30 43 V Cert.KernelIdeal.main_v342
  rnorm 36 51 V' Cert.ReferenceIdeal.main_v360
  simp only [a0, a1, a2, a3, a4, a5, a6, a7, a8, a9, a10, a11, a12, a13, a14, a15, a16, a17, a18, a19, a20, a21, a22]
  rw [e1, e2, e3]
  all_goals rfl

end Cert.Bridge

end
-- ==== Proof.TreeStep4.lean ====
/-
  One level of the tree, collapsed: the level has 4 nodes (each a 4096 x 512 array of hidden states), and every node
  x has a left child  x W_lᵀ + b_l + c s_l  and a right child  x W_rᵀ + b_r + c s_r,  where W_l, W_r are the two
  512-row halves of the child weights, b_l, b_r the halves of the child bias, s_l, s_r the two sibling rows and c one
  constant. One program forms all 8 children, stacks them and sums the stack; the other sums the nodes first and
  applies the summed map once:
      Σ children = (Σ nodes) (W_l + W_r)ᵀ + 4 (b_l + b_r + c (s_l + s_r)).
  Both sides are read entry by entry, at token n and hidden coordinate h, and the two readings are the two sides of
  the algebraic identity of sums of real numbers.
-/
import proofs.«125887_j14422500180043_2_alg».proof.Proof.Gen.ReferenceIdeal
import proofs.«125887_j14422500180043_2_alg».proof.Proof.Gen.KernelIdeal
import proofs.«125887_j14422500180043_2_alg».proof.Proof.TreeAlg
import proofs.«125887_j14422500180043_2_alg».proof.Proof.Consts
import Idealize.ShloMosaic.PureOps.Ideal.Laws
import Idealize.ShloMosaic.Lib.ValueIdx
import Idealize.ShloMosaic.Lib.Pipeline.Value

noncomputable section

open scoped BigOperators

namespace Cert.TreeStep4

open Cert.ReferenceIdeal Cert.ReferenceIdeal.Gen Idealize.ShloMosaic Idealize.ShloMosaic.ValueIdx

/-! ## The stacked children, entry by entry -/

/-- The children's product contracts the hidden axis: at entry (m, n, o) and hidden coordinate k the node is read
    at (m, n, k) … -/
theorem node_index (m : Fin 4) (n : Fin 4096) (o : Fin 1024) (k : Fin 512) :
    dot_S4x4096x512_S1024x512_S4x4096x1024_2_1_01_0_n_n.lhsIdx (ix3 m n o) ((contrEquiv1 dot_S4x4096x512_S1024x512_S4x4096x1024_2_1_01_0_n_n 512 rfl rfl).symm k) = ix3 m n k := by
  funext ax; apply Fin.ext
  match ax with
  | ⟨0, _⟩ => simp [DotDims.lhsIdx, dot_S4x4096x512_S1024x512_S4x4096x1024_2_1_01_0_n_n] <;> rfl
  | ⟨1, _⟩ => simp [DotDims.lhsIdx, dot_S4x4096x512_S1024x512_S4x4096x1024_2_1_01_0_n_n] <;> rfl
  | ⟨2, _⟩ =>
    exact (DotDims.lhsIdx_val_of_single dot_S4x4096x512_S1024x512_S4x4096x1024_2_1_01_0_n_n (cl := 2) rfl (ix3 m n o) _).trans
      (contrEquiv1_symm_val dot_S4x4096x512_S1024x512_S4x4096x1024_2_1_01_0_n_n 512 rfl rfl k)

/-- … and the child weights at row o, column k. -/
theorem weight_index (m : Fin 4) (n : Fin 4096) (o : Fin 1024) (k : Fin 512) :
    dot_S4x4096x512_S1024x512_S4x4096x1024_2_1_01_0_n_n.rhsIdx (ix3 m n o) ((contrEquiv1 dot_S4x4096x512_S1024x512_S4x4096x1024_2_1_01_0_n_n 512 rfl rfl).symm k) = ix2 o k := by
  funext ax; apply Fin.ext
  match ax with
  | ⟨0, _⟩ => simp [DotDims.rhsIdx, dot_S4x4096x512_S1024x512_S4x4096x1024_2_1_01_0_n_n] <;> rfl
  | ⟨1, _⟩ =>
    exact (DotDims.rhsIdx_val_of_single dot_S4x4096x512_S1024x512_S4x4096x1024_2_1_01_0_n_n (cr := 1) rfl (ix3 m n o) _).trans
      (contrEquiv1_symm_val dot_S4x4096x512_S1024x512_S4x4096x1024_2_1_01_0_n_n 512 rfl rfl k)

/-- Both children before the sibling term, side by side along the last axis: entry (m, n, o) is node m's token n
    against weight row o, plus bias o. -/
theorem both_apply (X : FVec Ideal S4x4096x512 .f32) (cfw : FVec Ideal S1024x512 .f32) (cfb : FVec Ideal S1024 .f32)
    (m : Fin 4) (n : Fin 4096) (o : Fin 1024) :
    (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) (ix3 m n o)
      = (∑ k : Fin 512, X (ix3 m n k) * cfw (ix2 o k)) + cfb (ix1 o) := by
  rw [addf_apply]
  refine congrArg₂ (· + ·) ?_ ?_
  · show FloatOps.dotGeneral dot_S4x4096x512_S1024x512_S4x4096x1024_2_1_01_0_n_n none .single X cfw (ix3 m n o) = _
    rw [Ideal.dotGeneral_apply, ← Equiv.sum_comp (contrEquiv1 dot_S4x4096x512_S1024x512_S4x4096x1024_2_1_01_0_n_n 512 rfl rfl).symm]
    exact Finset.sum_congr rfl fun k _ => by rw [node_index, weight_index]
  · refine (broadcastInDim_apply _ bcast_S1x1x1024_S4x4096x1024_0_1_2 _ (ix3 m n o) (ix3 (0 : Fin 1) (0 : Fin 1) o) fun a => ?_).trans ?_
    · match a with
      | ⟨0, _⟩ => rfl
      | ⟨1, _⟩ => rfl
      | ⟨2, _⟩ => rfl
    · exact broadcastInDim_apply _ bcast_S1024_S1x1x1024_2 cfb (ix3 (0 : Fin 1) (0 : Fin 1) o) (ix1 o) fun a => by
        match a with
        | ⟨0, _⟩ => rfl

/-- A sibling row scaled by the constant, at hidden coordinate h. -/
theorem sibling_apply (sib : FVec Ideal S2x512 .f32) (o : Nat) (w : S2x512.Slices ![o, 0] S1x512) (r : Fin 2)
    (hr : r.val = o) (h : Fin 512) :
    mulf (broadcastInDim S512 ![] bcast_S_S512 (constant (F := Ideal) S_ .f32 0x3D3504F3#32))
        (shapeCast S512 (extractStridedSlice S1x512 ![o, 0] sib w) shapeCasts_S1x512_S512) (ix1 h)
      = Ideal.ofBits .f32 0x3D3504F3#32 * sib (ix2 r h) := by
  rw [mulf_apply]
  refine congrArg₂ (· * ·) ?_ ?_
  · exact (broadcastInDim_apply _ bcast_S_S512 _ (ix1 h) ix0 fun a => a.elim0).trans (constant_apply _ _)
  · refine (shapeCast_apply _ shapeCasts_S1x512_S512 (ix1 h) (ix2 (0 : Fin 1) h) ?_).trans ?_
    · rw [Shape.rowMajor_val_two, Shape.rowMajor_val_one]
      show 0 * 512 + h.val = h.val
      omega
    · exact extractStridedSlice_apply _ sib w (ix2 (0 : Fin 1) h) (ix2 r h) fun a => by
        match a with
        | ⟨0, _⟩ => show r.val = o + 0; omega
        | ⟨1, _⟩ => show h.val = 0 + h.val; omega

/-- One child: its half of the side-by-side array, shifted by off along the last axis, plus a row spread over every
    node and token. -/
theorem child_apply (Y : FVec Ideal S4x4096x1024 .f32) (v : FVec Ideal S512 .f32) (off : Nat)
    (w : S4x4096x1024.Slices ![0, 0, off] S4x4096x512) (m : Fin 4) (n : Fin 4096) (h : Fin 512) (o : Fin 1024)
    (ho : o.val = off + h.val) :
    addf (extractStridedSlice S4x4096x512 ![0, 0, off] Y w)
        (broadcastInDim S4x4096x512 ![0, 1, 2] bcast_S1x1x512_S4x4096x512_0_1_2 (broadcastInDim S1x1x512 ![2] bcast_S512_S1x1x512_2 v))
        (ix3 m n h)
      = Y (ix3 m n o) + v (ix1 h) := by
  rw [addf_apply]
  refine congrArg₂ (· + ·) ?_ ?_
  · exact extractStridedSlice_apply _ Y w (ix3 m n h) (ix3 m n o) fun a => by
      match a with
      | ⟨0, _⟩ => show m.val = 0 + m.val; omega
      | ⟨1, _⟩ => show n.val = 0 + n.val; omega
      | ⟨2, _⟩ => show o.val = off + h.val; omega
  · refine (broadcastInDim_apply _ bcast_S1x1x512_S4x4096x512_0_1_2 _ (ix3 m n h) (ix3 (0 : Fin 1) (0 : Fin 1) h) fun a => ?_).trans ?_
    · match a with
      | ⟨0, _⟩ => rfl
      | ⟨1, _⟩ => rfl
      | ⟨2, _⟩ => rfl
    · exact broadcastInDim_apply _ bcast_S512_S1x1x512_2 v (ix3 (0 : Fin 1) (0 : Fin 1) h) (ix1 h) fun a => by
        match a with
        | ⟨0, _⟩ => rfl

/-- The stack of the left children on top of the right children, summed over the stacked axis: the left children's
    sum plus the right children's. -/
theorem stack_sum (A B : FVec Ideal S4x4096x512 .f32) (n : Fin 4096) (h : Fin 512) :
    (∑ k : Fin 8, concatenate S8x4096x512 0 [⟨S4x4096x512, A⟩, ⟨S4x4096x512, B⟩] concatenates_S4x4096x512_S4x4096x512_S8x4096x512_d0 (ix3 k n h))
      = (∑ m : Fin 4, A (ix3 m n h)) + ∑ m : Fin 4, B (ix3 m n h) := by
  refine (Fin.sum_univ_add (a := 4) (b := 4) (fun k : Fin (4 + 4) =>
    concatenate S8x4096x512 0 [⟨S4x4096x512, A⟩, ⟨S4x4096x512, B⟩] concatenates_S4x4096x512_S4x4096x512_S8x4096x512_d0 (ix3 k n h))).trans ?_
  refine congrArg₂ (· + ·) (Finset.sum_congr rfl fun m _ => ?_) (Finset.sum_congr rfl fun m _ => ?_)
  · exact concatenate_pair_apply_left 0 A B concatenates_S4x4096x512_S4x4096x512_S8x4096x512_d0 (ix3 (Fin.castAdd 4 m) n h) rfl (ix3 m n h)
      fun b => by
        match b with
        | ⟨0, _⟩ => rfl
        | ⟨1, _⟩ => rfl
        | ⟨2, _⟩ => rfl
  · exact concatenate_pair_apply_right 0 A B concatenates_S4x4096x512_S4x4096x512_S8x4096x512_d0 (ix3 (Fin.natAdd 4 m) n h) rfl rfl (ix3 m n h)
      (fun b hb => by
        match b, hb with
        | ⟨0, _⟩, hb => exact absurd rfl hb
        | ⟨1, _⟩, _ => rfl
        | ⟨2, _⟩, _ => rfl)
      (by show m.val + 4 = 4 + m.val; omega)

/-- The sum over the stacked axis, from zero, at (n, h). -/
theorem sum_over_stack (Y : FVec Ideal S8x4096x512 .f32) (n : Fin 4096) (h : Fin 512) :
    Host.reduceAdd Y (constant (F := Ideal) S_ .f32 0x00000000#32) reducesTo_S8x4096x512_S4096x512_d0 h_S_ (ix2 n h)
      = 0 + ∑ k : Fin 8, Y (ix3 k n h) := by
  show Ideal.hostReduceAdd reducesTo_S8x4096x512_S4096x512_d0 Y (Ideal.ofBits .f32 0x00000000#32) (ix2 n h) = _
  rw [Ideal.hostReduceAdd_single reducesTo_S8x4096x512_S4096x512_d0 (by decide : S8x4096x512.Reduces [0] S4096x512),
    Ideal.ofBits_zero_f32]
  refine congrArg (0 + ·) (Finset.sum_congr rfl fun k _ => congrArg Y (funext fun a => Fin.ext ?_))
  match a with
  | ⟨0, _⟩ => rfl
  | ⟨1, _⟩ => rfl
  | ⟨2, _⟩ => rfl

/-- The nodes' sum, from zero, at (n, k). -/
theorem sum_over_nodes (X : FVec Ideal S4x4096x512 .f32) (n : Fin 4096) (k : Fin 512) :
    Host.reduceAdd X (constant (F := Ideal) S_ .f32 0x00000000#32) reducesTo_S4x4096x512_S4096x512_d0 h_S_ (ix2 n k)
      = 0 + ∑ m : Fin 4, X (ix3 m n k) := by
  show Ideal.hostReduceAdd reducesTo_S4x4096x512_S4096x512_d0 X (Ideal.ofBits .f32 0x00000000#32) (ix2 n k) = _
  rw [Ideal.hostReduceAdd_single reducesTo_S4x4096x512_S4096x512_d0 (by decide : S4x4096x512.Reduces [0] S4096x512),
    Ideal.ofBits_zero_f32]
  refine congrArg (0 + ·) (Finset.sum_congr rfl fun m _ => congrArg X (funext fun a => Fin.ext ?_))
  match a with
  | ⟨0, _⟩ => rfl
  | ⟨1, _⟩ => rfl
  | ⟨2, _⟩ => rfl

/-! ## The summed map applied to the nodes' sum, entry by entry -/

/-- The summed map's product contracts the hidden axis of the nodes' sum: at entry (n, h) and hidden coordinate k
    the sum is read at (n, k) … -/
theorem summed_node_index (n : Fin 4096) (h : Fin 512) (k : Fin 512) :
    Cert.KernelIdeal.dot_S4096x512_S512x512_S4096x512_1_0_0_1_n_n.lhsIdx (ix2 n h) ((contrEquiv1 Cert.KernelIdeal.dot_S4096x512_S512x512_S4096x512_1_0_0_1_n_n 512 rfl rfl).symm k) = ix2 n k := by
  funext ax; apply Fin.ext
  match ax with
  | ⟨0, _⟩ => simp [DotDims.lhsIdx, Cert.KernelIdeal.dot_S4096x512_S512x512_S4096x512_1_0_0_1_n_n] <;> rfl
  | ⟨1, _⟩ =>
    exact (DotDims.lhsIdx_val_of_single Cert.KernelIdeal.dot_S4096x512_S512x512_S4096x512_1_0_0_1_n_n (cl := 1) rfl (ix2 n h) _).trans
      (contrEquiv1_symm_val Cert.KernelIdeal.dot_S4096x512_S512x512_S4096x512_1_0_0_1_n_n 512 rfl rfl k)

/-- … and the transposed summed weights at (k, h). -/
theorem summed_weight_index (n : Fin 4096) (h : Fin 512) (k : Fin 512) :
    Cert.KernelIdeal.dot_S4096x512_S512x512_S4096x512_1_0_0_1_n_n.rhsIdx (ix2 n h) ((contrEquiv1 Cert.KernelIdeal.dot_S4096x512_S512x512_S4096x512_1_0_0_1_n_n 512 rfl rfl).symm k) = ix2 k h := by
  funext ax; apply Fin.ext
  match ax with
  | ⟨0, _⟩ =>
    exact (DotDims.rhsIdx_val_of_single Cert.KernelIdeal.dot_S4096x512_S512x512_S4096x512_1_0_0_1_n_n (cr := 0) rfl (ix2 n h) _).trans
      (contrEquiv1_symm_val Cert.KernelIdeal.dot_S4096x512_S512x512_S4096x512_1_0_0_1_n_n 512 rfl rfl k)
  | ⟨1, _⟩ => simp [DotDims.rhsIdx, Cert.KernelIdeal.dot_S4096x512_S512x512_S4096x512_1_0_0_1_n_n] <;> rfl

/-- The two halves of the child weights added and transposed: entry (k, h) is row h of the left half plus row h of
    the right half, at column k. -/
theorem summed_weight_apply (cfw : FVec Ideal S1024x512 .f32) (k h : Fin 512) (ol or : Fin 1024)
    (hol : ol.val = 0 + h.val) (hor : or.val = 512 + h.val) :
    transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0 (ix2 k h)
      = cfw (ix2 ol k) + cfw (ix2 or k) := by
  refine (transpose_apply [1, 0] _ Cert.KernelIdeal.Gen.transposes_S512x512_S512x512_1_0 (ix2 k h) (ix2 h k) fun b => ?_).trans ?_
  · match b with
    | ⟨0, _⟩ => rfl
    | ⟨1, _⟩ => rfl
  · rw [addf_apply]
    refine congrArg₂ (· + ·) ?_ ?_
    · exact extractStridedSlice_apply _ cfw Cert.KernelIdeal.Gen.slices_S1024x512_S512x512_0_0 (ix2 h k) (ix2 ol k) fun a => by
        match a with
        | ⟨0, _⟩ => show ol.val = 0 + h.val; omega
        | ⟨1, _⟩ => show k.val = 0 + k.val; omega
    · exact extractStridedSlice_apply _ cfw Cert.KernelIdeal.Gen.slices_S1024x512_S512x512_512_0 (ix2 h k) (ix2 or k) fun a => by
        match a with
        | ⟨0, _⟩ => show or.val = 512 + h.val; omega
        | ⟨1, _⟩ => show k.val = 0 + k.val; omega

/-- The summed map's product at (n, h). -/
theorem summed_product_apply (S : FVec Ideal S4096x512 .f32) (T : FVec Ideal Cert.KernelIdeal.S512x512 .f32) (n : Fin 4096) (h : Fin 512) :
    Host.dotGeneral Cert.KernelIdeal.dot_S4096x512_S512x512_S4096x512_1_0_0_1_n_n none S T (ix2 n h) = ∑ k : Fin 512, S (ix2 n k) * T (ix2 k h) := by
  show FloatOps.dotGeneral Cert.KernelIdeal.dot_S4096x512_S512x512_S4096x512_1_0_0_1_n_n none .single S T (ix2 n h) = _
  rw [Ideal.dotGeneral_apply, ← Equiv.sum_comp (contrEquiv1 Cert.KernelIdeal.dot_S4096x512_S512x512_S4096x512_1_0_0_1_n_n 512 rfl rfl).symm]
  exact Finset.sum_congr rfl fun k _ => by rw [summed_node_index, summed_weight_index]

/-- The summed bias row, at hidden coordinate h: the node count times the two bias halves added plus the constant
    times the two sibling rows added. -/
theorem summed_bias_apply (cfb : FVec Ideal S1024 .f32) (sib : FVec Ideal S2x512 .f32) (μ : FVec Ideal S_ .f32)
    (h : Fin 512) (ol or : Fin 1024) (hol : ol.val = 0 + h.val) (hor : or.val = 512 + h.val) :
    (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant (F := Ideal) Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512))))) (ix1 h)
      = μ ix0 * ((cfb (ix1 ol) + cfb (ix1 or))
          + Ideal.ofBits .f32 0x3D3504F3#32 * (sib (ix2 (0 : Fin 2) h) + sib (ix2 (1 : Fin 2) h))) := by
  rw [mulf_apply, addf_apply, addf_apply, mulf_apply, addf_apply]
  refine congrArg₂ (· * ·) ?_ (congrArg₂ (· + ·) (congrArg₂ (· + ·) ?_ ?_) (congrArg₂ (· * ·) ?_ (congrArg₂ (· + ·) ?_ ?_)))
  · exact broadcastInDim_apply _ Cert.KernelIdeal.Gen.bcast_S_S512 μ (ix1 h) ix0 fun a => a.elim0
  · exact extractStridedSlice_apply _ cfb Cert.KernelIdeal.Gen.slices_S1024_S512_0 (ix1 h) (ix1 ol) fun a => by
      match a with
      | ⟨0, _⟩ => show ol.val = 0 + h.val; omega
  · exact extractStridedSlice_apply _ cfb Cert.KernelIdeal.Gen.slices_S1024_S512_512 (ix1 h) (ix1 or) fun a => by
      match a with
      | ⟨0, _⟩ => show or.val = 512 + h.val; omega
  · exact (broadcastInDim_apply _ Cert.KernelIdeal.Gen.bcast_S_S512 _ (ix1 h) ix0 fun a => a.elim0).trans (constant_apply _ _)
  · refine (shapeCast_apply _ Cert.KernelIdeal.Gen.shapeCasts_S1x512_S512 (ix1 h) (ix2 (0 : Fin 1) h) ?_).trans ?_
    · rw [Shape.rowMajor_val_two, Shape.rowMajor_val_one]
      show 0 * 512 + h.val = h.val
      omega
    · exact extractStridedSlice_apply _ sib Cert.KernelIdeal.Gen.slices_S2x512_S1x512_0_0 (ix2 (0 : Fin 1) h) (ix2 (0 : Fin 2) h) fun a => by
        match a with
        | ⟨0, _⟩ => rfl
        | ⟨1, _⟩ => show h.val = 0 + h.val; omega
  · refine (shapeCast_apply _ Cert.KernelIdeal.Gen.shapeCasts_S1x512_S512 (ix1 h) (ix2 (0 : Fin 1) h) ?_).trans ?_
    · rw [Shape.rowMajor_val_two, Shape.rowMajor_val_one]
      show 0 * 512 + h.val = h.val
      omega
    · exact extractStridedSlice_apply _ sib Cert.KernelIdeal.Gen.slices_S2x512_S1x512_1_0 (ix2 (0 : Fin 1) h) (ix2 (1 : Fin 2) h) fun a => by
        match a with
        | ⟨0, _⟩ => rfl
        | ⟨1, _⟩ => show h.val = 0 + h.val; omega

/-- A row spread over the 4096 tokens, at (n, h). -/
theorem row_spread_apply (v : FVec Ideal Cert.KernelIdeal.S512 .f32) (n : Fin 4096) (h : Fin 512) :
    broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 v)
        (ix2 n h) = v (ix1 h) := by
  refine (broadcastInDim_apply _ Cert.KernelIdeal.Gen.bcast_S1x512_S4096x512_0_1 _ (ix2 n h) (ix2 (0 : Fin 1) h) fun a => ?_).trans ?_
  · match a with
    | ⟨0, _⟩ => rfl
    | ⟨1, _⟩ => rfl
  · exact broadcastInDim_apply _ Cert.KernelIdeal.Gen.bcast_S512_S1x512_1 v (ix2 (0 : Fin 1) h) (ix1 h) fun a => by
      match a with
      | ⟨0, _⟩ => rfl

/-! ## The two sides meet -/

/-- One left or right child at (m, n, h): node m's token n against weight row o, plus bias o, plus the constant times
    the sibling entry (r, h), where o is h shifted into the child's half. -/
theorem one_child_apply (X : FVec Ideal S4x4096x512 .f32) (cfw : FVec Ideal S1024x512 .f32) (cfb : FVec Ideal S1024 .f32)
    (sib : FVec Ideal S2x512 .f32) (off : Nat) (w : S4x4096x1024.Slices ![0, 0, off] S4x4096x512) (q : Nat)
    (w' : S2x512.Slices ![q, 0] S1x512) (r : Fin 2) (hr : r.val = q) (m : Fin 4) (n : Fin 4096) (h : Fin 512)
    (o : Fin 1024) (ho : o.val = off + h.val) :
    addf (extractStridedSlice S4x4096x512 ![0, 0, off] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) w)
        (broadcastInDim S4x4096x512 ![0, 1, 2] bcast_S1x1x512_S4x4096x512_0_1_2 (broadcastInDim S1x1x512 ![2] bcast_S512_S1x1x512_2
          (mulf (broadcastInDim S512 ![] bcast_S_S512 (constant (F := Ideal) S_ .f32 0x3D3504F3#32))
            (shapeCast S512 (extractStridedSlice S1x512 ![q, 0] sib w') shapeCasts_S1x512_S512))))
        (ix3 m n h)
      = (∑ k : Fin 512, X (ix3 m n k) * cfw (ix2 o k)) + cfb (ix1 o) + Ideal.ofBits .f32 0x3D3504F3#32 * sib (ix2 r h) :=
  (child_apply _ _ off w m n h o ho).trans
    (congrArg₂ (· + ·) (both_apply X cfw cfb m n o) (sibling_apply sib q w' r hr h))

/-- THE COLLAPSE of one level: the sum of the 8 stacked children is the summed map applied to the nodes' sum. -/
theorem children_sum_ops (X : FVec Ideal S4x4096x512 .f32) (cfw : FVec Ideal S1024x512 .f32) (cfb : FVec Ideal S1024 .f32)
    (sib : FVec Ideal S2x512 .f32)
    (S : FVec Ideal S4096x512 .f32) (μ : FVec Ideal S_ .f32)
    (hX : ∀ i, ∃ r : ℝ, X i = r) (hcfw : ∀ i, ∃ r : ℝ, cfw i = r) (hcfb : ∀ i, ∃ r : ℝ, cfb i = r)
    (hsib : ∀ i, ∃ r : ℝ, sib i = r)
    (hS : S = Host.reduceAdd X (constant S_ .f32 0x00000000#32) reducesTo_S4x4096x512_S4096x512_d0 h_S_)
    (hμ : μ ValueIdx.ix0 = ((4 : ℝ) : EReal)) :
    Host.reduceAdd (concatenate S8x4096x512 0 [⟨S4x4096x512, (addf (extractStridedSlice S4x4096x512 ![0, 0, 0] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) slices_S4x4096x1024_S4x4096x512_0_0_0) (broadcastInDim S4x4096x512 ![0, 1, 2] bcast_S1x1x512_S4x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S4x4096x512, (addf (extractStridedSlice S4x4096x512 ![0, 0, 512] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) slices_S4x4096x1024_S4x4096x512_0_0_512) (broadcastInDim S4x4096x512 ![0, 1, 2] bcast_S1x1x512_S4x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S4x4096x512_S4x4096x512_S8x4096x512_d0) (constant S_ .f32 0x00000000#32) reducesTo_S8x4096x512_S4096x512_d0 h_S_
      = addf (Host.dotGeneral Cert.KernelIdeal.dot_S4096x512_S512x512_S4096x512_1_0_0_1_n_n none S (transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0)) (broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512))))))) := by
  funext j
  obtain ⟨n, h, rfl⟩ : ∃ (n : Fin 4096) (h : Fin 512), j = ix2 n h := ⟨j 0, j 1, eq_ix2 j⟩
  have hh : h.val < 512 := h.isLt
  -- rows h of the left and of the right half of the child weights and bias
  obtain ⟨ol, hol⟩ : ∃ ol : Fin 1024, ol.val = 0 + h.val := ⟨⟨0 + h.val, by omega⟩, rfl⟩
  obtain ⟨or, hor⟩ : ∃ or : Fin 1024, or.val = 512 + h.val := ⟨⟨512 + h.val, by omega⟩, rfl⟩
  -- the stacked children, summed
  have hstack : (Host.reduceAdd (concatenate S8x4096x512 0 [⟨S4x4096x512, (addf (extractStridedSlice S4x4096x512 ![0, 0, 0] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) slices_S4x4096x1024_S4x4096x512_0_0_0) (broadcastInDim S4x4096x512 ![0, 1, 2] bcast_S1x1x512_S4x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S4x4096x512, (addf (extractStridedSlice S4x4096x512 ![0, 0, 512] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) slices_S4x4096x1024_S4x4096x512_0_0_512) (broadcastInDim S4x4096x512 ![0, 1, 2] bcast_S1x1x512_S4x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S4x4096x512_S4x4096x512_S8x4096x512_d0) (constant S_ .f32 0x00000000#32) reducesTo_S8x4096x512_S4096x512_d0 h_S_) (ix2 n h)
      = 0 + ((∑ m : Fin 4, ((∑ k : Fin 512, X (ix3 m n k) * cfw (ix2 ol k)) + cfb (ix1 ol)
              + Ideal.ofBits .f32 0x3D3504F3#32 * sib (ix2 (0 : Fin 2) h)))
          + ∑ m : Fin 4, ((∑ k : Fin 512, X (ix3 m n k) * cfw (ix2 or k)) + cfb (ix1 or)
              + Ideal.ofBits .f32 0x3D3504F3#32 * sib (ix2 (1 : Fin 2) h))) := by
    refine (sum_over_stack _ n h).trans (congrArg (0 + ·) ((stack_sum _ _ n h).trans ?_))
    exact congrArg₂ (· + ·)
      (Finset.sum_congr rfl fun m _ => one_child_apply X cfw cfb sib 0 slices_S4x4096x1024_S4x4096x512_0_0_0 0 slices_S2x512_S1x512_0_0 0 rfl m n h ol hol)
      (Finset.sum_congr rfl fun m _ => one_child_apply X cfw cfb sib 512 slices_S4x4096x1024_S4x4096x512_0_0_512 1 slices_S2x512_S1x512_1_0 1 rfl m n h or hor)
  -- the summed map at the nodes' sum
  have hmap : (addf (Host.dotGeneral Cert.KernelIdeal.dot_S4096x512_S512x512_S4096x512_1_0_0_1_n_n none S (transpose Cert.KernelIdeal.S512x512 [1, 0] (addf (extractStridedSlice Cert.KernelIdeal.S512x512 ![0, 0] cfw Cert.KernelIdeal.Gen.slices_S1024x512_S512x512_0_0) (extractStridedSlice Cert.KernelIdeal.S512x512 ![512, 0] cfw Cert.KernelIdeal.Gen.slices_S1024x512_S512x512_512_0)) Cert.KernelIdeal.Gen.transposes_S512x512_S512x512_1_0)) (broadcastInDim Cert.KernelIdeal.S4096x512 ![0, 1] Cert.KernelIdeal.Gen.bcast_S1x512_S4096x512_0_1 (broadcastInDim Cert.KernelIdeal.S1x512 ![1] Cert.KernelIdeal.Gen.bcast_S512_S1x512_1 (mulf (broadcastInDim Cert.KernelIdeal.S512 ![] Cert.KernelIdeal.Gen.bcast_S_S512 μ) (addf (addf (extractStridedSlice Cert.KernelIdeal.S512 ![0] cfb Cert.KernelIdeal.Gen.slices_S1024_S512_0) (extractStridedSlice Cert.KernelIdeal.S512 ![512] cfb Cert.KernelIdeal.Gen.slices_S1024_S512_512)) (mulf (broadcastInDim Cert.KernelIdeal.S512 ![] Cert.KernelIdeal.Gen.bcast_S_S512 (constant Cert.KernelIdeal.S_ .f32 0x3D3504F3#32)) (addf (shapeCast Cert.KernelIdeal.S512 (extractStridedSlice Cert.KernelIdeal.S1x512 ![0, 0] sib Cert.KernelIdeal.Gen.slices_S2x512_S1x512_0_0) Cert.KernelIdeal.Gen.shapeCasts_S1x512_S512) (shapeCast Cert.KernelIdeal.S512 (extractStridedSlice Cert.KernelIdeal.S1x512 ![1, 0] sib Cert.KernelIdeal.Gen.slices_S2x512_S1x512_1_0) Cert.KernelIdeal.Gen.shapeCasts_S1x512_S512)))))))) (ix2 n h)
      = (∑ k : Fin 512, (0 + ∑ m : Fin 4, X (ix3 m n k)) * (cfw (ix2 ol k) + cfw (ix2 or k)))
          + μ ix0 * ((cfb (ix1 ol) + cfb (ix1 or))
              + Ideal.ofBits .f32 0x3D3504F3#32 * (sib (ix2 (0 : Fin 2) h) + sib (ix2 (1 : Fin 2) h))) := by
    rw [addf_apply]
    refine congrArg₂ (· + ·) ?_ ((row_spread_apply _ n h).trans (summed_bias_apply cfb sib μ h ol or hol hor))
    refine (summed_product_apply S _ n h).trans (Finset.sum_congr rfl fun k _ => congrArg₂ (· * ·) ?_ ?_)
    · rw [hS]; exact sum_over_nodes X n k
    · exact summed_weight_apply cfw k h ol or hol hor
  rw [hstack, hmap]
  exact Cert.TreeAlg.children_sum (fun m k => X (ix3 m n k)) (fun k => cfw (ix2 ol k)) (fun k => cfw (ix2 or k))
    (cfb (ix1 ol)) (cfb (ix1 or)) (sib (ix2 (0 : Fin 2) h)) (sib (ix2 (1 : Fin 2) h)) (Ideal.ofBits .f32 0x3D3504F3#32) (μ ix0)
    (fun m k => hX _) (fun k => hcfw _) (fun k => hcfw _) (hcfb _) (hcfb _) (hsib _) (hsib _) Cert.Consts.sib_scale_real
    (by rw [hμ]; norm_num)

/-! ## Every child is a real number -/

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem real_sum {ι : Type} [Fintype ι] (f : ι → EReal) (hf : ∀ i, ∃ r : ℝ, f i = r) : ∃ r : ℝ, ∑ i, f i = r := by
  choose g hg using hf
  exact ⟨∑ i, g i, by rw [Cert.TreeAlg.coe_sum]; exact Finset.sum_congr rfl fun i _ => hg i⟩

/-- One child's entry is a sum of products of real numbers plus real numbers. -/
theorem one_child_real (X : FVec Ideal S4x4096x512 .f32) (cfw : FVec Ideal S1024x512 .f32) (cfb : FVec Ideal S1024 .f32)
    (sib : FVec Ideal S2x512 .f32)
    (hX : ∀ i, ∃ r : ℝ, X i = r) (hcfw : ∀ i, ∃ r : ℝ, cfw i = r) (hcfb : ∀ i, ∃ r : ℝ, cfb i = r)
    (hsib : ∀ i, ∃ r : ℝ, sib i = r)
    (off : Nat) (w : S4x4096x1024.Slices ![0, 0, off] S4x4096x512) (q : Nat)
    (w' : S2x512.Slices ![q, 0] S1x512) (r : Fin 2) (hr : r.val = q) (m : Fin 4) (n : Fin 4096) (h : Fin 512)
    (o : Fin 1024) (ho : o.val = off + h.val) :
    ∃ x : ℝ, addf (extractStridedSlice S4x4096x512 ![0, 0, off] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) w)
        (broadcastInDim S4x4096x512 ![0, 1, 2] bcast_S1x1x512_S4x4096x512_0_1_2 (broadcastInDim S1x1x512 ![2] bcast_S512_S1x1x512_2
          (mulf (broadcastInDim S512 ![] bcast_S_S512 (constant (F := Ideal) S_ .f32 0x3D3504F3#32))
            (shapeCast S512 (extractStridedSlice S1x512 ![q, 0] sib w') shapeCasts_S1x512_S512))))
        (ix3 m n h) = x := by
  rw [one_child_apply X cfw cfb sib off w q w' r hr m n h o ho]
  exact real_add (real_add (real_sum _ fun k => real_mul (hX _) (hcfw _)) (hcfb _))
    (real_mul Cert.Consts.sib_scale_real (hsib _))

/-- Every stacked child is a real number. -/
theorem children_real (X : FVec Ideal S4x4096x512 .f32) (cfw : FVec Ideal S1024x512 .f32) (cfb : FVec Ideal S1024 .f32)
    (sib : FVec Ideal S2x512 .f32)
    (hX : ∀ i, ∃ r : ℝ, X i = r) (hcfw : ∀ i, ∃ r : ℝ, cfw i = r) (hcfb : ∀ i, ∃ r : ℝ, cfb i = r)
    (hsib : ∀ i, ∃ r : ℝ, sib i = r) :
    ∀ i, ∃ r : ℝ, (concatenate S8x4096x512 0 [⟨S4x4096x512, (addf (extractStridedSlice S4x4096x512 ![0, 0, 0] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) slices_S4x4096x1024_S4x4096x512_0_0_0) (broadcastInDim S4x4096x512 ![0, 1, 2] bcast_S1x1x512_S4x4096x512_0_1_2 (broadcastInDim S1x1x512 ![2] bcast_S512_S1x1x512_2 (mulf (broadcastInDim S512 ![] bcast_S_S512 (constant S_ .f32 0x3D3504F3#32)) (shapeCast S512 (extractStridedSlice S1x512 ![0, 0] sib slices_S2x512_S1x512_0_0) shapeCasts_S1x512_S512)))))⟩, ⟨S4x4096x512, (addf (extractStridedSlice S4x4096x512 ![0, 0, 512] (addf (Host.dotGeneral dot_S4x4096x512_S1024x512_S4x4096x1024_2_1_01_0_n_n none X cfw) (broadcastInDim S4x4096x1024 ![0, 1, 2] bcast_S1x1x1024_S4x4096x1024_0_1_2 (broadcastInDim S1x1x1024 ![2] bcast_S1024_S1x1x1024_2 cfb))) slices_S4x4096x1024_S4x4096x512_0_0_512) (broadcastInDim S4x4096x512 ![0, 1, 2] bcast_S1x1x512_S4x4096x512_0_1_2 (broadcastInDim S1x1x512 ![2] bcast_S512_S1x1x512_2 (mulf (broadcastInDim S512 ![] bcast_S_S512 (constant S_ .f32 0x3D3504F3#32)) (shapeCast S512 (extractStridedSlice S1x512 ![1, 0] sib slices_S2x512_S1x512_1_0) shapeCasts_S1x512_S512)))))⟩] concatenates_S4x4096x512_S4x4096x512_S8x4096x512_d0) i = r := by
  intro i
  obtain ⟨k, n, h, rfl⟩ : ∃ (k : Fin 8) (n : Fin 4096) (h : Fin 512), i = ix3 k n h := ⟨i 0, i 1, i 2, eq_ix3 i⟩
  have hh : h.val < 512 := h.isLt
  have hk2 : k.val < 8 := k.isLt
  by_cases hk : k.val < 4
  · obtain ⟨ol, hol⟩ : ∃ ol : Fin 1024, ol.val = 0 + h.val := ⟨⟨0 + h.val, by omega⟩, rfl⟩
    rw [concatenate_pair_apply_left 0 _ _ concatenates_S4x4096x512_S4x4096x512_S8x4096x512_d0 (ix3 k n h) rfl (ix3 (⟨k.val, hk⟩ : Fin 4) n h) fun b => by
      match b with
      | ⟨0, _⟩ => rfl
      | ⟨1, _⟩ => rfl
      | ⟨2, _⟩ => rfl]
    exact one_child_real X cfw cfb sib hX hcfw hcfb hsib 0 slices_S4x4096x1024_S4x4096x512_0_0_0 0 slices_S2x512_S1x512_0_0 0 rfl _ n h ol hol
  · obtain ⟨or, hor⟩ : ∃ or : Fin 1024, or.val = 512 + h.val := ⟨⟨512 + h.val, by omega⟩, rfl⟩
    rw [concatenate_pair_apply_right 0 _ _ concatenates_S4x4096x512_S4x4096x512_S8x4096x512_d0 (ix3 k n h) rfl rfl (ix3 (⟨k.val - 4, by omega⟩ : Fin 4) n h)
      (fun b hb => by
        match b, hb with
        | ⟨0, _⟩, hb => exact absurd rfl hb
        | ⟨1, _⟩, _ => rfl
        | ⟨2, _⟩, _ => rfl)
      (by show k.val - 4 + 4 = k.val; omega)]
    exact one_child_real X cfw cfb sib hX hcfw hcfb hsib 512 slices_S4x4096x1024_S4x4096x512_0_0_512 1 slices_S2x512_S1x512_1_0 1 rfl _ n h or hor

end Cert.TreeStep4

end
-- ==== Proof.FactsL3.lean ====
/-
  Tree level 3. The 8 children of the 4 nodes of level 2 sum to the affine image of the nodes' sum, which is how
  the kernel program updates its running sum; so after the level the two programs hold the same running sum (the
  reference as the sum over its 8 nodes), the same node count, the same aggregate and the same gated count. What is
  known of the level before (its running sum, that its nodes are real numbers, its count, aggregate and gate) is taken
  as hypotheses here and supplied where the levels are chained.
-/
import proofs.«125887_j14422500180043_2_alg».proof.Proof.FactsArgs
import proofs.«125887_j14422500180043_2_alg».proof.Proof.TreeStep4
import proofs.«125887_j14422500180043_2_alg».proof.Proof.Consts

set_option maxRecDepth 16384
set_option maxHeartbeats 0
-- one theorem at a time: each composes a stretch of both programs and holds gigabytes while it runs
set_option Elab.async false

noncomputable section

namespace Cert.Bridge

open Idealize.ShloMosaic Idealize.ShloMosaic.TcCoe Idealize.SL.Sem Idealize.ShloMosaic.StableHlo

attribute [local congr] concat_pair_congr

variable {V : Valuation Cert.KernelIdeal.τ Cert.KernelIdeal.sig (Elt Ideal)} {V' : Valuation Cert.ReferenceIdeal.τ Cert.ReferenceIdeal.sig (Elt Ideal)}

/-- The kernel program's node count after level 2 is 8, given that it was 4 after the level before. -/
theorem m3_of (e3 : after kops V (Proc.devRef .tc Cert.KernelIdeal.main_v240) = (constant Cert.KernelIdeal.S_ .f32 0x40800000#32 : FVec Ideal Cert.KernelIdeal.S_ .f32)) : after kops V (Proc.devRef .tc Cert.KernelIdeal.main_v350) = (constant Cert.KernelIdeal.S_ .f32 0x41000000#32 : FVec Ideal Cert.KernelIdeal.S_ .f32) := by
  knorm 44 45 V Cert.KernelIdeal.main_v350
  rw [e3]
  exact Cert.Consts.arr_two_mul_four

/-- The 8 children of level 2's nodes sum to the kernel program's running sum after the level: the affine image of
    the nodes' sum. -/
theorem sum3_of (fa : FinalAgree V V') (hr : RealArgs V')
    (hS : (after kops V (Proc.devRef .tc Cert.KernelIdeal.main_v239) : FVec Ideal Cert.KernelIdeal.S4096x512 .f32)
      = Host.reduceAdd (F := Ideal) (after rops V' (Proc.devRef .tc Cert.ReferenceIdeal.main_v256)) (constant Cert.ReferenceIdeal.S_ .f32 0x00000000#32) Cert.ReferenceIdeal.Gen.reducesTo_S4x4096x512_S4096x512_d0 Cert.ReferenceIdeal.Gen.h_S_)
    (hX : ∀ i, ∃ r : ℝ, (after rops V' (Proc.devRef .tc Cert.ReferenceIdeal.main_v256) : FVec Ideal Cert.ReferenceIdeal.S4x4096x512 .f32) i = (r : EReal))
    (e3 : after kops V (Proc.devRef .tc Cert.KernelIdeal.main_v240) = (constant Cert.KernelIdeal.S_ .f32 0x40800000#32 : FVec Ideal Cert.KernelIdeal.S_ .f32)) :
    (after kops V (Proc.devRef .tc Cert.KernelIdeal.main_v349) : FVec Ideal Cert.KernelIdeal.S4096x512 .f32)
      = Host.reduceAdd (F := Ideal) (after rops V' (Proc.devRef .tc Cert.ReferenceIdeal.main_v381)) (constant Cert.ReferenceIdeal.S_ .f32 0x00000000#32) Cert.ReferenceIdeal.Gen.reducesTo_S8x4096x512_S4096x512_d0 Cert.ReferenceIdeal.Gen.h_S_ := by
  have hμ : (after kops V (Proc.devRef .tc Cert.KernelIdeal.main_v240) : FVec Ideal Cert.KernelIdeal.S_ .f32) ValueIdx.ix0 = ((4 : ℝ) : EReal) := by
    rw [e3]; exact Cert.Consts.ofBits_four
  obtain ⟨a0, a1, a2, a3, a4, a5, a6, a7, a8, a9, a10, a11, a12, a13, a14, a15, a16, a17, a18, a19, a20, a21, a22⟩ := fa
  knorm 43 44 V Cert.KernelIdeal.main_v349
  knorm 0 1 V Cert.KernelIdeal.main_v14
  knorm 0 1 V Cert.KernelIdeal.main_v25
  rnorm 51 52 V' Cert.ReferenceIdeal.main_v381
  simp only [a4, a5, a19]
  exact (Cert.TreeStep4.children_sum_ops (after rops V' (Proc.devRef .tc Cert.ReferenceIdeal.main_v256)) (after rops V' (Proc.devRef .tc Cert.ReferenceIdeal.main_arg4)) (after rops V' (Proc.devRef .tc Cert.ReferenceIdeal.main_arg5)) (after rops V' (Proc.devRef .tc Cert.ReferenceIdeal.main_arg19))
    (after kops V (Proc.devRef .tc Cert.KernelIdeal.main_v239)) (after kops V (Proc.devRef .tc Cert.KernelIdeal.main_v240)) hX hr.cfw hr.cfb hr.sib hS hμ).symm

/-- Level 3's nodes are arrays of real numbers, given that the nodes of the level before are. -/
theorem nodes3_real_of (hr : RealArgs V')
    (hX : ∀ i, ∃ r : ℝ, (after rops V' (Proc.devRef .tc Cert.ReferenceIdeal.main_v256) : FVec Ideal Cert.ReferenceIdeal.S4x4096x512 .f32) i = (r : EReal)) :
    ∀ i, ∃ r : ℝ, (after rops V' (Proc.devRef .tc Cert.ReferenceIdeal.main_v381) : FVec Ideal Cert.ReferenceIdeal.S8x4096x512 .f32) i = (r : EReal) := by
  rnorm 51 52 V' Cert.ReferenceIdeal.main_v381
  exact Cert.TreeStep4.children_real (after rops V' (Proc.devRef .tc Cert.ReferenceIdeal.main_v256)) (after rops V' (Proc.devRef .tc Cert.ReferenceIdeal.main_arg4)) (after rops V' (Proc.devRef .tc Cert.ReferenceIdeal.main_arg5)) (after rops V' (Proc.devRef .tc Cert.ReferenceIdeal.main_arg19)) hX hr.cfw hr.cfb hr.sib

/-- The aggregate (the gated sum over all tree nodes so far) after level 3 is the same array in both programs. -/
theorem agg3_of
    (e0 : after kops V (Proc.devRef .tc Cert.KernelIdeal.main_v243) = after rops V' (Proc.devRef .tc Cert.ReferenceIdeal.main_v260))
    (e1 : after kops V (Proc.devRef .tc Cert.KernelIdeal.main_v342) = after rops V' (Proc.devRef .tc Cert.ReferenceIdeal.main_v360))
    (e2 : (after kops V (Proc.devRef .tc Cert.KernelIdeal.main_v349) : FVec Ideal Cert.KernelIdeal.S4096x512 .f32)
      = Host.reduceAdd (F := Ideal) (after rops V' (Proc.devRef .tc Cert.ReferenceIdeal.main_v381)) (constant Cert.ReferenceIdeal.S_ .f32 0x00000000#32) Cert.ReferenceIdeal.Gen.reducesTo_S8x4096x512_S4096x512_d0 Cert.ReferenceIdeal.Gen.h_S_) :
    after kops V (Proc.devRef .tc Cert.KernelIdeal.main_v353) = after rops V' (Proc.devRef .tc Cert.ReferenceIdeal.main_v385) := by
  knorm 44 45 V Cert.KernelIdeal.main_v353
  rnorm 52 53 V' Cert.ReferenceIdeal.main_v385
  rw [e0, e1, e2]
  all_goals rfl

/-- The gated node count after level 3 is the same in both programs. -/
theorem cnt3_of
    (e1 : after kops V (Proc.devRef .tc Cert.KernelIdeal.main_v342) = after rops V' (Proc.devRef .tc Cert.ReferenceIdeal.main_v360))
    (e0 : after kops V (Proc.devRef .tc Cert.KernelIdeal.main_v245) = after rops V' (Proc.devRef .tc Cert.ReferenceIdeal.main_v262))
    (e3 : after kops V (Proc.devRef .tc Cert.KernelIdeal.main_v240) = (constant Cert.KernelIdeal.S_ .f32 0x40800000#32 : FVec Ideal Cert.KernelIdeal.S_ .f32)) :
    after kops V (Proc.devRef .tc Cert.KernelIdeal.main_v355) = after rops V' (Proc.devRef .tc Cert.ReferenceIdeal.main_v387) := by
  knorm 44 45 V Cert.KernelIdeal.main_v355
  rnorm 52 53 V' Cert.ReferenceIdeal.main_v387
  rw [e0, e1, e3]
  rw [Cert.Consts.arr_two_mul_four]
  all_goals rfl

end Cert.Bridge

end
-- ==== Proof.FactsChain.lean ====
/-
  The levels chained: each level's facts, proved from hypotheses about the level before, are closed in order, from the
  projected tokens to the aggregate and the gated count after the last level.
-/
import proofs.«125887_j14422500180043_2_alg».proof.Proof.FactsL0
import proofs.«125887_j14422500180043_2_alg».proof.Proof.FactsGate1
import proofs.«125887_j14422500180043_2_alg».proof.Proof.FactsL1
import proofs.«125887_j14422500180043_2_alg».proof.Proof.FactsGate2
import proofs.«125887_j14422500180043_2_alg».proof.Proof.FactsL2
import proofs.«125887_j14422500180043_2_alg».proof.Proof.FactsGate3
import proofs.«125887_j14422500180043_2_alg».proof.Proof.FactsL3

set_option maxRecDepth 16384
set_option maxHeartbeats 0
-- one theorem at a time: each composes a stretch of both programs and holds gigabytes while it runs
set_option Elab.async false

noncomputable section

namespace Cert.Bridge

open Idealize.ShloMosaic Idealize.ShloMosaic.TcCoe Idealize.SL.Sem Idealize.ShloMosaic.StableHlo

attribute [local congr] concat_pair_congr

variable {V : Valuation Cert.KernelIdeal.τ Cert.KernelIdeal.sig (Elt Ideal)} {V' : Valuation Cert.ReferenceIdeal.τ Cert.ReferenceIdeal.sig (Elt Ideal)}

theorem sum1_eq (fa : FinalAgree V V') (hr : RealArgs V') :
    (after kops V (Proc.devRef .tc Cert.KernelIdeal.main_v129) : FVec Ideal Cert.KernelIdeal.S4096x512 .f32)
      = Host.reduceAdd (F := Ideal) (after rops V' (Proc.devRef .tc Cert.ReferenceIdeal.main_v131)) (constant Cert.ReferenceIdeal.S_ .f32 0x00000000#32) Cert.ReferenceIdeal.Gen.reducesTo_S2x4096x512_S4096x512_d0 Cert.ReferenceIdeal.Gen.h_S_ := sum1_of fa hr (sum0_eq fa) (stack0_real hr)
theorem nodes1_real (fa : FinalAgree V V') (hr : RealArgs V') :
    ∀ i, ∃ r : ℝ, (after rops V' (Proc.devRef .tc Cert.ReferenceIdeal.main_v131) : FVec Ideal Cert.ReferenceIdeal.S2x4096x512 .f32) i = (r : EReal) := nodes1_real_of hr (stack0_real hr)
theorem agg1_eq (fa : FinalAgree V V') (hr : RealArgs V') :
    after kops V (Proc.devRef .tc Cert.KernelIdeal.main_v133) = after rops V' (Proc.devRef .tc Cert.ReferenceIdeal.main_v135) := agg1_of (h0_eq fa) (alive1_eq fa) (sum1_eq fa hr)
theorem cnt1_eq (fa : FinalAgree V V') (hr : RealArgs V') :
    after kops V (Proc.devRef .tc Cert.KernelIdeal.main_v135) = after rops V' (Proc.devRef .tc Cert.ReferenceIdeal.main_v137) := cnt1_of (alive1_eq fa)

theorem alive2_eq (fa : FinalAgree V V') (hr : RealArgs V') :
    after kops V (Proc.devRef .tc Cert.KernelIdeal.main_v232) = after rops V' (Proc.devRef .tc Cert.ReferenceIdeal.main_v235) := alive2_of fa (alive1_eq fa) (sum1_eq fa hr) m1_eq
theorem m2_eq : after kops V (Proc.devRef .tc Cert.KernelIdeal.main_v240) = (constant Cert.KernelIdeal.S_ .f32 0x40800000#32 : FVec Ideal Cert.KernelIdeal.S_ .f32) := m2_of (V := V) m1_eq
theorem sum2_eq (fa : FinalAgree V V') (hr : RealArgs V') :
    (after kops V (Proc.devRef .tc Cert.KernelIdeal.main_v239) : FVec Ideal Cert.KernelIdeal.S4096x512 .f32)
      = Host.reduceAdd (F := Ideal) (after rops V' (Proc.devRef .tc Cert.ReferenceIdeal.main_v256)) (constant Cert.ReferenceIdeal.S_ .f32 0x00000000#32) Cert.ReferenceIdeal.Gen.reducesTo_S4x4096x512_S4096x512_d0 Cert.ReferenceIdeal.Gen.h_S_ := sum2_of fa hr (sum1_eq fa hr) (nodes1_real fa hr) m1_eq
theorem nodes2_real (fa : FinalAgree V V') (hr : RealArgs V') :
    ∀ i, ∃ r : ℝ, (after rops V' (Proc.devRef .tc Cert.ReferenceIdeal.main_v256) : FVec Ideal Cert.ReferenceIdeal.S4x4096x512 .f32) i = (r : EReal) := nodes2_real_of hr (nodes1_real fa hr)
theorem agg2_eq (fa : FinalAgree V V') (hr : RealArgs V') :
    after kops V (Proc.devRef .tc Cert.KernelIdeal.main_v243) = after rops V' (Proc.devRef .tc Cert.ReferenceIdeal.main_v260) := agg2_of (agg1_eq fa hr) (alive2_eq fa hr) (sum2_eq fa hr)
theorem cnt2_eq (fa : FinalAgree V V') (hr : RealArgs V') :
    after kops V (Proc.devRef .tc Cert.KernelIdeal.main_v245) = after rops V' (Proc.devRef .tc Cert.ReferenceIdeal.main_v262) := cnt2_of (alive2_eq fa hr) (cnt1_eq fa hr) m1_eq

theorem alive3_eq (fa : FinalAgree V V') (hr : RealArgs V') :
    after kops V (Proc.devRef .tc Cert.KernelIdeal.main_v342) = after rops V' (Proc.devRef .tc Cert.ReferenceIdeal.main_v360) := alive3_of fa (alive2_eq fa hr) (sum2_eq fa hr) m2_eq
theorem m3_eq : after kops V (Proc.devRef .tc Cert.KernelIdeal.main_v350) = (constant Cert.KernelIdeal.S_ .f32 0x41000000#32 : FVec Ideal Cert.KernelIdeal.S_ .f32) := m3_of (V := V) m2_eq
theorem sum3_eq (fa : FinalAgree V V') (hr : RealArgs V') :
    (after kops V (Proc.devRef .tc Cert.KernelIdeal.main_v349) : FVec Ideal Cert.KernelIdeal.S4096x512 .f32)
      = Host.reduceAdd (F := Ideal) (after rops V' (Proc.devRef .tc Cert.ReferenceIdeal.main_v381)) (constant Cert.ReferenceIdeal.S_ .f32 0x00000000#32) Cert.ReferenceIdeal.Gen.reducesTo_S8x4096x512_S4096x512_d0 Cert.ReferenceIdeal.Gen.h_S_ := sum3_of fa hr (sum2_eq fa hr) (nodes2_real fa hr) m2_eq
theorem nodes3_real (fa : FinalAgree V V') (hr : RealArgs V') :
    ∀ i, ∃ r : ℝ, (after rops V' (Proc.devRef .tc Cert.ReferenceIdeal.main_v381) : FVec Ideal Cert.ReferenceIdeal.S8x4096x512 .f32) i = (r : EReal) := nodes3_real_of hr (nodes2_real fa hr)
theorem agg3_eq (fa : FinalAgree V V') (hr : RealArgs V') :
    after kops V (Proc.devRef .tc Cert.KernelIdeal.main_v353) = after rops V' (Proc.devRef .tc Cert.ReferenceIdeal.main_v385) := agg3_of (agg2_eq fa hr) (alive3_eq fa hr) (sum3_eq fa hr)
theorem cnt3_eq (fa : FinalAgree V V') (hr : RealArgs V') :
    after kops V (Proc.devRef .tc Cert.KernelIdeal.main_v355) = after rops V' (Proc.devRef .tc Cert.ReferenceIdeal.main_v387) := cnt3_of (alive3_eq fa hr) (cnt2_eq fa hr) m2_eq

end Cert.Bridge

end
-- ==== Proof.LastLayer.lean ====
/-
  The last layer of the two programs, read as mathematics.

  The reference ends with: transpose the output embedding w : [32000, 512] to [512, 32000], multiply the pooled state
  P : [4096, 512] by it (a contraction over the 512 hidden coordinates), copy the bias b : [32000] into a one-row
  matrix and that row into all 4096 rows, and add. Read at the index (r, v) this is
  (∑ k, P (r, k) * w (v, k)) + b v, the specification's logit of P, w and the bias written as a one-row matrix.
  The other program narrows P and w to a 16-bit format before its matrix product; on extended reals a change of
  format is the identity.
-/
import proofs.«125887_j14422500180043_2_alg».proof.Proof.Gen.ReferenceIdeal
import proofs.«125887_j14422500180043_2_alg».proof.Proof.Gen.KernelIdeal
import proofs.«125887_j14422500180043_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

namespace Cert.LastLayer

open Idealize.ShloMosaic Idealize.ShloMosaic.ValueIdx
open Cert.ReferenceIdeal Cert.ReferenceIdeal.Facts₀

/-- The reference's matrix product read at an index: row r of the left factor against column v of the right one,
    summed over the 512 contracted coordinates. Its dimension numbers are those of a plain M×K by K×N product. -/
theorem dot_apply [Cert.ReferenceIdeal.Facts] (A : FVec Ideal S4096x512 .f32) (B : FVec Ideal S512x32000 .f32)
    (r : Fin 4096) (v : Fin 32000) :
    Host.dotGeneral dot_S4096x512_S512x32000_S4096x32000_1_0_0_1_n_n none A B (ix2 r v)
      = ∑ k : Fin 512, A (ix2 r k) * B (ix2 k v) :=
  StackMember.dotGeneral_plain_apply (m := 4096) (n := 32000) (k := 512) none A B r v

/-- The bias copied into a one-row matrix and that row copied into every row, read at (r, v), is b v. -/
theorem bias_apply [Cert.ReferenceIdeal.Facts] (b : FVec Ideal S32000 .f32) (r : Fin 4096) (v : Fin 32000) :
    broadcastInDim S4096x32000 ![0, 1] bcast_S1x32000_S4096x32000_0_1
        (broadcastInDim S1x32000 ![1] bcast_S32000_S1x32000_1 b) (ix2 r v) = b (ix1 v) := by
  rw [broadcastInDim_apply ![0, 1] bcast_S1x32000_S4096x32000_0_1 _ (ix2 r v) (ix2 (0 : Fin 1) v)
        (fun a => match a with | ⟨0, _⟩ => rfl | ⟨1, _⟩ => rfl),
      broadcastInDim_apply ![1] bcast_S32000_S1x32000_1 b (ix2 (0 : Fin 1) v) (ix1 v)
        (fun a => match a with | ⟨0, _⟩ => rfl)]

/-- The reference's last five operations are the specification's logits of the pooled state, the output embedding
    and the bias as a one-row matrix. -/
theorem ref_logits [Cert.ReferenceIdeal.Facts] [Cert.KernelIdeal.Facts] (P : FVec Ideal S4096x512 .f32)
    (w : FVec Ideal S32000x512 .f32) (b : FVec Ideal S32000 .f32) :
    addf (Host.dotGeneral dot_S4096x512_S512x32000_S4096x32000_1_0_0_1_n_n none P
            (transpose S512x32000 [1, 0] w transposes_S32000x512_S512x32000_1_0))
         (broadcastInDim S4096x32000 ![0, 1] bcast_S1x32000_S4096x32000_0_1
            (broadcastInDim S1x32000 ![1] bcast_S32000_S1x32000_1 b))
      = Cert.Spec.logits P w
          (shapeCast Cert.KernelIdeal.S1x32000 b Cert.KernelIdeal.Facts₀.shapeCasts_S32000_S1x32000) := by
  funext j
  obtain ⟨r, v, rfl⟩ : ∃ (r : Fin 4096) (v : Fin 32000), j = ix2 r v := ⟨j 0, j 1, eq_ix2 j⟩
  rw [Cert.Spec.logits_apply, addf_apply, dot_apply, bias_apply]
  unfold Cert.Spec.logitAt
  rw [shapeCast_a_1a_apply b Cert.KernelIdeal.Facts₀.shapeCasts_S32000_S1x32000 (0 : Fin 1) v]
  refine congrArg (· + b (ix1 v)) (Finset.sum_congr rfl fun k _ => ?_)
  rw [transpose_ix2_apply w transposes_S32000x512_S512x32000_1_0 k v]

/-- Narrowing to the 16-bit format is the identity on extended reals, at every shape. -/
theorem truncf_bf16_eq {s : Shape} (x : FVec Ideal s .f32) (h : FTy.bits .bf16 < FTy.bits .f32) :
    (truncf .bf16 x h : FVec Ideal s .bf16) = x := rfl

/-- The pooled state passes its format change unchanged. -/
theorem truncf_pooled [Cert.KernelIdeal.Facts] (P : FVec Ideal Cert.KernelIdeal.S4096x512 .f32) :
    (truncf .bf16 · Cert.KernelIdeal.Facts₀.bitsLt_bf16_f32 :
        FVec Ideal Cert.KernelIdeal.S4096x512 .f32 → FVec Ideal Cert.KernelIdeal.S4096x512 .bf16) P = P := rfl

/-- The output embedding passes its format change unchanged. -/
theorem truncf_embedding [Cert.KernelIdeal.Facts] (w : FVec Ideal Cert.KernelIdeal.S32000x512 .f32) :
    (truncf .bf16 · Cert.KernelIdeal.Facts₀.bitsLt_bf16_f32 :
        FVec Ideal Cert.KernelIdeal.S32000x512 .f32 → FVec Ideal Cert.KernelIdeal.S32000x512 .bf16) w = w := rfl

end Cert.LastLayer

end
-- ==== Proof.FactsEnd.lean ====
/-
  The end of both programs' host operations. The pooled state is the aggregate over the gated node count (bounded
  below by 1e-8): the same array in both programs. The kernel program then only changes float formats (the identity on
  extended reals) and reshapes the bias to one row, and its pallas_call computes the logits; the reference's last
  dot_general and bias broadcast are the same logits.
-/
import proofs.«125887_j14422500180043_2_alg».proof.Proof.FactsChain
import proofs.«125887_j14422500180043_2_alg».proof.Proof.LastLayer

set_option maxRecDepth 16384
set_option maxHeartbeats 0

noncomputable section

namespace Cert.Bridge

open Idealize.ShloMosaic Idealize.ShloMosaic.TcCoe Idealize.SL.Sem Idealize.ShloMosaic.StableHlo

attribute [local congr] concat_pair_congr

variable (V : Valuation Cert.KernelIdeal.τ Cert.KernelIdeal.sig (Elt Ideal)) (V' : Valuation Cert.ReferenceIdeal.τ Cert.ReferenceIdeal.sig (Elt Ideal))

variable {V V'}

/-- The pooled state is the same array in both programs. -/
theorem pooled_eq (fa : FinalAgree V V') (hr : RealArgs V') : after kops V (Proc.devRef .tc Cert.KernelIdeal.main_v358) = after rops V' (Proc.devRef .tc Cert.ReferenceIdeal.main_v390) := by
  have e0 := agg3_eq fa hr
  have e1 := cnt3_eq fa hr
  knorm 45 46 V Cert.KernelIdeal.main_v358
  rnorm 53 54 V' Cert.ReferenceIdeal.main_v390
  rw [e0, e1]

/-- The logits of the three arrays the kernel is launched on are the reference's result. -/
theorem logits_eq (fa : FinalAgree V V') (hr : RealArgs V') :
    Cert.Spec.logits (after kops V (Proc.devRef .tc Cert.KernelIdeal.main_v359)) (after kops V (Proc.devRef .tc Cert.KernelIdeal.main_v360)) (after kops V (Proc.devRef .tc Cert.KernelIdeal.main_v361)) = after rops V' (Proc.devRef .tc Cert.ReferenceIdeal.main_v395) := by
  have e0 := pooled_eq fa hr
  obtain ⟨a0, a1, a2, a3, a4, a5, a6, a7, a8, a9, a10, a11, a12, a13, a14, a15, a16, a17, a18, a19, a20, a21, a22⟩ := fa
  knorm 46 47 V Cert.KernelIdeal.main_v359
  knorm 46 47 V Cert.KernelIdeal.main_v360
  knorm 46 47 V Cert.KernelIdeal.main_v361
  rnorm 54 55 V' Cert.ReferenceIdeal.main_v395
  rw [e0, a21, a22]
  exact (Cert.LastLayer.ref_logits _ _ _).symm

end Cert.Bridge

end
-- ==== Proof.lean ====
/-
  The certificate of the tree-growth forward pass: the kernel's program against its jnp reference, as extended reals.

  Both programs embed the tokens and project them (h0), run the growth policy three times, and end with the output
  projection  pooled · out_wᵀ + out_b.  They differ in how a level of the binary tree is carried. The reference keeps
  all 2^k nodes of level k and sums them; a node's two children are affine images of the node,
      left = W_l x + b_l + c s_l ,   right = W_r x + b_r + c s_r ,
  so the sum of the 2M children of M nodes is  (W_l + W_r)(Σ x) + M (b_l + b_r + c (s_l + s_r))  (TreeAlg.children_sum:
  distributivity and an exchange of finite sums, valid on the extended reals because finite inputs make every quantity
  a real number: PreReal.real_args). The kernel's program carries only that running sum S and the count M, updated by
  exactly this affine map, and its pallas_call computes the last projection tile by tile (KernelOut: the 40 tiles are
  the blocks of Spec.logits of the staged arrays). With S_k = Σ nodes_k the two programs feed the same level mean into
  the same policy operations, so the gates, the aggregate, the count and the pooled state agree, and so do the logits.

  Proved here: the three frames (the kernel's two from the frame modules, the reference's from its run as one
  straight line of 704 host operations, none of which writes an argument buffer), the empty idealization ledger, and
  the value claim: from memories that agree on the arguments, under finite inputs, the kernel's result — the logits of
  the three arrays its pallas_call is launched on — is the reference's result buffer (the two programs' host operations
  composed and joined level by level, and the reference's last matrix product read as the same logits).
-/
import proofs.«125887_j14422500180043_2_alg».proof.Defs
import proofs.«125887_j14422500180043_2_alg».proof.Proof.Gen.Kernel
import proofs.«125887_j14422500180043_2_alg».proof.Proof.Gen.KernelIdeal
import proofs.«125887_j14422500180043_2_alg».proof.Proof.Gen.ReferenceIdeal
import proofs.«125887_j14422500180043_2_alg».proof.Proof.Gen.Pre_finite_inputs
import proofs.«125887_j14422500180043_2_alg».proof.Proof.KernelFrameP
import proofs.«125887_j14422500180043_2_alg».proof.Proof.KernelIdealFrameP
import proofs.«125887_j14422500180043_2_alg».proof.Proof.KernelOut
import proofs.«125887_j14422500180043_2_alg».proof.Proof.RefRun
import proofs.«125887_j14422500180043_2_alg».proof.Proof.ArgsBridge
import proofs.«125887_j14422500180043_2_alg».proof.Proof.FactsEnd
import Idealize.ShloMosaic.Adequacy
import Idealize.ShloMosaic.Init

set_option maxRecDepth 16384
set_option maxHeartbeats 0
-- one declaration at a time: the statements below mention both programs' buffer tables
set_option Elab.async false

noncomputable section

namespace Cert.Proof

open Idealize.ShloMosaic Idealize.ShloMosaic.TcCoe Idealize.SL.Sem

/-! ## The frames -/

theorem frame_k : Cert.frame_Kernel := fun m ρ _ => Cert.Kernel.GenP.frame m ρ

theorem frame_ki : Cert.frame_KernelIdeal := fun m ρ _ => Cert.KernelIdeal.GenP.frame m ρ

/-- The reference runs as one straight line of host operations, none of which writes an argument buffer. -/
theorem frame_ri : Cert.frame_ReferenceIdeal := fun m ρ _ =>
  (θ_run (Cert.ReferenceIdeal.defs (F := Ideal)) _ _).mono (fun r h c => Cert.ArgsBridge.ref_args_kept m _ c (h c))
    (Cert.ReferenceIdeal.RefRun.run_main (F := Ideal) m ρ)

/-! ## The idealization ledger is empty -/

theorem preserves : Cert.preserves_Kernel_KernelIdeal := trivial

/-! ## The value claim -/

/-- From memories that agree on the arguments, under finite inputs: the logits of the three arrays the kernel's
    pallas_call is launched on (the pooled state, the output embedding, the bias row, as the kernel's host operations
    leave them) are the reference's result buffer after its 704 host operations. -/
theorem pooled_logits_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.Spec.logits (Cert.KernelIdeal.GenP.V m c Cert.KernelIdeal.main_v359) (Cert.KernelIdeal.GenP.V m c Cert.KernelIdeal.main_v360)
        (Cert.KernelIdeal.GenP.V m c Cert.KernelIdeal.main_v361)
      = StableHlo.after (Cert.ReferenceIdeal.RefRun.opsAll (F := Ideal)) (StableHlo.launchContents m' c)
          (Proc.devRef .tc Cert.ReferenceIdeal.main_v395) := by
  have h := Cert.Bridge.logits_eq (Cert.ArgsBridge.final_agree m m' c hagree) (Cert.ArgsBridge.real_args m m' hpre c hagree)
  unfold Cert.Bridge.kops Cert.Bridge.rops at h
  rw [Cert.KernelIdeal.KTables.klines_flatten] at h
  exact h

theorem algebraic : Cert.algebraic_KernelIdeal_ReferenceIdeal := by
  intro m ρ m' ρ' hpre hagree
  refine ⟨fun c => Cert.Spec.logits (Cert.KernelIdeal.GenP.V m c Cert.KernelIdeal.main_v359)
      (Cert.KernelIdeal.GenP.V m c Cert.KernelIdeal.main_v360) (Cert.KernelIdeal.GenP.V m c Cert.KernelIdeal.main_v361),
    Cert.KernelIdeal.OutValue.run m ρ, ?_⟩
  exact (θ_run (Cert.ReferenceIdeal.defs (F := Ideal)) _ _).mono (fun r h c =>
    ⟨(h c Cert.ReferenceIdeal.main_v395).trans (pooled_logits_eq m m' hpre c (hagree c)).symm, Cert.ArgsBridge.ref_args_kept m' _ c (h c)⟩)
    (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
